-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v11_0)) (v4 : (c : Dev Cert.KernelIdeal.nD) → Buf (Elt Ideal) ((c.tc : Thread Cert.KernelIdeal.nD Cert.KernelIdeal.τ).loc Cert.KernelIdeal.main_v11_1)) (v5 : (c : Dev Cert.KernelIdeal.nD) → Buf (Elt Ideal) ((c.tc : Thread Cert.KernelIdeal.nD Cert.KernelIdeal.τ).loc Cert.KernelIdeal.main_v11_2)) (v6 : (c : Dev Cert.KernelIdeal.nD) → Buf (Elt Ideal) ((c.tc : Thread Cert.KernelIdeal.nD Cert.KernelIdeal.τ).loc Cert.KernelIdeal.main_v10_1)) (v7 : (c : Dev Cert.KernelIdeal.nD) → Buf (Elt Ideal) ((c.tc : Thread Cert.KernelIdeal.nD Cert.KernelIdeal.τ).loc Cert.KernelIdeal.main_v10_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v11_0) = v3 c
          ∧ r.2.mem ((c.tc : Thread Cert.KernelIdeal.nD Cert.KernelIdeal.τ).loc Cert.KernelIdeal.main_v11_1) = v4 c
          ∧ r.2.mem ((c.tc : Thread Cert.KernelIdeal.nD Cert.KernelIdeal.τ).loc Cert.KernelIdeal.main_v11_2) = v5 c
          ∧ r.2.mem ((c.tc : Thread Cert.KernelIdeal.nD Cert.KernelIdeal.τ).loc Cert.KernelIdeal.main_v10_1) = v6 c
          ∧ r.2.mem ((c.tc : Thread Cert.KernelIdeal.nD Cert.KernelIdeal.τ).loc Cert.KernelIdeal.main_v10_0) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v78) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_v45) = v3 c
          ∧ r.2.mem ((c.tc : Thread Cert.ReferenceIdeal.nD Cert.ReferenceIdeal.τ).loc Cert.ReferenceIdeal.main_v51) = v4 c
          ∧ r.2.mem ((c.tc : Thread Cert.ReferenceIdeal.nD Cert.ReferenceIdeal.τ).loc Cert.ReferenceIdeal.main_v57) = v5 c
          ∧ r.2.mem ((c.tc : Thread Cert.ReferenceIdeal.nD Cert.ReferenceIdeal.τ).loc Cert.ReferenceIdeal.main_v73) = v6 c
          ∧ r.2.mem ((c.tc : Thread Cert.ReferenceIdeal.nD Cert.ReferenceIdeal.τ).loc Cert.ReferenceIdeal.main_v118) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S256x64 : Shape := ⟨2, ![256, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S64x64 : Shape := ⟨2, ![64, 64]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S256x64 : S_.BroadcastsInDim S256x64 (![] : Fin 0 → Fin S256x64.rank)
  reducesTo_S256x64_S_d0_1 : S256x64.ReducesTo [0, 1] S_
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S64x64 : S_.BroadcastsInDim S64x64 (![] : Fin 0 → Fin S64x64.rank)
  reducesTo_S64x64_S_d0_1 : S64x64.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_arg18 : FVec F S1 .f32) (main_v83 : IVec S_ 1) (main_v84 : FVec F S64x64 .f32) (main_cst_32 : FVec F S_ .f32) : IVec S_ 1 :=
  let main_v85 : FVec F S64x64 .f32 := broadcastInDim S64x64 ![] bcast_S_S64x64 main_cst_32
  let main_v86 : IVec S64x64 1 := cmpf .olt main_v84 main_v85
  let main_c_33 : IVec S_ 1 := constantI S_ 1 1#1
  let main_v87 : IVec S_ 1 := (fun x v => Host.reduce IntOp.andi x v reducesTo_S64x64_S_d0_1 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  main_v93

def fn_part4 {F : FTy → Type} [FloatOps F] (main_arg14 : FVec F S128 .f32) (main_arg15 : FVec F S256x128 .f32) (main_arg16 : FVec F S128 .f32) (main_arg17 : FVec F S64x64 .f32) (main_arg18 : FVec F S1 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S64x64 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S256x128 .f32) (main_arg12 : FVec F S128 .f32) (main_arg13 : FVec F S256x128 .f32) (main_arg14 : FVec F S128 .f32) (main_arg15 : FVec F S256x128 .f32) (main_arg16 : FVec F S128 .f32) (main_arg17 : FVec F S64x64 .f32) (main_arg18 : FVec F S1 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x128 .f32 := Host.absf main_arg11
  let main_cst_20 : FVec F S_ .f32 := constant S_ .f32 0x7F800000#32
  let main_v55 : FVec F S256x128 .f32 := broadcastInDim S256x128 ![] bcast_S_S256x128 main_cst_20
  let main_v56 : IVec S256x128 1 := cmpf .olt main_v54 main_v55
  let main_c_21 : IVec S_ 1 := constantI S_ 1 1#1
  let main_v57 : IVec S_ 1 := (fun x v => Host.reduce IntOp.andi x v reducesTo_S256x128_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_arg18 main_v63 main_v67

def fn_part2 {F : FTy → Type} [FloatOps F] (main_arg7 : FVec F S64x256 .f32) (main_arg8 : FVec F S256 .f32) (main_arg9 : FVec F S256 .f32) (main_arg10 : FVec F S256 .f32) (main_arg11 : FVec F S256x128 .f32) (main_arg12 : FVec F S128 .f32) (main_arg13 : FVec F S256x128 .f32) (main_arg14 : FVec F S128 .f32) (main_arg15 : FVec F S256x128 .f32) (main_arg16 : FVec F S128 .f32) (main_arg17 : FVec F S64x64 .f32) (main_arg18 : FVec F S1 .f32) (main_v33 : IVec S_ 1) : IVec S_ 1 :=
  let main_v34 : FVec F S64x256 .f32 := Host.absf main_arg7
  let main_cst_12 : FVec F S_ .f32 := constant S_ .f32 0x7F800000#32
  let main_v35 : FVec F S64x256 .f32 := broadcastInDim S64x256 ![] bcast_S_S64x256 main_cst_12
  let main_v36 : IVec S64x256 1 := cmpf .olt main_v34 main_v35
  let main_c_13 : IVec S_ 1 := constantI S_ 1 1#1
  let main_v37 : IVec S_ 1 := (fun x v => Host.reduce IntOp.andi x v reducesTo_S64x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_v48 main_v49 main_v50

def fn_part1 {F : FTy → Type} [FloatOps F] (main_arg4 : FVec F S10000x10000 .f32) (main_arg5 : FVec F S128x256 .f32) (main_arg6 : FVec F S256x64 .f32) (main_arg7 : FVec F S64x256 .f32) (main_arg8 : FVec F S256 .f32) (main_arg9 : FVec F S256 .f32) (main_arg10 : FVec F S256 .f32) (main_arg11 : FVec F S256x128 .f32) (main_arg12 : FVec F S128 .f32) (main_arg13 : FVec F S256x128 .f32) (main_arg14 : FVec F S128 .f32) (main_arg15 : FVec F S256x128 .f32) (main_arg16 : FVec F S128 .f32) (main_arg17 : FVec F S64x64 .f32) (main_arg18 : FVec F S1 .f32) (main_v13 : IVec S_ 1) (main_v16 : IVec S10000x10000 1) : IVec S_ 1 :=
  let main_c_5 : IVec S_ 1 := constantI S_ 1 1#1
  let main_v17 : IVec S_ 1 := (fun x v => Host.reduce IntOp.andi x v reducesTo_S10000x10000_S_d0_1 h_S_) main_v16 main_c_5
  let main_v18 : IVec S_ 1 := andi main_v13 main_v17
  let main_v19 : FVec F S10000x10000 .f32 := Host.absf main_arg4
  let main_cst_6 : FVec F S_ .f32 := constant S_ .f32 0x7F800000#32
  let main_v20 : FVec F S10000x10000 .f32 := broadcastInDim S10000x10000 ![] bcast_S_S10000x10000 main_cst_6
  let main_v21 : IVec S10000x10000 1 := cmpf .olt main_v19 main_v20
  let main_c_7 : IVec S_ 1 := constantI S_ 1 1#1
  let main_v22 : IVec S_ 1 := (fun x v => Host.reduce IntOp.andi x v reducesTo_S10000x10000_S_d0_1 h_S_) main_v21 main_c_7
  let main_v23 : IVec S_ 1 := andi main_v18 main_v22
  let main_v24 : FVec F S128x256 .f32 := Host.absf main_arg5
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256x64 .f32 := Host.absf main_arg6
  let main_cst_10 : FVec F S_ .f32 := constant S_ .f32 0x7F800000#32
  let main_v30 : FVec F S256x64 .f32 := broadcastInDim S256x64 ![] bcast_S_S256x64 main_cst_10
  let main_v31 : IVec S256x64 1 := cmpf .olt main_v29 main_v30
  let main_c_11 : IVec S_ 1 := constantI S_ 1 1#1
  let main_v32 : IVec S_ 1 := (fun x v => Host.reduce IntOp.andi x v reducesTo_S256x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S10000x128 .f32) (main_arg1 : FVec F S10000x128 .f32) (main_arg2 : FVec F S10000x128 .f32) (main_arg3 : FVec F S10000x10000 .f32) (main_arg4 : FVec F S10000x10000 .f32) (main_arg5 : FVec F S128x256 .f32) (main_arg6 : FVec F S256x64 .f32) (main_arg7 : FVec F S64x256 .f32) (main_arg8 : FVec F S256 .f32) (main_arg9 : FVec F S256 .f32) (main_arg10 : FVec F S256 .f32) (main_arg11 : FVec F S256x128 .f32) (main_arg12 : FVec F S128 .f32) (main_arg13 : FVec F S256x128 .f32) (main_arg14 : FVec F S128 .f32) (main_arg15 : FVec F S256x128 .f32) (main_arg16 : FVec F S128 .f32) (main_arg17 : FVec F S64x64 .f32) (main_arg18 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S10000x128 .f32 := Host.absf main_arg2
  let main_cst_2 : FVec F S_ .f32 := constant S_ .f32 0x7F800000#32
  let main_v10 : FVec F S10000x128 .f32 := broadcastInDim S10000x128 ![] bcast_S_S10000x128 main_cst_2
  let main_v11 : IVec S10000x128 1 := cmpf .olt main_v9 main_v10
  let main_c_3 : IVec S_ 1 := constantI S_ 1 1#1
  let main_v12 : IVec S_ 1 := (fun x v => Host.reduce IntOp.andi x v reducesTo_S10000x128_S_d0_1 h_S_) main_v11 main_c_3
  let main_v13 : IVec S_ 1 := andi main_v8 main_v12
  let main_v14 : FVec F S10000x10000 .f32 := Host.absf main_arg3
  let main_cst_4 : FVec F S_ .f32 := constant S_ .f32 0x7F800000#32
  let main_v15 : FVec F S10000x10000 .f32 := broadcastInDim S10000x10000 ![] bcast_S_S10000x10000 main_cst_4
  let main_v16 : IVec S10000x10000 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S256x64 : Shape := ⟨2, ![256, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S64x64 : Shape := ⟨2, ![64, 64]⟩
abbrev S1 : Shape := ⟨1, ![1]⟩
abbrev S1x256 : Shape := ⟨2, ![1, 256]⟩
abbrev S1x128 : Shape := ⟨2, ![1, 128]⟩
abbrev S1x1 : Shape := ⟨2, ![1, 1]⟩
abbrev S10000x768 : Shape := ⟨2, ![10000, 768]⟩
abbrev S1000x128 : Shape := ⟨2, ![1000, 128]⟩
abbrev S1000x768 : Shape := ⟨2, ![1000, 768]⟩
abbrev S1000x256 : Shape := ⟨2, ![1000, 256]⟩
abbrev S10000x192 : Shape := ⟨2, ![10000, 192]⟩
abbrev S400x10000 : Shape := ⟨2, ![400, 10000]⟩
abbrev S400x192 : Shape := ⟨2, ![400, 192]⟩
abbrev S400x768 : Shape := ⟨2, ![400, 768]⟩
abbrev S400x256 : Shape := ⟨2, ![400, 256]⟩
abbrev S400x64 : Shape := ⟨2, ![400, 64]⟩
abbrev S10000x64 : Shape := ⟨2, ![10000, 64]⟩
abbrev S400 : Shape := ⟨1, ![400]⟩
abbrev S400x1 : Shape := ⟨2, ![400, 1]⟩
abbrev S10000x2 : Shape := ⟨2, ![10000, 2]⟩
abbrev S200x10000 : Shape := ⟨2, ![200, 10000]⟩
abbrev S200x64 : Shape := ⟨2, ![200, 64]⟩
abbrev S200x2 : Shape := ⟨2, ![200, 2]⟩
abbrev S200 : Shape := ⟨1, ![200]⟩
abbrev S200x1 : Shape := ⟨2, ![200, 1]⟩
abbrev S10000x256 : Shape := ⟨2, ![10000, 256]⟩

abbrev nBuf : Space → Nat
  | .hbm => 39
  | .vmem => 56
  | .smem => 0
  | _ => 0

abbrev bufTy : (tb : Table) → Fin (tcTables nBuf tb) → BufTy
  | .hbm, ⟨0, _⟩ => ⟨S10000x128, .f32⟩
  | .hbm, ⟨1, _⟩ => ⟨S10000x128, .f32⟩
  | .hbm, ⟨2, _⟩ => ⟨S10000x128, .f32⟩
  | .hbm, ⟨3, _⟩ => ⟨S10000x10000, .f32⟩
  | .hbm, ⟨4, _⟩ => ⟨S10000x10000, .f32⟩
  | .hbm, ⟨5, _⟩ => ⟨S128x256, .f32⟩
  | .hbm, ⟨6, _⟩ => ⟨S256x64, .f32⟩
  | .hbm, ⟨7, _⟩ => ⟨S64x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x128, .f32⟩
  | .hbm, ⟨12, _⟩ => ⟨S128, .f32⟩
  | .hbm, ⟨13, _⟩ => ⟨S256x128, .f32⟩
  | .hbm, ⟨14, _⟩ => ⟨S128, .f32⟩
  | .hbm, ⟨15, _⟩ => ⟨S256x128, .f32⟩
  | .hbm, ⟨16, _⟩ => ⟨S128, .f32⟩
  | .hbm, ⟨17, _⟩ => ⟨S64x64, .f32⟩
  | .hbm, ⟨18, _⟩ => ⟨S1, .f32⟩
  | .hbm, ⟨19, _⟩ => ⟨S1x256, .f32⟩
  | .hbm, ⟨20, _⟩ => ⟨S1x256, .f32⟩
  | .hbm, ⟨21, _⟩ => ⟨S1x256, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x1, .f32⟩
  | .hbm, ⟨26, _⟩ => ⟨S10000x768, .bf16⟩
  | .hbm, ⟨27, _⟩ => ⟨S10000x192, .bf16⟩
  | .hbm, ⟨28, _⟩ => ⟨S10000x64, .f32⟩
  | .hbm, ⟨29, _⟩ => ⟨S10000x64, .f32⟩
  | .hbm, ⟨30, _⟩ => ⟨S10000x64, .f32⟩
  | .hbm, ⟨31, _⟩ => ⟨S10000x64, .bf16⟩
  | .hbm, ⟨32, _⟩ => ⟨S10000x64, .bf16⟩
  | .hbm, ⟨33, _⟩ => ⟨S10000x64, .bf16⟩
  | .hbm, ⟨34, _⟩ => ⟨S10000x2, .f32⟩
  | .hbm, ⟨35, _⟩ => ⟨S10000x10000, .f32⟩
  | .hbm, ⟨36, _⟩ => ⟨S10000x128, .f32⟩
  | .hbm, ⟨37, _⟩ => ⟨S10000x128, .f32⟩
  | .hbm, ⟨38, _⟩ => ⟨S10000x128, .f32⟩
  | .local _ .vmem, ⟨0, _⟩ => ⟨S1000x128, .f32⟩
  | .local _ .vmem, ⟨1, _⟩ => ⟨S1000x128, .f32⟩
  | .local _ .vmem, ⟨2, _⟩ => ⟨S1000x128, .f32⟩
  | .local _ .vmem, ⟨3, _⟩ => ⟨S1000x128, .f32⟩
  | .local _ .vmem, ⟨4, _⟩ => ⟨S1000x128, .f32⟩
  | .local _ .vmem, ⟨5, _⟩ => ⟨S1000x128, .f32⟩
  | .local _ .vmem, ⟨6, _⟩ => ⟨S128x256, .f32⟩
  | .local _ .vmem, ⟨7, _⟩ => ⟨S1000x768, .bf16⟩
  | .local _ .vmem, ⟨8, _⟩ => ⟨S1000x768, .bf16⟩
  | .local _ .vmem, ⟨9, _⟩ => ⟨S400x10000, .f32⟩
  | .local _ .vmem, ⟨10, _⟩ => ⟨S400x10000, .f32⟩
  | .local _ .vmem, ⟨11, _⟩ => ⟨S10000x768, .bf16⟩
  | .local _ .vmem, ⟨12, _⟩ => ⟨S256x64, .f32⟩
  | .local _ .vmem, ⟨13, _⟩ => ⟨S400x192, .bf16⟩
  | .local _ .vmem, ⟨14, _⟩ => ⟨S400x192, .bf16⟩
  | .local _ .vmem, ⟨15, _⟩ => ⟨S400x10000, .f32⟩
  | .local _ .vmem, ⟨16, _⟩ => ⟨S400x10000, .f32⟩
  | .local _ .vmem, ⟨17, _⟩ => ⟨S10000x192, .bf16⟩
  | .local _ .vmem, ⟨18, _⟩ => ⟨S400x64, .f32⟩
  | .local _ .vmem, ⟨19, _⟩ => ⟨S400x64, .f32⟩
  | .local _ .vmem, ⟨20, _⟩ => ⟨S400x64, .f32⟩
  | .local _ .vmem, ⟨21, _⟩ => ⟨S400x64, .f32⟩
  | .local _ .vmem, ⟨22, _⟩ => ⟨S400x64, .f32⟩
  | .local _ .vmem, ⟨23, _⟩ => ⟨S400x64, .f32⟩
  | .local _ .vmem, ⟨24, _⟩ => ⟨S400x64, .bf16⟩
  | .local _ .vmem, ⟨25, _⟩ => ⟨S400x64, .bf16⟩
  | .local _ .vmem, ⟨26, _⟩ => ⟨S400x64, .bf16⟩
  | .local _ .vmem, ⟨27, _⟩ => ⟨S400x64, .bf16⟩
  | .local _ .vmem, ⟨28, _⟩ => ⟨S400x64, .bf16⟩
  | .local _ .vmem, ⟨29, _⟩ => ⟨S400x64, .bf16⟩
  | .local _ .vmem, ⟨30, _⟩ => ⟨S200x10000, .f32⟩
  | .local _ .vmem, ⟨31, _⟩ => ⟨S200x10000, .f32⟩
  | .local _ .vmem, ⟨32, _⟩ => ⟨S10000x64, .bf16⟩
  | .local _ .vmem, ⟨33, _⟩ => ⟨S200x64, .bf16⟩
  | .local _ .vmem, ⟨34, _⟩ => ⟨S200x64, .bf16⟩
  | .local _ .vmem, ⟨35, _⟩ => ⟨S10000x64, .bf16⟩
  | .local _ .vmem, ⟨36, _⟩ => ⟨S64x64, .f32⟩
  | .local _ .vmem, ⟨37, _⟩ => ⟨S1x1, .f32⟩
  | .local _ .vmem, ⟨38, _⟩ => ⟨S200x2, .f32⟩
  | .local _ .vmem, ⟨39, _⟩ => ⟨S200x2, .f32⟩
  | .local _ .vmem, ⟨40, _⟩ => ⟨S200x10000, .f32⟩
  | .local _ .vmem, ⟨41, _⟩ => ⟨S200x10000, .f32⟩
  | .local _ .vmem, ⟨42, _⟩ => ⟨S10000x64, .f32⟩
  | .local _ .vmem, ⟨43, _⟩ => ⟨S64x256, .f32⟩
  | .local _ .vmem, ⟨44, _⟩ => ⟨S1x256, .f32⟩
  | .local _ .vmem, ⟨45, _⟩ => ⟨S1x256, .f32⟩
  | .local _ .vmem, ⟨46, _⟩ => ⟨S1x256, .f32⟩
  | .local _ .vmem, ⟨47, _⟩ => ⟨S256x128, .f32⟩
  | .local _ .vmem, ⟨48, _⟩ => ⟨S1x128, .f32⟩
  | .local _ .vmem, ⟨49, _⟩ => ⟨S256x128, .f32⟩
  | .local _ .vmem, ⟨50, _⟩ => ⟨S1x128, .f32⟩
  | .local _ .vmem, ⟨51, _⟩ => ⟨S256x128, .f32⟩
  | .local _ .vmem, ⟨52, _⟩ => ⟨S1x128, .f32⟩
  | .local _ .vmem, ⟨53, _⟩ => ⟨S10000x128, .f32⟩
  | .local _ .vmem, ⟨54, _⟩ => ⟨S10000x128, .f32⟩
  | .local _ .vmem, ⟨55, _⟩ => ⟨S10000x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9_0 : Ref sig .tc := ⟨.hbm, 28, rfl⟩
abbrev main_v9_1 : Ref sig .tc := ⟨.hbm, 29, rfl⟩
abbrev main_v9_2 : Ref sig .tc := ⟨.hbm, 30, rfl⟩
abbrev main_v9_3 : Ref sig .tc := ⟨.hbm, 31, rfl⟩
abbrev main_v9_4 : Ref sig .tc := ⟨.hbm, 32, rfl⟩
abbrev main_v9_5 : Ref sig .tc := ⟨.hbm, 33, rfl⟩
abbrev main_v10_0 : Ref sig .tc := ⟨.hbm, 34, rfl⟩
abbrev main_v10_1 : Ref sig .tc := ⟨.hbm, 35, rfl⟩
abbrev main_v11_0 : Ref sig .tc := ⟨.hbm, 36, rfl⟩
abbrev main_v11_1 : Ref sig .tc := ⟨.hbm, 37, rfl⟩
abbrev main_v11_2 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg3_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_stg4_0 : Ref sig .tc := ⟨.vmem, 22, rfl⟩
abbrev cc2_stg4_1 : Ref sig .tc := ⟨.vmem, 23, rfl⟩
abbrev cc2_stg5_0 : Ref sig .tc := ⟨.vmem, 24, rfl⟩
abbrev cc2_stg5_1 : Ref sig .tc := ⟨.vmem, 25, rfl⟩
abbrev cc2_stg6_0 : Ref sig .tc := ⟨.vmem, 26, rfl⟩
abbrev cc2_stg6_1 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg2_1 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg6_1 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg7_0 : Ref sig .tc := ⟨.vmem, 49, rfl⟩
abbrev cc4_stg8_0 : Ref sig .tc := ⟨.vmem, 50, rfl⟩
abbrev cc4_stg9_0 : Ref sig .tc := ⟨.vmem, 51, rfl⟩
abbrev cc4_stg10_0 : Ref sig .tc := ⟨.vmem, 52, rfl⟩
abbrev cc4_stg11_0 : Ref sig .tc := ⟨.vmem, 53, rfl⟩
abbrev cc4_stg12_0 : Ref sig .tc := ⟨.vmem, 54, rfl⟩
abbrev cc4_stg13_0 : Ref sig .tc := ⟨.vmem, 55, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem2_1 : DmaSem sig := 19
abbrev cc2_sem3_0 : DmaSem sig := 20
abbrev cc2_sem3_1 : DmaSem sig := 21
abbrev cc2_sem4_0 : DmaSem sig := 22
abbrev cc2_sem4_1 : DmaSem sig := 23
abbrev cc2_sem5_0 : DmaSem sig := 24
abbrev cc2_sem5_1 : DmaSem sig := 25
abbrev cc2_sem6_0 : DmaSem sig := 26
abbrev cc2_sem6_1 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem2_1 : DmaSem sig := 34
abbrev cc3_sem3_0 : DmaSem sig := 35
abbrev cc3_sem4_0 : DmaSem sig := 36
abbrev cc3_sem5_0 : DmaSem sig := 37
abbrev cc3_sem6_0 : DmaSem sig := 38
abbrev cc3_sem6_1 : DmaSem sig := 39
abbrev cc3_sem7_0 : DmaSem sig := 40
abbrev cc3_sem7_1 : DmaSem sig := 41
abbrev cc4_sem0_0 : DmaSem sig := 42
abbrev cc4_sem1_0 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem7_0 : DmaSem sig := 49
abbrev cc4_sem8_0 : DmaSem sig := 50
abbrev cc4_sem9_0 : DmaSem sig := 51
abbrev cc4_sem10_0 : DmaSem sig := 52
abbrev cc4_sem11_0 : DmaSem sig := 53
abbrev cc4_sem12_0 : DmaSem sig := 54
abbrev cc4_sem13_0 : DmaSem sig := 55

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1000x768 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x192 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x192 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S400x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S400x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S400x64 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S400x64 .bf16 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S400x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def k3_off1 (i : grid3.Coords) : Fin 2 → Nat :=
  let arg0 : BitVec 32 := BitVec.ofNat 32 (i 0).val
  let c200_i32 : BitVec 32 := 200#32
  let v25 : BitVec 32 := Scalar.muli arg0 c200_i32
  let v26 : Index := Scalar.indexCast v25
  let c0_11 : Index := 0#32
  ![v26.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x64 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S200x64 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S10000x64 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S200x2 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S200x10000 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_13 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S10000x64 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S64x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S256x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S10000x128 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S10000x128 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

abbrev stage4_13 : Fin 1 → Memref sig .tc .vmem S10000x128 .f32 := fun | 0 => Memref.whole cc4_stg13_0 | ⟨_ + 1, h⟩ => absurd h (Nat.not_lt.2 (Nat.le_add_left _ _))
abbrev sem4_13 : Fin 1 → DmaSem sig := fun | 0 => cc4_sem13_0 | ⟨_ + 1, h⟩ => absurd h (Nat.not_lt.2 (Nat.le_add_left _ _))
abbrev reads4_13 : Fin grid4.rank → Bool := ![false]

class Facts₀ : Prop where
  shapeCasts_S256_S1x256 : S256.ShapeCasts S1x256
  shapeCasts_S128_S1x128 : S128.ShapeCasts S1x128
  shapeCasts_S1_S1x1 : S1.ShapeCasts S1x1
  inb_S128x256_S128x256_0_0 : ∀ a, (![0, 0] : Fin 2 → Nat) a + S128x256.size a ≤ S128x256.size a
  h_S128x256 : 0 < S128x256.numel
  inb_S1000x128_S1000x128_0_0 : ∀ a, (![0, 0] : Fin 2 → Nat) a + S1000x128.size a ≤ S1000x128.size a
  h_S1000x128 : 0 < S1000x128.numel
  concatenates_S1000x256_S1000x256_S1000x256_S1000x768_d1 : Shape.Concatenates [S1000x256, S1000x256, S1000x256] S1000x768 1
  bitsLt_bf16_f32 : FTy.bits .bf16 < FTy.bits .f32
  inb_S1000x768_S1000x768_0_0 : ∀ a, (![0, 0] : Fin 2 → Nat) a + S1000x768.size a ≤ S1000x768.size a
  h_S1000x768 : 0 < S1000x768.numel
  packedbf16_S1000x768_S1000x768_0_0 : (Rect.unit (s := S1000x768) ![0, 0] S1000x768.size inb_S1000x768_S1000x768_0_0).PackedRows (EltTy.packing .bf16)
  inb_S400x10000_S400x10000_0_0 : ∀ a, (![0, 0] : Fin 2 → Nat) a + S400x10000.size a ≤ S400x10000.size a
  h_S400x10000 : 0 < S400x10000.numel
  inb_S10000x768_S10000x768_0_0 : ∀ a, (![0, 0] : Fin 2 → Nat) a + S10000x768.size a ≤ S10000x768.size a
  h_S10000x768 : 0 < S10000x768.numel
  shapeCasts_S10000x768_S10000x768 : S10000x768.ShapeCasts S10000x768
  inb_S256x64_S256x64_0_0 : ∀ a, (![0, 0] : Fin 2 → Nat) a + S256x64.size a ≤ S256x64.size a
  h_S256x64 : 0 < S256x64.numel
  slices_S400x768_o0_0_S400x256 : S400x768.Slices ![0, 0] S400x256
  slices_S400x768_o0_256_S400x256 : S400x768.Slices ![0, 256] S400x256
  slices_S400x768_o0_512_S400x256 : S400x768.Slices ![0, 512] S400x256
  concatenates_S400x64_S400x64_S400x64_S400x192_d1 : Shape.Concatenates [S400x64, S400x64, S400x64] S400x192 1
  inb_S400x192_S400x192_0_0 : ∀ a, (![0, 0] : Fin 2 → Nat) a + S400x192.size a ≤ S400x192.size a
  h_S400x192 : 0 < S400x192.numel
  packedbf16_S400x192_S400x192_0_0 : (Rect.unit (s := S400x192) ![0, 0] S400x192.size inb_S400x192_S400x192_0_0).PackedRows (EltTy.packing .bf16)
  inb_S10000x192_S10000x192_0_0 : ∀ a, (![0, 0] : Fin 2 → Nat) a + S10000x192.size a ≤ S10000x192.size a
  h_S10000x192 : 0 < S10000x192.numel
  shapeCasts_S10000x192_S10000x192 : S10000x192.ShapeCasts S10000x192
  slices_S400x192_o0_0_S400x64 : S400x192.Slices ![0, 0] S400x64
  slices_S400x192_o0_64_S400x64 : S400x192.Slices ![0, 64] S400x64
  slices_S400x192_o0_128_S400x64 : S400x192.Slices ![0, 128] S400x64
  inb_S400x64_S400x64_0_0 : ∀ a, (![0, 0] : Fin 2 → Nat) a + S400x64.size a ≤ S400x64.size a
  h_S400x64 : 0 < S400x64.numel
  packedbf16_S400x64_S400x64_0_0 : (Rect.unit (s := S400x64) ![0, 0] S400x64.size inb_S400x64_S400x64_0_0).PackedRows (EltTy.packing .bf16)
  reduces_S400x64_S400 : S400x64.Reduces [1] S400
  shapeCasts_S400_S400x1 : S400.ShapeCasts S400x1
  broadcasts_S400x1_S400x64 : S400x1.Broadcasts S400x64
  inb_S200x10000_S200x10000_0_0 : ∀ a, (![0, 0] : Fin 2 → Nat) a + S200x10000.size a ≤ S200x10000.size a
  h_S200x10000 : 0 < S200x10000.numel
  reduces_S200x10000_S200 : S200x10000.Reduces [1] S200
  shapeCasts_S200_S200x1 : S200.ShapeCasts S200x1
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S200x1_S200x64 : S200x1.Broadcasts S200x64
  reduces_S200x64_S200 : S200x64.Reduces [1] S200
  inb_S64x64_S64x64_0_0 : ∀ a, (![0, 0] : Fin 2 → Nat) a + S64x64.size a ≤ S64x64.size a
  h_S64x64 : 0 < S64x64.numel
  h_S200x64 : 0 < S200x64.numel
  shapeCasts_S200x64_S200x64 : S200x64.ShapeCasts S200x64
  inb_S200x64_S200x64_0_0 : ∀ a, (![0, 0] : Fin 2 → Nat) a + S200x64.size a ≤ S200x64.size a
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x1 : S1x1.Broadcasts S200x1
  concatenates_S200x1_S200x1_S200x2_d1 : Shape.Concatenates [S200x1, S200x1] S200x2 1
  inb_S200x2_S200x2_0_0 : ∀ a, (![0, 0] : Fin 2 → Nat) a + S200x2.size a ≤ S200x2.size a
  h_S200x2 : 0 < S200x2.numel
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S10000x256 : S1x256.Broadcasts S10000x256
  reduces_S10000x256_S256 : S10000x256.Reduces [0] S256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  dot_S1000x128_S128x256_S1000x256_1_0_0_1_n_n_wf : DotDims.WF S1000x128 S128x256 S1000x256 [1] [0] [0] [1] [] []
  dot_S400x10000_S10000x768_S400x768_1_0_0_1_n_n_wf : DotDims.WF S400x10000 S10000x768 S400x768 [1] [0] [0] [1] [] []
  dot_S400x256_S256x64_S400x64_1_0_0_1_n_n_wf : DotDims.WF S400x256 S256x64 S400x64 [1] [0] [0] [1] [] []
  dot_S400x10000_S10000x192_S400x192_1_0_0_1_n_n_wf : DotDims.WF S400x10000 S10000x192 S400x192 [1] [0] [0] [1] [] []
  dot_S200x10000_S10000x64_S200x64_1_0_0_1_n_n_wf : DotDims.WF S200x10000 S10000x64 S200x64 [1] [0] [0] [1] [] []
  dot_S200x64_S64x64_S200x64_1_0_0_1_n_n_wf : DotDims.WF S200x64 S64x64 S200x64 [1] [0] [0] [1] [] []
  dot_S200x64_S10000x64_S200x10000_1_1_0_0_n_n_wf : DotDims.WF S200x64 S10000x64 S200x10000 [1] [1] [0] [0] [] []
  dot_S10000x64_S64x256_S10000x256_1_0_0_1_n_n_wf : DotDims.WF S10000x64 S64x256 S10000x256 [1] [0] [0] [1] [] []
  dot_S10000x256_S256x128_S10000x128_1_0_0_1_n_n_wf : DotDims.WF S10000x256 S256x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S10000x128.size a
  hwx0_0 : ∀ i : grid0.Coords, EltTy.bits .f32 = 32 ∨ (Rect.block (s := S10000x128) S1000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x128.size a ≤ S10000x128.size a
  hwx0_1 : ∀ i : grid0.Coords, EltTy.bits .f32 = 32 ∨ (Rect.block (s := S10000x128) S1000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x128.size a ≤ S10000x128.size a
  hwx0_2 : ∀ i : grid0.Coords, EltTy.bits .f32 = 32 ∨ (Rect.block (s := S10000x128) S1000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1000x768.size a ≤ S10000x768.size a
  hwx0_4 : ∀ i : grid0.Coords, EltTy.bits .bf16 = 32 ∨ (Rect.block (s := S10000x768) S1000x768.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x768.size a ≤ S10000x768.size a
  hwx1_1 : ∀ i : grid1.Coords, EltTy.bits .bf16 = 32 ∨ (Rect.block (s := S10000x768) S10000x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S256x64.size a
  hwx1_2 : ∀ i : grid1.Coords, EltTy.bits .f32 = 32 ∨ (Rect.block (s := S256x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x192.size a ≤ S10000x192.size a
  hwx1_3 : ∀ i : grid1.Coords, EltTy.bits .bf16 = 32 ∨ (Rect.block (s := S10000x192) S400x192.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x192.size a ≤ S10000x192.size a
  hwx2_1 : ∀ i : grid2.Coords, EltTy.bits .bf16 = 32 ∨ (Rect.block (s := S10000x192) S10000x192.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x64.size a ≤ S10000x64.size a
  hwx2_2 : ∀ i : grid2.Coords, EltTy.bits .f32 = 32 ∨ (Rect.block (s := S10000x64) S400x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S400x64.size a ≤ S10000x64.size a
  hwx2_3 : ∀ i : grid2.Coords, EltTy.bits .f32 = 32 ∨ (Rect.block (s := S10000x64) S400x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S400x64.size a ≤ S10000x64.size a
  hwx2_4 : ∀ i : grid2.Coords, EltTy.bits .f32 = 32 ∨ (Rect.block (s := S10000x64) S400x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S400x64.size a ≤ S10000x64.size a
  hwx2_5 : ∀ i : grid2.Coords, EltTy.bits .bf16 = 32 ∨ (Rect.block (s := S10000x64) S400x64.size (cc2_transform_5 i) (hinb2_5 i)).WholeWords (EltTy.packing .bf16)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S400x64.size a ≤ S10000x64.size a
  hwx2_6 : ∀ i : grid2.Coords, EltTy.bits .bf16 = 32 ∨ (Rect.block (s := S10000x64) S400x64.size (cc2_transform_6 i) (hinb2_6 i)).WholeWords (EltTy.packing .bf16)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S400x64.size a ≤ S10000x64.size a
  hwx2_7 : ∀ i : grid2.Coords, EltTy.bits .bf16 = 32 ∨ (Rect.block (s := S10000x64) S400x64.size (cc2_transform_7 i) (hinb2_7 i)).WholeWords (EltTy.packing .bf16)
  hrank3 : 0 < grid3.rank
  k3_off1_inb : ∀ i : grid3.Coords, ∀ a, (k3_off1 i) a + S200x64.size a ≤ S10000x64.size a
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .f32 = 32 ∨ (Rect.block (s := S10000x10000) S200x10000.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x64.size a ≤ S10000x64.size a
  hwx3_1 : ∀ i : grid3.Coords, EltTy.bits .bf16 = 32 ∨ (Rect.block (s := S10000x64) S10000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S200x64.size a ≤ S10000x64.size a
  hwx3_2 : ∀ i : grid3.Coords, EltTy.bits .bf16 = 32 ∨ (Rect.block (s := S10000x64) S200x64.size (cc3_transform_2 i) (hinb3_2 i)).WholeWords (EltTy.packing .bf16)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S10000x64.size a ≤ S10000x64.size a
  hwx3_3 : ∀ i : grid3.Coords, EltTy.bits .bf16 = 32 ∨ (Rect.block (s := S10000x64) S10000x64.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S200x2.size a ≤ S10000x2.size a
  hwx3_6 : ∀ i : grid3.Coords, EltTy.bits .f32 = 32 ∨ (Rect.block (s := S10000x2) S200x2.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S200x10000.size a ≤ S10000x10000.size a
  hwx3_7 : ∀ i : grid3.Coords, EltTy.bits .f32 = 32 ∨ (Rect.block (s := S10000x10000) S200x10000.size (cc3_transform_7 i) (hinb3_7 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S10000x64.size a
  hwx4_0 : ∀ i : grid4.Coords, EltTy.bits .f32 = 32 ∨ (Rect.block (s := S10000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .f32 = 32 ∨ (Rect.block (s := S64x256) S64x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x256.size a ≤ S1x256.size a
  hwx4_2 : ∀ i : grid4.Coords, EltTy.bits .f32 = 32 ∨ (Rect.block (s := S1x256) S1x256.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x256.size a ≤ S1x256.size a
  hwx4_3 : ∀ i : grid4.Coords, EltTy.bits .f32 = 32 ∨ (Rect.block (s := S1x256) S1x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x128.size a ≤ S256x128.size a
  hwx4_5 : ∀ i : grid4.Coords, EltTy.bits .f32 = 32 ∨ (Rect.block (s := S256x128) S256x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S256x128.size a ≤ S256x128.size a
  hwx4_9 : ∀ i : grid4.Coords, EltTy.bits .f32 = 32 ∨ (Rect.block (s := S256x128) S256x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S10000x128.size a ≤ S10000x128.size a
  hwx4_11 : ∀ i : grid4.Coords, EltTy.bits .f32 = 32 ∨ (Rect.block (s := S10000x128) S10000x128.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S10000x128.size a ≤ S10000x128.size a
  hwx4_12 : ∀ i : grid4.Coords, EltTy.bits .f32 = 32 ∨ (Rect.block (s := S10000x128) S10000x128.size (cc4_transform_12 i) (hinb4_12 i)).WholeWords (EltTy.packing .f32)
  hstage4_13 : ∀ j, (stage4_13 j).IsWhole
  nbuf4_13 : grid4.bufCount reads4_13 true = 1
  hreads4_13 : ∀ i i' : grid4.Coords, (∀ a, reads4_13 a = true → i a = i' a) → cc4_transform_13 i = cc4_transform_13 i'
  hinb4_13 : ∀ (i : grid4.Coords) a, (cc4_transform_13 i a + 1) * S10000x128.size a ≤ S10000x128.size a
  hwx4_13 : ∀ i : grid4.Coords, EltTy.bits .f32 = 32 ∨ (Rect.block (s := S10000x128) S10000x128.size (cc4_transform_13 i) (hinb4_13 i)).WholeWords (EltTy.packing .f32)

variable [Facts₀]

def dot_S1000x128_S128x256_S1000x256_1_0_0_1_n_n : DotDims S1000x128 S128x256 S1000x256 where
  lhsContracting := [1]
  rhsContracting := [0]
  lhsNonContracting := [0]
  rhsNonContracting := [1]
  lhsBatch := []
  rhsBatch := []
  wf := dot_S1000x128_S128x256_S1000x256_1_0_0_1_n_n_wf
def dot_S400x10000_S10000x768_S400x768_1_0_0_1_n_n : DotDims S400x10000 S10000x768 S400x768 where
  lhsContracting := [1]
  rhsContracting := [0]
  lhsNonContracting := [0]
  rhsNonContracting := [1]
  lhsBatch := []
  rhsBatch := []
  wf := dot_S400x10000_S10000x768_S400x768_1_0_0_1_n_n_wf
def dot_S400x256_S256x64_S400x64_1_0_0_1_n_n : DotDims S400x256 S256x64 S400x64 where
  lhsContracting := [1]
  rhsContracting := [0]
  lhsNonContracting := [0]
  rhsNonContracting := [1]
  lhsBatch := []
  rhsBatch := []
  wf := dot_S400x256_S256x64_S400x64_1_0_0_1_n_n_wf
def dot_S400x10000_S10000x192_S400x192_1_0_0_1_n_n : DotDims S400x10000 S10000x192 S400x192 where
  lhsContracting := [1]
  rhsContracting := [0]
  lhsNonContracting := [0]
  rhsNonContracting := [1]
  lhsBatch := []
  rhsBatch := []
  wf := dot_S400x10000_S10000x192_S400x192_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S200x64_S10000x64_S200x10000_1_1_0_0_n_n : DotDims S200x64 S10000x64 S200x10000 where
  lhsContracting := [1]
  rhsContracting := [1]
  lhsNonContracting := [0]
  rhsNonContracting := [0]
  lhsBatch := []
  rhsBatch := []
  wf := dot_S200x64_S10000x64_S200x10000_1_1_0_0_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1000x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg3) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S10000x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S400x192.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg3) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8) S10000x192.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9_0) S400x64.size cc2_transform_2 reads2_2 true false 2 stage2_2 sem2_2
    hrank2 hreads2_2 hinb2_2 nbuf2_2 (Memref.isWhole_whole _) hwx2_2 hstage2_2

abbrev win2_3 : Pipeline.Window sig grid2 :=
  Pipeline.Window.ofSpec (Memref.whole main_v9_1) S400x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v9_2) S400x64.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v9_3) S400x64.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v9_4) S400x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v9_5) S400x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_arg4) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v9_3) S10000x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9_4) S200x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v9_5) S10000x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v6) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v10_0) S200x2.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v10_1) S200x10000.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v9_0) S10000x64.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v0) S1x256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v1) S1x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v2) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg11) S256x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v3) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg13) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v4) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg15) S256x128.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v5) S1x128.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v11_0) S10000x128.size cc4_transform_11 reads4_11 true true 1 stage4_11 sem4_11
    hrank4 hreads4_11 hinb4_11 nbuf4_11 (Memref.isWhole_whole _) hwx4_11 hstage4_11

abbrev win4_12 : Pipeline.Window sig grid4 :=
  Pipeline.Window.ofSpec (Memref.whole main_v11_1) S10000x128.size cc4_transform_12 reads4_12 true true 1 stage4_12 sem4_12
    hrank4 hreads4_12 hinb4_12 nbuf4_12 (Memref.isWhole_whole _) hwx4_12 hstage4_12

abbrev win4_13 : Pipeline.Window sig grid4 :=
  Pipeline.Window.ofSpec (Memref.whole main_v11_2) S10000x128.size cc4_transform_13 reads4_13 true true 1 stage4_13 sem4_13
    hrank4 hreads4_13 hinb4_13 nbuf4_13 (Memref.isWhole_whole _) hwx4_13 hstage4_13

abbrev win4 : Fin 14 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | 13 => win4_13 | ⟨_ + 14, h⟩ => absurd h (Nat.not_lt.2 (Nat.le_add_left _ _))
abbrev spec4 : Fin 14 → Pipeline.WinSpec sig grid4.rank := fun w => (win4 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S256x64 : Shape := ⟨2, ![256, 64]⟩
abbrev S64x256 : Shape := ⟨2, ![64, 256]⟩
abbrev S256 : Shape := ⟨1, ![256]⟩
abbrev S256x128 : Shape := ⟨2, ![256, 128]⟩
abbrev S128 : Shape := ⟨1, ![128]⟩
abbrev S64x64 : Shape := ⟨2, ![64, 64]⟩
abbrev S1 : Shape := ⟨1, ![1]⟩
abbrev S10000x256 : Shape := ⟨2, ![10000, 256]⟩
abbrev S_ : Shape := ⟨0, ![]⟩
abbrev S10000x64 : Shape := ⟨2, ![10000, 64]⟩
abbrev S1x256 : Shape := ⟨2, ![1, 256]⟩
abbrev S1x128 : Shape := ⟨2, ![1, 128]⟩
abbrev S10000 : Shape := ⟨1, ![10000]⟩
abbrev S10000x1 : Shape := ⟨2, ![10000, 1]⟩
abbrev S64x10000 : Shape := ⟨2, ![64, 10000]⟩
abbrev S1x1 : Shape := ⟨2, ![1, 1]⟩
abbrev S10000x2 : Shape := ⟨2, ![10000, 2]⟩

abbrev nBuf : Space → Nat
  | .hbm => 195
  | .vmem => 0
  | .smem => 0
  | _ => 0

abbrev hbmTy0_0 (i : Nat) : BufTy := match i % 128 with
  | 0 => ⟨S10000x128, .f32⟩
  | 1 => ⟨S10000x128, .f32⟩
  | 2 => ⟨S10000x128, .f32⟩
  | 3 => ⟨S10000x10000, .f32⟩
  | 4 => ⟨S10000x10000, .f32⟩
  | 5 => ⟨S128x256, .f32⟩
  | 6 => ⟨S256x64, .f32⟩
  | 7 => ⟨S64x256, .f32⟩
  | 8 => ⟨S256, .f32⟩
  | 9 => ⟨S256, .f32⟩
  | 10 => ⟨S256, .f32⟩
  | 11 => ⟨S256x128, .f32⟩
  | 12 => ⟨S128, .f32⟩
  | 13 => ⟨S256x128, .f32⟩
  | 14 => ⟨S128, .f32⟩
  | 15 => ⟨S256x128, .f32⟩
  | 16 => ⟨S128, .f32⟩
  | 17 => ⟨S64x64, .f32⟩
  | 18 => ⟨S1, .f32⟩
  | 19 => ⟨S10000x256, .f32⟩
  | 20 => ⟨S10000x256, .f32⟩
  | 21 => ⟨S_, .f32⟩
  | 22 => ⟨S10000x256, .f32⟩
  | 23 => ⟨S10000x256, .f32⟩
  | 24 => ⟨S10000x64, .f32⟩
  | 25 => ⟨S10000x64, .f32⟩
  | 26 => ⟨S_, .f32⟩
  | 27 => ⟨S10000x64, .f32⟩
  | 28 => ⟨S10000x64, .f32⟩
  | 29 => ⟨S10000x256, .f32⟩
  | 30 => ⟨S1x256, .f32⟩
  | 31 => ⟨S10000x256, .f32⟩
  | 32 => ⟨S10000x256, .f32⟩
  | 33 => ⟨S_, .f32⟩
  | 34 => ⟨S256, .f32⟩
  | 35 => ⟨S_, .f32⟩
  | 36 => ⟨S256, .f32⟩
  | 37 => ⟨S256, .f32⟩
  | 38 => ⟨S1x256, .f32⟩
  | 39 => ⟨S10000x256, .f32⟩
  | 40 => ⟨S10000x256, .f32⟩
  | 41 => ⟨S10000x256, .f32⟩
  | 42 => ⟨S_, .f32⟩
  | 43 => ⟨S256, .f32⟩
  | 44 => ⟨S_, .f32⟩
  | 45 => ⟨S256, .f32⟩
  | 46 => ⟨S256, .f32⟩
  | 47 => ⟨S1x256, .f32⟩
  | 48 => ⟨S10000x256, .f32⟩
  | 49 => ⟨S10000x256, .f32⟩
  | 50 => ⟨S_, .f32⟩
  | 51 => ⟨S256, .f32⟩
  | 52 => ⟨S256, .f32⟩
  | 53 => ⟨S256, .f32⟩
  | 54 => ⟨S1x256, .f32⟩
  | 55 => ⟨S10000x256, .f32⟩
  | 56 => ⟨S10000x256, .f32⟩
  | 57 => ⟨S1x256, .f32⟩
  | 58 => ⟨S10000x256, .f32⟩
  | 59 => ⟨S10000x256, .f32⟩
  | 60 => ⟨S1x256, .f32⟩
  | 61 => ⟨S10000x256, .f32⟩
  | 62 => ⟨S10000x256, .f32⟩
  | 63 => ⟨S_, .f32⟩
  | 64 => ⟨S10000x256, .f32⟩
  | 65 => ⟨S10000x256, .f32⟩
  | 66 => ⟨S10000x128, .f32⟩
  | 67 => ⟨S1x128, .f32⟩
  | 68 => ⟨S10000x128, .f32⟩
  | 69 => ⟨S10000x128, .f32⟩
  | 70 => ⟨S10000x128, .f32⟩
  | 71 => ⟨S10000x128, .f32⟩
  | 72 => ⟨S_, .f32⟩
  | 73 => ⟨S10000x128, .f32⟩
  | 74 => ⟨S10000x128, .f32⟩
  | 75 => ⟨S_, .f32⟩
  | 76 => ⟨S10000x128, .f32⟩
  | 77 => ⟨S10000x128, .f32⟩
  | 78 => ⟨S10000x128, .f32⟩
  | 79 => ⟨S1x128, .f32⟩
  | 80 => ⟨S10000x128, .f32⟩
  | 81 => ⟨S10000x128, .f32⟩
  | 82 => ⟨S_, .f32⟩
  | 83 => ⟨S10000x128, .f32⟩
  | 84 => ⟨S10000x128, .f32⟩
  | 85 => ⟨S10000x128, .f32⟩
  | 86 => ⟨S10000x128, .f32⟩
  | 87 => ⟨S10000x128, .i1⟩
  | 88 => ⟨S10000x128, .f32⟩
  | 89 => ⟨S10000x128, .f32⟩
  | 90 => ⟨S10000x128, .f32⟩
  | 91 => ⟨S10000x128, .f32⟩
  | 92 => ⟨S10000x128, .f32⟩
  | 93 => ⟨S10000x128, .f32⟩
  | 94 => ⟨S10000x128, .f32⟩
  | 95 => ⟨S10000x128, .f32⟩
  | 96 => ⟨S_, .f32⟩
  | 97 => ⟨S_, .f32⟩
  | 98 => ⟨S_, .f32⟩
  | 99 => ⟨S10000x128, .f32⟩
  | 100 => ⟨S10000x128, .f32⟩
  | 101 => ⟨S_, .f32⟩
  | 102 => ⟨S10000x128, .f32⟩
  | 103 => ⟨S10000x128, .f32⟩
  | 104 => ⟨S10000x128, .f32⟩
  | 105 => ⟨S1x128, .f32⟩
  | 106 => ⟨S10000x128, .f32⟩
  | 107 => ⟨S10000x128, .f32⟩
  | 108 => ⟨S10000x128, .f32⟩
  | 109 => ⟨S_, .f32⟩
  | 110 => ⟨S_, .f32⟩
  | 111 => ⟨S_, .f32⟩
  | 112 => ⟨S10000x128, .f32⟩
  | 113 => ⟨S10000x128, .f32⟩
  | 114 => ⟨S_, .f32⟩
  | 115 => ⟨S10000x128, .f32⟩
  | 116 => ⟨S10000x128, .f32⟩
  | 117 => ⟨S10000x64, .f32⟩
  | 118 => ⟨S_, .f32⟩
  | 119 => ⟨S10000, .f32⟩
  | 120 => ⟨S10000x1, .f32⟩
  | 121 => ⟨S10000x1, .f32⟩
  | 122 => ⟨S_, .f32⟩
  | 123 => ⟨S10000x1, .f32⟩
  | 124 => ⟨S10000x1, .f32⟩
  | 125 => ⟨S10000x64, .f32⟩
  | 126 => ⟨S10000x64, .f32⟩
  | 127 => ⟨S64x10000, .f32⟩
  | _ => ⟨S10000x128, .f32⟩

abbrev hbmTy0_1 (i : Nat) : BufTy := match i % 128 with
  | 0 => ⟨S10000x10000, .f32⟩
  | 1 => ⟨S10000x10000, .f32⟩
  | 2 => ⟨S10000x10000, .f32⟩
  | 3 => ⟨S_, .f32⟩
  | 4 => ⟨S10000x10000, .f32⟩
  | 5 => ⟨S10000x10000, .f32⟩
  | 6 => ⟨S_, .f32⟩
  | 7 => ⟨S10000x10000, .f32⟩
  | 8 => ⟨S10000x10000, .f32⟩
  | 9 => ⟨S10000x256, .f32⟩
  | 10 => ⟨S10000x256, .f32⟩
  | 11 => ⟨S_, .f32⟩
  | 12 => ⟨S10000x256, .f32⟩
  | 13 => ⟨S10000x256, .f32⟩
  | 14 => ⟨S10000x64, .f32⟩
  | 15 => ⟨S10000x64, .f32⟩
  | 16 => ⟨S10000x256, .f32⟩
  | 17 => ⟨S10000x256, .f32⟩
  | 18 => ⟨S_, .f32⟩
  | 19 => ⟨S10000x256, .f32⟩
  | 20 => ⟨S10000x256, .f32⟩
  | 21 => ⟨S10000x64, .f32⟩
  | 22 => ⟨S10000x64, .f32⟩
  | 23 => ⟨S_, .f32⟩
  | 24 => ⟨S10000x64, .f32⟩
  | 25 => ⟨S10000x64, .f32⟩
  | 26 => ⟨S10000x64, .f32⟩
  | 27 => ⟨S_, .f32⟩
  | 28 => ⟨S10000, .f32⟩
  | 29 => ⟨S10000x1, .f32⟩
  | 30 => ⟨S10000x64, .f32⟩
  | 31 => ⟨S10000x64, .f32⟩
  | 32 => ⟨S10000x64, .f32⟩
  | 33 => ⟨S_, .f32⟩
  | 34 => ⟨S10000, .f32⟩
  | 35 => ⟨S10000x1, .f32⟩
  | 36 => ⟨S10000x1, .f32⟩
  | 37 => ⟨S_, .f32⟩
  | 38 => ⟨S10000x1, .f32⟩
  | 39 => ⟨S10000x1, .f32⟩
  | 40 => ⟨S10000x64, .f32⟩
  | 41 => ⟨S10000x64, .f32⟩
  | 42 => ⟨S10000x64, .f32⟩
  | 43 => ⟨S10000x64, .f32⟩
  | 44 => ⟨S_, .f32⟩
  | 45 => ⟨S10000x64, .f32⟩
  | 46 => ⟨S10000x64, .f32⟩
  | 47 => ⟨S_, .f32⟩
  | 48 => ⟨S10000x64, .f32⟩
  | 49 => ⟨S10000x64, .f32⟩
  | 50 => ⟨S10000x64, .f32⟩
  | 51 => ⟨S10000x64, .f32⟩
  | 52 => ⟨S_, .f32⟩
  | 53 => ⟨S10000, .f32⟩
  | 54 => ⟨S10000x1, .f32⟩
  | 55 => ⟨S1x1, .f32⟩
  | 56 => ⟨S10000x1, .f32⟩
  | 57 => ⟨S10000x1, .f32⟩
  | 58 => ⟨S10000x64, .f32⟩
  | 59 => ⟨S10000x64, .f32⟩
  | 60 => ⟨S_, .f32⟩
  | 61 => ⟨S10000, .f32⟩
  | 62 => ⟨S10000x1, .f32⟩
  | 63 => ⟨S1x1, .f32⟩
  | 64 => ⟨S10000x1, .f32⟩
  | 65 => ⟨S10000x1, .f32⟩
  | 66 => ⟨S10000x2, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_call0_cst : Ref sig .tc := ⟨.hbm, 21, rfl⟩
abbrev main_call0_v0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_call1_cst : Ref sig .tc := ⟨.hbm, 26, rfl⟩
abbrev main_call1_v0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_cst : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_1 : Ref sig .tc := ⟨.hbm, 42, rfl⟩
abbrev main_v17 : Ref sig .tc := ⟨.hbm, 43, rfl⟩
abbrev main_cst_2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_3 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_call2_cst : Ref sig .tc := ⟨.hbm, 63, rfl⟩
abbrev main_call2_v0 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_cst_4 : Ref sig .tc := ⟨.hbm, 72, rfl⟩
abbrev main_v42 : Ref sig .tc := ⟨.hbm, 73, rfl⟩
abbrev main_v43 : Ref sig .tc := ⟨.hbm, 74, rfl⟩
abbrev main_cst_5 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_call3_cst : Ref sig .tc := ⟨.hbm, 82, rfl⟩
abbrev main_call3_v0 : Ref sig .tc := ⟨.hbm, 83, rfl⟩
abbrev main_call3_v1 : Ref sig .tc := ⟨.hbm, 84, rfl⟩
abbrev main_call3_v2 : Ref sig .tc := ⟨.hbm, 85, rfl⟩
abbrev main_call3_v3 : Ref sig .tc := ⟨.hbm, 86, rfl⟩
abbrev main_call3_v4 : Ref sig .tc := ⟨.hbm, 87, rfl⟩
abbrev main_call3_v5 : Ref sig .tc := ⟨.hbm, 88, rfl⟩
abbrev main_call3_v6 : Ref sig .tc := ⟨.hbm, 89, rfl⟩
abbrev main_call3_v7 : Ref sig .tc := ⟨.hbm, 90, rfl⟩
abbrev main_call3_v8 : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_v50 : Ref sig .tc := ⟨.hbm, 95, rfl⟩
abbrev main_cst_6 : Ref sig .tc := ⟨.hbm, 96, rfl⟩
abbrev main_cst_7 : Ref sig .tc := ⟨.hbm, 97, rfl⟩
abbrev main_call4_v0 : Ref sig .tc := ⟨.hbm, 98, rfl⟩
abbrev main_call4_v1 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_cst_8 : Ref sig .tc := ⟨.hbm, 109, rfl⟩
abbrev main_cst_9 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v57 : Ref sig .tc := ⟨.hbm, 116, rfl⟩
abbrev main_v58 : Ref sig .tc := ⟨.hbm, 117, rfl⟩
abbrev main_cst_10 : Ref sig .tc := ⟨.hbm, 118, rfl⟩
abbrev main_v59 : Ref sig .tc := ⟨.hbm, 119, rfl⟩
abbrev main_v60 : Ref sig .tc := ⟨.hbm, 120, rfl⟩
abbrev main_v61 : Ref sig .tc := ⟨.hbm, 121, rfl⟩
abbrev main_cst_11 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_cst_12 : Ref sig .tc := ⟨.hbm, 131, rfl⟩
abbrev main_v70 : Ref sig .tc := ⟨.hbm, 132, rfl⟩
abbrev main_v71 : Ref sig .tc := ⟨.hbm, 133, rfl⟩
abbrev main_cst_13 : Ref sig .tc := ⟨.hbm, 134, rfl⟩
abbrev main_v72 : Ref sig .tc := ⟨.hbm, 135, rfl⟩
abbrev main_v73 : Ref sig .tc := ⟨.hbm, 136, rfl⟩
abbrev main_v74 : Ref sig .tc := ⟨.hbm, 137, rfl⟩
abbrev main_v75 : Ref sig .tc := ⟨.hbm, 138, rfl⟩
abbrev main_call6_cst : Ref sig .tc := ⟨.hbm, 139, rfl⟩
abbrev main_call6_v0 : Ref sig .tc := ⟨.hbm, 140, rfl⟩
abbrev main_v76 : Ref sig .tc := ⟨.hbm, 141, rfl⟩
abbrev main_v77 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_call7_cst : Ref sig .tc := ⟨.hbm, 146, rfl⟩
abbrev main_call7_v0 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩
abbrev main_call8_cst : Ref sig .tc := ⟨.hbm, 151, rfl⟩
abbrev main_call8_v0 : Ref sig .tc := ⟨.hbm, 152, rfl⟩
abbrev main_v84 : Ref sig .tc := ⟨.hbm, 153, rfl⟩
abbrev main_v85 : Ref sig .tc := ⟨.hbm, 154, rfl⟩
abbrev main_cst_14 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_v89 : Ref sig .tc := ⟨.hbm, 159, rfl⟩
abbrev main_v90 : Ref sig .tc := ⟨.hbm, 160, rfl⟩
abbrev main_cst_15 : Ref sig .tc := ⟨.hbm, 161, rfl⟩
abbrev main_v91 : Ref sig .tc := ⟨.hbm, 162, rfl⟩
abbrev main_v92 : Ref sig .tc := ⟨.hbm, 163, rfl⟩
abbrev main_v93 : Ref sig .tc := ⟨.hbm, 164, rfl⟩
abbrev main_cst_16 : Ref sig .tc := ⟨.hbm, 165, rfl⟩
abbrev main_v94 : Ref sig .tc := ⟨.hbm, 166, rfl⟩
abbrev main_v95 : Ref sig .tc := ⟨.hbm, 167, rfl⟩
abbrev main_v96 : Ref sig .tc := ⟨.hbm, 168, rfl⟩
abbrev main_v97 : Ref sig .tc := ⟨.hbm, 169, rfl⟩
abbrev main_v98 : Ref sig .tc := ⟨.hbm, 170, rfl⟩
abbrev main_v99 : Ref sig .tc := ⟨.hbm, 171, rfl⟩
abbrev main_cst_17 : Ref sig .tc := ⟨.hbm, 172, rfl⟩
abbrev main_v100 : Ref sig .tc := ⟨.hbm, 173, rfl⟩
abbrev main_v101 : Ref sig .tc := ⟨.hbm, 174, rfl⟩
abbrev main_cst_18 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_cst_19 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_cst_20 : Ref sig .tc := ⟨.hbm, 188, rfl⟩
abbrev main_v113 : Ref sig .tc := ⟨.hbm, 189, rfl⟩
abbrev main_v114 : Ref sig .tc := ⟨.hbm, 190, rfl⟩
abbrev main_v115 : Ref sig .tc := ⟨.hbm, 191, rfl⟩
abbrev main_v116 : Ref sig .tc := ⟨.hbm, 192, rfl⟩
abbrev main_v117 : Ref sig .tc := ⟨.hbm, 193, rfl⟩
abbrev main_v118 : Ref sig .tc := ⟨.hbm, 194, rfl⟩

abbrev nD : Nat := 1
abbrev τ : Topo := Topo.v7x

variable {F : FTy → Type} [FloatOps F]

class Facts₀ : Prop where
  bcast_S_S10000x256 : S_.BroadcastsInDim S10000x256 (![] : Fin 0 → Fin S10000x256.rank)
  bcast_S_S10000x64 : S_.BroadcastsInDim S10000x64 (![] : Fin 0 → Fin S10000x64.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  reducesTo_S10000x256_S256_d0 : S10000x256.ReducesTo [0] S256
  h_S_ : 0 < S_.numel
  bcast_S_S256 : S_.BroadcastsInDim S256 (![] : Fin 0 → Fin S256.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x64_S10000_d1 : S10000x64.ReducesTo [1] S10000
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  transposes_S10000x64_S64x10000_1_0 : S10000x64.Transposes [1, 0] S64x10000
  bcast_S_S10000x10000 : S_.BroadcastsInDim S10000x10000 (![] : Fin 0 → Fin S10000x10000.rank)
  reducesTo_S10000x10000_S10000_d1 : S10000x10000.ReducesTo [1] S10000
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  concatenates_S10000x1_S10000x1_S10000x2_d1 : Shape.Concatenates [S10000x1, S10000x1] S10000x2 1
  dot_S10000x128_S128x256_S10000x256_1_0_0_1_n_n_wf : DotDims.WF S10000x128 S128x256 S10000x256 [1] [0] [0] [1] [] []
  dot_S10000x10000_S10000x256_S10000x256_1_0_0_1_n_n_wf : DotDims.WF S10000x10000 S10000x256 S10000x256 [1] [0] [0] [1] [] []
  dot_S10000x256_S256x64_S10000x64_1_0_0_1_n_n_wf : DotDims.WF S10000x256 S256x64 S10000x64 [1] [0] [0] [1] [] []
  dot_S10000x10000_S10000x64_S10000x64_1_0_0_1_n_n_wf : DotDims.WF S10000x10000 S10000x64 S10000x64 [1] [0] [0] [1] [] []
  dot_S10000x64_S64x256_S10000x256_1_0_0_1_n_n_wf : DotDims.WF S10000x64 S64x256 S10000x256 [1] [0] [0] [1] [] []
  dot_S10000x256_S256x128_S10000x128_1_0_0_1_n_n_wf : DotDims.WF S10000x256 S256x128 S10000x128 [1] [0] [0] [1] [] []
  dot_S10000x64_S64x10000_S10000x10000_1_0_0_1_n_n_wf : DotDims.WF S10000x64 S64x10000 S10000x10000 [1] [0] [0] [1] [] []
  dot_S10000x64_S64x64_S10000x64_1_0_0_1_n_n_wf : DotDims.WF S10000x64 S64x64 S10000x64 [1] [0] [0] [1] [] []

variable [Facts₀]

def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf
def dot_S10000x256_S256x64_S10000x64_1_0_0_1_n_n : DotDims S10000x256 S256x64 S10000x64 where
  lhsContracting := [1]
  rhsContracting := [0]
  lhsNonContracting := [0]
  rhsNonContracting := [1]
  lhsBatch := []
  rhsBatch := []
  wf := dot_S10000x256_S256x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x256_S10000x256_1_0_0_1_n_n : DotDims S10000x64 S64x256 S10000x256 where
  lhsContracting := [1]
  rhsContracting := [0]
  lhsNonContracting := [0]
  rhsNonContracting := [1]
  lhsBatch := []
  rhsBatch := []
  wf := dot_S10000x64_S64x256_S10000x256_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def dot_S10000x64_S64x10000_S10000x10000_1_0_0_1_n_n : DotDims S10000x64 S64x10000 S10000x10000 where
  lhsContracting := [1]
  rhsContracting := [0]
  lhsNonContracting := [0]
  rhsNonContracting := [1]
  lhsBatch := []
  rhsBatch := []
  wf := dot_S10000x64_S64x10000_S10000x10000_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

class Facts : Prop extends Facts₀ where

variable [Facts]
-- ==== Proof.KRun.lean ====
/-
  The idealized kernel's run with EVERY unscoped buffer named.

  The program is five kernel launches after seven host reshapes. The generated frame certificate follows the
  buffer contents through the program as a fold  W0 → W1 → … → W6  (W1: after the host reshapes; W(k+2): after
  launch k, its output arrays at what its write-backs leave, every other buffer as before) and reads the last
  thread state against the final memory to conclude that the arguments are unchanged. The same launch theorem,
  with the final memory read at EVERY unscoped buffer instead of the arguments only, names the results:
  after the run each unscoped buffer b of a core holds  W6 b.
-/
import proofs.«140504_g18717467476370_cont_8to1_202_16_alg».proof.Proof.Gen.KernelIdeal.Frame

set_option maxRecDepth 16384

noncomputable section

namespace Cert.Bridge.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault, and in its final state every unscoped
    buffer b of every core holds the last boundary's contents W6 at b. -/
theorem run_named : θ_run defs (onTc (τ := τ) (main (F := F))) ⟨m, fun _ => 0, ρ⟩ (fun r => ∀ c : Dev nD, ∀ b : Ref sig .tc,
      ¬ (Proc.devRef .tc b : DevRef τ sig).isScoped →
      r.2.mem ((c.tc : Thread nD τ).loc b) = W6 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c b hb => h c _ (mem_uc b hb))

end Cert.Bridge.KRun

end
-- ==== Proof.Packed.lean ====
/-
  The two packed intermediate arrays of the graph-convolution encoder, as functions of the program's arguments.

  The encoder is applied to three feature matrices X₀, X₁, X₂ (10000 × 128) with the same weights W₁ (128 × 256),
  W₂ (256 × 64) and the same dense adjacency A (10000 × 10000):  Z_j = A · (relu (A · (X_j · W₁)) · W₂).
  The kernel keeps the three first-layer products side by side in ONE 10000 × 768 array  [X₀W₁ | X₁W₁ | X₂W₁]  and the
  three second-layer operands side by side in ONE 10000 × 192 array  [H₀W₂ | H₁W₂ | H₂W₂],  H_j = relu (A · X_jW₁).
  Column  256·j + k  of the first (64·j + k of the second) is column k of the j-th product: the definitions below
  say exactly that, each product being the reference program's own stage at that point.
-/
import proofs.«140504_g18717467476370_cont_8to1_202_16_alg».proof.Proof.Gen.ReferenceIdeal.Read
import Idealize.ShloMosaic.Lib.ValueIdx

noncomputable section

namespace Cert.Bridge

open Idealize.ShloMosaic Idealize.ShloMosaic.ValueIdx
open Cert.ReferenceIdeal (S10000x128 S128x256 S10000x10000 S256x64)
open Cert.ReferenceIdeal.Read

/-- The shape of the three first-layer products side by side. -/
abbrev P768 : Shape := ⟨2, ![10000, 768]⟩
/-- The shape of the three second-layer operands side by side. -/
abbrev P192 : Shape := ⟨2, ![10000, 192]⟩

/-- [X₀W₁ | X₁W₁ | X₂W₁]: column 256·j + k is column k of X_j · W₁. -/
def agOf (x0 x1 x2 : (⟨S10000x128, .f32⟩ : BufTy).Contents (Elt Ideal)) (x5 : (⟨S128x256, .f32⟩ : BufTy).Contents (Elt Ideal)) :
    (⟨P768, .bf16⟩ : BufTy).Contents (Elt Ideal) := fun i =>
  if h : (i 1).val < 256 then val_main_v0 (F := Ideal) x0 x5 (ix2 (i 0) ⟨(i 1).val, h⟩)
  else if h' : (i 1).val < 512 then val_main_v74 (F := Ideal) x1 x5 (ix2 (i 0) ⟨(i 1).val - 256, by omega⟩)
  else val_main_v79 (F := Ideal) x2 x5 (ix2 (i 0) ⟨(i 1).val - 512, by have := idx2_lt1 i; omega⟩)

/-- [H₀W₂ | H₁W₂ | H₂W₂] with H_j = relu (A · X_jW₁): column 64·j + k is column k of H_j · W₂. -/
def bgOf (x0 x1 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) :
    (⟨P192, .bf16⟩ : BufTy).Contents (Elt Ideal) := fun i =>
  if h : (i 1).val < 64 then val_main_v3 (F := Ideal) x0 x3 x5 x6 (ix2 (i 0) ⟨(i 1).val, h⟩)
  else if h' : (i 1).val < 128 then val_main_v77 (F := Ideal) x1 x3 x5 x6 (ix2 (i 0) ⟨(i 1).val - 64, by omega⟩)
  else val_main_v82 (F := Ideal) x2 x3 x5 x6 (ix2 (i 0) ⟨(i 1).val - 128, by have := idx2_lt1 i; omega⟩)

end Cert.Bridge

end
-- ==== Proof.R0Mat.lean ====
/-
  The block products of the first packing kernel, read at an entry.

  At each grid point the kernel multiplies a 1000 × 128 block of feature rows by the whole 128 × 256 weight matrix W₁,
  accumulating into zero. Over the extended reals the product's entry (r, c) is the plain sum over the 128 inner
  positions k of  a(r, k) · b(k, c):  the left operand is read at (output row, k), the right at (k, output column).
-/
import proofs.«140504_g18717467476370_cont_8to1_202_16_alg».proof.Proof.Gen.KernelIdeal.Skeleton
import Idealize.ShloMosaic.Lib.ValueIdx
import Idealize.ShloMosaic.PureOps.Ideal.Laws

noncomputable section

namespace Cert.Bridge.R0

open Idealize.ShloMosaic Idealize.ShloMosaic.ValueIdx
open Cert.KernelIdeal Cert.KernelIdeal.Gen

/-- Row coordinate of the left operand's entry: the output row. -/
theorem mmW1_l0 (i : S1000x256.Idx) (q : dot_S1000x128_S128x256_S1000x256_1_0_0_1_n_n.contr.Idx) :
    (dot_S1000x128_S128x256_S1000x256_1_0_0_1_n_n.lhsIdx i q 0).val = (i 0).val := by
  unfold DotDims.lhsIdx
  rw [dif_neg (show ¬(0 : Fin S1000x128.rank) ∈ dot_S1000x128_S128x256_S1000x256_1_0_0_1_n_n.lhsBatch by decide), dif_pos (show (0 : Fin S1000x128.rank) ∈ dot_S1000x128_S128x256_S1000x256_1_0_0_1_n_n.lhsNonContracting by decide)]
  rfl
/-- Column coordinate of the left operand's entry: the summation index. -/
theorem mmW1_l1 (i : S1000x256.Idx) (q : dot_S1000x128_S128x256_S1000x256_1_0_0_1_n_n.contr.Idx) :
    (dot_S1000x128_S128x256_S1000x256_1_0_0_1_n_n.lhsIdx i q 1).val = (q ⟨0, by decide⟩).val :=
  dot_S1000x128_S128x256_S1000x256_1_0_0_1_n_n.lhsIdx_val_of_single rfl i q
/-- Row coordinate of the right operand's entry: the summation index. -/
theorem mmW1_r0 (i : S1000x256.Idx) (q : dot_S1000x128_S128x256_S1000x256_1_0_0_1_n_n.contr.Idx) :
    (dot_S1000x128_S128x256_S1000x256_1_0_0_1_n_n.rhsIdx i q 0).val = (q ⟨0, by decide⟩).val :=
  dot_S1000x128_S128x256_S1000x256_1_0_0_1_n_n.rhsIdx_val_of_single rfl i q
/-- Column coordinate of the right operand's entry: the output column. -/
theorem mmW1_r1 (i : S1000x256.Idx) (q : dot_S1000x128_S128x256_S1000x256_1_0_0_1_n_n.contr.Idx) :
    (dot_S1000x128_S128x256_S1000x256_1_0_0_1_n_n.rhsIdx i q 1).val = (i 1).val := by
  unfold DotDims.rhsIdx
  rw [dif_neg (show ¬(1 : Fin S128x256.rank) ∈ dot_S1000x128_S128x256_S1000x256_1_0_0_1_n_n.rhsBatch by decide), dif_pos (show (1 : Fin S128x256.rank) ∈ dot_S1000x128_S128x256_S1000x256_1_0_0_1_n_n.rhsNonContracting by decide)]
  rfl

/-- A 1000 × 128 block times the 128 × 256 weights into zero, at entry (r, c): the sum over k of a(r, k) · b(k, c). -/
theorem mmW1_apply (a : FVec Ideal S1000x128 .f32) (b : FVec Ideal S128x256 .f32) (r : Fin 1000) (c : Fin 256) :
    matmul dot_S1000x128_S128x256_S1000x256_1_0_0_1_n_n none a b (constant (F := Ideal) S1000x256 .f32 0x00000000#32) (ix2 r c)
      = ∑ k : Fin 128, a (ix2 r k) * b (ix2 k c) := by
  simp only [matmul]
  rw [Ideal.matmul_constant_zero_apply, ← Equiv.sum_comp (contrEquiv1 dot_S1000x128_S128x256_S1000x256_1_0_0_1_n_n 128 rfl rfl).symm]
  refine Finset.sum_congr rfl fun k _ => ?_
  have hk := contrEquiv1_symm_val dot_S1000x128_S128x256_S1000x256_1_0_0_1_n_n 128 rfl rfl k
  have el : dot_S1000x128_S128x256_S1000x256_1_0_0_1_n_n.lhsIdx (ix2 r c) ((contrEquiv1 dot_S1000x128_S128x256_S1000x256_1_0_0_1_n_n 128 rfl rfl).symm k) = ix2 r k := funext fun x => Fin.ext (by
    match x with
    | ⟨0, _⟩ => exact mmW1_l0 _ _
    | ⟨1, _⟩ => exact (mmW1_l1 _ _).trans hk)
  have er : dot_S1000x128_S128x256_S1000x256_1_0_0_1_n_n.rhsIdx (ix2 r c) ((contrEquiv1 dot_S1000x128_S128x256_S1000x256_1_0_0_1_n_n 128 rfl rfl).symm k) = ix2 k c := funext fun x => Fin.ext (by
    match x with
    | ⟨0, _⟩ => exact (mmW1_r0 _ _).trans hk
    | ⟨1, _⟩ => exact mmW1_r1 _ _)
  rw [el, er]

end Cert.Bridge.R0

end
-- ==== Proof.R0Pay.lean ====
/-
  What one grid point of the first packing kernel computes, entry by entry.

  The point's block is the 1000 × 768 array  [B₀W₁ | B₁W₁ | B₂W₁]  where B_j is the point's 1000 × 128 block of rows of
  the j-th feature matrix and W₁ the whole 128 × 256 weight matrix: the three products are laid side by side along the
  columns and narrowed to bf16, which changes nothing over the extended reals. So column 256·j + k of block row r is
  ∑ₚ B_j(r, p) · W₁(p, k).  Block row r of point T is row 1000·T + r of the feature matrices, and the same sum is what the
  reference's first-layer product X_j·W₁ holds at (1000·T + r, k): the block is the point's rows of the packed array.
-/
import proofs.«140504_g18717467476370_cont_8to1_202_16_alg».proof.Proof.Gen.KernelIdeal.Skeleton
import proofs.«140504_g18717467476370_cont_8to1_202_16_alg».proof.Proof.Packed
import proofs.«140504_g18717467476370_cont_8to1_202_16_alg».proof.Proof.R0Mat
import Idealize.ShloMosaic.Lib.ValueIdx
import Idealize.ShloMosaic.Lib.Pipeline.Value
import Idealize.ShloMosaic.PureOps.Ideal.Laws

noncomputable section

namespace Cert.Bridge.R0

open Idealize.ShloMosaic Idealize.ShloMosaic.ValueIdx
open Cert.KernelIdeal Cert.KernelIdeal.Gen

/-- Columns 0 … 255 of three 1000 × 256 pieces laid side by side are the first piece. -/
theorem cat_lo (p0 p1 p2 : FVec Ideal S1000x256 .f32) (r : Fin 1000) (q : Fin 768) (h : q.val < 256) :
    concatenate S1000x768 1 [⟨S1000x256, p0⟩, ⟨S1000x256, p1⟩, ⟨S1000x256, p2⟩] concatenates_S1000x256_S1000x256_S1000x256_S1000x768_d1 (ix2 r q) = p0 (ix2 r ⟨q.val, h⟩) := by
  refine concatenate_apply_piece (1 : Fin S1000x768.rank) [⟨S1000x256, p0⟩, ⟨S1000x256, p1⟩, ⟨S1000x256, p2⟩] concatenates_S1000x256_S1000x256_S1000x256_S1000x768_d1 (ix2 r q) 0 (by simp) S1000x256 p0 rfl rfl 0 (by rfl) (ix2 r ⟨q.val, h⟩) (fun b hb => ?_) ?_
  · match b with
    | ⟨0, _⟩ => rfl
    | ⟨1, _⟩ => exact absurd rfl hb
  · show 0 + (q.val) = q.val
    omega

/-- Columns 256 … 511 are the second piece, shifted by 256. -/
theorem cat_mid (p0 p1 p2 : FVec Ideal S1000x256 .f32) (r : Fin 1000) (q : Fin 768) (hl : 256 ≤ q.val) (h : q.val < 512) :
    concatenate S1000x768 1 [⟨S1000x256, p0⟩, ⟨S1000x256, p1⟩, ⟨S1000x256, p2⟩] concatenates_S1000x256_S1000x256_S1000x256_S1000x768_d1 (ix2 r q) = p1 (ix2 r ⟨q.val - 256, by omega⟩) := by
  refine concatenate_apply_piece (1 : Fin S1000x768.rank) [⟨S1000x256, p0⟩, ⟨S1000x256, p1⟩, ⟨S1000x256, p2⟩] concatenates_S1000x256_S1000x256_S1000x256_S1000x768_d1 (ix2 r q) 1 (by simp) S1000x256 p1 rfl rfl 256 (by rfl) (ix2 r ⟨q.val - 256, by omega⟩) (fun b hb => ?_) ?_
  · match b with
    | ⟨0, _⟩ => rfl
    | ⟨1, _⟩ => exact absurd rfl hb
  · show 256 + (q.val - 256) = q.val
    omega

/-- Columns 512 … 767 are the third piece, shifted by 512. -/
theorem cat_hi (p0 p1 p2 : FVec Ideal S1000x256 .f32) (r : Fin 1000) (q : Fin 768) (hl : 512 ≤ q.val) (h : q.val < 768) :
    concatenate S1000x768 1 [⟨S1000x256, p0⟩, ⟨S1000x256, p1⟩, ⟨S1000x256, p2⟩] concatenates_S1000x256_S1000x256_S1000x256_S1000x768_d1 (ix2 r q) = p2 (ix2 r ⟨q.val - 512, by omega⟩) := by
  refine concatenate_apply_piece (1 : Fin S1000x768.rank) [⟨S1000x256, p0⟩, ⟨S1000x256, p1⟩, ⟨S1000x256, p2⟩] concatenates_S1000x256_S1000x256_S1000x256_S1000x768_d1 (ix2 r q) 2 (by simp) S1000x256 p2 rfl rfl 512 (by rfl) (ix2 r ⟨q.val - 512, by omega⟩) (fun b hb => ?_) ?_
  · match b with
    | ⟨0, _⟩ => rfl
    | ⟨1, _⟩ => exact absurd rfl hb
  · show 512 + (q.val - 512) = q.val
    omega

/-- The block at a column below 256: the first product. -/
theorem pay_lo (w : Vec Ideal S128x256 .f32) (b0 b1 b2 : Vec Ideal S1000x128 .f32) (r : Fin 1000) (q : Fin 768) (h : q.val < 256) :
    k0_pay1 w b0 b1 b2 (ix2 r q) = ∑ k : Fin 128, b0 (ix2 r k) * w (ix2 k ⟨q.val, h⟩) := by
  unfold k0_pay1
  refine (truncf_apply (ψ := .bf16) _ bitsLt_bf16_f32 _).trans ?_
  refine (cat_lo _ _ _ r q h).trans ?_
  exact mmW1_apply b0 w r ⟨q.val, h⟩

/-- The block at a column in 256 … 511: the second product. -/
theorem pay_mid (w : Vec Ideal S128x256 .f32) (b0 b1 b2 : Vec Ideal S1000x128 .f32) (r : Fin 1000) (q : Fin 768) (hl : 256 ≤ q.val) (h : q.val < 512) :
    k0_pay1 w b0 b1 b2 (ix2 r q) = ∑ k : Fin 128, b1 (ix2 r k) * w (ix2 k ⟨q.val - 256, by omega⟩) := by
  unfold k0_pay1
  refine (truncf_apply (ψ := .bf16) _ bitsLt_bf16_f32 _).trans ?_
  refine (cat_mid _ _ _ r q hl h).trans ?_
  exact mmW1_apply b1 w r ⟨q.val - 256, by omega⟩

/-- The block at a column in 512 … 767: the third product. -/
theorem pay_hi (w : Vec Ideal S128x256 .f32) (b0 b1 b2 : Vec Ideal S1000x128 .f32) (r : Fin 1000) (q : Fin 768) (hl : 512 ≤ q.val) (h : q.val < 768) :
    k0_pay1 w b0 b1 b2 (ix2 r q) = ∑ k : Fin 128, b2 (ix2 r k) * w (ix2 k ⟨q.val - 512, by omega⟩) := by
  unfold k0_pay1
  refine (truncf_apply (ψ := .bf16) _ bitsLt_bf16_f32 _).trans ?_
  refine (cat_hi _ _ _ r q hl h).trans ?_
  exact mmW1_apply b2 w r ⟨q.val - 512, by omega⟩

/-- The packed first-layer array at a column below 256: the reference's product X₀·W₁ there, a sum over 128. -/
theorem ag_lo (x0 x1 x2 : (⟨Cert.ReferenceIdeal.S10000x128, .f32⟩ : BufTy).Contents (Elt Ideal)) (x5 : (⟨Cert.ReferenceIdeal.S128x256, .f32⟩ : BufTy).Contents (Elt Ideal)) (R : Fin 10000) (q : Fin 768) (h : q.val < 256) :
    Cert.Bridge.agOf x0 x1 x2 x5 (ix2 R q) = ∑ k : Fin 128, x0 (ix2 R k) * x5 (ix2 k ⟨q.val, h⟩) := by
  unfold Cert.Bridge.agOf
  have c1 : ((ix2 R q : Cert.Bridge.P768.Idx) 1).val < 256 := h
  rw [dif_pos c1]
  show Cert.ReferenceIdeal.Read.val_main_v0 (F := Ideal) x0 x5 (ix2 R ⟨q.val, h⟩) = _
  refine (Cert.ReferenceIdeal.Read.val_main_v0_apply x0 x5 _).trans ?_
  refine Finset.sum_congr rfl fun k _ => ?_
  have el : Cert.ReferenceIdeal.Read.lidx_main_v0 (ix2 R ⟨q.val, h⟩) k = ix2 R k := funext fun a => by
    match a with
    | ⟨0, _⟩ => rfl
    | ⟨1, _⟩ => rfl
  have er : Cert.ReferenceIdeal.Read.ridx_main_v0 (ix2 R ⟨q.val, h⟩) k = ix2 k ⟨q.val, h⟩ := funext fun a => by
    match a with
    | ⟨0, _⟩ => rfl
    | ⟨1, _⟩ => rfl
  rw [el, er]

/-- At a column in 256 … 511: the reference's product X₁·W₁ at the column less 256. -/
theorem ag_mid (x0 x1 x2 : (⟨Cert.ReferenceIdeal.S10000x128, .f32⟩ : BufTy).Contents (Elt Ideal)) (x5 : (⟨Cert.ReferenceIdeal.S128x256, .f32⟩ : BufTy).Contents (Elt Ideal)) (R : Fin 10000) (q : Fin 768) (hl : 256 ≤ q.val) (h : q.val < 512) :
    Cert.Bridge.agOf x0 x1 x2 x5 (ix2 R q) = ∑ k : Fin 128, x1 (ix2 R k) * x5 (ix2 k ⟨q.val - 256, by omega⟩) := by
  unfold Cert.Bridge.agOf
  have c1 : ¬ ((ix2 R q : Cert.Bridge.P768.Idx) 1).val < 256 := Nat.not_lt.2 hl
  have c2 : ((ix2 R q : Cert.Bridge.P768.Idx) 1).val < 512 := h
  rw [dif_neg c1, dif_pos c2]
  show Cert.ReferenceIdeal.Read.val_main_v74 (F := Ideal) x1 x5 (ix2 R ⟨q.val - 256, by omega⟩) = _
  refine (Cert.ReferenceIdeal.Read.val_main_v74_apply x1 x5 _).trans ?_
  refine Finset.sum_congr rfl fun k _ => ?_
  have el : Cert.ReferenceIdeal.Read.lidx_main_v74 (ix2 R ⟨q.val - 256, by omega⟩) k = ix2 R k := funext fun a => by
    match a with
    | ⟨0, _⟩ => rfl
    | ⟨1, _⟩ => rfl
  have er : Cert.ReferenceIdeal.Read.ridx_main_v74 (ix2 R ⟨q.val - 256, by omega⟩) k = ix2 k ⟨q.val - 256, by omega⟩ := funext fun a => by
    match a with
    | ⟨0, _⟩ => rfl
    | ⟨1, _⟩ => rfl
  rw [el, er]

/-- At a column from 512 on: the reference's product X₂·W₁ at the column less 512. -/
theorem ag_hi (x0 x1 x2 : (⟨Cert.ReferenceIdeal.S10000x128, .f32⟩ : BufTy).Contents (Elt Ideal)) (x5 : (⟨Cert.ReferenceIdeal.S128x256, .f32⟩ : BufTy).Contents (Elt Ideal)) (R : Fin 10000) (q : Fin 768) (hl : 512 ≤ q.val) (h : q.val < 768) :
    Cert.Bridge.agOf x0 x1 x2 x5 (ix2 R q) = ∑ k : Fin 128, x2 (ix2 R k) * x5 (ix2 k ⟨q.val - 512, by omega⟩) := by
  unfold Cert.Bridge.agOf
  have c1 : ¬ ((ix2 R q : Cert.Bridge.P768.Idx) 1).val < 256 := Nat.not_lt.2 (by show 256 ≤ q.val; omega)
  have c2 : ¬ ((ix2 R q : Cert.Bridge.P768.Idx) 1).val < 512 := Nat.not_lt.2 hl
  rw [dif_neg c1, dif_neg c2]
  show Cert.ReferenceIdeal.Read.val_main_v79 (F := Ideal) x2 x5 (ix2 R ⟨q.val - 512, by omega⟩) = _
  refine (Cert.ReferenceIdeal.Read.val_main_v79_apply x2 x5 _).trans ?_
  refine Finset.sum_congr rfl fun k _ => ?_
  have el : Cert.ReferenceIdeal.Read.lidx_main_v79 (ix2 R ⟨q.val - 512, by omega⟩) k = ix2 R k := funext fun a => by
    match a with
    | ⟨0, _⟩ => rfl
    | ⟨1, _⟩ => rfl
  have er : Cert.ReferenceIdeal.Read.ridx_main_v79 (ix2 R ⟨q.val - 512, by omega⟩) k = ix2 k ⟨q.val - 512, by omega⟩ := funext fun a => by
    match a with
    | ⟨0, _⟩ => rfl
    | ⟨1, _⟩ => rfl
  rw [el, er]

/-- ONE GRID POINT: if the weight block is the whole W₁ and the three feature blocks are rows 1000·T … 1000·T + 999 of
    the feature matrices, the point's block is the same rows of the packed first-layer array. -/
theorem point_eq (x0 x1 x2 : (⟨Cert.ReferenceIdeal.S10000x128, .f32⟩ : BufTy).Contents (Elt Ideal)) (x5 : (⟨Cert.ReferenceIdeal.S128x256, .f32⟩ : BufTy).Contents (Elt Ideal))
    (w : Vec Ideal S128x256 .f32) (b0 b1 b2 : Vec Ideal S1000x128 .f32) (T : Nat) (hT : T < 10)
    (hw : ∀ (k : Fin 128) (c : Fin 256), w (ix2 k c) = x5 (ix2 k c))
    (h0 : ∀ (r : Fin 1000) (k : Fin 128), b0 (ix2 r k) = x0 (ix2 ⟨1000 * T + r.val, by have := r.isLt; omega⟩ k))
    (h1 : ∀ (r : Fin 1000) (k : Fin 128), b1 (ix2 r k) = x1 (ix2 ⟨1000 * T + r.val, by have := r.isLt; omega⟩ k))
    (h2 : ∀ (r : Fin 1000) (k : Fin 128), b2 (ix2 r k) = x2 (ix2 ⟨1000 * T + r.val, by have := r.isLt; omega⟩ k))
    (r : Fin 1000) (q : Fin 768) :
    k0_pay1 w b0 b1 b2 (ix2 r q)
      = Cert.Bridge.agOf x0 x1 x2 x5 (ix2 ⟨1000 * T + r.val, by have := r.isLt; omega⟩ q) := by
  by_cases ha : q.val < 256
  · rw [pay_lo w b0 b1 b2 r q ha, ag_lo x0 x1 x2 x5 _ q ha]
    exact Finset.sum_congr rfl fun k _ => by rw [h0, hw]
  · by_cases hb : q.val < 512
    · rw [pay_mid w b0 b1 b2 r q (by omega) hb, ag_mid x0 x1 x2 x5 _ q (by omega) hb]
      exact Finset.sum_congr rfl fun k _ => by rw [h1, hw]
    · rw [pay_hi w b0 b1 b2 r q (by omega) q.isLt, ag_hi x0 x1 x2 x5 _ q (by omega) q.isLt]
      exact Finset.sum_congr rfl fun k _ => by rw [h2, hw]

end Cert.Bridge.R0

end
-- ==== Proof.R0Final.lean ====
/-
  The first packing kernel's output array after all ten grid points.

  Point t (t = 0 … 9) reads rows 1000·t … 1000·t + 999 of the three feature matrices and the whole weight matrix W₁, and
  writes back a 1000 × 768 block to the same rows of the output array. That block is rows 1000·t … 1000·t + 999 of the
  packed first-layer array  [X₀W₁ | X₁W₁ | X₂W₁]  (one grid point, entry by entry), every row r of the array lies in
  the block of point r / 1000, and every point writes back: so the array ends as the packed array.
-/
import proofs.«140504_g18717467476370_cont_8to1_202_16_alg».proof.Proof.Gen.KernelIdeal.Frame
import proofs.«140504_g18717467476370_cont_8to1_202_16_alg».proof.Proof.Packed
import proofs.«140504_g18717467476370_cont_8to1_202_16_alg».proof.Proof.R0Pay
import Idealize.ShloMosaic.Lib.ValueIdx
import Idealize.ShloMosaic.Lib.Pipeline.Value

set_option maxRecDepth 16384

noncomputable section

namespace Cert.Bridge.R0

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- The first feature window's block index at point t: block row t, block column 0 (decided over the ten points). -/
theorem idx0_0 : ∀ t : Fin cfg0.N, win0_0.index t (0 : Fin 2) = t.val ∧ win0_0.index t (1 : Fin 2) = 0 :=
  (by decide +kernel : ∀ t : Fin grid0.N, _)

/-- The second feature window's block index at point t. -/
theorem idx0_1 : ∀ t : Fin cfg0.N, win0_1.index t (0 : Fin 2) = t.val ∧ win0_1.index t (1 : Fin 2) = 0 :=
  (by decide +kernel : ∀ t : Fin grid0.N, _)

/-- The third feature window's block index at point t. -/
theorem idx0_2 : ∀ t : Fin cfg0.N, win0_2.index t (0 : Fin 2) = t.val ∧ win0_2.index t (1 : Fin 2) = 0 :=
  (by decide +kernel : ∀ t : Fin grid0.N, _)

/-- The weight window stays at block (0, 0): the whole matrix at every point. -/
theorem idx0_3 : ∀ t : Fin cfg0.N, win0_3.index t (0 : Fin 2) = 0 ∧ win0_3.index t (1 : Fin 2) = 0 :=
  (by decide +kernel : ∀ t : Fin grid0.N, _)

/-- The output window's block index at point t: block row t. -/
theorem idx0_4 : ∀ t : Fin cfg0.N, win0_4.index t (0 : Fin 2) = t.val ∧ win0_4.index t (1 : Fin 2) = 0 :=
  (by decide +kernel : ∀ t : Fin grid0.N, _)

/-- The first feature block at point t is rows 1000·t … 1000·t + 999 of the first feature matrix. -/
theorem blk_x0 (V : (c : Dev nD) → (b : Ref sig .tc) → Buf (Elt Ideal) ((c : Thread nD τ).loc b)) (c : Dev nD) (t : Fin cfg0.N) (r : Fin 1000) (k : Fin 128) :
    (iblk0 V c 0 t : S1000x128.Idx → EReal) (ix2 r k)
      = (V c main_arg0 : S10000x128.Idx → EReal) (ix2 ⟨1000 * t.val + r.val, by have := r.isLt; have := t.isLt; have hN : cfg0.N = 10 := N_0; omega⟩ k) := by
  obtain ⟨e0, e1⟩ := idx0_0 t
  unfold iblk0
  rw [View.read_apply]
  show V c main_arg0 _ = V c main_arg0 _
  congr 1
  funext a
  apply Fin.ext
  match a with
  | ⟨0, _⟩ =>
    show win0_0.index t (0 : Fin 2) * 1000 + 1 * r.val = 1000 * t.val + r.val
    omega
  | ⟨1, _⟩ =>
    show win0_0.index t (1 : Fin 2) * 128 + 1 * k.val = k.val
    omega

/-- The second feature block at point t is the same rows of the second feature matrix. -/
theorem blk_x1 (V : (c : Dev nD) → (b : Ref sig .tc) → Buf (Elt Ideal) ((c : Thread nD τ).loc b)) (c : Dev nD) (t : Fin cfg0.N) (r : Fin 1000) (k : Fin 128) :
    (iblk0 V c 1 t : S1000x128.Idx → EReal) (ix2 r k)
      = (V c main_arg1 : S10000x128.Idx → EReal) (ix2 ⟨1000 * t.val + r.val, by have := r.isLt; have := t.isLt; have hN : cfg0.N = 10 := N_0; omega⟩ k) := by
  obtain ⟨e0, e1⟩ := idx0_1 t
  unfold iblk0
  rw [View.read_apply]
  show V c main_arg1 _ = V c main_arg1 _
  congr 1
  funext a
  apply Fin.ext
  match a with
  | ⟨0, _⟩ =>
    show win0_1.index t (0 : Fin 2) * 1000 + 1 * r.val = 1000 * t.val + r.val
    omega
  | ⟨1, _⟩ =>
    show win0_1.index t (1 : Fin 2) * 128 + 1 * k.val = k.val
    omega

/-- The third feature block at point t is the same rows of the third feature matrix. -/
theorem blk_x2 (V : (c : Dev nD) → (b : Ref sig .tc) → Buf (Elt Ideal) ((c : Thread nD τ).loc b)) (c : Dev nD) (t : Fin cfg0.N) (r : Fin 1000) (k : Fin 128) :
    (iblk0 V c 2 t : S1000x128.Idx → EReal) (ix2 r k)
      = (V c main_arg2 : S10000x128.Idx → EReal) (ix2 ⟨1000 * t.val + r.val, by have := r.isLt; have := t.isLt; have hN : cfg0.N = 10 := N_0; omega⟩ k) := by
  obtain ⟨e0, e1⟩ := idx0_2 t
  unfold iblk0
  rw [View.read_apply]
  show V c main_arg2 _ = V c main_arg2 _
  congr 1
  funext a
  apply Fin.ext
  match a with
  | ⟨0, _⟩ =>
    show win0_2.index t (0 : Fin 2) * 1000 + 1 * r.val = 1000 * t.val + r.val
    omega
  | ⟨1, _⟩ =>
    show win0_2.index t (1 : Fin 2) * 128 + 1 * k.val = k.val
    omega

/-- The weight block at every point is the whole weight matrix. -/
theorem blk_w1 (V : (c : Dev nD) → (b : Ref sig .tc) → Buf (Elt Ideal) ((c : Thread nD τ).loc b)) (c : Dev nD) (t : Fin cfg0.N) (r : Fin 128) (k : Fin 256) :
    (iblk0 V c 3 t : S128x256.Idx → EReal) (ix2 r k)
      = (V c main_arg5 : S128x256.Idx → EReal) (ix2 r k) := by
  obtain ⟨e0, e1⟩ := idx0_3 t
  unfold iblk0
  rw [View.read_apply]
  show V c main_arg5 _ = V c main_arg5 _
  congr 1
  funext a
  apply Fin.ext
  match a with
  | ⟨0, _⟩ =>
    show win0_3.index t (0 : Fin 2) * 128 + 1 * r.val = r.val
    omega
  | ⟨1, _⟩ =>
    show win0_3.index t (1 : Fin 2) * 256 + 1 * k.val = k.val
    omega

/-- WHAT POINT t WRITES BACK is block t of the packed first-layer array of the region's input arrays. -/
theorem flushed_eq (V : (c : Dev nD) → (b : Ref sig .tc) → Buf (Elt Ideal) ((c : Thread nD τ).loc b)) (c : Dev nD) (t : Fin cfg0.N) :
    (dat0 V c).flushed 4 t = ((cfg0.win 4).blk t).view.read (Elt Ideal)
      (Cert.Bridge.agOf (V c main_arg0) (V c main_arg1) (V c main_arg2) (V c main_arg5)) := by
  have hN : cfg0.N = 10 := N_0
  have ht : t.val < 10 := by have := t.isLt; omega
  obtain ⟨e0, e1⟩ := idx0_4 t
  show (cfg0.win 4).cut (grid0.coords t) ((dat0 V c).after 4 t) = _
  rw [after0_4]
  unfold out0_4
  rw [View.canon_unit_zero hz]
  simp only [View.ld_unit_zero (S := S128x256) hz, View.ld_unit_zero (S := S1000x128) hz]
  funext j
  obtain ⟨r, q, rfl⟩ : ∃ (r : Fin 1000) (q : Fin 768), j = (ix2 r q : S1000x768.Idx) := ⟨j 0, j 1, eq_ix2 (n0 := 1000) (n1 := 768) j⟩
  have hemb : ((cfg0.win 4).blk t).view.emb (ix2 r q : S1000x768.Idx)
      = (ix2 ⟨1000 * t.val + r.val, by have := r.isLt; omega⟩ q : S10000x768.Idx) := by
    funext a
    apply Fin.ext
    match a with
    | ⟨0, _⟩ =>
      show win0_4.index t (0 : Fin 2) * 1000 + 1 * r.val = 1000 * t.val + r.val
      omega
    | ⟨1, _⟩ =>
      show win0_4.index t (1 : Fin 2) * 768 + 1 * q.val = q.val
      omega
  show k0_pay1 (iblk0 V c 3 t) (iblk0 V c 0 t) (iblk0 V c 1 t) (iblk0 V c 2 t) (ix2 r q)
    = Cert.Bridge.agOf (V c main_arg0) (V c main_arg1) (V c main_arg2) (V c main_arg5) (((cfg0.win 4).blk t).view.emb (ix2 r q : S1000x768.Idx))
  rw [hemb]
  exact point_eq (V c main_arg0) (V c main_arg1) (V c main_arg2) (V c main_arg5)
    (iblk0 V c 3 t) (iblk0 V c 0 t) (iblk0 V c 1 t) (iblk0 V c 2 t) t.val ht
    (fun k c' => blk_w1 V c t k c') (fun r k => blk_x0 V c t r k) (fun r k => blk_x1 V c t r k) (fun r k => blk_x2 V c t r k) r q

/-- A row-and-column index of the output array is in point t's block iff each coordinate is in the block's range. -/
theorem mem_blk (t : Fin cfg0.N) (i : S10000x768.Idx) :
    i ∈ ((cfg0.win 4).blk t).view.set ↔ ∀ a : Fin 2, win0_4.index t a * S1000x768.size a ≤ (i a).val
      ∧ (i a).val < win0_4.index t a * S1000x768.size a + S1000x768.size a := by
  show i ∈ ((View.whole main_v7).slice (win0_4.rect t)).set ↔ _
  rw [View.set_slice_whole, Rect.mem_set_unit]
  exact Iff.rfl

/-- Row r of the output array lies in the block of point r / 1000, and that point writes back. -/
theorem cover (i : S10000x768.Idx) :
    ∃ t : Fin cfg0.N, (cfg0.win 4).flush t = true ∧ i ∈ ((cfg0.win 4).blk t).view.set := by
  have hN : cfg0.N = 10 := N_0
  have hi0 : (i 0).val < 10000 := (i 0).isLt
  have hi1 : (i 1).val < 768 := (i 1).isLt
  obtain ⟨t, ht⟩ : ∃ t : Fin cfg0.N, t.val = (i 0).val / 1000 := ⟨⟨(i 0).val / 1000, by omega⟩, rfl⟩
  obtain ⟨e0, e1⟩ := idx0_4 t
  refine ⟨t, flush0_4 t, ?_⟩
  rw [mem_blk]
  intro a
  match a with
  | ⟨0, _⟩ =>
    show win0_4.index t (0 : Fin 2) * 1000 ≤ (i 0).val ∧ (i 0).val < win0_4.index t (0 : Fin 2) * 1000 + 1000
    omega
  | ⟨1, _⟩ =>
    show win0_4.index t (1 : Fin 2) * 768 ≤ (i 1).val ∧ (i 1).val < win0_4.index t (1 : Fin 2) * 768 + 768
    omega

/-- THE OUTPUT ARRAY after all grid points is the packed first-layer array of the region's input arrays. -/
theorem final (V : (c : Dev nD) → (b : Ref sig .tc) → Buf (Elt Ideal) ((c : Thread nD τ).loc b)) (c : Dev nD) :
    (dat0 V c).arrAt 4 cfg0.N = Cert.Bridge.agOf (V c main_arg0) (V c main_arg1) (V c main_arg2) (V c main_arg5) :=
  (dat0 V c).arrAt_eq_of_cover 4 _ (fun t _ => flushed_eq V c t) (fun i => cover i)

end Cert.Bridge.R0

end
-- ==== Proof.R1Mat.lean ====
/-
  The two block products of the second packing kernel, read at an entry.

  At each grid point the kernel multiplies a 400 × 10000 block of adjacency rows by the whole 10000 × 768 packed
  first-layer array, and then each rectified 400 × 256 slice of the result by the 256 × 64 weights W₂, both into zero.
  Over the extended reals each product's entry (r, c) is the plain sum over the inner positions k of  a(r, k) · b(k, c).
-/
import proofs.«140504_g18717467476370_cont_8to1_202_16_alg».proof.Proof.Gen.KernelIdeal.Skeleton
import Idealize.ShloMosaic.Lib.ValueIdx
import Idealize.ShloMosaic.PureOps.Ideal.Laws

noncomputable section

namespace Cert.Bridge.R1

open Idealize.ShloMosaic Idealize.ShloMosaic.ValueIdx
open Cert.KernelIdeal Cert.KernelIdeal.Gen

/-- Row coordinate of the left operand's entry: the output row. -/
theorem mmAdj_l0 (i : S400x768.Idx) (q : dot_S400x10000_S10000x768_S400x768_1_0_0_1_n_n.contr.Idx) :
    (dot_S400x10000_S10000x768_S400x768_1_0_0_1_n_n.lhsIdx i q 0).val = (i 0).val := by
  unfold DotDims.lhsIdx
  rw [dif_neg (show ¬(0 : Fin S400x10000.rank) ∈ dot_S400x10000_S10000x768_S400x768_1_0_0_1_n_n.lhsBatch by decide), dif_pos (show (0 : Fin S400x10000.rank) ∈ dot_S400x10000_S10000x768_S400x768_1_0_0_1_n_n.lhsNonContracting by decide)]
  rfl
/-- Column coordinate of the left operand's entry: the summation index. -/
theorem mmAdj_l1 (i : S400x768.Idx) (q : dot_S400x10000_S10000x768_S400x768_1_0_0_1_n_n.contr.Idx) :
    (dot_S400x10000_S10000x768_S400x768_1_0_0_1_n_n.lhsIdx i q 1).val = (q ⟨0, by decide⟩).val :=
  dot_S400x10000_S10000x768_S400x768_1_0_0_1_n_n.lhsIdx_val_of_single rfl i q
/-- Row coordinate of the right operand's entry: the summation index. -/
theorem mmAdj_r0 (i : S400x768.Idx) (q : dot_S400x10000_S10000x768_S400x768_1_0_0_1_n_n.contr.Idx) :
    (dot_S400x10000_S10000x768_S400x768_1_0_0_1_n_n.rhsIdx i q 0).val = (q ⟨0, by decide⟩).val :=
  dot_S400x10000_S10000x768_S400x768_1_0_0_1_n_n.rhsIdx_val_of_single rfl i q
/-- Column coordinate of the right operand's entry: the output column. -/
theorem mmAdj_r1 (i : S400x768.Idx) (q : dot_S400x10000_S10000x768_S400x768_1_0_0_1_n_n.contr.Idx) :
    (dot_S400x10000_S10000x768_S400x768_1_0_0_1_n_n.rhsIdx i q 1).val = (i 1).val := by
  unfold DotDims.rhsIdx
  rw [dif_neg (show ¬(1 : Fin S10000x768.rank) ∈ dot_S400x10000_S10000x768_S400x768_1_0_0_1_n_n.rhsBatch by decide), dif_pos (show (1 : Fin S10000x768.rank) ∈ dot_S400x10000_S10000x768_S400x768_1_0_0_1_n_n.rhsNonContracting by decide)]
  rfl

/-- A 400 × 10000 block of adjacency rows times the 10000 × 768 packed array into zero, at entry (r, c): the sum over the 10000 nodes p of a(r, p) · b(p, c). -/
theorem mmAdj_apply (a : FVec Ideal S400x10000 .f32) (b : FVec Ideal S10000x768 .bf16) (r : Fin 400) (c : Fin 768) :
    matmul dot_S400x10000_S10000x768_S400x768_1_0_0_1_n_n none a b (constant (F := Ideal) S400x768 .f32 0x00000000#32) (ix2 r c)
      = ∑ k : Fin 10000, a (ix2 r k) * b (ix2 k c) := by
  simp only [matmul]
  rw [Ideal.matmul_constant_zero_apply, ← Equiv.sum_comp (contrEquiv1 dot_S400x10000_S10000x768_S400x768_1_0_0_1_n_n 10000 rfl rfl).symm]
  refine Finset.sum_congr rfl fun k _ => ?_
  have hk := contrEquiv1_symm_val dot_S400x10000_S10000x768_S400x768_1_0_0_1_n_n 10000 rfl rfl k
  have el : dot_S400x10000_S10000x768_S400x768_1_0_0_1_n_n.lhsIdx (ix2 r c) ((contrEquiv1 dot_S400x10000_S10000x768_S400x768_1_0_0_1_n_n 10000 rfl rfl).symm k) = ix2 r k := funext fun x => Fin.ext (by
    match x with
    | ⟨0, _⟩ => exact mmAdj_l0 _ _
    | ⟨1, _⟩ => exact (mmAdj_l1 _ _).trans hk)
  have er : dot_S400x10000_S10000x768_S400x768_1_0_0_1_n_n.rhsIdx (ix2 r c) ((contrEquiv1 dot_S400x10000_S10000x768_S400x768_1_0_0_1_n_n 10000 rfl rfl).symm k) = ix2 k c := funext fun x => Fin.ext (by
    match x with
    | ⟨0, _⟩ => exact (mmAdj_r0 _ _).trans hk
    | ⟨1, _⟩ => exact mmAdj_r1 _ _)
  rw [el, er]

/-- Row coordinate of the left operand's entry: the output row. -/
theorem mmW2_l0 (i : S400x64.Idx) (q : dot_S400x256_S256x64_S400x64_1_0_0_1_n_n.contr.Idx) :
    (dot_S400x256_S256x64_S400x64_1_0_0_1_n_n.lhsIdx i q 0).val = (i 0).val := by
  unfold DotDims.lhsIdx
  rw [dif_neg (show ¬(0 : Fin S400x256.rank) ∈ dot_S400x256_S256x64_S400x64_1_0_0_1_n_n.lhsBatch by decide), dif_pos (show (0 : Fin S400x256.rank) ∈ dot_S400x256_S256x64_S400x64_1_0_0_1_n_n.lhsNonContracting by decide)]
  rfl
/-- Column coordinate of the left operand's entry: the summation index. -/
theorem mmW2_l1 (i : S400x64.Idx) (q : dot_S400x256_S256x64_S400x64_1_0_0_1_n_n.contr.Idx) :
    (dot_S400x256_S256x64_S400x64_1_0_0_1_n_n.lhsIdx i q 1).val = (q ⟨0, by decide⟩).val :=
  dot_S400x256_S256x64_S400x64_1_0_0_1_n_n.lhsIdx_val_of_single rfl i q
/-- Row coordinate of the right operand's entry: the summation index. -/
theorem mmW2_r0 (i : S400x64.Idx) (q : dot_S400x256_S256x64_S400x64_1_0_0_1_n_n.contr.Idx) :
    (dot_S400x256_S256x64_S400x64_1_0_0_1_n_n.rhsIdx i q 0).val = (q ⟨0, by decide⟩).val :=
  dot_S400x256_S256x64_S400x64_1_0_0_1_n_n.rhsIdx_val_of_single rfl i q
/-- Column coordinate of the right operand's entry: the output column. -/
theorem mmW2_r1 (i : S400x64.Idx) (q : dot_S400x256_S256x64_S400x64_1_0_0_1_n_n.contr.Idx) :
    (dot_S400x256_S256x64_S400x64_1_0_0_1_n_n.rhsIdx i q 1).val = (i 1).val := by
  unfold DotDims.rhsIdx
  rw [dif_neg (show ¬(1 : Fin S256x64.rank) ∈ dot_S400x256_S256x64_S400x64_1_0_0_1_n_n.rhsBatch by decide), dif_pos (show (1 : Fin S256x64.rank) ∈ dot_S400x256_S256x64_S400x64_1_0_0_1_n_n.rhsNonContracting by decide)]
  rfl

/-- A 400 × 256 block times the 256 × 64 weights into zero, at entry (r, c): the sum over k of a(r, k) · b(k, c). -/
theorem mmW2_apply (a : FVec Ideal S400x256 .f32) (b : FVec Ideal S256x64 .f32) (r : Fin 400) (c : Fin 64) :
    matmul dot_S400x256_S256x64_S400x64_1_0_0_1_n_n none a b (constant (F := Ideal) S400x64 .f32 0x00000000#32) (ix2 r c)
      = ∑ k : Fin 256, a (ix2 r k) * b (ix2 k c) := by
  simp only [matmul]
  rw [Ideal.matmul_constant_zero_apply, ← Equiv.sum_comp (contrEquiv1 dot_S400x256_S256x64_S400x64_1_0_0_1_n_n 256 rfl rfl).symm]
  refine Finset.sum_congr rfl fun k _ => ?_
  have hk := contrEquiv1_symm_val dot_S400x256_S256x64_S400x64_1_0_0_1_n_n 256 rfl rfl k
  have el : dot_S400x256_S256x64_S400x64_1_0_0_1_n_n.lhsIdx (ix2 r c) ((contrEquiv1 dot_S400x256_S256x64_S400x64_1_0_0_1_n_n 256 rfl rfl).symm k) = ix2 r k := funext fun x => Fin.ext (by
    match x with
    | ⟨0, _⟩ => exact mmW2_l0 _ _
    | ⟨1, _⟩ => exact (mmW2_l1 _ _).trans hk)
  have er : dot_S400x256_S256x64_S400x64_1_0_0_1_n_n.rhsIdx (ix2 r c) ((contrEquiv1 dot_S400x256_S256x64_S400x64_1_0_0_1_n_n 256 rfl rfl).symm k) = ix2 k c := funext fun x => Fin.ext (by
    match x with
    | ⟨0, _⟩ => exact (mmW2_r0 _ _).trans hk
    | ⟨1, _⟩ => exact mmW2_r1 _ _)
  rw [el, er]

end Cert.Bridge.R1

end
-- ==== Proof.R1Pay.lean ====
/-
  What one grid point of the second packing kernel computes, entry by entry.

  The point multiplies its 400 × 10000 block A_T of adjacency rows by the whole packed first-layer array G (10000 × 768),
  cuts the 400 × 768 product into its three 400 × 256 column slices, rectifies each (maximum with 0), multiplies each by
  the 256 × 64 weights W₂, and lays the three 400 × 64 results side by side, narrowed to bf16 (the identity over the
  extended reals). So column 64·j + c of block row r is
      ∑ₖ max(∑ₚ A_T(r, p) · G(p, 256·j + k), 0) · W₂(k, c).
-/
import proofs.«140504_g18717467476370_cont_8to1_202_16_alg».proof.Proof.Gen.KernelIdeal.Skeleton
import proofs.«140504_g18717467476370_cont_8to1_202_16_alg».proof.Proof.R1Mat
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.R1

open Idealize.ShloMosaic Idealize.ShloMosaic.ValueIdx
open Cert.KernelIdeal Cert.KernelIdeal.Gen

/-- Columns 0 … 63 of three 400 × 64 pieces laid side by side are the first piece. -/
theorem cat_lo (p0 p1 p2 : FVec Ideal S400x64 .f32) (r : Fin 400) (q : Fin 192) (h : q.val < 64) :
    concatenate S400x192 1 [⟨S400x64, p0⟩, ⟨S400x64, p1⟩, ⟨S400x64, p2⟩] concatenates_S400x64_S400x64_S400x64_S400x192_d1 (ix2 r q) = p0 (ix2 r ⟨q.val, h⟩) := by
  refine concatenate_apply_piece (1 : Fin S400x192.rank) [⟨S400x64, p0⟩, ⟨S400x64, p1⟩, ⟨S400x64, p2⟩] concatenates_S400x64_S400x64_S400x64_S400x192_d1 (ix2 r q) 0 (by simp) S400x64 p0 rfl rfl 0 (by rfl) (ix2 r ⟨q.val, h⟩) (fun b hb => ?_) ?_
  · match b with
    | ⟨0, _⟩ => rfl
    | ⟨1, _⟩ => exact absurd rfl hb
  · show 0 + (q.val) = q.val
    omega

/-- Columns 64 … 127 are the second piece, shifted by 64. -/
theorem cat_mid (p0 p1 p2 : FVec Ideal S400x64 .f32) (r : Fin 400) (q : Fin 192) (hl : 64 ≤ q.val) (h : q.val < 128) :
    concatenate S400x192 1 [⟨S400x64, p0⟩, ⟨S400x64, p1⟩, ⟨S400x64, p2⟩] concatenates_S400x64_S400x64_S400x64_S400x192_d1 (ix2 r q) = p1 (ix2 r ⟨q.val - 64, by omega⟩) := by
  refine concatenate_apply_piece (1 : Fin S400x192.rank) [⟨S400x64, p0⟩, ⟨S400x64, p1⟩, ⟨S400x64, p2⟩] concatenates_S400x64_S400x64_S400x64_S400x192_d1 (ix2 r q) 1 (by simp) S400x64 p1 rfl rfl 64 (by rfl) (ix2 r ⟨q.val - 64, by omega⟩) (fun b hb => ?_) ?_
  · match b with
    | ⟨0, _⟩ => rfl
    | ⟨1, _⟩ => exact absurd rfl hb
  · show 64 + (q.val - 64) = q.val
    omega

/-- Columns 128 … 191 are the third piece, shifted by 128. -/
theorem cat_hi (p0 p1 p2 : FVec Ideal S400x64 .f32) (r : Fin 400) (q : Fin 192) (hl : 128 ≤ q.val) (h : q.val < 192) :
    concatenate S400x192 1 [⟨S400x64, p0⟩, ⟨S400x64, p1⟩, ⟨S400x64, p2⟩] concatenates_S400x64_S400x64_S400x64_S400x192_d1 (ix2 r q) = p2 (ix2 r ⟨q.val - 128, by omega⟩) := by
  refine concatenate_apply_piece (1 : Fin S400x192.rank) [⟨S400x64, p0⟩, ⟨S400x64, p1⟩, ⟨S400x64, p2⟩] concatenates_S400x64_S400x64_S400x64_S400x192_d1 (ix2 r q) 2 (by simp) S400x64 p2 rfl rfl 128 (by rfl) (ix2 r ⟨q.val - 128, by omega⟩) (fun b hb => ?_) ?_
  · match b with
    | ⟨0, _⟩ => rfl
    | ⟨1, _⟩ => exact absurd rfl hb
  · show 128 + (q.val - 128) = q.val
    omega

/-- A rectified column slice of the big product at an entry: the slice starting at column o, at (r, k), is the maximum
    with 0 of the product's entry (r, o + k), a sum over the 10000 nodes. -/
theorem hid_apply (a : FVec Ideal S400x10000 .f32) (g : FVec Ideal S10000x768 .bf16) (o : Nat)
    (hs : S400x768.Slices ![0, o] S400x256) (ho : o + 256 ≤ 768) (r : Fin 400) (k : Fin 256) :
    maximumf (extractStridedSlice S400x256 ![0, o]
        (matmul dot_S400x10000_S10000x768_S400x768_1_0_0_1_n_n none a (shapeCast S10000x768 g shapeCasts_S10000x768_S10000x768)
          (constant (F := Ideal) S400x768 .f32 0x00000000#32)) hs)
      (broadcast S400x256 (Scalar.ofBits (F := Ideal) .f32 0x00000000#32)) (ix2 r k)
      = max (∑ p : Fin 10000, a (ix2 r p) * g (ix2 p ⟨o + k.val, by have := k.isLt; omega⟩))
          (Ideal.ofBits .f32 0x00000000#32) := by
  refine (maximumf_apply _ _ _).trans ?_
  refine congrArg₂ max ?_ rfl
  refine (slice2_axis1_apply o _ hs r k ⟨o + k.val, by have := k.isLt; omega⟩ rfl).trans ?_
  refine (mmAdj_apply a _ r _).trans ?_
  rw [shapeCast_self]

/-- The block at a column below 64: the first rectified slice times W₂. -/
theorem pay_lo (a : Vec Ideal S400x10000 .f32) (g : Vec Ideal S10000x768 .bf16) (w : Vec Ideal S256x64 .f32)
    (r : Fin 400) (q : Fin 192) (h : q.val < 64) :
    k1_pay1 a g w (ix2 r q)
      = ∑ k : Fin 256, max (∑ p : Fin 10000, a (ix2 r p) * g (ix2 p ⟨0 + k.val, by have := k.isLt; omega⟩))
          (Ideal.ofBits .f32 0x00000000#32) * w (ix2 k ⟨q.val, h⟩) := by
  unfold k1_pay1
  refine (truncf_apply (ψ := .bf16) _ bitsLt_bf16_f32 _).trans ?_
  refine (cat_lo _ _ _ r q h).trans ?_
  refine (mmW2_apply _ w r ⟨q.val, h⟩).trans ?_
  refine Finset.sum_congr rfl fun k _ => ?_
  exact congrArg (· * w (ix2 k ⟨q.val, h⟩)) (hid_apply a g 0 slices_S400x768_o0_0_S400x256 (by omega) r k)

/-- The block at a column in 64 … 127: the second rectified slice times W₂. -/
theorem pay_mid (a : Vec Ideal S400x10000 .f32) (g : Vec Ideal S10000x768 .bf16) (w : Vec Ideal S256x64 .f32)
    (r : Fin 400) (q : Fin 192) (hl : 64 ≤ q.val) (h : q.val < 128) :
    k1_pay1 a g w (ix2 r q)
      = ∑ k : Fin 256, max (∑ p : Fin 10000, a (ix2 r p) * g (ix2 p ⟨256 + k.val, by have := k.isLt; omega⟩))
          (Ideal.ofBits .f32 0x00000000#32) * w (ix2 k ⟨q.val - 64, by omega⟩) := by
  unfold k1_pay1
  refine (truncf_apply (ψ := .bf16) _ bitsLt_bf16_f32 _).trans ?_
  refine (cat_mid _ _ _ r q hl h).trans ?_
  refine (mmW2_apply _ w r ⟨q.val - 64, by omega⟩).trans ?_
  refine Finset.sum_congr rfl fun k _ => ?_
  exact congrArg (· * w (ix2 k ⟨q.val - 64, by omega⟩)) (hid_apply a g 256 slices_S400x768_o0_256_S400x256 (by omega) r k)

/-- The block at a column in 128 … 191: the third rectified slice times W₂. -/
theorem pay_hi (a : Vec Ideal S400x10000 .f32) (g : Vec Ideal S10000x768 .bf16) (w : Vec Ideal S256x64 .f32)
    (r : Fin 400) (q : Fin 192) (hl : 128 ≤ q.val) (h : q.val < 192) :
    k1_pay1 a g w (ix2 r q)
      = ∑ k : Fin 256, max (∑ p : Fin 10000, a (ix2 r p) * g (ix2 p ⟨512 + k.val, by have := k.isLt; omega⟩))
          (Ideal.ofBits .f32 0x00000000#32) * w (ix2 k ⟨q.val - 128, by omega⟩) := by
  unfold k1_pay1
  refine (truncf_apply (ψ := .bf16) _ bitsLt_bf16_f32 _).trans ?_
  refine (cat_hi _ _ _ r q hl h).trans ?_
  refine (mmW2_apply _ w r ⟨q.val - 128, by omega⟩).trans ?_
  refine Finset.sum_congr rfl fun k _ => ?_
  exact congrArg (· * w (ix2 k ⟨q.val - 128, by omega⟩)) (hid_apply a g 512 slices_S400x768_o0_512_S400x256 (by omega) r k)

end Cert.Bridge.R1

end
-- ==== Proof.R1Spec.lean ====
/-
  The two packed arrays read at an entry, through the reference program's own stages.

  A column of the packed first-layer array is a column of one of the three first-layer products X_j·W₁. An entry of the
  packed second-layer array, column 64·j + c of row R, is the reference's product H_j·W₂ at (R, c):
      ∑ₖ max(∑ₚ A(R, p) · (X_j·W₁)(p, k), 0) · W₂(k, c),
  the inner sum being the reference's product A·(X_j·W₁), the maximum with its broadcast zero its rectifier.
-/
import proofs.«140504_g18717467476370_cont_8to1_202_16_alg».proof.Proof.Packed
import Idealize.ShloMosaic.Lib.ValueIdx

noncomputable section

namespace Cert.Bridge.R1

open Idealize.ShloMosaic Idealize.ShloMosaic.ValueIdx

/-- Column k < 256 of the packed first-layer array is column k of X₀·W₁. -/
theorem ag_col_lo (x0 x1 x2 : (⟨Cert.ReferenceIdeal.S10000x128, .f32⟩ : BufTy).Contents (Elt Ideal)) (x5 : (⟨Cert.ReferenceIdeal.S128x256, .f32⟩ : BufTy).Contents (Elt Ideal)) (p : Fin 10000) (k : Fin 256) (c : Fin 768)
    (hc : c.val = k.val) :
    Cert.Bridge.agOf x0 x1 x2 x5 (ix2 p c) = Cert.ReferenceIdeal.Read.val_main_v0 (F := Ideal) x0 x5 (ix2 p k) := by
  have hk := k.isLt
  unfold Cert.Bridge.agOf
  have c1 : ((ix2 p c : Cert.Bridge.P768.Idx) 1).val < 256 := by show c.val < 256; omega
  rw [dif_pos c1]
  congr 1
  funext a
  match a with
  | ⟨0, _⟩ => rfl
  | ⟨1, _⟩ => exact Fin.ext (by show c.val = k.val; omega)

/-- Column 256 + k of the packed first-layer array is column k of X₁·W₁. -/
theorem ag_col_mid (x0 x1 x2 : (⟨Cert.ReferenceIdeal.S10000x128, .f32⟩ : BufTy).Contents (Elt Ideal)) (x5 : (⟨Cert.ReferenceIdeal.S128x256, .f32⟩ : BufTy).Contents (Elt Ideal)) (p : Fin 10000) (k : Fin 256) (c : Fin 768)
    (hc : c.val = 256 + k.val) :
    Cert.Bridge.agOf x0 x1 x2 x5 (ix2 p c) = Cert.ReferenceIdeal.Read.val_main_v74 (F := Ideal) x1 x5 (ix2 p k) := by
  have hk := k.isLt
  unfold Cert.Bridge.agOf
  have c1 : ¬ ((ix2 p c : Cert.Bridge.P768.Idx) 1).val < 256 := Nat.not_lt.2 (by show 256 ≤ c.val; omega)
  have c2 : ((ix2 p c : Cert.Bridge.P768.Idx) 1).val < 512 := by show c.val < 512; omega
  rw [dif_neg c1, dif_pos c2]
  congr 1
  funext a
  match a with
  | ⟨0, _⟩ => rfl
  | ⟨1, _⟩ => exact Fin.ext (by show c.val - 256 = k.val; omega)

/-- Column 512 + k of the packed first-layer array is column k of X₂·W₁. -/
theorem ag_col_hi (x0 x1 x2 : (⟨Cert.ReferenceIdeal.S10000x128, .f32⟩ : BufTy).Contents (Elt Ideal)) (x5 : (⟨Cert.ReferenceIdeal.S128x256, .f32⟩ : BufTy).Contents (Elt Ideal)) (p : Fin 10000) (k : Fin 256) (c : Fin 768)
    (hc : c.val = 512 + k.val) :
    Cert.Bridge.agOf x0 x1 x2 x5 (ix2 p c) = Cert.ReferenceIdeal.Read.val_main_v79 (F := Ideal) x2 x5 (ix2 p k) := by
  have hk := k.isLt
  unfold Cert.Bridge.agOf
  have c1 : ¬ ((ix2 p c : Cert.Bridge.P768.Idx) 1).val < 256 := Nat.not_lt.2 (by show 256 ≤ c.val; omega)
  have c2 : ¬ ((ix2 p c : Cert.Bridge.P768.Idx) 1).val < 512 := Nat.not_lt.2 (by show 512 ≤ c.val; omega)
  rw [dif_neg c1, dif_neg c2]
  congr 1
  funext a
  match a with
  | ⟨0, _⟩ => rfl
  | ⟨1, _⟩ => exact Fin.ext (by show c.val - 512 = k.val; omega)

/-- The packed second-layer array at a column below 64: the reference's H₀·W₂ there, written out to the first-layer product. -/
theorem bg_lo (x0 x1 x2 : (⟨Cert.ReferenceIdeal.S10000x128, .f32⟩ : BufTy).Contents (Elt Ideal)) (x3 : (⟨Cert.ReferenceIdeal.S10000x10000, .f32⟩ : BufTy).Contents (Elt Ideal)) (x5 : (⟨Cert.ReferenceIdeal.S128x256, .f32⟩ : BufTy).Contents (Elt Ideal)) (x6 : (⟨Cert.ReferenceIdeal.S256x64, .f32⟩ : BufTy).Contents (Elt Ideal))
    (R : Fin 10000) (q : Fin 192) (h : q.val < 64) :
    Cert.Bridge.bgOf x0 x1 x2 x3 x5 x6 (ix2 R q)
      = ∑ k : Fin 256, max (∑ p : Fin 10000, x3 (ix2 R p) * Cert.ReferenceIdeal.Read.val_main_v0 (F := Ideal) x0 x5 (ix2 p k))
          (Ideal.ofBits .f32 0x00000000#32) * x6 (ix2 k ⟨q.val, h⟩) := by
  unfold Cert.Bridge.bgOf
  have c1 : ((ix2 R q : Cert.Bridge.P192.Idx) 1).val < 64 := h
  rw [dif_pos c1]
  show Cert.ReferenceIdeal.Read.val_main_v3 (F := Ideal) x0 x3 x5 x6 (ix2 R ⟨q.val, h⟩) = _
  refine (Cert.ReferenceIdeal.Read.val_main_v3_apply x0 x3 x5 x6 _).trans ?_
  refine Finset.sum_congr rfl fun k _ => ?_
  have el : Cert.ReferenceIdeal.Read.lidx_main_v3 (ix2 R ⟨q.val, h⟩) k = ix2 R k := funext fun a => by
    match a with
    | ⟨0, _⟩ => rfl
    | ⟨1, _⟩ => rfl
  have er : Cert.ReferenceIdeal.Read.ridx_main_v3 (ix2 R ⟨q.val, h⟩) k = ix2 k ⟨q.val, h⟩ := funext fun a => by
    match a with
    | ⟨0, _⟩ => rfl
    | ⟨1, _⟩ => rfl
  rw [el, er]
  refine congrArg (· * x6 (ix2 k ⟨q.val, h⟩)) ?_
  refine (Cert.ReferenceIdeal.Read.val_main_v2_apply x0 x3 x5 (ix2 R k)).trans ?_
  refine congrArg₂ max ?_ ?_
  · refine (Cert.ReferenceIdeal.Read.val_main_v1_apply x0 x3 x5 (ix2 R k)).trans ?_
    refine Finset.sum_congr rfl fun p _ => ?_
    have el1 : Cert.ReferenceIdeal.Read.lidx_main_v1 (ix2 R k) p = ix2 R p := funext fun a => by
      match a with
      | ⟨0, _⟩ => rfl
      | ⟨1, _⟩ => rfl
    have er1 : Cert.ReferenceIdeal.Read.ridx_main_v1 (ix2 R k) p = ix2 p k := funext fun a => by
      match a with
      | ⟨0, _⟩ => rfl
      | ⟨1, _⟩ => rfl
    rw [el1, er1]
  · exact (Cert.ReferenceIdeal.Read.val_main_call0_v0_apply _).trans (Cert.ReferenceIdeal.Read.val_main_call0_cst_apply _)

/-- At a column in 64 … 127: the reference's H₁·W₂ at the column less 64. -/
theorem bg_mid (x0 x1 x2 : (⟨Cert.ReferenceIdeal.S10000x128, .f32⟩ : BufTy).Contents (Elt Ideal)) (x3 : (⟨Cert.ReferenceIdeal.S10000x10000, .f32⟩ : BufTy).Contents (Elt Ideal)) (x5 : (⟨Cert.ReferenceIdeal.S128x256, .f32⟩ : BufTy).Contents (Elt Ideal)) (x6 : (⟨Cert.ReferenceIdeal.S256x64, .f32⟩ : BufTy).Contents (Elt Ideal))
    (R : Fin 10000) (q : Fin 192) (hl : 64 ≤ q.val) (h : q.val < 128) :
    Cert.Bridge.bgOf x0 x1 x2 x3 x5 x6 (ix2 R q)
      = ∑ k : Fin 256, max (∑ p : Fin 10000, x3 (ix2 R p) * Cert.ReferenceIdeal.Read.val_main_v74 (F := Ideal) x1 x5 (ix2 p k))
          (Ideal.ofBits .f32 0x00000000#32) * x6 (ix2 k ⟨q.val - 64, by omega⟩) := by
  unfold Cert.Bridge.bgOf
  have c1 : ¬ ((ix2 R q : Cert.Bridge.P192.Idx) 1).val < 64 := Nat.not_lt.2 hl
  have c2 : ((ix2 R q : Cert.Bridge.P192.Idx) 1).val < 128 := h
  rw [dif_neg c1, dif_pos c2]
  show Cert.ReferenceIdeal.Read.val_main_v77 (F := Ideal) x1 x3 x5 x6 (ix2 R ⟨q.val - 64, by omega⟩) = _
  refine (Cert.ReferenceIdeal.Read.val_main_v77_apply x1 x3 x5 x6 _).trans ?_
  refine Finset.sum_congr rfl fun k _ => ?_
  have el : Cert.ReferenceIdeal.Read.lidx_main_v77 (ix2 R ⟨q.val - 64, by omega⟩) k = ix2 R k := funext fun a => by
    match a with
    | ⟨0, _⟩ => rfl
    | ⟨1, _⟩ => rfl
  have er : Cert.ReferenceIdeal.Read.ridx_main_v77 (ix2 R ⟨q.val - 64, by omega⟩) k = ix2 k ⟨q.val - 64, by omega⟩ := funext fun a => by
    match a with
    | ⟨0, _⟩ => rfl
    | ⟨1, _⟩ => rfl
  rw [el, er]
  refine congrArg (· * x6 (ix2 k ⟨q.val - 64, by omega⟩)) ?_
  refine (Cert.ReferenceIdeal.Read.val_main_v76_apply x1 x3 x5 (ix2 R k)).trans ?_
  refine congrArg₂ max ?_ ?_
  · refine (Cert.ReferenceIdeal.Read.val_main_v75_apply x1 x3 x5 (ix2 R k)).trans ?_
    refine Finset.sum_congr rfl fun p _ => ?_
    have el1 : Cert.ReferenceIdeal.Read.lidx_main_v75 (ix2 R k) p = ix2 R p := funext fun a => by
      match a with
      | ⟨0, _⟩ => rfl
      | ⟨1, _⟩ => rfl
    have er1 : Cert.ReferenceIdeal.Read.ridx_main_v75 (ix2 R k) p = ix2 p k := funext fun a => by
      match a with
      | ⟨0, _⟩ => rfl
      | ⟨1, _⟩ => rfl
    rw [el1, er1]
  · exact (Cert.ReferenceIdeal.Read.val_main_call6_v0_apply _).trans (Cert.ReferenceIdeal.Read.val_main_call6_cst_apply _)

/-- At a column from 128 on: the reference's H₂·W₂ at the column less 128. -/
theorem bg_hi (x0 x1 x2 : (⟨Cert.ReferenceIdeal.S10000x128, .f32⟩ : BufTy).Contents (Elt Ideal)) (x3 : (⟨Cert.ReferenceIdeal.S10000x10000, .f32⟩ : BufTy).Contents (Elt Ideal)) (x5 : (⟨Cert.ReferenceIdeal.S128x256, .f32⟩ : BufTy).Contents (Elt Ideal)) (x6 : (⟨Cert.ReferenceIdeal.S256x64, .f32⟩ : BufTy).Contents (Elt Ideal))
    (R : Fin 10000) (q : Fin 192) (hl : 128 ≤ q.val) (h : q.val < 192) :
    Cert.Bridge.bgOf x0 x1 x2 x3 x5 x6 (ix2 R q)
      = ∑ k : Fin 256, max (∑ p : Fin 10000, x3 (ix2 R p) * Cert.ReferenceIdeal.Read.val_main_v79 (F := Ideal) x2 x5 (ix2 p k))
          (Ideal.ofBits .f32 0x00000000#32) * x6 (ix2 k ⟨q.val - 128, by omega⟩) := by
  unfold Cert.Bridge.bgOf
  have c1 : ¬ ((ix2 R q : Cert.Bridge.P192.Idx) 1).val < 64 := Nat.not_lt.2 (by show 64 ≤ q.val; omega)
  have c2 : ¬ ((ix2 R q : Cert.Bridge.P192.Idx) 1).val < 128 := Nat.not_lt.2 hl
  rw [dif_neg c1, dif_neg c2]
  show Cert.ReferenceIdeal.Read.val_main_v82 (F := Ideal) x2 x3 x5 x6 (ix2 R ⟨q.val - 128, by omega⟩) = _
  refine (Cert.ReferenceIdeal.Read.val_main_v82_apply x2 x3 x5 x6 _).trans ?_
  refine Finset.sum_congr rfl fun k _ => ?_
  have el : Cert.ReferenceIdeal.Read.lidx_main_v82 (ix2 R ⟨q.val - 128, by omega⟩) k = ix2 R k := funext fun a => by
    match a with
    | ⟨0, _⟩ => rfl
    | ⟨1, _⟩ => rfl
  have er : Cert.ReferenceIdeal.Read.ridx_main_v82 (ix2 R ⟨q.val - 128, by omega⟩) k = ix2 k ⟨q.val - 128, by omega⟩ := funext fun a => by
    match a with
    | ⟨0, _⟩ => rfl
    | ⟨1, _⟩ => rfl
  rw [el, er]
  refine congrArg (· * x6 (ix2 k ⟨q.val - 128, by omega⟩)) ?_
  refine (Cert.ReferenceIdeal.Read.val_main_v81_apply x2 x3 x5 (ix2 R k)).trans ?_
  refine congrArg₂ max ?_ ?_
  · refine (Cert.ReferenceIdeal.Read.val_main_v80_apply x2 x3 x5 (ix2 R k)).trans ?_
    refine Finset.sum_congr rfl fun p _ => ?_
    have el1 : Cert.ReferenceIdeal.Read.lidx_main_v80 (ix2 R k) p = ix2 R p := funext fun a => by
      match a with
      | ⟨0, _⟩ => rfl
      | ⟨1, _⟩ => rfl
    have er1 : Cert.ReferenceIdeal.Read.ridx_main_v80 (ix2 R k) p = ix2 p k := funext fun a => by
      match a with
      | ⟨0, _⟩ => rfl
      | ⟨1, _⟩ => rfl
    rw [el1, er1]
  · exact (Cert.ReferenceIdeal.Read.val_main_call7_v0_apply _).trans (Cert.ReferenceIdeal.Read.val_main_call7_cst_apply _)

end Cert.Bridge.R1

end
-- ==== Proof.R1Point.lean ====
/-
  One grid point of the second packing kernel against the packed second-layer array.

  If the point's adjacency block is rows 400·T … 400·T + 399 of the adjacency A, its first-layer operand is the packed
  array [X₀W₁ | X₁W₁ | X₂W₁] and its weight block is the whole W₂, then column 64·j + c of block row r,
      ∑ₖ max(∑ₚ A(400·T + r, p) · (X_j·W₁)(p, k), 0) · W₂(k, c),
  is term by term the reference's H_j·W₂ at (400·T + r, c): the block is the point's rows of the packed second-layer array.
-/
import proofs.«140504_g18717467476370_cont_8to1_202_16_alg».proof.Proof.Gen.KernelIdeal.Skeleton
import proofs.«140504_g18717467476370_cont_8to1_202_16_alg».proof.Proof.Packed
import proofs.«140504_g18717467476370_cont_8to1_202_16_alg».proof.Proof.R1Pay
import proofs.«140504_g18717467476370_cont_8to1_202_16_alg».proof.Proof.R1Spec
import Idealize.ShloMosaic.Lib.ValueIdx

noncomputable section

namespace Cert.Bridge.R1

open Idealize.ShloMosaic Idealize.ShloMosaic.ValueIdx
open Cert.KernelIdeal Cert.KernelIdeal.Gen

/-- ONE GRID POINT of the second packing kernel is the point's rows of the packed second-layer array. -/
theorem point_eq (x0 x1 x2 : (⟨Cert.ReferenceIdeal.S10000x128, .f32⟩ : BufTy).Contents (Elt Ideal)) (x3 : (⟨Cert.ReferenceIdeal.S10000x10000, .f32⟩ : BufTy).Contents (Elt Ideal)) (x5 : (⟨Cert.ReferenceIdeal.S128x256, .f32⟩ : BufTy).Contents (Elt Ideal)) (x6 : (⟨Cert.ReferenceIdeal.S256x64, .f32⟩ : BufTy).Contents (Elt Ideal))
    (a : Vec Ideal S400x10000 .f32) (g : Vec Ideal S10000x768 .bf16) (w : Vec Ideal S256x64 .f32) (T : Nat) (hT : T < 25)
    (ha : ∀ (r : Fin 400) (p : Fin 10000), a (ix2 r p) = x3 (ix2 ⟨400 * T + r.val, by have := r.isLt; omega⟩ p))
    (hg : ∀ (p : Fin 10000) (c : Fin 768), g (ix2 p c) = Cert.Bridge.agOf x0 x1 x2 x5 (ix2 p c))
    (hw : ∀ (k : Fin 256) (c : Fin 64), w (ix2 k c) = x6 (ix2 k c))
    (r : Fin 400) (q : Fin 192) :
    k1_pay1 a g w (ix2 r q)
      = Cert.Bridge.bgOf x0 x1 x2 x3 x5 x6 (ix2 ⟨400 * T + r.val, by have := r.isLt; omega⟩ q) := by
  by_cases hA : q.val < 64
  · rw [pay_lo a g w r q hA, bg_lo x0 x1 x2 x3 x5 x6 _ q hA]
    refine Finset.sum_congr rfl fun k _ => ?_
    rw [hw]
    refine congrArg (· * x6 _) ?_
    refine congrArg₂ max (Finset.sum_congr rfl fun p _ => ?_) rfl
    rw [ha, hg, ag_col_lo x0 x1 x2 x5 p k _ (Nat.zero_add _)]
  · by_cases hB : q.val < 128
    · have hl : 64 ≤ q.val := by omega
      rw [pay_mid a g w r q hl hB, bg_mid x0 x1 x2 x3 x5 x6 _ q hl hB]
      refine Finset.sum_congr rfl fun k _ => ?_
      rw [hw]
      refine congrArg (· * x6 _) ?_
      refine congrArg₂ max (Finset.sum_congr rfl fun p _ => ?_) rfl
      rw [ha, hg, ag_col_mid x0 x1 x2 x5 p k _ rfl]
    · have hl : 128 ≤ q.val := by omega
      have hh : q.val < 192 := q.isLt
      rw [pay_hi a g w r q hl hh, bg_hi x0 x1 x2 x3 x5 x6 _ q hl hh]
      refine Finset.sum_congr rfl fun k _ => ?_
      rw [hw]
      refine congrArg (· * x6 _) ?_
      refine congrArg₂ max (Finset.sum_congr rfl fun p _ => ?_) rfl
      rw [ha, hg, ag_col_hi x0 x1 x2 x5 p k _ rfl]

end Cert.Bridge.R1

end
-- ==== Proof.R1Final.lean ====
/-
  The second packing kernel's output array after all twenty-five grid points.

  Point t (t = 0 … 24) reads rows 400·t … 400·t + 399 of the adjacency A, the whole packed first-layer array and the
  whole W₂, and writes back a 400 × 192 block to rows 400·t … 400·t + 399 of the output array. When the first-layer
  operand is the packed array [X₀W₁ | X₁W₁ | X₂W₁], that block is the same rows of the packed second-layer array
  [H₀W₂ | H₁W₂ | H₂W₂]; every row r of the array lies in the block of point r / 400, and every point writes back: so
  the array ends as the packed second-layer array.
-/
import proofs.«140504_g18717467476370_cont_8to1_202_16_alg».proof.Proof.Gen.KernelIdeal.Frame
import proofs.«140504_g18717467476370_cont_8to1_202_16_alg».proof.Proof.Packed
import proofs.«140504_g18717467476370_cont_8to1_202_16_alg».proof.Proof.R1Point
import Idealize.ShloMosaic.Lib.ValueIdx
import Idealize.ShloMosaic.Lib.Pipeline.Value

set_option maxRecDepth 16384

noncomputable section

namespace Cert.Bridge.R1

open Idealize.ShloMosaic Idealize.ShloMosaic.TcCoe Idealize.ShloMosaic.ValueIdx Idealize.SL.Sem
open Idealize.ShloMosaic.Pipeline (Dat)
open Cert.KernelIdeal Cert.KernelIdeal.Gen

theorem hz : (![0, 0] : Fin 2 → Nat) = fun _ => 0 := funext fun a => by fin_cases a <;> rfl

/-- The adjacency window's block index at point t: block row t, block column 0 (decided over the twenty-five points). -/
theorem idx1_0 : ∀ t : Fin cfg1.N, win1_0.index t (0 : Fin 2) = t.val ∧ win1_0.index t (1 : Fin 2) = 0 :=
  (by decide +kernel : ∀ t : Fin grid1.N, _)

/-- The first-layer operand's window stays at block (0, 0): the whole array at every point. -/
theorem idx1_1 : ∀ t : Fin cfg1.N, win1_1.index t (0 : Fin 2) = 0 ∧ win1_1.index t (1 : Fin 2) = 0 :=
  (by decide +kernel : ∀ t : Fin grid1.N, _)

/-- The weight window stays at block (0, 0). -/
theorem idx1_2 : ∀ t : Fin cfg1.N, win1_2.index t (0 : Fin 2) = 0 ∧ win1_2.index t (1 : Fin 2) = 0 :=
  (by decide +kernel : ∀ t : Fin grid1.N, _)

/-- The output window's block index at point t: block row t. -/
theorem idx1_3 : ∀ t : Fin cfg1.N, win1_3.index t (0 : Fin 2) = t.val ∧ win1_3.index t (1 : Fin 2) = 0 :=
  (by decide +kernel : ∀ t : Fin grid1.N, _)

/-- The adjacency block at point t is rows 400·t … 400·t + 399 of the adjacency. -/
theorem blk_adj (V : (c : Dev nD) → (b : Ref sig .tc) → Buf (Elt Ideal) ((c : Thread nD τ).loc b)) (c : Dev nD) (t : Fin cfg1.N) (r : Fin 400) (k : Fin 10000) :
    (iblk1 V c 0 t : S400x10000.Idx → EReal) (ix2 r k)
      = (V c main_arg3 : S10000x10000.Idx → EReal) (ix2 ⟨400 * t.val + r.val, by have := r.isLt; have := t.isLt; have hN : cfg1.N = 25 := N_1; omega⟩ k) := by
  obtain ⟨e0, e1⟩ := idx1_0 t
  unfold iblk1
  rw [View.read_apply]
  show V c main_arg3 _ = V c main_arg3 _
  congr 1
  funext a
  apply Fin.ext
  match a with
  | ⟨0, _⟩ =>
    show win1_0.index t (0 : Fin 2) * 400 + 1 * r.val = 400 * t.val + r.val
    omega
  | ⟨1, _⟩ =>
    show win1_0.index t (1 : Fin 2) * 10000 + 1 * k.val = k.val
    omega

/-- The first-layer operand's block at every point is the whole array. -/
theorem blk_ag (V : (c : Dev nD) → (b : Ref sig .tc) → Buf (Elt Ideal) ((c : Thread nD τ).loc b)) (c : Dev nD) (t : Fin cfg1.N) (r : Fin 10000) (k : Fin 768) :
    (iblk1 V c 1 t : S10000x768.Idx → EReal) (ix2 r k)
      = (V c main_v7 : S10000x768.Idx → EReal) (ix2 r k) := by
  obtain ⟨e0, e1⟩ := idx1_1 t
  unfold iblk1
  rw [View.read_apply]
  show V c main_v7 _ = V c main_v7 _
  congr 1
  funext a
  apply Fin.ext
  match a with
  | ⟨0, _⟩ =>
    show win1_1.index t (0 : Fin 2) * 10000 + 1 * r.val = r.val
    omega
  | ⟨1, _⟩ =>
    show win1_1.index t (1 : Fin 2) * 768 + 1 * k.val = k.val
    omega

/-- The weight block at every point is the whole W₂. -/
theorem blk_w2 (V : (c : Dev nD) → (b : Ref sig .tc) → Buf (Elt Ideal) ((c : Thread nD τ).loc b)) (c : Dev nD) (t : Fin cfg1.N) (r : Fin 256) (k : Fin 64) :
    (iblk1 V c 2 t : S256x64.Idx → EReal) (ix2 r k)
      = (V c main_arg6 : S256x64.Idx → EReal) (ix2 r k) := by
  obtain ⟨e0, e1⟩ := idx1_2 t
  unfold iblk1
  rw [View.read_apply]
  show V c main_arg6 _ = V c main_arg6 _
  congr 1
  funext a
  apply Fin.ext
  match a with
  | ⟨0, _⟩ =>
    show win1_2.index t (0 : Fin 2) * 256 + 1 * r.val = r.val
    omega
  | ⟨1, _⟩ =>
    show win1_2.index t (1 : Fin 2) * 64 + 1 * k.val = k.val
    omega

/-- WHAT POINT t WRITES BACK is block t of the packed second-layer array, when the first-layer operand is the packed
    first-layer array. -/
theorem flushed_eq (V : (c : Dev nD) → (b : Ref sig .tc) → Buf (Elt Ideal) ((c : Thread nD τ).loc b)) (c : Dev nD) (x0 x1 x2 : (⟨Cert.ReferenceIdeal.S10000x128, .f32⟩ : BufTy).Contents (Elt Ideal)) (x5 : (⟨Cert.ReferenceIdeal.S128x256, .f32⟩ : BufTy).Contents (Elt Ideal))
    (hag : V c main_v7 = Cert.Bridge.agOf x0 x1 x2 x5) (t : Fin cfg1.N) :
    (dat1 V c).flushed 3 t = ((cfg1.win 3).blk t).view.read (Elt Ideal)
      (Cert.Bridge.bgOf x0 x1 x2 (V c main_arg3) x5 (V c main_arg6)) := by
  have hN : cfg1.N = 25 := N_1
  have ht : t.val < 25 := by have := t.isLt; omega
  obtain ⟨e0, e1⟩ := idx1_3 t
  show (cfg1.win 3).cut (grid1.coords t) ((dat1 V c).after 3 t) = _
  rw [after1_3]
  unfold out1_3
  rw [View.canon_unit_zero hz]
  simp only [View.ld_unit_zero (S := S400x10000) hz, View.ld_unit_zero (S := S10000x768) hz, View.ld_unit_zero (S := S256x64) hz]
  funext j
  obtain ⟨r, q, rfl⟩ : ∃ (r : Fin 400) (q : Fin 192), j = (ix2 r q : S400x192.Idx) := ⟨j 0, j 1, eq_ix2 (n0 := 400) (n1 := 192) j⟩
  have hemb : ((cfg1.win 3).blk t).view.emb (ix2 r q : S400x192.Idx)
      = (ix2 ⟨400 * t.val + r.val, by have := r.isLt; omega⟩ q : S10000x192.Idx) := by
    funext a
    apply Fin.ext
    match a with
    | ⟨0, _⟩ =>
      show win1_3.index t (0 : Fin 2) * 400 + 1 * r.val = 400 * t.val + r.val
      omega
    | ⟨1, _⟩ =>
      show win1_3.index t (1 : Fin 2) * 192 + 1 * q.val = q.val
      omega
  show k1_pay1 (iblk1 V c 0 t) (iblk1 V c 1 t) (iblk1 V c 2 t) (ix2 r q)
    = Cert.Bridge.bgOf x0 x1 x2 (V c main_arg3) x5 (V c main_arg6) (((cfg1.win 3).blk t).view.emb (ix2 r q : S400x192.Idx))
  rw [hemb]
  exact point_eq x0 x1 x2 (V c main_arg3) x5 (V c main_arg6)
    (iblk1 V c 0 t) (iblk1 V c 1 t) (iblk1 V c 2 t) t.val ht
    (fun r p => blk_adj V c t r p) (fun p c' => (blk_ag V c t p c').trans (congrFun hag _)) (fun k c' => blk_w2 V c t k c') r q

/-- A row-and-column index of the output array is in point t's block iff each coordinate is in the block's range. -/
theorem mem_blk (t : Fin cfg1.N) (i : S10000x192.Idx) :
    i ∈ ((cfg1.win 3).blk t).view.set ↔ ∀ a : Fin 2, win1_3.index t a * S400x192.size a ≤ (i a).val
      ∧ (i a).val < win1_3.index t a * S400x192.size a + S400x192.size a := by
  show i ∈ ((View.whole main_v8).slice (win1_3.rect t)).set ↔ _
  rw [View.set_slice_whole, Rect.mem_set_unit]
  exact Iff.rfl

/-- Row r of the output array lies in the block of point r / 400, and that point writes back. -/
theorem cover (i : S10000x192.Idx) :
    ∃ t : Fin cfg1.N, (cfg1.win 3).flush t = true ∧ i ∈ ((cfg1.win 3).blk t).view.set := by
  have hN : cfg1.N = 25 := N_1
  have hi0 : (i 0).val < 10000 := (i 0).isLt
  have hi1 : (i 1).val < 192 := (i 1).isLt
  obtain ⟨t, ht⟩ : ∃ t : Fin cfg1.N, t.val = (i 0).val / 400 := ⟨⟨(i 0).val / 400, by omega⟩, rfl⟩
  obtain ⟨e0, e1⟩ := idx1_3 t
  refine ⟨t, flush1_3 t, ?_⟩
  rw [mem_blk]
  intro a
  match a with
  | ⟨0, _⟩ =>
    show win1_3.index t (0 : Fin 2) * 400 ≤ (i 0).val ∧ (i 0).val < win1_3.index t (0 : Fin 2) * 400 + 400
    omega
  | ⟨1, _⟩ =>
    show win1_3.index t (1 : Fin 2) * 192 ≤ (i 1).val ∧ (i 1).val < win1_3.index t (1 : Fin 2) * 192 + 192
    omega

/-- THE OUTPUT ARRAY after all grid points is the packed second-layer array, when the first-layer operand the region
    finds is the packed first-layer array. -/
theorem final (V : (c : Dev nD) → (b : Ref sig .tc) → Buf (Elt Ideal) ((c : Thread nD τ).loc b)) (c : Dev nD)
    (x0 x1 x2 : (⟨S10000x128, .f32⟩ : BufTy).Contents (Elt Ideal)) (x5 : (⟨S128x256, .f32⟩ : BufTy).Contents (Elt Ideal))
    (hag : V c main_v7 = Cert.Bridge.agOf x0 x1 x2 x5) :
    (dat1 V c).arrAt 3 cfg1.N = Cert.Bridge.bgOf x0 x1 x2 (V c main_arg3) x5 (V c main_arg6) :=
  (dat1 V c).arrAt_eq_of_cover 3 _ (fun t _ => flushed_eq V c x0 x1 x2 x5 hag t) (fun i => cover i)

end Cert.Bridge.R1

end
-- ==== Proof.R2Pay.lean ====
/-
  The second adjacency sweep, one row block at a time: the body's arithmetic read at ONE entry.

  A row block is 400 rows of the adjacency, a : 400 × 10000; the packed operand b : 10000 × 192 holds three
  64-column operands side by side. The body forms the block product  P = a · b  (400 × 192), cuts it into
  its three 64-column bands  P[:, 0:64], P[:, 64:128], P[:, 128:192],  takes the positive part of the first and
  of the third band, and divides every row of the first band by its Euclidean length (floored at a small
  constant). Every entry below is read at the extended reals, where a change of float format is the identity.
-/
import proofs.«140504_g18717467476370_cont_8to1_202_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx
open Cert.KernelIdeal Cert.KernelIdeal.Gen

namespace Cert.Bridge.R2

/-- The product's operand indices at an output entry i and a contraction index u: the left operand is read at
    (i's row, u), the right one at (u, i's column). -/
theorem prod_lhs_row (i : S400x192.Idx) (u : dot_S400x10000_S10000x192_S400x192_1_0_0_1_n_n.contr.Idx) :
    (dot_S400x10000_S10000x192_S400x192_1_0_0_1_n_n.lhsIdx i u 0).val = (i 0).val := by
  unfold DotDims.lhsIdx
  rw [dif_neg (show ¬(0 : Fin S400x10000.rank) ∈ dot_S400x10000_S10000x192_S400x192_1_0_0_1_n_n.lhsBatch by decide),
    dif_pos (show (0 : Fin S400x10000.rank) ∈ dot_S400x10000_S10000x192_S400x192_1_0_0_1_n_n.lhsNonContracting by decide)]
  rfl
theorem prod_lhs_col (i : S400x192.Idx) (u : dot_S400x10000_S10000x192_S400x192_1_0_0_1_n_n.contr.Idx) :
    (dot_S400x10000_S10000x192_S400x192_1_0_0_1_n_n.lhsIdx i u 1).val = (u ⟨0, by decide⟩).val :=
  dot_S400x10000_S10000x192_S400x192_1_0_0_1_n_n.lhsIdx_val_of_single rfl i u
theorem prod_rhs_row (i : S400x192.Idx) (u : dot_S400x10000_S10000x192_S400x192_1_0_0_1_n_n.contr.Idx) :
    (dot_S400x10000_S10000x192_S400x192_1_0_0_1_n_n.rhsIdx i u 0).val = (u ⟨0, by decide⟩).val :=
  dot_S400x10000_S10000x192_S400x192_1_0_0_1_n_n.rhsIdx_val_of_single rfl i u
theorem prod_rhs_col (i : S400x192.Idx) (u : dot_S400x10000_S10000x192_S400x192_1_0_0_1_n_n.contr.Idx) :
    (dot_S400x10000_S10000x192_S400x192_1_0_0_1_n_n.rhsIdx i u 1).val = (i 1).val := by
  unfold DotDims.rhsIdx
  rw [dif_neg (show ¬(1 : Fin S10000x192.rank) ∈ dot_S400x10000_S10000x192_S400x192_1_0_0_1_n_n.rhsBatch by decide),
    dif_pos (show (1 : Fin S10000x192.rank) ∈ dot_S400x10000_S10000x192_S400x192_1_0_0_1_n_n.rhsNonContracting by decide)]
  rfl

/-- Entry (r, q) of the block product is the sum over the 10000 columns p of a(r, p) · b(p, q): the product is
    accumulated into a zero block, and its one contraction axis is indexed by p. -/
theorem prod_apply (a : Vec Ideal S400x10000 .f32) (b : Vec Ideal S10000x192 .bf16) (r : Fin 400) (q : Fin 192) :
    k2_pay1 a b (ix2 r q) = ∑ p : Fin 10000, a (ix2 r p) * b (ix2 p q) := by
  unfold k2_pay1
  simp only [shapeCast_self]
  refine (Ideal.matmul_constant_zero_apply dot_S400x10000_S10000x192_S400x192_1_0_0_1_n_n none a b (ix2 r q)).trans ?_
  rw [← Equiv.sum_comp (contrEquiv1 dot_S400x10000_S10000x192_S400x192_1_0_0_1_n_n 10000 rfl rfl).symm]
  refine Finset.sum_congr rfl fun p _ => ?_
  have hp := contrEquiv1_symm_val dot_S400x10000_S10000x192_S400x192_1_0_0_1_n_n 10000 rfl rfl p
  have el : dot_S400x10000_S10000x192_S400x192_1_0_0_1_n_n.lhsIdx (ix2 r q) ((contrEquiv1 dot_S400x10000_S10000x192_S400x192_1_0_0_1_n_n 10000 rfl rfl).symm p) = ix2 r p :=
    funext fun ax => Fin.ext (by
      match ax with
      | ⟨0, _⟩ => exact prod_lhs_row _ _
      | ⟨1, _⟩ => exact (prod_lhs_col _ _).trans hp)
  have er : dot_S400x10000_S10000x192_S400x192_1_0_0_1_n_n.rhsIdx (ix2 r q) ((contrEquiv1 dot_S400x10000_S10000x192_S400x192_1_0_0_1_n_n 10000 rfl rfl).symm p) = ix2 p q :=
    funext fun ax => Fin.ext (by
      match ax with
      | ⟨0, _⟩ => exact (prod_rhs_row _ _).trans hp
      | ⟨1, _⟩ => exact prod_rhs_col _ _)
  rw [el, er]

/-- The first band: entry (r, k) is entry (r, k) of the product. -/
theorem band0_apply (a : Vec Ideal S400x10000 .f32) (b : Vec Ideal S10000x192 .bf16) (r : Fin 400) (k : Fin 64) :
    k2_pay2 a b (ix2 r k) = ∑ p : Fin 10000, a (ix2 r p) * b (ix2 p ⟨k.val, by have := k.isLt; omega⟩) := by
  unfold k2_pay2
  refine (slice2_axis1_apply 0 (k2_pay1 a b) slices_S400x192_o0_0_S400x64 r k ⟨k.val, by have := k.isLt; omega⟩
    (Nat.zero_add _).symm).trans ?_
  exact prod_apply a b r _

/-- The second band: entry (r, k) is entry (r, 64 + k) of the product. -/
theorem band1_apply (a : Vec Ideal S400x10000 .f32) (b : Vec Ideal S10000x192 .bf16) (r : Fin 400) (k : Fin 64) :
    k2_pay3 a b (ix2 r k) = ∑ p : Fin 10000, a (ix2 r p) * b (ix2 p ⟨64 + k.val, by have := k.isLt; omega⟩) := by
  unfold k2_pay3
  refine (slice2_axis1_apply 64 (k2_pay1 a b) slices_S400x192_o0_64_S400x64 r k ⟨64 + k.val, by have := k.isLt; omega⟩
    rfl).trans ?_
  exact prod_apply a b r _

/-- The third band: entry (r, k) is entry (r, 128 + k) of the product. -/
theorem band2_apply (a : Vec Ideal S400x10000 .f32) (b : Vec Ideal S10000x192 .bf16) (r : Fin 400) (k : Fin 64) :
    k2_pay4 a b (ix2 r k) = ∑ p : Fin 10000, a (ix2 r p) * b (ix2 p ⟨128 + k.val, by have := k.isLt; omega⟩) := by
  unfold k2_pay4
  refine (slice2_axis1_apply 128 (k2_pay1 a b) slices_S400x192_o0_128_S400x64 r k ⟨128 + k.val, by have := k.isLt; omega⟩
    rfl).trans ?_
  exact prod_apply a b r _

/-- The positive part of the first band, entry by entry: the larger of the entry and zero. -/
theorem relu0_apply (a : Vec Ideal S400x10000 .f32) (b : Vec Ideal S10000x192 .bf16) (i : S400x64.Idx) :
    k2_pay5 a b i = FloatOps.maximumf (k2_pay2 a b i) (FloatOps.ofBits .f32 0x00000000#32) := rfl

/-- The positive part of the third band, entry by entry. -/
theorem relu2_apply (a : Vec Ideal S400x10000 .f32) (b : Vec Ideal S10000x192 .bf16) (i : S400x64.Idx) :
    k2_pay6 a b i = FloatOps.maximumf (k2_pay4 a b i) (FloatOps.ofBits .f32 0x00000000#32) := rfl

end Cert.Bridge.R2

end
-- ==== Proof.R2Norm.lean ====
/-
  The row normalization of the second adjacency sweep, read at one entry.

  The first band z (400 × 64) of a row block is divided, row by row, by the larger of the row's Euclidean length
  sqrt (∑_k z(r, k)²) and a small constant: the squares are summed along the row into a 400-vector, the vector is
  viewed as a 400 × 1 column, the square root and the floor are taken there, the column is spread back over the 64
  columns, and z is divided by it entry by entry.
-/
import proofs.«140504_g18717467476370_cont_8to1_202_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx
open Cert.KernelIdeal Cert.KernelIdeal.Gen

namespace Cert.Bridge.R2

/-- The sum of a 400 × 64 block along its rows, at row r: the sum over the 64 columns. -/
theorem rowSum_apply (w : Vec Ideal S400x64 .f32) (r : Fin 400) :
    multiReduction (F := Ideal) .add [1] S400 w 0x00000000#32 reduces_S400x64_S400 (.inl rfl) rfl (ix1 r)
      = ∑ k : Fin 64, w (ix2 r k) := by
  refine (Ideal.multiReduction_add_single w 0x00000000#32 reduces_S400x64_S400 (.inl rfl) rfl (ix1 r)).trans ?_
  refine Finset.sum_congr rfl fun k _ => congrArg w (funext fun ax => Fin.ext ?_)
  match ax with
  | ⟨0, _⟩ => rfl
  | ⟨1, _⟩ => rfl

/-- A 400-vector viewed as a 400 × 1 column: entry (r, 0) is entry r. -/
theorem column_apply {α : Type} (v : S400.Idx → α) (r : Fin 400) (u : Fin 1) :
    shapeCast S400x1 v shapeCasts_S400_S400x1 (ix2 r u) = v (ix1 r) :=
  shapeCast_apply v shapeCasts_S400_S400x1 (ix2 r u) (ix1 r) (by
    have hu : u.val = 0 := by omega
    rw [Shape.rowMajor_val_one, Shape.rowMajor_val_two]
    show r.val = r.val * 1 + u.val
    omega)

/-- A 400 × 1 column spread over 64 columns: entry (r, k) is entry (r, 0). -/
theorem spread_apply {α : Type} (v : S400x1.Idx → α) (r : Fin 400) (k : Fin 64) :
    broadcastTo S400x64 v broadcasts_S400x1_S400x64 (ix2 r k) = v (ix2 r (0 : Fin 1)) := by
  refine broadcastTo_apply v broadcasts_S400x1_S400x64 (ix2 r k) (ix2 r (0 : Fin 1)) fun ax => ?_
  match ax with
  | ⟨0, _⟩ => rfl
  | ⟨1, _⟩ => rfl

/-- Entry (r, k) of the normalized band: z(r, k) divided by max (sqrt (∑_k' z(r, k')²), floor). -/
theorem norm_apply (a : Vec Ideal S400x10000 .f32) (b : Vec Ideal S10000x192 .bf16) (r : Fin 400) (k : Fin 64) :
    k2_pay7 a b (ix2 r k) = Ideal.div (k2_pay2 a b (ix2 r k))
      (max (Ideal.sqrt (∑ k' : Fin 64, k2_pay2 a b (ix2 r k') * k2_pay2 a b (ix2 r k')))
        (Ideal.ofBits .f32 0x2B8CBCCC#32)) := by
  unfold k2_pay7
  generalize k2_pay2 a b = z
  show Ideal.div (z (ix2 r k)) (broadcastTo S400x64 _ broadcasts_S400x1_S400x64 (ix2 r k)) = _
  refine congrArg (Ideal.div (z (ix2 r k))) ?_
  refine (spread_apply _ r k).trans ?_
  show max (Ideal.sqrt (shapeCast S400x1 _ shapeCasts_S400_S400x1 (ix2 r (0 : Fin 1)))) (Ideal.ofBits .f32 0x2B8CBCCC#32) = _
  refine congrArg (fun s => max (Ideal.sqrt s) (Ideal.ofBits .f32 0x2B8CBCCC#32)) ?_
  refine (column_apply _ r 0).trans ?_
  exact rowSum_apply (mulf z z) r

end Cert.Bridge.R2

end
-- ==== Proof.R2Spec.lean ====
/-
  The second adjacency sweep against the reference's own stages.

  With A the adjacency and BG = [H₀W₂ | H₁W₂ | H₂W₂] the packed operand, column 64·j + k of BG is column k of the
  reference's stage H_j · W₂, so  ∑_p A(g, p) · BG(p, 64·j + k)  is entry (g, k) of the reference's next stage
  A · (H_j · W₂): the same sum over the same 10000 terms. The positive part and the row normalization of that stage
  are the reference's following stages read at the same entry.
-/
import proofs.«140504_g18717467476370_cont_8to1_202_16_alg».proof.Proof.Gen.ReferenceIdeal.Read
import proofs.«140504_g18717467476370_cont_8to1_202_16_alg».proof.Proof.Packed
import Idealize.ShloMosaic.Lib.ValueIdx
import Idealize.ShloMosaic.PureOps.Ideal.Laws

noncomputable section

open Idealize.ShloMosaic Idealize.ShloMosaic.ValueIdx
open Cert.ReferenceIdeal (S10000x128 S128x256 S10000x10000 S256x64 S10000x64)
open Cert.ReferenceIdeal.Read

namespace Cert.Bridge.R2

variable (x0 x1 x2 : (⟨S10000x128, .f32⟩ : BufTy).Contents (Elt Ideal))
  (x3 : (⟨S10000x10000, .f32⟩ : BufTy).Contents (Elt Ideal))
  (x5 : (⟨S128x256, .f32⟩ : BufTy).Contents (Elt Ideal)) (x6 : (⟨S256x64, .f32⟩ : BufTy).Contents (Elt Ideal))

/-- Column k of the packed operand is column k of H₀ · W₂. -/
theorem opd_col0 (p : Fin 10000) (k : Fin 64) (q : Fin 192) (hq : q.val = k.val) :
    Cert.Bridge.bgOf x0 x1 x2 x3 x5 x6 (ix2 p q) = val_main_v3 (F := Ideal) x0 x3 x5 x6 (ix2 p k) := by
  have hk := k.isLt
  unfold Cert.Bridge.bgOf
  split
  · exact congrArg (val_main_v3 (F := Ideal) x0 x3 x5 x6) (funext fun ax => by
      match ax with
      | ⟨0, _⟩ => rfl
      | ⟨1, _⟩ => exact Fin.ext hq)
  · rename_i h
    have h' : ¬ q.val < 64 := h
    omega

/-- Column 64 + k of the packed operand is column k of H₁ · W₂. -/
theorem opd_col1 (p : Fin 10000) (k : Fin 64) (q : Fin 192) (hq : q.val = 64 + k.val) :
    Cert.Bridge.bgOf x0 x1 x2 x3 x5 x6 (ix2 p q) = val_main_v77 (F := Ideal) x1 x3 x5 x6 (ix2 p k) := by
  have hk := k.isLt
  unfold Cert.Bridge.bgOf
  split
  · rename_i h
    have h' : q.val < 64 := h
    omega
  · split
    · exact congrArg (val_main_v77 (F := Ideal) x1 x3 x5 x6) (funext fun ax => by
        match ax with
        | ⟨0, _⟩ => rfl
        | ⟨1, _⟩ => exact Fin.ext (by show q.val - 64 = k.val; omega))
    · rename_i h
      have h' : ¬ q.val < 128 := h
      omega

/-- Column 128 + k of the packed operand is column k of H₂ · W₂. -/
theorem opd_col2 (p : Fin 10000) (k : Fin 64) (q : Fin 192) (hq : q.val = 128 + k.val) :
    Cert.Bridge.bgOf x0 x1 x2 x3 x5 x6 (ix2 p q) = val_main_v82 (F := Ideal) x2 x3 x5 x6 (ix2 p k) := by
  have hk := k.isLt
  unfold Cert.Bridge.bgOf
  split
  · rename_i h
    have h' : q.val < 64 := h
    omega
  · split
    · rename_i h
      have h' : q.val < 128 := h
      omega
    · exact congrArg (val_main_v82 (F := Ideal) x2 x3 x5 x6) (funext fun ax => by
        match ax with
        | ⟨0, _⟩ => rfl
        | ⟨1, _⟩ => exact Fin.ext (by show q.val - 128 = k.val; omega))

/-- Row g of the adjacency against column k of the packed operand is entry (g, k) of A · (H₀ · W₂). -/
theorem sweep0 (g : Fin 10000) (k : Fin 64) (q : Fin 192) (hq : q.val = k.val) :
    ∑ p : Fin 10000, x3 (ix2 g p) * Cert.Bridge.bgOf x0 x1 x2 x3 x5 x6 (ix2 p q)
      = val_main_v4 (F := Ideal) x0 x3 x5 x6 (ix2 g k) := by
  rw [val_main_v4_apply]
  refine Finset.sum_congr rfl fun p _ => ?_
  rw [opd_col0 x0 x1 x2 x3 x5 x6 p k q hq]
  refine congrArg₂ (· * ·) (congrArg x3 (funext fun ax => ?_))
    (congrArg (val_main_v3 (F := Ideal) x0 x3 x5 x6) (funext fun ax => ?_))
  · match ax with
    | ⟨0, _⟩ => rfl
    | ⟨1, _⟩ => rfl
  · match ax with
    | ⟨0, _⟩ => rfl
    | ⟨1, _⟩ => rfl

/-- Row g of the adjacency against column 64 + k of the packed operand is entry (g, k) of A · (H₁ · W₂). -/
theorem sweep1 (g : Fin 10000) (k : Fin 64) (q : Fin 192) (hq : q.val = 64 + k.val) :
    ∑ p : Fin 10000, x3 (ix2 g p) * Cert.Bridge.bgOf x0 x1 x2 x3 x5 x6 (ix2 p q)
      = val_main_v78 (F := Ideal) x1 x3 x5 x6 (ix2 g k) := by
  rw [val_main_v78_apply]
  refine Finset.sum_congr rfl fun p _ => ?_
  rw [opd_col1 x0 x1 x2 x3 x5 x6 p k q hq]
  refine congrArg₂ (· * ·) (congrArg x3 (funext fun ax => ?_))
    (congrArg (val_main_v77 (F := Ideal) x1 x3 x5 x6) (funext fun ax => ?_))
  · match ax with
    | ⟨0, _⟩ => rfl
    | ⟨1, _⟩ => rfl
  · match ax with
    | ⟨0, _⟩ => rfl
    | ⟨1, _⟩ => rfl

/-- Row g of the adjacency against column 128 + k of the packed operand is entry (g, k) of A · (H₂ · W₂). -/
theorem sweep2 (g : Fin 10000) (k : Fin 64) (q : Fin 192) (hq : q.val = 128 + k.val) :
    ∑ p : Fin 10000, x3 (ix2 g p) * Cert.Bridge.bgOf x0 x1 x2 x3 x5 x6 (ix2 p q)
      = val_main_v83 (F := Ideal) x2 x3 x5 x6 (ix2 g k) := by
  rw [val_main_v83_apply]
  refine Finset.sum_congr rfl fun p _ => ?_
  rw [opd_col2 x0 x1 x2 x3 x5 x6 p k q hq]
  refine congrArg₂ (· * ·) (congrArg x3 (funext fun ax => ?_))
    (congrArg (val_main_v82 (F := Ideal) x2 x3 x5 x6) (funext fun ax => ?_))
  · match ax with
    | ⟨0, _⟩ => rfl
    | ⟨1, _⟩ => rfl
  · match ax with
    | ⟨0, _⟩ => rfl
    | ⟨1, _⟩ => rfl

/-- The reference's positive part of A · (H₀ · W₂) at an entry: the larger of the entry and zero. -/
theorem relu0_ref (i : S10000x64.Idx) :
    val_main_v5 (F := Ideal) x0 x3 x5 x6 i
      = FloatOps.maximumf (F := Ideal) (φ := .f32) (val_main_v4 (F := Ideal) x0 x3 x5 x6 i) (FloatOps.ofBits .f32 0x00000000#32) := by
  rw [val_main_v5_apply, val_main_call1_v0_apply, val_main_call1_cst_apply]

/-- The reference's positive part of A · (H₂ · W₂) at an entry. -/
theorem relu2_ref (i : S10000x64.Idx) :
    val_main_v84 (F := Ideal) x2 x3 x5 x6 i
      = FloatOps.maximumf (F := Ideal) (φ := .f32) (val_main_v83 (F := Ideal) x2 x3 x5 x6 i) (FloatOps.ofBits .f32 0x00000000#32) := by
  rw [val_main_v84_apply, val_main_call8_v0_apply, val_main_call8_cst_apply]

/-- The reference's row-normalized A · (H₀ · W₂) at entry (g, k): the entry divided by the larger of the row's
    Euclidean length and the floor; the reference's row sum starts from zero. -/
theorem norm_ref (g : Fin 10000) (k : Fin 64) :
    val_main_v65 (F := Ideal) x0 x3 x5 x6 (ix2 g k)
      = Ideal.div (val_main_v4 (F := Ideal) x0 x3 x5 x6 (ix2 g k))
          (max (Ideal.sqrt (∑ k' : Fin 64, val_main_v4 (F := Ideal) x0 x3 x5 x6 (ix2 g k') * val_main_v4 (F := Ideal) x0 x3 x5 x6 (ix2 g k')))
            (Ideal.ofBits .f32 0x2B8CBCCC#32)) := by
  rw [val_main_v65_apply, val_main_v64_apply, val_main_v63_apply, val_main_v61_apply, val_main_v60_apply,
    val_main_v59_apply, val_main_v62_apply, val_main_cst_11_apply, val_main_cst_10_apply]
  simp only [val_main_v58_apply, Ideal.hostDivf_def, Ideal.maximumf_def, Ideal.hostUnary_sqrt_def, Ideal.mulf_def,
    Ideal.ofBits_def, Ideal.ofBits_zero_f32, zero_add]
  refine congrArg (fun s => Ideal.div (val_main_v4 (F := Ideal) x0 x3 x5 x6 (ix2 g k))
    (max (Ideal.sqrt s) (Ideal.ofBits .f32 0x2B8CBCCC#32))) (Finset.sum_congr rfl fun k' _ => ?_)
  have e : idx_main_v59 (idx_main_v60 (idx_main_v64 (ix2 g k))) k' = ix2 g k' := funext fun ax => by
    match ax with
    | ⟨0, _⟩ => rfl
    | ⟨1, _⟩ => rfl
  rw [e]

end Cert.Bridge.R2

end
-- ==== Proof.R2Blocks.lean ====
/-
  The second adjacency sweep's blocks: where each window's block at a grid point sits in its array.

  The grid has 25 points. At point t the adjacency window holds rows 400·t … 400·t + 399 of the adjacency (all
  10000 columns), the packed-operand window holds the whole 10000 × 192 operand at every point, and each of the six
  output windows holds rows 400·t … 400·t + 399 of its 10000 × 64 array. So block row r of point t is global row
  400·t + r, and every global row g lies in the block of point g / 400.
-/
import proofs.«140504_g18717467476370_cont_8to1_202_16_alg».proof.Proof.Gen.KernelIdeal.Frame
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R2

theorem hz : (![0, 0] : Fin 2 → Nat) = fun _ => 0 := funext fun a => by fin_cases a <;> rfl

/-- The windows' index maps, decided over the 25 grid points: the adjacency window and the six output windows are at block row
    t, block column 0; the packed-operand window is at block (0, 0). -/
theorem idx_adj : ∀ t : Fin cfg2.N, win2_0.index t (0 : Fin 2) = t.val ∧ win2_0.index t (1 : Fin 2) = 0 :=
  (by decide +kernel : ∀ t : Fin grid2.N, _)
theorem idx_opd : ∀ t : Fin cfg2.N, win2_1.index t (0 : Fin 2) = 0 ∧ win2_1.index t (1 : Fin 2) = 0 :=
  (by decide +kernel : ∀ t : Fin grid2.N, _)
theorem idx_out2 : ∀ t : Fin cfg2.N, win2_2.index t (0 : Fin 2) = t.val ∧ win2_2.index t (1 : Fin 2) = 0 :=
  (by decide +kernel : ∀ t : Fin grid2.N, _)
theorem idx_out3 : ∀ t : Fin cfg2.N, win2_3.index t (0 : Fin 2) = t.val ∧ win2_3.index t (1 : Fin 2) = 0 :=
  (by decide +kernel : ∀ t : Fin grid2.N, _)
theorem idx_out4 : ∀ t : Fin cfg2.N, win2_4.index t (0 : Fin 2) = t.val ∧ win2_4.index t (1 : Fin 2) = 0 :=
  (by decide +kernel : ∀ t : Fin grid2.N, _)
theorem idx_out5 : ∀ t : Fin cfg2.N, win2_5.index t (0 : Fin 2) = t.val ∧ win2_5.index t (1 : Fin 2) = 0 :=
  (by decide +kernel : ∀ t : Fin grid2.N, _)
theorem idx_out6 : ∀ t : Fin cfg2.N, win2_6.index t (0 : Fin 2) = t.val ∧ win2_6.index t (1 : Fin 2) = 0 :=
  (by decide +kernel : ∀ t : Fin grid2.N, _)
theorem idx_out7 : ∀ t : Fin cfg2.N, win2_7.index t (0 : Fin 2) = t.val ∧ win2_7.index t (1 : Fin 2) = 0 :=
  (by decide +kernel : ∀ t : Fin grid2.N, _)

/-- A grid point is below 25. -/
theorem point_lt (t : Fin cfg2.N) : t.val < 25 := by
  have h : cfg2.N = 25 := N_2
  have := t.isLt
  omega

variable (V : (c : Dev nD) → (b : Ref sig .tc) → Buf (Elt Ideal) ((c : Thread nD τ).loc b))

/-- The adjacency block at point t, entry (r, p), is the adjacency at (400·t + r, p). -/
theorem adj_block (c : Dev nD) (t : Fin cfg2.N) (r : Fin 400) (p : Fin 10000) (g : Fin 10000)
    (hg : g.val = 400 * t.val + r.val) :
    (iblk2 V c 0 t : Vec Ideal S400x10000 .f32) (ix2 r p)
      = (V c main_arg3 : S10000x10000.Idx → Elt Ideal .f32) (ix2 g p) := by
  obtain ⟨e0, e1⟩ := idx_adj t
  unfold iblk2
  rw [View.read_apply]
  show V c main_arg3 _ = V c main_arg3 _
  congr 1
  funext ax
  apply Fin.ext
  match ax with
  | ⟨0, _⟩ => show win2_0.index t (0 : Fin 2) * 400 + 1 * r.val = g.val; rw [e0, hg]; omega
  | ⟨1, _⟩ => show win2_0.index t (1 : Fin 2) * 10000 + 1 * p.val = p.val; rw [e1]; omega

/-- The packed-operand block at every point is the whole packed operand. -/
theorem opd_block (c : Dev nD) (t : Fin cfg2.N) :
    (iblk2 V c 1 t : Vec Ideal S10000x192 .bf16) = (V c main_v8 : S10000x192.Idx → Elt Ideal .bf16) := by
  obtain ⟨e0, e1⟩ := idx_opd t
  funext y
  unfold iblk2
  rw [View.read_apply]
  show V c main_v8 _ = V c main_v8 _
  congr 1
  funext ax
  apply Fin.ext
  match ax with
  | ⟨0, _⟩ => show win2_1.index t (0 : Fin 2) * 10000 + 1 * (y 0).val = (y 0).val; rw [e0]; omega
  | ⟨1, _⟩ => show win2_1.index t (1 : Fin 2) * 192 + 1 * (y 1).val = (y 1).val; rw [e1]; omega

end Cert.Bridge.R2

end
-- ==== Proof.R2Win2.lean ====
/-
  Output window 2 of the second adjacency sweep: from its blocks to its array.

  The window receives the first 64-column band of the block product.
  Point t writes back rows 400·t … 400·t + 399 of the window's 10000 × 64 array; the 25 points' blocks tile the array.
  So if the body's value at block entry (r, k) of point t is G at (400·t + r, k) for ONE function G of the array's
  index, the array ends holding G.
-/
import proofs.«140504_g18717467476370_cont_8to1_202_16_alg».proof.Proof.R2Blocks

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R2

variable (V : (c : Dev nD) → (b : Ref sig .tc) → Buf (Elt Ideal) ((c : Thread nD τ).loc b))

/-- What point t writes back is block t of G. -/
theorem flushed2 (c : Dev nD) (G : S10000x64.Idx → Elt Ideal .f32)
    (hpt : ∀ (t : Fin cfg2.N) (r : Fin 400) (k : Fin 64) (g : Fin 10000), g.val = 400 * t.val + r.val →
      k2_pay2 (iblk2 V c 0 t) (iblk2 V c 1 t) (ix2 r k) = G (ix2 g k))
    (t : Fin cfg2.N) :
    (dat2 V c).flushed 2 t = ((cfg2.win 2).blk t).view.read (Elt Ideal) G := by
  show (cfg2.win 2).cut (grid2.coords t) ((dat2 V c).after 2 t) = _
  rw [after2_2]
  unfold out2_2
  rw [View.canon_unit_zero hz]
  simp only [View.ld_unit_zero (S := S400x10000) hz, View.ld_unit_zero (S := S10000x192) hz]
  obtain ⟨e0, e1⟩ := idx_out2 t
  have ht := point_lt t
  funext j
  revert j
  show ∀ j : S400x64.Idx, k2_pay2 (iblk2 V c 0 t) (iblk2 V c 1 t) j = G (((cfg2.win 2).blk t).view.emb j)
  intro j
  obtain ⟨r, k, rfl⟩ : ∃ (r : Fin 400) (k : Fin 64), j = ix2 r k := ⟨j 0, j 1, eq_ix2 j⟩
  refine (hpt t r k ⟨400 * t.val + r.val, by have := r.isLt; omega⟩ rfl).trans ?_
  refine congrArg G (funext fun ax => Fin.ext ?_)
  match ax with
  | ⟨0, _⟩ => show 400 * t.val + r.val = win2_2.index t (0 : Fin 2) * 400 + 1 * r.val; rw [e0]; omega
  | ⟨1, _⟩ => show k.val = win2_2.index t (1 : Fin 2) * 64 + 1 * k.val; rw [e1]; omega

/-- Every row g of the array lies in the block of point g / 400. -/
theorem cover2 (i : S10000x64.Idx) :
    ∃ t : Fin cfg2.N, (cfg2.win 2).flush t = true ∧ i ∈ ((cfg2.win 2).blk t).view.set := by
  have hi0 : (i 0).val < 10000 := idx2_lt0 i
  have hi1 : (i 1).val < 64 := idx2_lt1 i
  have hN : cfg2.N = 25 := N_2
  obtain ⟨t, ht⟩ : ∃ t : Fin cfg2.N, t.val = (i 0).val / 400 := ⟨⟨(i 0).val / 400, by rw [hN]; omega⟩, rfl⟩
  obtain ⟨e0, e1⟩ := idx_out2 t
  refine ⟨t, flush2_2 t, ?_⟩
  show i ∈ ((View.whole main_v9_0).slice (win2_2.rect t)).set
  rw [View.set_slice_whole, Rect.mem_set_unit]
  intro a
  match a with
  | ⟨0, _⟩ =>
    show win2_2.index t (0 : Fin 2) * 400 ≤ (i 0).val ∧ (i 0).val < win2_2.index t (0 : Fin 2) * 400 + 400
    rw [e0, ht]; omega
  | ⟨1, _⟩ =>
    show win2_2.index t (1 : Fin 2) * 64 ≤ (i 1).val ∧ (i 1).val < win2_2.index t (1 : Fin 2) * 64 + 64
    rw [e1]; omega

/-- The array after all 25 points is G. -/
theorem final2 (c : Dev nD) (G : S10000x64.Idx → Elt Ideal .f32)
    (hpt : ∀ (t : Fin cfg2.N) (r : Fin 400) (k : Fin 64) (g : Fin 10000), g.val = 400 * t.val + r.val →
      k2_pay2 (iblk2 V c 0 t) (iblk2 V c 1 t) (ix2 r k) = G (ix2 g k)) :
    (dat2 V c).arrAt 2 cfg2.N = G :=
  (dat2 V c).arrAt_eq_of_cover 2 G (fun t _ => flushed2 V c G hpt t) cover2

end Cert.Bridge.R2

end
-- ==== Proof.R2Win3.lean ====
/-
  Output window 3 of the second adjacency sweep: from its blocks to its array.

  The window receives the second 64-column band of the block product.
  Point t writes back rows 400·t … 400·t + 399 of the window's 10000 × 64 array; the 25 points' blocks tile the array.
  So if the body's value at block entry (r, k) of point t is G at (400·t + r, k) for ONE function G of the array's
  index, the array ends holding G.
-/
import proofs.«140504_g18717467476370_cont_8to1_202_16_alg».proof.Proof.R2Blocks

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R2

variable (V : (c : Dev nD) → (b : Ref sig .tc) → Buf (Elt Ideal) ((c : Thread nD τ).loc b))

/-- What point t writes back is block t of G. -/
theorem flushed3 (c : Dev nD) (G : S10000x64.Idx → Elt Ideal .f32)
    (hpt : ∀ (t : Fin cfg2.N) (r : Fin 400) (k : Fin 64) (g : Fin 10000), g.val = 400 * t.val + r.val →
      k2_pay3 (iblk2 V c 0 t) (iblk2 V c 1 t) (ix2 r k) = G (ix2 g k))
    (t : Fin cfg2.N) :
    (dat2 V c).flushed 3 t = ((cfg2.win 3).blk t).view.read (Elt Ideal) G := by
  show (cfg2.win 3).cut (grid2.coords t) ((dat2 V c).after 3 t) = _
  rw [after2_3]
  unfold out2_3
  rw [View.canon_unit_zero hz]
  simp only [View.ld_unit_zero (S := S400x10000) hz, View.ld_unit_zero (S := S10000x192) hz]
  obtain ⟨e0, e1⟩ := idx_out3 t
  have ht := point_lt t
  funext j
  revert j
  show ∀ j : S400x64.Idx, k2_pay3 (iblk2 V c 0 t) (iblk2 V c 1 t) j = G (((cfg2.win 3).blk t).view.emb j)
  intro j
  obtain ⟨r, k, rfl⟩ : ∃ (r : Fin 400) (k : Fin 64), j = ix2 r k := ⟨j 0, j 1, eq_ix2 j⟩
  refine (hpt t r k ⟨400 * t.val + r.val, by have := r.isLt; omega⟩ rfl).trans ?_
  refine congrArg G (funext fun ax => Fin.ext ?_)
  match ax with
  | ⟨0, _⟩ => show 400 * t.val + r.val = win2_3.index t (0 : Fin 2) * 400 + 1 * r.val; rw [e0]; omega
  | ⟨1, _⟩ => show k.val = win2_3.index t (1 : Fin 2) * 64 + 1 * k.val; rw [e1]; omega

/-- Every row g of the array lies in the block of point g / 400. -/
theorem cover3 (i : S10000x64.Idx) :
    ∃ t : Fin cfg2.N, (cfg2.win 3).flush t = true ∧ i ∈ ((cfg2.win 3).blk t).view.set := by
  have hi0 : (i 0).val < 10000 := idx2_lt0 i
  have hi1 : (i 1).val < 64 := idx2_lt1 i
  have hN : cfg2.N = 25 := N_2
  obtain ⟨t, ht⟩ : ∃ t : Fin cfg2.N, t.val = (i 0).val / 400 := ⟨⟨(i 0).val / 400, by rw [hN]; omega⟩, rfl⟩
  obtain ⟨e0, e1⟩ := idx_out3 t
  refine ⟨t, flush2_3 t, ?_⟩
  show i ∈ ((View.whole main_v9_1).slice (win2_3.rect t)).set
  rw [View.set_slice_whole, Rect.mem_set_unit]
  intro a
  match a with
  | ⟨0, _⟩ =>
    show win2_3.index t (0 : Fin 2) * 400 ≤ (i 0).val ∧ (i 0).val < win2_3.index t (0 : Fin 2) * 400 + 400
    rw [e0, ht]; omega
  | ⟨1, _⟩ =>
    show win2_3.index t (1 : Fin 2) * 64 ≤ (i 1).val ∧ (i 1).val < win2_3.index t (1 : Fin 2) * 64 + 64
    rw [e1]; omega

/-- The array after all 25 points is G. -/
theorem final3 (c : Dev nD) (G : S10000x64.Idx → Elt Ideal .f32)
    (hpt : ∀ (t : Fin cfg2.N) (r : Fin 400) (k : Fin 64) (g : Fin 10000), g.val = 400 * t.val + r.val →
      k2_pay3 (iblk2 V c 0 t) (iblk2 V c 1 t) (ix2 r k) = G (ix2 g k)) :
    (dat2 V c).arrAt 3 cfg2.N = G :=
  (dat2 V c).arrAt_eq_of_cover 3 G (fun t _ => flushed3 V c G hpt t) cover3

end Cert.Bridge.R2

end
-- ==== Proof.R2Win4.lean ====
/-
  Output window 4 of the second adjacency sweep: from its blocks to its array.

  The window receives the third 64-column band of the block product.
  Point t writes back rows 400·t … 400·t + 399 of the window's 10000 × 64 array; the 25 points' blocks tile the array.
  So if the body's value at block entry (r, k) of point t is G at (400·t + r, k) for ONE function G of the array's
  index, the array ends holding G.
-/
import proofs.«140504_g18717467476370_cont_8to1_202_16_alg».proof.Proof.R2Blocks

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R2

variable (V : (c : Dev nD) → (b : Ref sig .tc) → Buf (Elt Ideal) ((c : Thread nD τ).loc b))

/-- What point t writes back is block t of G. -/
theorem flushed4 (c : Dev nD) (G : S10000x64.Idx → Elt Ideal .f32)
    (hpt : ∀ (t : Fin cfg2.N) (r : Fin 400) (k : Fin 64) (g : Fin 10000), g.val = 400 * t.val + r.val →
      k2_pay4 (iblk2 V c 0 t) (iblk2 V c 1 t) (ix2 r k) = G (ix2 g k))
    (t : Fin cfg2.N) :
    (dat2 V c).flushed 4 t = ((cfg2.win 4).blk t).view.read (Elt Ideal) G := by
  show (cfg2.win 4).cut (grid2.coords t) ((dat2 V c).after 4 t) = _
  rw [after2_4]
  unfold out2_4
  rw [View.canon_unit_zero hz]
  simp only [View.ld_unit_zero (S := S400x10000) hz, View.ld_unit_zero (S := S10000x192) hz]
  obtain ⟨e0, e1⟩ := idx_out4 t
  have ht := point_lt t
  funext j
  revert j
  show ∀ j : S400x64.Idx, k2_pay4 (iblk2 V c 0 t) (iblk2 V c 1 t) j = G (((cfg2.win 4).blk t).view.emb j)
  intro j
  obtain ⟨r, k, rfl⟩ : ∃ (r : Fin 400) (k : Fin 64), j = ix2 r k := ⟨j 0, j 1, eq_ix2 j⟩
  refine (hpt t r k ⟨400 * t.val + r.val, by have := r.isLt; omega⟩ rfl).trans ?_
  refine congrArg G (funext fun ax => Fin.ext ?_)
  match ax with
  | ⟨0, _⟩ => show 400 * t.val + r.val = win2_4.index t (0 : Fin 2) * 400 + 1 * r.val; rw [e0]; omega
  | ⟨1, _⟩ => show k.val = win2_4.index t (1 : Fin 2) * 64 + 1 * k.val; rw [e1]; omega

/-- Every row g of the array lies in the block of point g / 400. -/
theorem cover4 (i : S10000x64.Idx) :
    ∃ t : Fin cfg2.N, (cfg2.win 4).flush t = true ∧ i ∈ ((cfg2.win 4).blk t).view.set := by
  have hi0 : (i 0).val < 10000 := idx2_lt0 i
  have hi1 : (i 1).val < 64 := idx2_lt1 i
  have hN : cfg2.N = 25 := N_2
  obtain ⟨t, ht⟩ : ∃ t : Fin cfg2.N, t.val = (i 0).val / 400 := ⟨⟨(i 0).val / 400, by rw [hN]; omega⟩, rfl⟩
  obtain ⟨e0, e1⟩ := idx_out4 t
  refine ⟨t, flush2_4 t, ?_⟩
  show i ∈ ((View.whole main_v9_2).slice (win2_4.rect t)).set
  rw [View.set_slice_whole, Rect.mem_set_unit]
  intro a
  match a with
  | ⟨0, _⟩ =>
    show win2_4.index t (0 : Fin 2) * 400 ≤ (i 0).val ∧ (i 0).val < win2_4.index t (0 : Fin 2) * 400 + 400
    rw [e0, ht]; omega
  | ⟨1, _⟩ =>
    show win2_4.index t (1 : Fin 2) * 64 ≤ (i 1).val ∧ (i 1).val < win2_4.index t (1 : Fin 2) * 64 + 64
    rw [e1]; omega

/-- The array after all 25 points is G. -/
theorem final4 (c : Dev nD) (G : S10000x64.Idx → Elt Ideal .f32)
    (hpt : ∀ (t : Fin cfg2.N) (r : Fin 400) (k : Fin 64) (g : Fin 10000), g.val = 400 * t.val + r.val →
      k2_pay4 (iblk2 V c 0 t) (iblk2 V c 1 t) (ix2 r k) = G (ix2 g k)) :
    (dat2 V c).arrAt 4 cfg2.N = G :=
  (dat2 V c).arrAt_eq_of_cover 4 G (fun t _ => flushed4 V c G hpt t) cover4

end Cert.Bridge.R2

end
-- ==== Proof.R2Win5.lean ====
/-
  Output window 5 of the second adjacency sweep: from its blocks to its array.

  The window receives the positive part of the first band.
  Point t writes back rows 400·t … 400·t + 399 of the window's 10000 × 64 array; the 25 points' blocks tile the array.
  So if the body's value at block entry (r, k) of point t is G at (400·t + r, k) for ONE function G of the array's
  index, the array ends holding G.
-/
import proofs.«140504_g18717467476370_cont_8to1_202_16_alg».proof.Proof.R2Blocks

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R2

variable (V : (c : Dev nD) → (b : Ref sig .tc) → Buf (Elt Ideal) ((c : Thread nD τ).loc b))

/-- What point t writes back is block t of G. -/
theorem flushed5 (c : Dev nD) (G : S10000x64.Idx → Elt Ideal .bf16)
    (hpt : ∀ (t : Fin cfg2.N) (r : Fin 400) (k : Fin 64) (g : Fin 10000), g.val = 400 * t.val + r.val →
      k2_pay5 (iblk2 V c 0 t) (iblk2 V c 1 t) (ix2 r k) = G (ix2 g k))
    (t : Fin cfg2.N) :
    (dat2 V c).flushed 5 t = ((cfg2.win 5).blk t).view.read (Elt Ideal) G := by
  show (cfg2.win 5).cut (grid2.coords t) ((dat2 V c).after 5 t) = _
  rw [after2_5]
  unfold out2_5
  rw [View.canon_unit_zero hz]
  simp only [View.ld_unit_zero (S := S400x10000) hz, View.ld_unit_zero (S := S10000x192) hz]
  obtain ⟨e0, e1⟩ := idx_out5 t
  have ht := point_lt t
  funext j
  revert j
  show ∀ j : S400x64.Idx, k2_pay5 (iblk2 V c 0 t) (iblk2 V c 1 t) j = G (((cfg2.win 5).blk t).view.emb j)
  intro j
  obtain ⟨r, k, rfl⟩ : ∃ (r : Fin 400) (k : Fin 64), j = ix2 r k := ⟨j 0, j 1, eq_ix2 j⟩
  refine (hpt t r k ⟨400 * t.val + r.val, by have := r.isLt; omega⟩ rfl).trans ?_
  refine congrArg G (funext fun ax => Fin.ext ?_)
  match ax with
  | ⟨0, _⟩ => show 400 * t.val + r.val = win2_5.index t (0 : Fin 2) * 400 + 1 * r.val; rw [e0]; omega
  | ⟨1, _⟩ => show k.val = win2_5.index t (1 : Fin 2) * 64 + 1 * k.val; rw [e1]; omega

/-- Every row g of the array lies in the block of point g / 400. -/
theorem cover5 (i : S10000x64.Idx) :
    ∃ t : Fin cfg2.N, (cfg2.win 5).flush t = true ∧ i ∈ ((cfg2.win 5).blk t).view.set := by
  have hi0 : (i 0).val < 10000 := idx2_lt0 i
  have hi1 : (i 1).val < 64 := idx2_lt1 i
  have hN : cfg2.N = 25 := N_2
  obtain ⟨t, ht⟩ : ∃ t : Fin cfg2.N, t.val = (i 0).val / 400 := ⟨⟨(i 0).val / 400, by rw [hN]; omega⟩, rfl⟩
  obtain ⟨e0, e1⟩ := idx_out5 t
  refine ⟨t, flush2_5 t, ?_⟩
  show i ∈ ((View.whole main_v9_3).slice (win2_5.rect t)).set
  rw [View.set_slice_whole, Rect.mem_set_unit]
  intro a
  match a with
  | ⟨0, _⟩ =>
    show win2_5.index t (0 : Fin 2) * 400 ≤ (i 0).val ∧ (i 0).val < win2_5.index t (0 : Fin 2) * 400 + 400
    rw [e0, ht]; omega
  | ⟨1, _⟩ =>
    show win2_5.index t (1 : Fin 2) * 64 ≤ (i 1).val ∧ (i 1).val < win2_5.index t (1 : Fin 2) * 64 + 64
    rw [e1]; omega

/-- The array after all 25 points is G. -/
theorem final5 (c : Dev nD) (G : S10000x64.Idx → Elt Ideal .bf16)
    (hpt : ∀ (t : Fin cfg2.N) (r : Fin 400) (k : Fin 64) (g : Fin 10000), g.val = 400 * t.val + r.val →
      k2_pay5 (iblk2 V c 0 t) (iblk2 V c 1 t) (ix2 r k) = G (ix2 g k)) :
    (dat2 V c).arrAt 5 cfg2.N = G :=
  (dat2 V c).arrAt_eq_of_cover 5 G (fun t _ => flushed5 V c G hpt t) cover5

end Cert.Bridge.R2

end
-- ==== Proof.R2Win6.lean ====
/-
  Output window 6 of the second adjacency sweep: from its blocks to its array.

  The window receives the positive part of the third band.
  Point t writes back rows 400·t … 400·t + 399 of the window's 10000 × 64 array; the 25 points' blocks tile the array.
  So if the body's value at block entry (r, k) of point t is G at (400·t + r, k) for ONE function G of the array's
  index, the array ends holding G.
-/
import proofs.«140504_g18717467476370_cont_8to1_202_16_alg».proof.Proof.R2Blocks

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R2

variable (V : (c : Dev nD) → (b : Ref sig .tc) → Buf (Elt Ideal) ((c : Thread nD τ).loc b))

/-- What point t writes back is block t of G. -/
theorem flushed6 (c : Dev nD) (G : S10000x64.Idx → Elt Ideal .bf16)
    (hpt : ∀ (t : Fin cfg2.N) (r : Fin 400) (k : Fin 64) (g : Fin 10000), g.val = 400 * t.val + r.val →
      k2_pay6 (iblk2 V c 0 t) (iblk2 V c 1 t) (ix2 r k) = G (ix2 g k))
    (t : Fin cfg2.N) :
    (dat2 V c).flushed 6 t = ((cfg2.win 6).blk t).view.read (Elt Ideal) G := by
  show (cfg2.win 6).cut (grid2.coords t) ((dat2 V c).after 6 t) = _
  rw [after2_6]
  unfold out2_6
  rw [View.canon_unit_zero hz]
  simp only [View.ld_unit_zero (S := S400x10000) hz, View.ld_unit_zero (S := S10000x192) hz]
  obtain ⟨e0, e1⟩ := idx_out6 t
  have ht := point_lt t
  funext j
  revert j
  show ∀ j : S400x64.Idx, k2_pay6 (iblk2 V c 0 t) (iblk2 V c 1 t) j = G (((cfg2.win 6).blk t).view.emb j)
  intro j
  obtain ⟨r, k, rfl⟩ : ∃ (r : Fin 400) (k : Fin 64), j = ix2 r k := ⟨j 0, j 1, eq_ix2 j⟩
  refine (hpt t r k ⟨400 * t.val + r.val, by have := r.isLt; omega⟩ rfl).trans ?_
  refine congrArg G (funext fun ax => Fin.ext ?_)
  match ax with
  | ⟨0, _⟩ => show 400 * t.val + r.val = win2_6.index t (0 : Fin 2) * 400 + 1 * r.val; rw [e0]; omega
  | ⟨1, _⟩ => show k.val = win2_6.index t (1 : Fin 2) * 64 + 1 * k.val; rw [e1]; omega

/-- Every row g of the array lies in the block of point g / 400. -/
theorem cover6 (i : S10000x64.Idx) :
    ∃ t : Fin cfg2.N, (cfg2.win 6).flush t = true ∧ i ∈ ((cfg2.win 6).blk t).view.set := by
  have hi0 : (i 0).val < 10000 := idx2_lt0 i
  have hi1 : (i 1).val < 64 := idx2_lt1 i
  have hN : cfg2.N = 25 := N_2
  obtain ⟨t, ht⟩ : ∃ t : Fin cfg2.N, t.val = (i 0).val / 400 := ⟨⟨(i 0).val / 400, by rw [hN]; omega⟩, rfl⟩
  obtain ⟨e0, e1⟩ := idx_out6 t
  refine ⟨t, flush2_6 t, ?_⟩
  show i ∈ ((View.whole main_v9_4).slice (win2_6.rect t)).set
  rw [View.set_slice_whole, Rect.mem_set_unit]
  intro a
  match a with
  | ⟨0, _⟩ =>
    show win2_6.index t (0 : Fin 2) * 400 ≤ (i 0).val ∧ (i 0).val < win2_6.index t (0 : Fin 2) * 400 + 400
    rw [e0, ht]; omega
  | ⟨1, _⟩ =>
    show win2_6.index t (1 : Fin 2) * 64 ≤ (i 1).val ∧ (i 1).val < win2_6.index t (1 : Fin 2) * 64 + 64
    rw [e1]; omega

/-- The array after all 25 points is G. -/
theorem final6 (c : Dev nD) (G : S10000x64.Idx → Elt Ideal .bf16)
    (hpt : ∀ (t : Fin cfg2.N) (r : Fin 400) (k : Fin 64) (g : Fin 10000), g.val = 400 * t.val + r.val →
      k2_pay6 (iblk2 V c 0 t) (iblk2 V c 1 t) (ix2 r k) = G (ix2 g k)) :
    (dat2 V c).arrAt 6 cfg2.N = G :=
  (dat2 V c).arrAt_eq_of_cover 6 G (fun t _ => flushed6 V c G hpt t) cover6

end Cert.Bridge.R2

end
-- ==== Proof.R2Win7.lean ====
/-
  Output window 7 of the second adjacency sweep: from its blocks to its array.

  The window receives the first band with every row divided by its Euclidean length.
  Point t writes back rows 400·t … 400·t + 399 of the window's 10000 × 64 array; the 25 points' blocks tile the array.
  So if the body's value at block entry (r, k) of point t is G at (400·t + r, k) for ONE function G of the array's
  index, the array ends holding G.
-/
import proofs.«140504_g18717467476370_cont_8to1_202_16_alg».proof.Proof.R2Blocks

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R2

variable (V : (c : Dev nD) → (b : Ref sig .tc) → Buf (Elt Ideal) ((c : Thread nD τ).loc b))

/-- What point t writes back is block t of G. -/
theorem flushed7 (c : Dev nD) (G : S10000x64.Idx → Elt Ideal .bf16)
    (hpt : ∀ (t : Fin cfg2.N) (r : Fin 400) (k : Fin 64) (g : Fin 10000), g.val = 400 * t.val + r.val →
      k2_pay7 (iblk2 V c 0 t) (iblk2 V c 1 t) (ix2 r k) = G (ix2 g k))
    (t : Fin cfg2.N) :
    (dat2 V c).flushed 7 t = ((cfg2.win 7).blk t).view.read (Elt Ideal) G := by
  show (cfg2.win 7).cut (grid2.coords t) ((dat2 V c).after 7 t) = _
  rw [after2_7]
  unfold out2_7
  rw [View.canon_unit_zero hz]
  simp only [View.ld_unit_zero (S := S400x10000) hz, View.ld_unit_zero (S := S10000x192) hz]
  obtain ⟨e0, e1⟩ := idx_out7 t
  have ht := point_lt t
  funext j
  revert j
  show ∀ j : S400x64.Idx, k2_pay7 (iblk2 V c 0 t) (iblk2 V c 1 t) j = G (((cfg2.win 7).blk t).view.emb j)
  intro j
  obtain ⟨r, k, rfl⟩ : ∃ (r : Fin 400) (k : Fin 64), j = ix2 r k := ⟨j 0, j 1, eq_ix2 j⟩
  refine (hpt t r k ⟨400 * t.val + r.val, by have := r.isLt; omega⟩ rfl).trans ?_
  refine congrArg G (funext fun ax => Fin.ext ?_)
  match ax with
  | ⟨0, _⟩ => show 400 * t.val + r.val = win2_7.index t (0 : Fin 2) * 400 + 1 * r.val; rw [e0]; omega
  | ⟨1, _⟩ => show k.val = win2_7.index t (1 : Fin 2) * 64 + 1 * k.val; rw [e1]; omega

/-- Every row g of the array lies in the block of point g / 400. -/
theorem cover7 (i : S10000x64.Idx) :
    ∃ t : Fin cfg2.N, (cfg2.win 7).flush t = true ∧ i ∈ ((cfg2.win 7).blk t).view.set := by
  have hi0 : (i 0).val < 10000 := idx2_lt0 i
  have hi1 : (i 1).val < 64 := idx2_lt1 i
  have hN : cfg2.N = 25 := N_2
  obtain ⟨t, ht⟩ : ∃ t : Fin cfg2.N, t.val = (i 0).val / 400 := ⟨⟨(i 0).val / 400, by rw [hN]; omega⟩, rfl⟩
  obtain ⟨e0, e1⟩ := idx_out7 t
  refine ⟨t, flush2_7 t, ?_⟩
  show i ∈ ((View.whole main_v9_5).slice (win2_7.rect t)).set
  rw [View.set_slice_whole, Rect.mem_set_unit]
  intro a
  match a with
  | ⟨0, _⟩ =>
    show win2_7.index t (0 : Fin 2) * 400 ≤ (i 0).val ∧ (i 0).val < win2_7.index t (0 : Fin 2) * 400 + 400
    rw [e0, ht]; omega
  | ⟨1, _⟩ =>
    show win2_7.index t (1 : Fin 2) * 64 ≤ (i 1).val ∧ (i 1).val < win2_7.index t (1 : Fin 2) * 64 + 64
    rw [e1]; omega

/-- The array after all 25 points is G. -/
theorem final7 (c : Dev nD) (G : S10000x64.Idx → Elt Ideal .bf16)
    (hpt : ∀ (t : Fin cfg2.N) (r : Fin 400) (k : Fin 64) (g : Fin 10000), g.val = 400 * t.val + r.val →
      k2_pay7 (iblk2 V c 0 t) (iblk2 V c 1 t) (ix2 r k) = G (ix2 g k)) :
    (dat2 V c).arrAt 7 cfg2.N = G :=
  (dat2 V c).arrAt_eq_of_cover 7 G (fun t _ => flushed7 V c G hpt t) cover7

end Cert.Bridge.R2

end
-- ==== Proof.R2Final.lean ====
/-
  The second adjacency sweep: its six output arrays are the reference's own stages.

  With A the adjacency, BG = [H₀W₂ | H₁W₂ | H₂W₂] the packed operand and Z_j = A · (H_j · W₂) the reference's stages,
  the sweep leaves  Z₀, Z₁, Z₂,  the positive parts of Z₀ and Z₂,  and Z₀ with every row divided by its Euclidean
  length. At a grid point the body sees rows 400·t … 400·t + 399 of A and all of BG; its block product at (r, 64·j + k)
  is  ∑_p A(400·t + r, p) · BG(p, 64·j + k) = Z_j(400·t + r, k),  and the other three outputs apply to it, entry by
  entry or row by row, what the reference applies to Z_j. The blocks tile the arrays.
-/
import proofs.«140504_g18717467476370_cont_8to1_202_16_alg».proof.Proof.R2Pay
import proofs.«140504_g18717467476370_cont_8to1_202_16_alg».proof.Proof.R2Norm
import proofs.«140504_g18717467476370_cont_8to1_202_16_alg».proof.Proof.R2Spec
import proofs.«140504_g18717467476370_cont_8to1_202_16_alg».proof.Proof.R2Win2
import proofs.«140504_g18717467476370_cont_8to1_202_16_alg».proof.Proof.R2Win3
import proofs.«140504_g18717467476370_cont_8to1_202_16_alg».proof.Proof.R2Win4
import proofs.«140504_g18717467476370_cont_8to1_202_16_alg».proof.Proof.R2Win5
import proofs.«140504_g18717467476370_cont_8to1_202_16_alg».proof.Proof.R2Win6
import proofs.«140504_g18717467476370_cont_8to1_202_16_alg».proof.Proof.R2Win7

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R2

/-! ## One row block against the reference: a holds rows 400·t … of the adjacency x3, b is the packed operand -/

/-- The first band at (r, k) is Z₀ at (400·t + r, k). -/
theorem point_z0 (a : Vec Ideal S400x10000 .f32) (b : Vec Ideal S10000x192 .bf16)
    (x0 x1 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (t : Nat)
    (ha : ∀ (r : Fin 400) (p g : Fin 10000), g.val = 400 * t + r.val → a (ix2 r p) = x3 (ix2 g p))
    (hb : b = Cert.Bridge.bgOf x0 x1 x2 x3 x5 x6) (r : Fin 400) (k : Fin 64) (g : Fin 10000) (hg : g.val = 400 * t + r.val) :
    k2_pay2 a b (ix2 r k) = Cert.ReferenceIdeal.Read.val_main_v4 (F := Ideal) x0 x3 x5 x6 (ix2 g k) := by
  rw [band0_apply, hb]
  refine (Finset.sum_congr rfl fun p _ => by rw [ha r p g hg]).trans ?_
  exact sweep0 x0 x1 x2 x3 x5 x6 g k _ rfl

/-- The second band at (r, k) is Z₁ at (400·t + r, k). -/
theorem point_z1 (a : Vec Ideal S400x10000 .f32) (b : Vec Ideal S10000x192 .bf16)
    (x0 x1 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (t : Nat)
    (ha : ∀ (r : Fin 400) (p g : Fin 10000), g.val = 400 * t + r.val → a (ix2 r p) = x3 (ix2 g p))
    (hb : b = Cert.Bridge.bgOf x0 x1 x2 x3 x5 x6) (r : Fin 400) (k : Fin 64) (g : Fin 10000) (hg : g.val = 400 * t + r.val) :
    k2_pay3 a b (ix2 r k) = Cert.ReferenceIdeal.Read.val_main_v78 (F := Ideal) x1 x3 x5 x6 (ix2 g k) := by
  rw [band1_apply, hb]
  refine (Finset.sum_congr rfl fun p _ => by rw [ha r p g hg]).trans ?_
  exact sweep1 x0 x1 x2 x3 x5 x6 g k _ rfl

/-- The third band at (r, k) is Z₂ at (400·t + r, k). -/
theorem point_z2 (a : Vec Ideal S400x10000 .f32) (b : Vec Ideal S10000x192 .bf16)
    (x0 x1 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (t : Nat)
    (ha : ∀ (r : Fin 400) (p g : Fin 10000), g.val = 400 * t + r.val → a (ix2 r p) = x3 (ix2 g p))
    (hb : b = Cert.Bridge.bgOf x0 x1 x2 x3 x5 x6) (r : Fin 400) (k : Fin 64) (g : Fin 10000) (hg : g.val = 400 * t + r.val) :
    k2_pay4 a b (ix2 r k) = Cert.ReferenceIdeal.Read.val_main_v83 (F := Ideal) x2 x3 x5 x6 (ix2 g k) := by
  rw [band2_apply, hb]
  refine (Finset.sum_congr rfl fun p _ => by rw [ha r p g hg]).trans ?_
  exact sweep2 x0 x1 x2 x3 x5 x6 g k _ rfl

/-- The positive part of the first band is the reference's positive part of Z₀. -/
theorem point_e1 (a : Vec Ideal S400x10000 .f32) (b : Vec Ideal S10000x192 .bf16)
    (x0 x1 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (t : Nat)
    (ha : ∀ (r : Fin 400) (p g : Fin 10000), g.val = 400 * t + r.val → a (ix2 r p) = x3 (ix2 g p))
    (hb : b = Cert.Bridge.bgOf x0 x1 x2 x3 x5 x6) (r : Fin 400) (k : Fin 64) (g : Fin 10000) (hg : g.val = 400 * t + r.val) :
    k2_pay5 a b (ix2 r k) = Cert.ReferenceIdeal.Read.val_main_v5 (F := Ideal) x0 x3 x5 x6 (ix2 g k) := by
  rw [relu0_apply, relu0_ref, point_z0 a b x0 x1 x2 x3 x5 x6 t ha hb r k g hg]

/-- The positive part of the third band is the reference's positive part of Z₂. -/
theorem point_e3 (a : Vec Ideal S400x10000 .f32) (b : Vec Ideal S10000x192 .bf16)
    (x0 x1 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (t : Nat)
    (ha : ∀ (r : Fin 400) (p g : Fin 10000), g.val = 400 * t + r.val → a (ix2 r p) = x3 (ix2 g p))
    (hb : b = Cert.Bridge.bgOf x0 x1 x2 x3 x5 x6) (r : Fin 400) (k : Fin 64) (g : Fin 10000) (hg : g.val = 400 * t + r.val) :
    k2_pay6 a b (ix2 r k) = Cert.ReferenceIdeal.Read.val_main_v84 (F := Ideal) x2 x3 x5 x6 (ix2 g k) := by
  rw [relu2_apply, relu2_ref, point_z2 a b x0 x1 x2 x3 x5 x6 t ha hb r k g hg]

/-- The row-normalized first band is the reference's row-normalized Z₀: the same quotient over the same row. -/
theorem point_zn (a : Vec Ideal S400x10000 .f32) (b : Vec Ideal S10000x192 .bf16)
    (x0 x1 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (t : Nat)
    (ha : ∀ (r : Fin 400) (p g : Fin 10000), g.val = 400 * t + r.val → a (ix2 r p) = x3 (ix2 g p))
    (hb : b = Cert.Bridge.bgOf x0 x1 x2 x3 x5 x6) (r : Fin 400) (k : Fin 64) (g : Fin 10000) (hg : g.val = 400 * t + r.val) :
    k2_pay7 a b (ix2 r k) = Cert.ReferenceIdeal.Read.val_main_v65 (F := Ideal) x0 x3 x5 x6 (ix2 g k) := by
  have hrow : ∀ k' : Fin 64, k2_pay2 a b (ix2 r k') = Cert.ReferenceIdeal.Read.val_main_v4 (F := Ideal) x0 x3 x5 x6 (ix2 g k') :=
    fun k' => point_z0 a b x0 x1 x2 x3 x5 x6 t ha hb r k' g hg
  rw [norm_apply, norm_ref]
  simp only [hrow]

/-! ## The six arrays after all 25 points -/

theorem final_z0 (V : (c : Dev nD) → (b : Ref sig .tc) → Buf (Elt Ideal) ((c : Thread nD τ).loc b)) (c : Dev nD)
    (x0 x1 x2 : (⟨S10000x128, .f32⟩ : BufTy).Contents (Elt Ideal)) (x5 : (⟨S128x256, .f32⟩ : BufTy).Contents (Elt Ideal)) (x6 : (⟨S256x64, .f32⟩ : BufTy).Contents (Elt Ideal))
    (hbg : V c main_v8 = Cert.Bridge.bgOf x0 x1 x2 (V c main_arg3) x5 x6) :
    (dat2 V c).arrAt 2 cfg2.N = Cert.ReferenceIdeal.Read.val_main_v4 x0 (V c main_arg3) x5 x6 :=
  final2 V c _ fun t r k g hg =>
    point_z0 (iblk2 V c 0 t) (iblk2 V c 1 t) x0 x1 x2 (V c main_arg3) x5 x6 t.val
      (fun r p g hg => adj_block V c t r p g hg) ((opd_block V c t).trans hbg) r k g hg

theorem final_z1 (V : (c : Dev nD) → (b : Ref sig .tc) → Buf (Elt Ideal) ((c : Thread nD τ).loc b)) (c : Dev nD)
    (x0 x1 x2 : (⟨S10000x128, .f32⟩ : BufTy).Contents (Elt Ideal)) (x5 : (⟨S128x256, .f32⟩ : BufTy).Contents (Elt Ideal)) (x6 : (⟨S256x64, .f32⟩ : BufTy).Contents (Elt Ideal))
    (hbg : V c main_v8 = Cert.Bridge.bgOf x0 x1 x2 (V c main_arg3) x5 x6) :
    (dat2 V c).arrAt 3 cfg2.N = Cert.ReferenceIdeal.Read.val_main_v78 x1 (V c main_arg3) x5 x6 :=
  final3 V c _ fun t r k g hg =>
    point_z1 (iblk2 V c 0 t) (iblk2 V c 1 t) x0 x1 x2 (V c main_arg3) x5 x6 t.val
      (fun r p g hg => adj_block V c t r p g hg) ((opd_block V c t).trans hbg) r k g hg

theorem final_z2 (V : (c : Dev nD) → (b : Ref sig .tc) → Buf (Elt Ideal) ((c : Thread nD τ).loc b)) (c : Dev nD)
    (x0 x1 x2 : (⟨S10000x128, .f32⟩ : BufTy).Contents (Elt Ideal)) (x5 : (⟨S128x256, .f32⟩ : BufTy).Contents (Elt Ideal)) (x6 : (⟨S256x64, .f32⟩ : BufTy).Contents (Elt Ideal))
    (hbg : V c main_v8 = Cert.Bridge.bgOf x0 x1 x2 (V c main_arg3) x5 x6) :
    (dat2 V c).arrAt 4 cfg2.N = Cert.ReferenceIdeal.Read.val_main_v83 x2 (V c main_arg3) x5 x6 :=
  final4 V c _ fun t r k g hg =>
    point_z2 (iblk2 V c 0 t) (iblk2 V c 1 t) x0 x1 x2 (V c main_arg3) x5 x6 t.val
      (fun r p g hg => adj_block V c t r p g hg) ((opd_block V c t).trans hbg) r k g hg

theorem final_e1 (V : (c : Dev nD) → (b : Ref sig .tc) → Buf (Elt Ideal) ((c : Thread nD τ).loc b)) (c : Dev nD)
    (x0 x1 x2 : (⟨S10000x128, .f32⟩ : BufTy).Contents (Elt Ideal)) (x5 : (⟨S128x256, .f32⟩ : BufTy).Contents (Elt Ideal)) (x6 : (⟨S256x64, .f32⟩ : BufTy).Contents (Elt Ideal))
    (hbg : V c main_v8 = Cert.Bridge.bgOf x0 x1 x2 (V c main_arg3) x5 x6) :
    (dat2 V c).arrAt 5 cfg2.N = Cert.ReferenceIdeal.Read.val_main_v5 x0 (V c main_arg3) x5 x6 :=
  final5 V c _ fun t r k g hg =>
    point_e1 (iblk2 V c 0 t) (iblk2 V c 1 t) x0 x1 x2 (V c main_arg3) x5 x6 t.val
      (fun r p g hg => adj_block V c t r p g hg) ((opd_block V c t).trans hbg) r k g hg

theorem final_e3 (V : (c : Dev nD) → (b : Ref sig .tc) → Buf (Elt Ideal) ((c : Thread nD τ).loc b)) (c : Dev nD)
    (x0 x1 x2 : (⟨S10000x128, .f32⟩ : BufTy).Contents (Elt Ideal)) (x5 : (⟨S128x256, .f32⟩ : BufTy).Contents (Elt Ideal)) (x6 : (⟨S256x64, .f32⟩ : BufTy).Contents (Elt Ideal))
    (hbg : V c main_v8 = Cert.Bridge.bgOf x0 x1 x2 (V c main_arg3) x5 x6) :
    (dat2 V c).arrAt 6 cfg2.N = Cert.ReferenceIdeal.Read.val_main_v84 x2 (V c main_arg3) x5 x6 :=
  final6 V c _ fun t r k g hg =>
    point_e3 (iblk2 V c 0 t) (iblk2 V c 1 t) x0 x1 x2 (V c main_arg3) x5 x6 t.val
      (fun r p g hg => adj_block V c t r p g hg) ((opd_block V c t).trans hbg) r k g hg

theorem final_zn (V : (c : Dev nD) → (b : Ref sig .tc) → Buf (Elt Ideal) ((c : Thread nD τ).loc b)) (c : Dev nD)
    (x0 x1 x2 : (⟨S10000x128, .f32⟩ : BufTy).Contents (Elt Ideal)) (x5 : (⟨S128x256, .f32⟩ : BufTy).Contents (Elt Ideal)) (x6 : (⟨S256x64, .f32⟩ : BufTy).Contents (Elt Ideal))
    (hbg : V c main_v8 = Cert.Bridge.bgOf x0 x1 x2 (V c main_arg3) x5 x6) :
    (dat2 V c).arrAt 7 cfg2.N = Cert.ReferenceIdeal.Read.val_main_v65 x0 (V c main_arg3) x5 x6 :=
  final7 V c _ fun t r k g hg =>
    point_zn (iblk2 V c 0 t) (iblk2 V c 1 t) x0 x1 x2 (V c main_arg3) x5 x6 t.val
      (fun r p g hg => adj_block V c t r p g hg) ((opd_block V c t).trans hbg) r k g hg

end Cert.Bridge.R2

end
-- ==== Proof.R3RecSpec.lean ====
/-
  The reconstructed adjacency as one function of the normalized embedding Z (10000 × 64): entry (p, q) is the
  logistic function 1 / (1 + exp (−s)) of the inner product s = ∑ₖ Z(p, k) · Z(q, k) of rows p and q. The two ones
  are the f32 word of 1, the same word in both programs, left unevaluated.
-/
import Idealize.ShloMosaic.PureOps.Ideal
import Idealize.ShloMosaic.Lib.ValueIdx

noncomputable section

namespace Cert.Bridge.R3

open Idealize.ShloMosaic Idealize.ShloMosaic.ValueIdx

/-- 1 / (1 + exp (−s)). -/
def rec_logistic (s : EReal) : EReal :=
  Ideal.div (Ideal.ofBits .f32 0x3F800000#32) (Ideal.ofBits .f32 0x3F800000#32 + Ideal.exp (-s))

/-- Entry (p, q) of the reconstructed adjacency: the logistic function of ⟨row p of Z, row q of Z⟩. -/
def rec_gram (Z : (⟨2, ![10000, 64]⟩ : Shape).Idx → EReal) : (⟨2, ![10000, 10000]⟩ : Shape).Idx → EReal :=
  fun g => rec_logistic (∑ k : Fin 64, Z (ix2 ⟨(g 0).val, idx2_lt0 g⟩ k) * Z (ix2 ⟨(g 1).val, idx2_lt1 g⟩ k))

end Cert.Bridge.R3

end
-- ==== Proof.R3RecPiece.lean ====
/-
  What one grid point leaves in the staging buffer of the reconstructed-adjacency output: the body's single store
  covers the whole 200 × 10000 block, and its payload is computed from two loads of the normalized embedding's
  buffer — 200 consecutive rows starting at 200 times the grid coordinate, and the whole 10000 × 64 array.
-/
import proofs.«140504_g18717467476370_cont_8to1_202_16_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Cert.KernelIdeal Cert.KernelIdeal.Gen

namespace Cert.Bridge.R3

variable {F : FTy → Type} [FloatOps F]

theorem rec_hz : (![0, 0] : Fin 2 → Nat) = fun _ => 0 := funext fun a => by fin_cases a <;> rfl

/-- The block the body leaves is the payload of (rows 200·i … 200·i + 199 of the embedding buffer, the whole
    embedding buffer): one covering store, both loads reading the buffer's contents `x3`. -/
theorem rec_out_piece (c : Dev nD) (i : grid3.Coords)
    (a1 : Memref sig .tc .vmem S200x10000 .f32) (h1 : a1.IsWhole) (a2 : Memref sig .tc .vmem S10000x64 .bf16) (h2 : a2.IsWhole)
    (a3 : Memref sig .tc .vmem S200x64 .bf16) (h3 : a3.IsWhole) (a4 : Memref sig .tc .vmem S10000x64 .bf16) (h4 : a4.IsWhole)
    (a5 : Memref sig .tc .vmem S64x64 .f32) (h5 : a5.IsWhole) (a6 : Memref sig .tc .vmem S1x1 .f32) (h6 : a6.IsWhole)
    (a7 : Memref sig .tc .vmem S200x2 .f32) (h7 : a7.IsWhole) (a8 : Memref sig .tc .vmem S200x10000 .f32) (h8 : a8.IsWhole)
    (x0 : Vec F S200x10000 .f32) (x1 : Vec F S10000x64 .bf16) (x2 : Vec F S200x64 .bf16) (x3 : Vec F S10000x64 .bf16)
    (x4 : Vec F S64x64 .f32) (x5 : Vec F S1x1 .f32) :
    out3_A_7 c i a1 h1 a2 h2 a3 h3 a4 h4 a5 h5 a6 h6 a7 h7 a8 h8 x0 x1 x2 x3 x4 x5
      = k3_pay2 (View.ld x3 (Rect.unit (s := S10000x64) (k3_off1 i) S200x64.size (k3_off1_inb i))) x3 := by
  unfold out3_A_7
  rw [View.read_writes_eq_canon _ _ _ (cover3_A_7 c i a1 h1 a2 h2 a3 h3 a4 h4 a5 h5 a6 h6 a7 h7 a8 h8 x0 x1 x2 x3 x4 x5)]
  unfold kernelRun3_A
  dsimp only
  rw [View.canon_unit_zero rec_hz]
  simp only [View.readAt_eq_ld, h4.read_unread, View.ld_unit_zero (S := S10000x64) rec_hz]

end Cert.Bridge.R3

end
-- ==== Proof.R3RecPay.lean ====
/-
  The body's arithmetic for the reconstructed adjacency, read at one entry: from a 200 × 64 block `a` and the
  10000 × 64 array `b`, entry (r, q) of the stored block is the logistic function of ∑ₖ a(r, k) · b(q, k) — a
  matrix product that contracts axis 1 of BOTH operands, into a zero accumulator, followed by 1 / (1 + exp (0 − ·)).
-/
import proofs.«140504_g18717467476370_cont_8to1_202_16_alg».proof.Proof.Gen.KernelIdeal.Skeleton
import proofs.«140504_g18717467476370_cont_8to1_202_16_alg».proof.Proof.R3RecSpec
import Idealize.ShloMosaic.Lib.ValueIdx
import Idealize.ShloMosaic.Lib.Pipeline.Value
import Idealize.ShloMosaic.PureOps.Ideal.Laws

noncomputable section

open Idealize.ShloMosaic Idealize.ShloMosaic.ValueIdx
open Cert.KernelIdeal Cert.KernelIdeal.Gen

namespace Cert.Bridge.R3

/-- The left operand is read at (row of the result, contraction position): axis 0 is not contracted, -/
theorem rec_lhs0 (i : S200x10000.Idx) (p : dot_S200x64_S10000x64_S200x10000_1_1_0_0_n_n.contr.Idx) :
    (dot_S200x64_S10000x64_S200x10000_1_1_0_0_n_n.lhsIdx i p 0).val = (i 0).val := by
  unfold DotDims.lhsIdx
  rw [dif_neg (show ¬(0 : Fin S200x64.rank) ∈ dot_S200x64_S10000x64_S200x10000_1_1_0_0_n_n.lhsBatch by decide), dif_pos (show (0 : Fin S200x64.rank) ∈ dot_S200x64_S10000x64_S200x10000_1_1_0_0_n_n.lhsNonContracting by decide)]
  rfl
/-- axis 1 is the contracted one. -/
theorem rec_lhs1 (i : S200x10000.Idx) (p : dot_S200x64_S10000x64_S200x10000_1_1_0_0_n_n.contr.Idx) :
    (dot_S200x64_S10000x64_S200x10000_1_1_0_0_n_n.lhsIdx i p 1).val = (p ⟨0, by decide⟩).val :=
  dot_S200x64_S10000x64_S200x10000_1_1_0_0_n_n.lhsIdx_val_of_single rfl i p
/-- The right operand is read at (column of the result, contraction position): its axis 0 carries the result's column, -/
theorem rec_rhs0 (i : S200x10000.Idx) (p : dot_S200x64_S10000x64_S200x10000_1_1_0_0_n_n.contr.Idx) :
    (dot_S200x64_S10000x64_S200x10000_1_1_0_0_n_n.rhsIdx i p 0).val = (i 1).val := by
  unfold DotDims.rhsIdx
  rw [dif_neg (show ¬(0 : Fin S10000x64.rank) ∈ dot_S200x64_S10000x64_S200x10000_1_1_0_0_n_n.rhsBatch by decide), dif_pos (show (0 : Fin S10000x64.rank) ∈ dot_S200x64_S10000x64_S200x10000_1_1_0_0_n_n.rhsNonContracting by decide)]
  rfl
/-- and its axis 1 is the contracted one. -/
theorem rec_rhs1 (i : S200x10000.Idx) (p : dot_S200x64_S10000x64_S200x10000_1_1_0_0_n_n.contr.Idx) :
    (dot_S200x64_S10000x64_S200x10000_1_1_0_0_n_n.rhsIdx i p 1).val = (p ⟨0, by decide⟩).val :=
  dot_S200x64_S10000x64_S200x10000_1_1_0_0_n_n.rhsIdx_val_of_single rfl i p

/-- The matrix product into the zero accumulator at entry (r, q): ∑ₖ a(r, k) · b(q, k). -/
theorem rec_mm_apply (a : FVec Ideal S200x64 .bf16) (b : FVec Ideal S10000x64 .bf16) (r : Fin 200) (q : Fin 10000) :
    matmul dot_S200x64_S10000x64_S200x10000_1_1_0_0_n_n none a b (constant (F := Ideal) S200x10000 .f32 0x00000000#32) (ix2 r q)
      = ∑ k : Fin 64, a (ix2 r k) * b (ix2 q k) := by
  simp only [matmul]
  rw [Ideal.matmul_constant_zero_apply, ← Equiv.sum_comp (contrEquiv1 dot_S200x64_S10000x64_S200x10000_1_1_0_0_n_n 64 rfl rfl).symm]
  refine Finset.sum_congr rfl fun k _ => ?_
  have hk := contrEquiv1_symm_val dot_S200x64_S10000x64_S200x10000_1_1_0_0_n_n 64 rfl rfl k
  have el : dot_S200x64_S10000x64_S200x10000_1_1_0_0_n_n.lhsIdx (ix2 r q) ((contrEquiv1 dot_S200x64_S10000x64_S200x10000_1_1_0_0_n_n 64 rfl rfl).symm k) = ix2 r k := funext fun d => Fin.ext (by
    match d with
    | ⟨0, _⟩ => exact rec_lhs0 _ _
    | ⟨1, _⟩ => exact (rec_lhs1 _ _).trans hk)
  have er : dot_S200x64_S10000x64_S200x10000_1_1_0_0_n_n.rhsIdx (ix2 r q) ((contrEquiv1 dot_S200x64_S10000x64_S200x10000_1_1_0_0_n_n 64 rfl rfl).symm k) = ix2 q k := funext fun d => Fin.ext (by
    match d with
    | ⟨0, _⟩ => exact rec_rhs0 _ _
    | ⟨1, _⟩ => exact (rec_rhs1 _ _).trans hk)
  rw [el, er]

/-- The stored block at entry (r, q): the logistic function of the inner product of row r of the block with row q of
    the array (0 − x is −x over the extended reals; the shape casts to the same shape are the identity). -/
theorem rec_pay_apply (v51 : FVec Ideal S200x64 .bf16) (v53 : FVec Ideal S10000x64 .bf16) (r : Fin 200) (q : Fin 10000) :
    k3_pay2 (F := Ideal) v51 v53 (ix2 r q) = rec_logistic (∑ k : Fin 64, v51 (ix2 r k) * v53 (ix2 q k)) := by
  unfold k3_pay2
  simp only [shapeCast_self]
  show Ideal.div (Ideal.ofBits .f32 0x3F800000#32) (Ideal.ofBits .f32 0x3F800000#32
    + Ideal.exp (Ideal.ofBits .f32 0x00000000#32
      - matmul dot_S200x64_S10000x64_S200x10000_1_1_0_0_n_n none v51 v53 (constant (F := Ideal) S200x10000 .f32 0x00000000#32) (ix2 r q))) = _
  unfold rec_logistic
  rw [rec_mm_apply, Ideal.ofBits_zero_f32, zero_sub]

end Cert.Bridge.R3

end
-- ==== Proof.R3RecBlocks.lean ====
/-
  From blocks to the array, for the reconstructed-adjacency output of the fourth kernel call. The grid has 50 points;
  point t computes rows 200·t … 200·t + 199 (every column) of the output from rows 200·t … of the normalized-embedding
  array and from the whole array, and writes that block back; the 50 row blocks tile the 10000 × 10000 array. So the
  array ends as ONE function of the embedding array the call finds: the logistic function of the inner products of
  its rows.
-/
import proofs.«140504_g18717467476370_cont_8to1_202_16_alg».proof.Proof.Gen.KernelIdeal.Frame
import proofs.«140504_g18717467476370_cont_8to1_202_16_alg».proof.Proof.R3RecSpec
import proofs.«140504_g18717467476370_cont_8to1_202_16_alg».proof.Proof.R3RecPiece
import proofs.«140504_g18717467476370_cont_8to1_202_16_alg».proof.Proof.R3RecPay
import Idealize.ShloMosaic.Lib.ValueIdx
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.KernelIdeal Cert.KernelIdeal.Gen

namespace Cert.Bridge.R3

/-- The index maps over the 50 grid points: the output's block index is (t, 0), the embedding window's is (0, 0),
    and the grid coordinate of point t is t. -/
theorem rec_idx_facts : ∀ t : Fin cfg3.N, win3_7.index t (0 : Fin 2) = t.val ∧ win3_7.index t (1 : Fin 2) = 0
    ∧ win3_3.index t (0 : Fin 2) = 0 ∧ win3_3.index t (1 : Fin 2) = 0 ∧ ((grid3.coords t) 0).val = t.val :=
  (by decide +kernel : ∀ t : Fin grid3.N, _)

/-- One entry of one block, over variables: if `blk` agrees with Z everywhere, entry (r, q) of the payload computed
    from rows 200·i … of `blk` and from `blk` is entry (200·i + r, q) of the reconstructed adjacency of Z. -/
theorem rec_point (blk : FVec Ideal S10000x64 .bf16) (Z : (⟨2, ![10000, 64]⟩ : Shape).Idx → EReal)
    (hblk : ∀ y : (⟨2, ![10000, 64]⟩ : Shape).Idx, blk y = Z y) (i : grid3.Coords) (r : Fin 200) (q p : Fin 10000)
    (hp : p.val = 200 * (i 0).val + r.val) :
    k3_pay2 (F := Ideal) (View.ld blk (Rect.unit (s := S10000x64) (k3_off1 i) S200x64.size (k3_off1_inb i))) blk (ix2 r q)
      = rec_gram Z (ix2 p q) := by
  refine (rec_pay_apply _ _ r q).trans ?_
  unfold rec_gram
  refine congrArg rec_logistic (Finset.sum_congr rfl fun k _ => ?_)
  have e1 : (Rect.unit (s := S10000x64) (k3_off1 i) S200x64.size (k3_off1_inb i)).idx (ix2 r k) = ix2 p k := by
    funext a; apply Fin.ext
    match a with
    | ⟨0, _⟩ => show (k3_off1 i) 0 + 1 * r.val = p.val; rw [k3_off1_eq i, hp]; show 200 * (i 0).val + 1 * r.val = _; omega
    | ⟨1, _⟩ => show (k3_off1 i) 1 + 1 * k.val = k.val; rw [k3_off1_eq i]; show 0 + 1 * k.val = _; omega
  show blk ((Rect.unit (s := S10000x64) (k3_off1 i) S200x64.size (k3_off1_inb i)).idx (ix2 r k)) * blk (ix2 q k) = _
  rw [e1, hblk, hblk]

/-- The embedding window's block at any point is the whole embedding array (block index (0, 0), block = array). -/
theorem rec_iblk3_apply (V : (c : Dev nD) → (b : Ref sig .tc) → Buf (Elt Ideal) ((c : Thread nD τ).loc b)) (c : Dev nD)
    (t : Fin cfg3.N) (y : (⟨2, ![10000, 64]⟩ : Shape).Idx) :
    (iblk3 V c 3 t : FVec Ideal S10000x64 .bf16) y = (V c main_v9_5 : (⟨2, ![10000, 64]⟩ : Shape).Idx → EReal) y := by
  obtain ⟨-, -, e2, e3, -⟩ := rec_idx_facts t
  unfold iblk3
  rw [View.read_apply]
  show V c main_v9_5 _ = V c main_v9_5 _
  refine congrArg (V c main_v9_5) (funext fun a => Fin.ext ?_)
  match a with
  | ⟨0, _⟩ => show win3_3.index t (0 : Fin 2) * 10000 + 1 * (y 0).val = (y 0).val; omega
  | ⟨1, _⟩ => show win3_3.index t (1 : Fin 2) * 64 + 1 * (y 1).val = (y 1).val; omega

/-- What point t writes back is block t (rows 200·t … 200·t + 199, every column) of the reconstructed adjacency of
    the embedding array as the region finds it. -/
theorem rec_flushed_eq (V : (c : Dev nD) → (b : Ref sig .tc) → Buf (Elt Ideal) ((c : Thread nD τ).loc b)) (c : Dev nD)
    (t : Fin cfg3.N) :
    (dat3 V c).flushed 7 t = ((cfg3.win 7).blk t).view.read (Elt Ideal) (rec_gram (V c main_v9_5)) := by
  show (cfg3.win 7).cut (grid3.coords t) ((dat3 V c).after 7 t) = _
  rw [after3_7]
  unfold outsAt3
  dsimp only
  rw [rec_out_piece]
  obtain ⟨e0, e1, -, -, e4⟩ := rec_idx_facts t
  have hN : cfg3.N = 50 := N_3
  funext j
  have hj0 : (j 0).val < 200 := (j 0).isLt
  have hj1 : (j 1).val < 10000 := (j 1).isLt
  have hp : 200 * t.val + (j 0).val < 10000 := by have := t.isLt; omega
  refine (rec_point (iblk3 V c 3 t) (V c main_v9_5) (rec_iblk3_apply V c t) (grid3.coords t) ⟨(j 0).val, hj0⟩ ⟨(j 1).val, hj1⟩
    ⟨200 * t.val + (j 0).val, hp⟩ (by show 200 * t.val + (j 0).val = 200 * ((grid3.coords t) 0).val + (j 0).val; rw [e4])).trans ?_
  rw [View.read_apply]
  show rec_gram (V c main_v9_5) _ = rec_gram (V c main_v9_5) (((cfg3.win 7).blk t).view.emb j)
  refine congrArg (rec_gram (V c main_v9_5)) (funext fun a => Fin.ext ?_)
  match a with
  | ⟨0, _⟩ => show 200 * t.val + (j 0).val = win3_7.index t (0 : Fin 2) * 200 + 1 * (j 0).val; omega
  | ⟨1, _⟩ => show (j 1).val = win3_7.index t (1 : Fin 2) * 10000 + 1 * (j 1).val; omega

/-- An index of the array lies in point t's block iff each coordinate lies in the block's range on its axis. -/
theorem rec_mem_blk (t : Fin cfg3.N) (i : S10000x10000.Idx) :
    i ∈ ((cfg3.win 7).blk t).view.set ↔ ∀ a : Fin 2, win3_7.index t a * S200x10000.size a ≤ (i a).val ∧ (i a).val < win3_7.index t a * S200x10000.size a + S200x10000.size a := by
  show i ∈ ((View.whole main_v10_1).slice (win3_7.rect t)).set ↔ _
  rw [View.set_slice_whole, Rect.mem_set_unit]
  exact Iff.rfl

/-- Every row lies in the block of point row / 200. -/
theorem rec_cover (i : S10000x10000.Idx) :
    ∃ t : Fin cfg3.N, (cfg3.win 7).flush t = true ∧ i ∈ ((cfg3.win 7).blk t).view.set := by
  have hN : cfg3.N = 50 := N_3
  have hi0 : (i 0).val < 10000 := (i 0).isLt
  have hi1 : (i 1).val < 10000 := (i 1).isLt
  refine ⟨⟨(i 0).val / 200, by omega⟩, flush3_7 _, ?_⟩
  rw [rec_mem_blk]
  obtain ⟨e0, e1, -, -, -⟩ := rec_idx_facts ⟨(i 0).val / 200, by omega⟩
  intro a
  match a with
  | ⟨0, _⟩ => show win3_7.index _ (0 : Fin 2) * 200 ≤ (i 0).val ∧ (i 0).val < win3_7.index _ (0 : Fin 2) * 200 + 200; rw [e0]; show (i 0).val / 200 * 200 ≤ (i 0).val ∧ (i 0).val < (i 0).val / 200 * 200 + 200; omega
  | ⟨1, _⟩ => show win3_7.index _ (1 : Fin 2) * 10000 ≤ (i 1).val ∧ (i 1).val < win3_7.index _ (1 : Fin 2) * 10000 + 10000; rw [e1]; omega

/-- The output array after all 50 points is the reconstructed adjacency of the embedding array as the region finds it. -/
theorem rec_blocks (V : (c : Dev nD) → (b : Ref sig .tc) → Buf (Elt Ideal) ((c : Thread nD τ).loc b)) (c : Dev nD) :
    (dat3 V c).arrAt 7 cfg3.N = rec_gram (V c main_v9_5) :=
  (dat3 V c).arrAt_eq_of_cover 7 (rec_gram (V c main_v9_5)) (fun t _ => rec_flushed_eq V c t) rec_cover

end Cert.Bridge.R3

end
-- ==== Proof.R3RecRef.lean ====
/-
  The reference's reconstructed adjacency, read at one entry. The host computes Z · Zᵀ as a dot product of Z with its
  transpose (contracting axis 1 of Z with axis 0 of Zᵀ), negates, exponentiates, adds 1 and divides 1 by the result:
  entry (p, q) is the logistic function of ∑ₖ Z(p, k) · Z(q, k), Z the reference's own normalized-embedding stage.
-/
import proofs.«140504_g18717467476370_cont_8to1_202_16_alg».proof.Proof.Gen.ReferenceIdeal.Read
import proofs.«140504_g18717467476370_cont_8to1_202_16_alg».proof.Proof.R3RecSpec
import Idealize.ShloMosaic.Lib.ValueIdx
import Idealize.ShloMosaic.PureOps.Ideal.Laws

noncomputable section

open Idealize.ShloMosaic Idealize.ShloMosaic.ValueIdx
open Cert.ReferenceIdeal (S10000x128 S128x256 S10000x10000 S256x64)

namespace Cert.Bridge.R3

/-- Entry (p, q) of the reference's result: the transpose read at (k, q) is Z at (q, k). -/
theorem rec_ref_apply (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (p q : Fin 10000) :
    Cert.ReferenceIdeal.Read.val_main_v73 (F := Ideal) x0 x3 x5 x6 (ix2 p q)
      = rec_logistic (∑ k : Fin 64, Cert.ReferenceIdeal.Read.val_main_v65 (F := Ideal) x0 x3 x5 x6 (ix2 p k) * Cert.ReferenceIdeal.Read.val_main_v65 (F := Ideal) x0 x3 x5 x6 (ix2 q k)) := by
  have el : ∀ k : Fin 64, Cert.ReferenceIdeal.Read.lidx_main_v67 (ix2 p q) k = ix2 p k := fun k => funext fun a => Fin.ext (by
    match a with
    | ⟨0, _⟩ => rfl
    | ⟨1, _⟩ => rfl)
  have er : ∀ k : Fin 64, Cert.ReferenceIdeal.Read.idx_main_v66 (Cert.ReferenceIdeal.Read.ridx_main_v67 (ix2 p q) k) = ix2 q k := fun k => funext fun a => Fin.ext (by
    match a with
    | ⟨0, _⟩ => rfl
    | ⟨1, _⟩ => rfl)
  rw [Cert.ReferenceIdeal.Read.val_main_v73_apply, Cert.ReferenceIdeal.Read.val_main_v72_apply, Cert.ReferenceIdeal.Read.val_main_cst_13_apply, Cert.ReferenceIdeal.Read.val_main_v71_apply,
    Cert.ReferenceIdeal.Read.val_main_v70_apply, Cert.ReferenceIdeal.Read.val_main_cst_12_apply, Cert.ReferenceIdeal.Read.val_main_v69_apply, Cert.ReferenceIdeal.Read.val_main_v68_apply,
    Cert.ReferenceIdeal.Read.val_main_v67_apply]
  simp only [Cert.ReferenceIdeal.Read.val_main_v66_apply, el, er]
  unfold rec_logistic
  simp only [Ideal.hostDivf_def, Ideal.addf_def, Ideal.hostUnary_exp_def, Ideal.hostNegf_def, Ideal.negf_def, Ideal.ofBits_def]

/-- The reference's result array is the reconstructed adjacency of its normalized-embedding stage. -/
theorem rec_ref_eq (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) :
    Cert.ReferenceIdeal.Read.val_main_v73 (F := Ideal) x0 x3 x5 x6 = rec_gram (Cert.ReferenceIdeal.Read.val_main_v65 (F := Ideal) x0 x3 x5 x6) := by
  funext g
  obtain ⟨p, q, rfl⟩ : ∃ (p q : Fin 10000), g = ix2 p q := ⟨g 0, g 1, eq_ix2 g⟩
  rw [rec_ref_apply]
  rfl

end Cert.Bridge.R3

end
-- ==== Proof.R3RecFinal.lean ====
/-
  The reconstructed-adjacency output of the fourth kernel call after all of its 50 grid points, when the
  normalized-embedding array the call reads holds the reference's normalized-embedding stage Z: the whole
  10000 × 10000 array is the reference's own result, entry (p, q) the logistic function of ⟨Z row p, Z row q⟩.
-/
import proofs.«140504_g18717467476370_cont_8to1_202_16_alg».proof.Proof.R3RecBlocks
import proofs.«140504_g18717467476370_cont_8to1_202_16_alg».proof.Proof.R3RecRef

noncomputable section

open Idealize.ShloMosaic Idealize.ShloMosaic.TcCoe Idealize.SL.Sem
open Idealize.ShloMosaic.Pipeline (Dat)
open Cert.KernelIdeal Cert.KernelIdeal.Gen

namespace Cert.Bridge.R3

theorem final_rec (V : (c : Dev nD) → (b : Ref sig .tc) → Buf (Elt Ideal) ((c : Thread nD τ).loc b)) (c : Dev nD)
    (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (hzn : V c main_v9_5 = Cert.ReferenceIdeal.Read.val_main_v65 x0 x3 x5 x6) :
    (dat3 V c).arrAt 7 cfg3.N = Cert.ReferenceIdeal.Read.val_main_v73 x0 x3 x5 x6 := by
  rw [rec_ref_eq, ← hzn]
  exact rec_blocks V c

end Cert.Bridge.R3

end
-- ==== Proof.R4Blocks.lean ====
/-
  The decoder region's arrays after its one grid point.

  The decoder is launched on a grid of ONE point, and every window's block is its whole array: the eleven input
  blocks are the arrays themselves as the region finds them, and what the point writes back through each of the three
  output windows is the whole result array. So each output array after the region is the body's arithmetic (one pure
  term per head) of the region's input arrays.
-/
import proofs.«140504_g18717467476370_cont_8to1_202_16_alg».proof.Proof.Gen.KernelIdeal.Frame
import Idealize.ShloMosaic.Lib.Pipeline.Value
import Idealize.ShloMosaic.PureOps.Ideal.Laws

set_option maxRecDepth 16384

noncomputable section

namespace Cert.Bridge.R4

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a rank-two access, as the constant function. -/
theorem off2_zero : (![0, 0] : Fin 2 → Nat) = fun _ => 0 := funext fun a => by fin_cases a <;> rfl

/-- The sigmoid head's buffer after the body: the one whole-buffer store's payload of the whole-buffer loads. -/
theorem out_pi_eq (x0 : Vec Ideal S10000x64 .f32) (x1 : Vec Ideal S64x256 .f32) (x2 x3 x4 : Vec Ideal S1x256 .f32)
    (x5 : Vec Ideal S256x128 .f32) (x6 : Vec Ideal S1x128 .f32) (x7 : Vec Ideal S256x128 .f32) (x8 : Vec Ideal S1x128 .f32)
    (x9 : Vec Ideal S256x128 .f32) (x10 : Vec Ideal S1x128 .f32) :
    out4_11 (F := Ideal) x0 x1 x2 x3 x4 x5 x6 x7 x8 x9 x10 = k4_pay4 (k4_pay3 x0 x1 x2 x3 x4 x5) x6 := by
  unfold out4_11
  rw [View.canon_unit_zero off2_zero]
  simp only [View.ld_unit_zero (S := S10000x64) off2_zero, View.ld_unit_zero (S := S64x256) off2_zero,
    View.ld_unit_zero (S := S1x256) off2_zero, View.ld_unit_zero (S := S256x128) off2_zero,
    View.ld_unit_zero (S := S1x128) off2_zero]

/-- The dispersion head's buffer after the body. -/
theorem out_disp_eq (x0 : Vec Ideal S10000x64 .f32) (x1 : Vec Ideal S64x256 .f32) (x2 x3 x4 : Vec Ideal S1x256 .f32)
    (x5 : Vec Ideal S256x128 .f32) (x6 : Vec Ideal S1x128 .f32) (x7 : Vec Ideal S256x128 .f32) (x8 : Vec Ideal S1x128 .f32)
    (x9 : Vec Ideal S256x128 .f32) (x10 : Vec Ideal S1x128 .f32) :
    out4_12 (F := Ideal) x0 x1 x2 x3 x4 x5 x6 x7 x8 x9 x10 = k4_pay5 (k4_pay2 x0 x1 x2 x3 x4) x7 x8 := by
  unfold out4_12
  rw [View.canon_unit_zero off2_zero]
  simp only [View.ld_unit_zero (S := S10000x64) off2_zero, View.ld_unit_zero (S := S64x256) off2_zero,
    View.ld_unit_zero (S := S1x256) off2_zero, View.ld_unit_zero (S := S256x128) off2_zero,
    View.ld_unit_zero (S := S1x128) off2_zero]

/-- The mean head's buffer after the body. -/
theorem out_mean_eq (x0 : Vec Ideal S10000x64 .f32) (x1 : Vec Ideal S64x256 .f32) (x2 x3 x4 : Vec Ideal S1x256 .f32)
    (x5 : Vec Ideal S256x128 .f32) (x6 : Vec Ideal S1x128 .f32) (x7 : Vec Ideal S256x128 .f32) (x8 : Vec Ideal S1x128 .f32)
    (x9 : Vec Ideal S256x128 .f32) (x10 : Vec Ideal S1x128 .f32) :
    out4_13 (F := Ideal) x0 x1 x2 x3 x4 x5 x6 x7 x8 x9 x10 = k4_pay1 (k4_pay6 (k4_pay2 x0 x1 x2 x3 x4) x9) x10 := by
  unfold out4_13
  rw [View.canon_unit_zero off2_zero]
  simp only [View.ld_unit_zero (S := S10000x64) off2_zero, View.ld_unit_zero (S := S64x256) off2_zero,
    View.ld_unit_zero (S := S1x256) off2_zero, View.ld_unit_zero (S := S256x128) off2_zero,
    View.ld_unit_zero (S := S1x128) off2_zero]

/-! ## Every input block is its whole array -/

/-- The embedding block is the whole 10000 × 64 embedding array. -/
theorem blk_z (c : Dev nD) (t : Fin cfg4.N) : iblk4 V c 0 t = V c main_v9_0 := by
  obtain rfl := fin_N4 t
  unfold iblk4
  have hz' : (fun a => win4_0.index t4_0 a * main_v9_0.ty.shape.size a) = fun _ => 0 := funext fun a => by fin_cases a <;> decide
  exact Memref.read_access_unit_zero (Elt Ideal) main_v9_0 hz' (fun a => by rw [congrFun hz' a]; simp) (V c main_v9_0)

/-- The decoder weight's block is the whole 64 × 256 array. -/
theorem blk_dw (c : Dev nD) (t : Fin cfg4.N) : iblk4 V c 1 t = V c main_arg7 := by
  obtain rfl := fin_N4 t
  unfold iblk4
  have hz' : (fun a => win4_1.index t4_0 a * main_arg7.ty.shape.size a) = fun _ => 0 := funext fun a => by fin_cases a <;> decide
  exact Memref.read_access_unit_zero (Elt Ideal) main_arg7 hz' (fun a => by rw [congrFun hz' a]; simp) (V c main_arg7)

/-- The decoder bias row's block is the whole 1 × 256 row. -/
theorem blk_b (c : Dev nD) (t : Fin cfg4.N) : iblk4 V c 2 t = V c main_v0 := by
  obtain rfl := fin_N4 t
  unfold iblk4
  have hz' : (fun a => win4_2.index t4_0 a * main_v0.ty.shape.size a) = fun _ => 0 := funext fun a => by fin_cases a <;> decide
  exact Memref.read_access_unit_zero (Elt Ideal) main_v0 hz' (fun a => by rw [congrFun hz' a]; simp) (V c main_v0)

/-- The scale row's block is the whole 1 × 256 row. -/
theorem blk_gamma (c : Dev nD) (t : Fin cfg4.N) : iblk4 V c 3 t = V c main_v1 := by
  obtain rfl := fin_N4 t
  unfold iblk4
  have hz' : (fun a => win4_3.index t4_0 a * main_v1.ty.shape.size a) = fun _ => 0 := funext fun a => by fin_cases a <;> decide
  exact Memref.read_access_unit_zero (Elt Ideal) main_v1 hz' (fun a => by rw [congrFun hz' a]; simp) (V c main_v1)

/-- The shift row's block is the whole 1 × 256 row. -/
theorem blk_beta (c : Dev nD) (t : Fin cfg4.N) : iblk4 V c 4 t = V c main_v2 := by
  obtain rfl := fin_N4 t
  unfold iblk4
  have hz' : (fun a => win4_4.index t4_0 a * main_v2.ty.shape.size a) = fun _ => 0 := funext fun a => by fin_cases a <;> decide
  exact Memref.read_access_unit_zero (Elt Ideal) main_v2 hz' (fun a => by rw [congrFun hz' a]; simp) (V c main_v2)

/-- The sigmoid head's weight block is the whole 256 × 128 array. -/
theorem blk_w_pi (c : Dev nD) (t : Fin cfg4.N) : iblk4 V c 5 t = V c main_arg11 := by
  obtain rfl := fin_N4 t
  unfold iblk4
  have hz' : (fun a => win4_5.index t4_0 a * main_arg11.ty.shape.size a) = fun _ => 0 := funext fun a => by fin_cases a <;> decide
  exact Memref.read_access_unit_zero (Elt Ideal) main_arg11 hz' (fun a => by rw [congrFun hz' a]; simp) (V c main_arg11)

/-- The sigmoid head's bias block is the whole 1 × 128 row. -/
theorem blk_b_pi (c : Dev nD) (t : Fin cfg4.N) : iblk4 V c 6 t = V c main_v3 := by
  obtain rfl := fin_N4 t
  unfold iblk4
  have hz' : (fun a => win4_6.index t4_0 a * main_v3.ty.shape.size a) = fun _ => 0 := funext fun a => by fin_cases a <;> decide
  exact Memref.read_access_unit_zero (Elt Ideal) main_v3 hz' (fun a => by rw [congrFun hz' a]; simp) (V c main_v3)

/-- The dispersion head's weight block is the whole 256 × 128 array. -/
theorem blk_w_disp (c : Dev nD) (t : Fin cfg4.N) : iblk4 V c 7 t = V c main_arg13 := by
  obtain rfl := fin_N4 t
  unfold iblk4
  have hz' : (fun a => win4_7.index t4_0 a * main_arg13.ty.shape.size a) = fun _ => 0 := funext fun a => by fin_cases a <;> decide
  exact Memref.read_access_unit_zero (Elt Ideal) main_arg13 hz' (fun a => by rw [congrFun hz' a]; simp) (V c main_arg13)

/-- The dispersion head's bias block is the whole 1 × 128 row. -/
theorem blk_b_disp (c : Dev nD) (t : Fin cfg4.N) : iblk4 V c 8 t = V c main_v4 := by
  obtain rfl := fin_N4 t
  unfold iblk4
  have hz' : (fun a => win4_8.index t4_0 a * main_v4.ty.shape.size a) = fun _ => 0 := funext fun a => by fin_cases a <;> decide
  exact Memref.read_access_unit_zero (Elt Ideal) main_v4 hz' (fun a => by rw [congrFun hz' a]; simp) (V c main_v4)

/-- The mean head's weight block is the whole 256 × 128 array. -/
theorem blk_w_mean (c : Dev nD) (t : Fin cfg4.N) : iblk4 V c 9 t = V c main_arg15 := by
  obtain rfl := fin_N4 t
  unfold iblk4
  have hz' : (fun a => win4_9.index t4_0 a * main_arg15.ty.shape.size a) = fun _ => 0 := funext fun a => by fin_cases a <;> decide
  exact Memref.read_access_unit_zero (Elt Ideal) main_arg15 hz' (fun a => by rw [congrFun hz' a]; simp) (V c main_arg15)

/-- The mean head's bias block is the whole 1 × 128 row. -/
theorem blk_b_mean (c : Dev nD) (t : Fin cfg4.N) : iblk4 V c 10 t = V c main_v5 := by
  obtain rfl := fin_N4 t
  unfold iblk4
  have hz' : (fun a => win4_10.index t4_0 a * main_v5.ty.shape.size a) = fun _ => 0 := funext fun a => by fin_cases a <;> decide
  exact Memref.read_access_unit_zero (Elt Ideal) main_v5 hz' (fun a => by rw [congrFun hz' a]; simp) (V c main_v5)

/-! ## What the one point writes back, and the arrays after the region -/

/-- The sigmoid head's window: the point writes back its whole result. -/
theorem flushed_pi (c : Dev nD) (t : Fin cfg4.N) :
    (dat4 V c).flushed 11 t = ((cfg4.win 11).blk t).view.read (Elt Ideal)
      (k4_pay4 (k4_pay3 (V c main_v9_0) (V c main_arg7) (V c main_v0) (V c main_v1) (V c main_v2) (V c main_arg11)) (V c main_v3)) := by
  show (cfg4.win 11).cut (grid4.coords t) ((dat4 V c).after 11 t) = _
  rw [after4_11, out_pi_eq, blk_z V c t, blk_dw V c t, blk_b V c t, blk_gamma V c t, blk_beta V c t, blk_w_pi V c t, blk_b_pi V c t]
  obtain rfl := fin_N4 t
  have hz' : (fun a => win4_11.index t4_0 a * main_v11_0.ty.shape.size a) = fun _ => 0 := funext fun a => by fin_cases a <;> decide
  exact (Memref.read_access_unit_zero (Elt Ideal) main_v11_0 hz' (fun a => by rw [congrFun hz' a]; simp) _).symm

/-- The dispersion head's window: the point writes back its whole result. -/
theorem flushed_disp (c : Dev nD) (t : Fin cfg4.N) :
    (dat4 V c).flushed 12 t = ((cfg4.win 12).blk t).view.read (Elt Ideal)
      (k4_pay5 (k4_pay2 (V c main_v9_0) (V c main_arg7) (V c main_v0) (V c main_v1) (V c main_v2)) (V c main_arg13) (V c main_v4)) := by
  show (cfg4.win 12).cut (grid4.coords t) ((dat4 V c).after 12 t) = _
  rw [after4_12, out_disp_eq, blk_z V c t, blk_dw V c t, blk_b V c t, blk_gamma V c t, blk_beta V c t, blk_w_disp V c t, blk_b_disp V c t]
  obtain rfl := fin_N4 t
  have hz' : (fun a => win4_12.index t4_0 a * main_v11_1.ty.shape.size a) = fun _ => 0 := funext fun a => by fin_cases a <;> decide
  exact (Memref.read_access_unit_zero (Elt Ideal) main_v11_1 hz' (fun a => by rw [congrFun hz' a]; simp) _).symm

/-- The mean head's window: the point writes back its whole result. -/
theorem flushed_mean (c : Dev nD) (t : Fin cfg4.N) :
    (dat4 V c).flushed 13 t = ((cfg4.win 13).blk t).view.read (Elt Ideal)
      (k4_pay1 (k4_pay6 (k4_pay2 (V c main_v9_0) (V c main_arg7) (V c main_v0) (V c main_v1) (V c main_v2)) (V c main_arg15)) (V c main_v5)) := by
  show (cfg4.win 13).cut (grid4.coords t) ((dat4 V c).after 13 t) = _
  rw [after4_13, out_mean_eq, blk_z V c t, blk_dw V c t, blk_b V c t, blk_gamma V c t, blk_beta V c t, blk_w_mean V c t, blk_b_mean V c t]
  obtain rfl := fin_N4 t
  have hz' : (fun a => win4_13.index t4_0 a * main_v11_2.ty.shape.size a) = fun _ => 0 := funext fun a => by fin_cases a <;> decide
  exact (Memref.read_access_unit_zero (Elt Ideal) main_v11_2 hz' (fun a => by rw [congrFun hz' a]; simp) _).symm

end Cert.Bridge.R4

end
-- ==== Proof.R4Arrays.lean ====
/-
  The decoder's three result arrays after the region.

  The region has one grid point, whose block of each output window is the whole 10000 × 128 array (block index 0 on
  both axes, block sizes the array's own): every index of the array lies in that block, and the point writes its whole
  result back. So after the region each result array holds its head's arithmetic of the region's input arrays.
-/
import proofs.«140504_g18717467476370_cont_8to1_202_16_alg».proof.Proof.R4Blocks

set_option maxRecDepth 16384

noncomputable section

namespace Cert.Bridge.R4

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The sigmoid head's array after the region. -/
theorem arr_pi (c : Dev nD) :
    (dat4 V c).arrAt 11 cfg4.N
      = k4_pay4 (k4_pay3 (V c main_v9_0) (V c main_arg7) (V c main_v0) (V c main_v1) (V c main_v2) (V c main_arg11)) (V c main_v3) :=
  (dat4 V c).arrAt_eq_of_cover 11 _ (fun t _ => flushed_pi V c t) fun i =>
    ⟨t4_0, flush4_11 t4_0, by
      show i ∈ ((View.whole main_v11_0).slice (win4_11.rect t4_0)).set
      rw [View.set_slice_whole, Rect.mem_set_unit]
      intro a
      have h0 : (i 0 : Nat) < 10000 := (i 0).isLt
      have h1 : (i 1 : Nat) < 128 := (i 1).isLt
      match a with
      | ⟨0, _⟩ => show win4_11.index t4_0 0 * win4_11.size 0 ≤ (i 0 : Nat) ∧ (i 0 : Nat) < win4_11.index t4_0 0 * win4_11.size 0 + win4_11.xsize (grid4.coords t4_0) 0
                  rw [show win4_11.index t4_0 0 * win4_11.size 0 = 0 from by decide +kernel, show win4_11.xsize (grid4.coords t4_0) 0 = 10000 from by decide +kernel]; omega
      | ⟨1, _⟩ => show win4_11.index t4_0 1 * win4_11.size 1 ≤ (i 1 : Nat) ∧ (i 1 : Nat) < win4_11.index t4_0 1 * win4_11.size 1 + win4_11.xsize (grid4.coords t4_0) 1
                  rw [show win4_11.index t4_0 1 * win4_11.size 1 = 0 from by decide +kernel, show win4_11.xsize (grid4.coords t4_0) 1 = 128 from by decide +kernel]; omega⟩

/-- The dispersion head's array after the region. -/
theorem arr_disp (c : Dev nD) :
    (dat4 V c).arrAt 12 cfg4.N
      = k4_pay5 (k4_pay2 (V c main_v9_0) (V c main_arg7) (V c main_v0) (V c main_v1) (V c main_v2)) (V c main_arg13) (V c main_v4) :=
  (dat4 V c).arrAt_eq_of_cover 12 _ (fun t _ => flushed_disp V c t) fun i =>
    ⟨t4_0, flush4_12 t4_0, by
      show i ∈ ((View.whole main_v11_1).slice (win4_12.rect t4_0)).set
      rw [View.set_slice_whole, Rect.mem_set_unit]
      intro a
      have h0 : (i 0 : Nat) < 10000 := (i 0).isLt
      have h1 : (i 1 : Nat) < 128 := (i 1).isLt
      match a with
      | ⟨0, _⟩ => show win4_12.index t4_0 0 * win4_12.size 0 ≤ (i 0 : Nat) ∧ (i 0 : Nat) < win4_12.index t4_0 0 * win4_12.size 0 + win4_12.xsize (grid4.coords t4_0) 0
                  rw [show win4_12.index t4_0 0 * win4_12.size 0 = 0 from by decide +kernel, show win4_12.xsize (grid4.coords t4_0) 0 = 10000 from by decide +kernel]; omega
      | ⟨1, _⟩ => show win4_12.index t4_0 1 * win4_12.size 1 ≤ (i 1 : Nat) ∧ (i 1 : Nat) < win4_12.index t4_0 1 * win4_12.size 1 + win4_12.xsize (grid4.coords t4_0) 1
                  rw [show win4_12.index t4_0 1 * win4_12.size 1 = 0 from by decide +kernel, show win4_12.xsize (grid4.coords t4_0) 1 = 128 from by decide +kernel]; omega⟩

/-- The mean head's array after the region. -/
theorem arr_mean (c : Dev nD) :
    (dat4 V c).arrAt 13 cfg4.N
      = k4_pay1 (k4_pay6 (k4_pay2 (V c main_v9_0) (V c main_arg7) (V c main_v0) (V c main_v1) (V c main_v2)) (V c main_arg15)) (V c main_v5) :=
  (dat4 V c).arrAt_eq_of_cover 13 _ (fun t _ => flushed_mean V c t) fun i =>
    ⟨t4_0, flush4_13 t4_0, by
      show i ∈ ((View.whole main_v11_2).slice (win4_13.rect t4_0)).set
      rw [View.set_slice_whole, Rect.mem_set_unit]
      intro a
      have h0 : (i 0 : Nat) < 10000 := (i 0).isLt
      have h1 : (i 1 : Nat) < 128 := (i 1).isLt
      match a with
      | ⟨0, _⟩ => show win4_13.index t4_0 0 * win4_13.size 0 ≤ (i 0 : Nat) ∧ (i 0 : Nat) < win4_13.index t4_0 0 * win4_13.size 0 + win4_13.xsize (grid4.coords t4_0) 0
                  rw [show win4_13.index t4_0 0 * win4_13.size 0 = 0 from by decide +kernel, show win4_13.xsize (grid4.coords t4_0) 0 = 10000 from by decide +kernel]; omega
      | ⟨1, _⟩ => show win4_13.index t4_0 1 * win4_13.size 1 ≤ (i 1 : Nat) ∧ (i 1 : Nat) < win4_13.index t4_0 1 * win4_13.size 1 + win4_13.xsize (grid4.coords t4_0) 1
                  rw [show win4_13.index t4_0 1 * win4_13.size 1 = 0 from by decide +kernel, show win4_13.xsize (grid4.coords t4_0) 1 = 128 from by decide +kernel]; omega⟩

end Cert.Bridge.R4

end
-- ==== Proof.R4Heads.lean ====
/-
  The decoder's three heads, read at an entry.

  Each head takes the hidden array T (10000 × 256), multiplies it by its own 256 × 128 weight, adds its bias row to
  every row, and applies a pointwise map:
    the sigmoid head       1 / (1 + exp (0 - y)),
    the dispersion head    min (1e4, max (1e-4, max (y, 0) + log (1 + exp (0 - |y|)))),
    the mean head          min (1e6, max (1e-5, exp y)),
  where  y = ∑ₖ T[p, k] · W[k, q] + b[q]  at the entry (p, q).
-/
import proofs.«140504_g18717467476370_cont_8to1_202_16_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.Bridge.R4

open Cert.KernelIdeal Cert.KernelIdeal.Gen
open Idealize.ShloMosaic Idealize.ShloMosaic.ValueIdx

/-- The row coordinate of a head product's left operand is the output's row. -/
theorem head_lhs_0 (i : S10000x128.Idx) (r : dot_S10000x256_S256x128_S10000x128_1_0_0_1_n_n.contr.Idx) :
    (dot_S10000x256_S256x128_S10000x128_1_0_0_1_n_n.lhsIdx i r 0).val = (i 0).val := by
  unfold DotDims.lhsIdx
  rw [dif_neg (show ¬(0 : Fin S10000x256.rank) ∈ dot_S10000x256_S256x128_S10000x128_1_0_0_1_n_n.lhsBatch by decide), dif_pos (show (0 : Fin S10000x256.rank) ∈ dot_S10000x256_S256x128_S10000x128_1_0_0_1_n_n.lhsNonContracting by decide)]
  rfl

/-- The column coordinate of its right operand is the output's column. -/
theorem head_rhs_1 (i : S10000x128.Idx) (r : dot_S10000x256_S256x128_S10000x128_1_0_0_1_n_n.contr.Idx) :
    (dot_S10000x256_S256x128_S10000x128_1_0_0_1_n_n.rhsIdx i r 1).val = (i 1).val := by
  unfold DotDims.rhsIdx
  rw [dif_neg (show ¬(1 : Fin S256x128.rank) ∈ dot_S10000x256_S256x128_S10000x128_1_0_0_1_n_n.rhsBatch by decide), dif_pos (show (1 : Fin S256x128.rank) ∈ dot_S10000x256_S256x128_S10000x128_1_0_0_1_n_n.rhsNonContracting by decide)]
  rfl

/-- The left operand of a head's product at the output entry (p, q) and contraction position k is T[p, k]. -/
theorem head_lhs (p : Fin 10000) (q : Fin 128) (k : Fin 256) :
    dot_S10000x256_S256x128_S10000x128_1_0_0_1_n_n.lhsIdx (ix2 p q) ((contrEquiv1 dot_S10000x256_S256x128_S10000x128_1_0_0_1_n_n 256 rfl rfl).symm k) = ix2 p k := by
  have hk := contrEquiv1_symm_val dot_S10000x256_S256x128_S10000x128_1_0_0_1_n_n 256 rfl rfl k
  refine funext fun a => Fin.ext ?_
  match a with
  | ⟨0, _⟩ => exact head_lhs_0 _ _
  | ⟨1, _⟩ => exact (dot_S10000x256_S256x128_S10000x128_1_0_0_1_n_n.lhsIdx_val_of_single rfl _ _).trans hk

/-- The right operand there is W[k, q]. -/
theorem head_rhs (p : Fin 10000) (q : Fin 128) (k : Fin 256) :
    dot_S10000x256_S256x128_S10000x128_1_0_0_1_n_n.rhsIdx (ix2 p q) ((contrEquiv1 dot_S10000x256_S256x128_S10000x128_1_0_0_1_n_n 256 rfl rfl).symm k) = ix2 k q := by
  have hk := contrEquiv1_symm_val dot_S10000x256_S256x128_S10000x128_1_0_0_1_n_n 256 rfl rfl k
  refine funext fun a => Fin.ext ?_
  match a with
  | ⟨0, _⟩ => exact (dot_S10000x256_S256x128_S10000x128_1_0_0_1_n_n.rhsIdx_val_of_single rfl _ _).trans hk
  | ⟨1, _⟩ => exact head_rhs_1 _ _

/-- A head's matrix product into a zero accumulator, at the entry (p, q): the sum over the 256 hidden units. -/
theorem head_dot_apply (T : FVec Ideal S10000x256 .f32) (W : FVec Ideal S256x128 .f32) (p : Fin 10000) (q : Fin 128) :
    matmul dot_S10000x256_S256x128_S10000x128_1_0_0_1_n_n none T W (constant (F := Ideal) S10000x128 .f32 0x00000000#32) (ix2 p q)
      = ∑ k : Fin 256, T (ix2 p k) * W (ix2 k q) := by
  refine (Ideal.matmul_constant_zero_apply dot_S10000x256_S256x128_S10000x128_1_0_0_1_n_n none T W (ix2 p q)).trans ?_
  rw [← Equiv.sum_comp (contrEquiv1 dot_S10000x256_S256x128_S10000x128_1_0_0_1_n_n 256 rfl rfl).symm]
  refine Finset.sum_congr rfl fun k _ => ?_
  rw [head_lhs, head_rhs]

/-- A head's bias row, cast to its own shape and broadcast down the 10000 rows, reads the row's entry q. -/
theorem bias_row_apply (b : Vec Ideal S1x128 .f32) (p : Fin 10000) (q : Fin 128) :
    broadcastTo S10000x128 (shapeCast S1x128 b shapeCasts_S1x128_S1x128) broadcasts_S1x128_S10000x128 (ix2 p q)
      = b (ix2 (0 : Fin 1) q) := by
  rw [shapeCast_self]
  exact broadcastTo_1b_ab_apply b _ p q

/-- The sigmoid head at the entry (p, q):  1 / (1 + exp (0 - y)),  y = ∑ₖ T[p, k] · W[k, q] + b[q]. -/
theorem pi_kernel_apply (T : FVec Ideal S10000x256 .f32) (W : FVec Ideal S256x128 .f32) (b : Vec Ideal S1x128 .f32)
    (p : Fin 10000) (q : Fin 128) :
    k4_pay4 (matmul dot_S10000x256_S256x128_S10000x128_1_0_0_1_n_n none T W (constant (F := Ideal) S10000x128 .f32 0x00000000#32)) b (ix2 p q)
      = Ideal.div (Ideal.ofBits .f32 0x3F800000#32) (Ideal.ofBits .f32 0x3F800000#32
          + Ideal.exp (Ideal.ofBits .f32 0x00000000#32 - ((∑ k : Fin 256, T (ix2 p k) * W (ix2 k q)) + b (ix2 (0 : Fin 1) q)))) := by
  show Ideal.div (Ideal.ofBits .f32 0x3F800000#32) (Ideal.ofBits .f32 0x3F800000#32
      + Ideal.exp (Ideal.ofBits .f32 0x00000000#32
        - (matmul dot_S10000x256_S256x128_S10000x128_1_0_0_1_n_n none T W (constant (F := Ideal) S10000x128 .f32 0x00000000#32) (ix2 p q)
          + broadcastTo S10000x128 (shapeCast S1x128 b shapeCasts_S1x128_S1x128) broadcasts_S1x128_S10000x128 (ix2 p q)))) = _
  rw [bias_row_apply, head_dot_apply]

/-- The dispersion head at the entry (p, q):  min (1e4, max (1e-4, max (y, 0) + log (1 + exp (0 - |y|)))). -/
theorem disp_kernel_apply (T : FVec Ideal S10000x256 .f32) (W : FVec Ideal S256x128 .f32) (b : Vec Ideal S1x128 .f32)
    (p : Fin 10000) (q : Fin 128) :
    k4_pay5 T W b (ix2 p q)
      = min (Ideal.ofBits .f32 0x461C4000#32) (max (Ideal.ofBits .f32 0x38D1B717#32)
          (max ((∑ k : Fin 256, T (ix2 p k) * W (ix2 k q)) + b (ix2 (0 : Fin 1) q)) (Ideal.ofBits .f32 0x00000000#32)
            + Ideal.log (Ideal.ofBits .f32 0x3F800000#32 + Ideal.exp (Ideal.ofBits .f32 0x00000000#32
                - max ((∑ k : Fin 256, T (ix2 p k) * W (ix2 k q)) + b (ix2 (0 : Fin 1) q))
                    (-((∑ k : Fin 256, T (ix2 p k) * W (ix2 k q)) + b (ix2 (0 : Fin 1) q))))))) := by
  show min (Ideal.ofBits .f32 0x461C4000#32) (max (Ideal.ofBits .f32 0x38D1B717#32)
      (max (matmul dot_S10000x256_S256x128_S10000x128_1_0_0_1_n_n none T W (constant (F := Ideal) S10000x128 .f32 0x00000000#32) (ix2 p q)
            + broadcastTo S10000x128 (shapeCast S1x128 b shapeCasts_S1x128_S1x128) broadcasts_S1x128_S10000x128 (ix2 p q))
          (Ideal.ofBits .f32 0x00000000#32)
        + Ideal.log (Ideal.ofBits .f32 0x3F800000#32 + Ideal.exp (Ideal.ofBits .f32 0x00000000#32
            - max (matmul dot_S10000x256_S256x128_S10000x128_1_0_0_1_n_n none T W (constant (F := Ideal) S10000x128 .f32 0x00000000#32) (ix2 p q)
                  + broadcastTo S10000x128 (shapeCast S1x128 b shapeCasts_S1x128_S1x128) broadcasts_S1x128_S10000x128 (ix2 p q))
                (-(matmul dot_S10000x256_S256x128_S10000x128_1_0_0_1_n_n none T W (constant (F := Ideal) S10000x128 .f32 0x00000000#32) (ix2 p q)
                  + broadcastTo S10000x128 (shapeCast S1x128 b shapeCasts_S1x128_S1x128) broadcasts_S1x128_S10000x128 (ix2 p q))))))) = _
  rw [bias_row_apply, head_dot_apply]

/-- The mean head at the entry (p, q):  min (1e6, max (1e-5, exp y)). -/
theorem mean_kernel_apply (T : FVec Ideal S10000x256 .f32) (W : FVec Ideal S256x128 .f32) (b : Vec Ideal S1x128 .f32)
    (p : Fin 10000) (q : Fin 128) :
    k4_pay1 (k4_pay6 T W) b (ix2 p q)
      = min (Ideal.ofBits .f32 0x49742400#32) (max (Ideal.ofBits .f32 0x3727C5AC#32)
          (Ideal.exp ((∑ k : Fin 256, T (ix2 p k) * W (ix2 k q)) + b (ix2 (0 : Fin 1) q)))) := by
  show min (Ideal.ofBits .f32 0x49742400#32) (max (Ideal.ofBits .f32 0x3727C5AC#32)
      (Ideal.exp (matmul dot_S10000x256_S256x128_S10000x128_1_0_0_1_n_n none T W (constant (F := Ideal) S10000x128 .f32 0x00000000#32) (ix2 p q)
        + broadcastTo S10000x128 (shapeCast S1x128 b shapeCasts_S1x128_S1x128) broadcasts_S1x128_S10000x128 (ix2 p q)))) = _
  rw [bias_row_apply, head_dot_apply]

end Cert.Bridge.R4

end
-- ==== Proof.R4HeadsRef.lean ====
/-
  The reference's three decoder heads, read at an entry.

  The reference applies to its hidden array H (its stage %35) the same three heads: the product with the head's
  256 × 128 weight, the bias added to every row, then
    the sigmoid head       1 / (1 + exp (-y)),
    the dispersion head    min (1e4, max (1e-4, softplus y)),  softplus y = max (y, 0) + log (1 + exp (-|y|)),
    the mean head          min (1e6, max (1e-5, exp y)),
  with  y = ∑ₖ H[p, k] · W[k, q] + b[q].  The reference's softplus guards against a not-a-number argument by a
  comparison of  y - 0  with itself; on the extended reals a value is never different from itself, so the guard always
  takes the softplus branch, and  y - 0 = y.
-/
import proofs.«140504_g18717467476370_cont_8to1_202_16_alg».proof.Proof.Gen.ReferenceIdeal.Read
import Idealize.ShloMosaic.Lib.ValueIdx
import Idealize.ShloMosaic.Lib.IdealHost
import Idealize.ShloMosaic.PureOps.Ideal.Laws

noncomputable section

namespace Cert.Bridge.R4

open Idealize.ShloMosaic Idealize.ShloMosaic.ValueIdx
open Cert.ReferenceIdeal
open Cert.ReferenceIdeal.Read

/-- On the extended reals nothing differs from itself: the "unordered or not equal" comparison of a value with
    itself is false. -/
theorem cmp_une_self (y : EReal) : Ideal.cmp .une y y = 0#1 := by
  simp [Ideal.cmp]

/-- The reference's sigmoid head at the entry (p, q). -/
theorem ref_pi_apply (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x7 : (⟨S64x256, .f32⟩ : BufTy).Contents (Elt Ideal))
    (x8 x9 x10 : (⟨S256, .f32⟩ : BufTy).Contents (Elt Ideal)) (x11 : (⟨S256x128, .f32⟩ : BufTy).Contents (Elt Ideal))
    (x12 : (⟨S128, .f32⟩ : BufTy).Contents (Elt Ideal)) (p : Fin 10000) (q : Fin 128) :
    val_main_v45 (F := Ideal) x0 x3 x5 x6 x7 x8 x9 x10 x11 x12 (ix2 p q)
      = Ideal.div 1 (1 + Ideal.exp (-((∑ k : Fin 256, val_main_v35 (F := Ideal) x0 x3 x5 x6 x7 x8 x9 x10 (ix2 p k) * x11 (ix2 k q)) + x12 (ix1 q)))) := by
  rw [val_main_v45_apply, val_main_v44_apply, val_main_cst_5_apply, val_main_v43_apply, val_main_v42_apply, val_main_cst_4_apply,
    val_main_v41_apply, val_main_v40_apply, val_main_v39_apply, val_main_v36_apply, val_main_v38_apply, val_main_v37_apply]
  have el : ∀ k, lidx_main_v36 (ix2 p q) k = ix2 p k := fun k => funext fun a => Fin.ext (by match a with | ⟨0, _⟩ => rfl | ⟨1, _⟩ => rfl)
  have er : ∀ k, ridx_main_v36 (ix2 p q) k = ix2 k q := fun k => funext fun a => Fin.ext (by match a with | ⟨0, _⟩ => rfl | ⟨1, _⟩ => rfl)
  have eb : idx_main_v37 (idx_main_v38 (ix2 p q)) = ix1 q := funext fun a => Fin.ext (by match a with | ⟨0, _⟩ => rfl)
  simp only [el, er, eb, Ideal.hostDivf_def, Ideal.ofBits_def, Ideal.addf_def, Ideal.hostUnary_exp_def, Ideal.hostNegf_def, Ideal.negf_def,
    Ideal.ofBits_one_f32]

/-- The reference's dispersion head at the entry (p, q). -/
theorem ref_disp_apply (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x7 : (⟨S64x256, .f32⟩ : BufTy).Contents (Elt Ideal))
    (x8 x9 x10 : (⟨S256, .f32⟩ : BufTy).Contents (Elt Ideal)) (x13 : (⟨S256x128, .f32⟩ : BufTy).Contents (Elt Ideal))
    (x14 : (⟨S128, .f32⟩ : BufTy).Contents (Elt Ideal)) (p : Fin 10000) (q : Fin 128) :
    val_main_v51 (F := Ideal) x0 x3 x5 x6 x7 x8 x9 x10 x13 x14 (ix2 p q)
      = min (Ideal.ofBits .f32 0x461C4000#32) (max (Ideal.ofBits .f32 0x38D1B717#32)
          (max ((∑ k : Fin 256, val_main_v35 (F := Ideal) x0 x3 x5 x6 x7 x8 x9 x10 (ix2 p k) * x13 (ix2 k q)) + x14 (ix1 q)) 0
            + Ideal.log (1 + Ideal.exp (-(max ((∑ k : Fin 256, val_main_v35 (F := Ideal) x0 x3 x5 x6 x7 x8 x9 x10 (ix2 p k) * x13 (ix2 k q)) + x14 (ix1 q))
                (-((∑ k : Fin 256, val_main_v35 (F := Ideal) x0 x3 x5 x6 x7 x8 x9 x10 (ix2 p k) * x13 (ix2 k q)) + x14 (ix1 q)))))))) := by
  rw [val_main_v51_apply, val_main_call4_v4_apply, val_main_call4_v3_apply, val_main_cst_7_apply, val_main_call4_v2_apply,
    val_main_call4_v1_apply, val_main_call4_v0_apply, val_main_cst_6_apply, val_main_v50_apply, val_main_call3_v4_apply,
    val_main_call3_v6_apply, val_main_call3_v11_apply, val_main_call3_v1_apply, val_main_call3_v10_apply, val_main_call3_v9_apply,
    val_main_call3_v8_apply, val_main_call3_v7_apply, val_main_call3_v3_apply, val_main_call3_v0_apply, val_main_call3_v2_apply,
    val_main_call3_v5_apply, val_main_call3_cst_apply, val_main_v49_apply, val_main_v46_apply, val_main_v48_apply, val_main_v47_apply]
  have el : ∀ k, lidx_main_v46 (ix2 p q) k = ix2 p k := fun k => funext fun a => Fin.ext (by match a with | ⟨0, _⟩ => rfl | ⟨1, _⟩ => rfl)
  have er : ∀ k, ridx_main_v46 (ix2 p q) k = ix2 k q := fun k => funext fun a => Fin.ext (by match a with | ⟨0, _⟩ => rfl | ⟨1, _⟩ => rfl)
  have eb : idx_main_v47 (idx_main_v48 (ix2 p q)) = ix1 q := funext fun a => Fin.ext (by match a with | ⟨0, _⟩ => rfl)
  simp only [el, er, eb]
  generalize (∑ k : Fin 256, val_main_v35 (F := Ideal) x0 x3 x5 x6 x7 x8 x9 x10 (ix2 p k) * x13 (ix2 k q)) = s
  simp only [Ideal.ofBits_def, Ideal.addf_def, Ideal.subf_def, Ideal.hostUnary_exp_def, Ideal.hostUnary_log1p_def, Ideal.hostNegf_def, Ideal.hostAbsf_def,
    Ideal.negf_def, Ideal.minimumf_def, Ideal.maximumf_def, Ideal.cmpf_def, Ideal.absf_def, Ideal.ofBits_zero_f32, sub_zero, cmp_une_self, select_zero]
  rfl

/-- The reference's mean head at the entry (p, q). -/
theorem ref_mean_apply (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x7 : (⟨S64x256, .f32⟩ : BufTy).Contents (Elt Ideal))
    (x8 x9 x10 : (⟨S256, .f32⟩ : BufTy).Contents (Elt Ideal)) (x15 : (⟨S256x128, .f32⟩ : BufTy).Contents (Elt Ideal))
    (x16 : (⟨S128, .f32⟩ : BufTy).Contents (Elt Ideal)) (p : Fin 10000) (q : Fin 128) :
    val_main_v57 (F := Ideal) x0 x3 x5 x6 x7 x8 x9 x10 x15 x16 (ix2 p q)
      = min (Ideal.ofBits .f32 0x49742400#32) (max (Ideal.ofBits .f32 0x3727C5AC#32)
          (Ideal.exp ((∑ k : Fin 256, val_main_v35 (F := Ideal) x0 x3 x5 x6 x7 x8 x9 x10 (ix2 p k) * x15 (ix2 k q)) + x16 (ix1 q)))) := by
  rw [val_main_v57_apply, val_main_call5_v4_apply, val_main_call5_v3_apply, val_main_cst_9_apply, val_main_call5_v2_apply,
    val_main_call5_v1_apply, val_main_call5_v0_apply, val_main_cst_8_apply, val_main_v56_apply, val_main_v55_apply,
    val_main_v52_apply, val_main_v54_apply, val_main_v53_apply]
  have el : ∀ k, lidx_main_v52 (ix2 p q) k = ix2 p k := fun k => funext fun a => Fin.ext (by match a with | ⟨0, _⟩ => rfl | ⟨1, _⟩ => rfl)
  have er : ∀ k, ridx_main_v52 (ix2 p q) k = ix2 k q := fun k => funext fun a => Fin.ext (by match a with | ⟨0, _⟩ => rfl | ⟨1, _⟩ => rfl)
  have eb : idx_main_v53 (idx_main_v54 (ix2 p q)) = ix1 q := funext fun a => Fin.ext (by match a with | ⟨0, _⟩ => rfl)
  simp only [el, er, eb, Ideal.ofBits_def, Ideal.addf_def, Ideal.hostUnary_exp_def, Ideal.minimumf_def, Ideal.maximumf_def]

end Cert.Bridge.R4

end
-- ==== Proof.R4TrunkKernel.lean ====
/-
  The decoder's batch-norm trunk as the kernel computes it, read one entry at a time.

  From the 10000 × 64 code matrix Z, the 64 × 256 decoder weights W and three 1 × 256 rows (bias b, scale g, shift s)
  the kernel forms, over ALL 10000 rows at once,
      X = Z · W + b                              (10000 × 256; the row b repeated down the rows),
      mu_k  = (∑ r, X[r,k]) / 10000              (a 1 × 256 row of column means),
      var_k = (∑ r, (X[r,k] - mu_k)²) / 10000    (a 1 × 256 row of column variances),
      Y[r,k] = max ((X[r,k] - mu_k) / sqrt (var_k + eps) · g_k + s_k, 0).
  The four stages are named here (`xr_lin`, `xr_mean`, `xr_var`, `xr_norm`), the kernel's arithmetic is shown to be their
  composition (`xr_pay`, by unfolding), and each stage is read at an entry (r, k): the matrix product as the sum over the
  64 code coordinates, a column sum as the sum over the 10000 rows, a repeated row at its one row.
-/
import proofs.«140504_g18717467476370_cont_8to1_202_16_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.Bridge.R4

open Idealize.ShloMosaic Idealize.ShloMosaic.ValueIdx Idealize.SL.Sem
open Cert.KernelIdeal Cert.KernelIdeal.Gen

/-! ## The four stages -/

section Stages
variable {F : FTy → Type} [FloatOps F]

/-- X = Z · W + b: the linear layer, the bias row repeated down the 10000 rows. -/
def xr_lin (z : Vec F S10000x64 .f32) (dw : Vec F S64x256 .f32) (b : Vec F S1x256 .f32) : FVec F S10000x256 .f32 :=
  addf (matmul dot_S10000x64_S64x256_S10000x256_1_0_0_1_n_n none (shapeCast S10000x64 z shapeCasts_S10000x64_S10000x64) dw
      (constant S10000x256 .f32 0x00000000#32))
    (broadcastTo S10000x256 (shapeCast S1x256 b shapeCasts_S1x256_S1x256) broadcasts_S1x256_S10000x256)

/-- The column means of X as a 1 × 256 row: each column's sum over the 10000 rows, divided by 10000. -/
def xr_mean (xd : FVec F S10000x256 .f32) : FVec F S1x256 .f32 :=
  divf (shapeCast S1x256 (multiReduction .add [0] S256 xd 0x00000000#32 reduces_S10000x256_S256 (.inl rfl) rfl) shapeCasts_S256_S1x256)
    (broadcast S1x256 (Scalar.ofBits .f32 0x461C4000#32))

/-- The column variances about a given row of centres, as a 1 × 256 row: each column's sum of squared deviations over
    the 10000 rows, divided by 10000. -/
def xr_var (xd : FVec F S10000x256 .f32) (mu : FVec F S1x256 .f32) : FVec F S1x256 .f32 :=
  divf (shapeCast S1x256 (multiReduction .add [0] S256
      (mulf (subf xd (broadcastTo S10000x256 mu broadcasts_S1x256_S10000x256)) (subf xd (broadcastTo S10000x256 mu broadcasts_S1x256_S10000x256)))
      0x00000000#32 reduces_S10000x256_S256 (.inl rfl) rfl) shapeCasts_S256_S1x256)
    (broadcast S1x256 (Scalar.ofBits .f32 0x461C4000#32))

/-- The normalised, scaled, shifted and clamped entries: max ((X - mu) / sqrt (var + eps) · g + s, 0). -/
def xr_norm (xd : FVec F S10000x256 .f32) (mu var : FVec F S1x256 .f32) (g s : Vec F S1x256 .f32) : FVec F S10000x256 .f32 :=
  maximumf
    (addf
      (mulf
        (divf (subf xd (broadcastTo S10000x256 mu broadcasts_S1x256_S10000x256))
          (broadcastTo S10000x256 (sqrt (addf var (broadcast S1x256 (Scalar.ofBits .f32 0x3727C5AC#32)))) broadcasts_S1x256_S10000x256))
        (broadcastTo S10000x256 (shapeCast S1x256 g shapeCasts_S1x256_S1x256) broadcasts_S1x256_S10000x256))
      (broadcastTo S10000x256 (shapeCast S1x256 s shapeCasts_S1x256_S1x256) broadcasts_S1x256_S10000x256))
    (broadcast S10000x256 (Scalar.ofBits .f32 0x00000000#32))

/-- The kernel's arithmetic is the composition of the four stages (its lines, with the intermediate values named). -/
theorem xr_pay (z : Vec F S10000x64 .f32) (dw : Vec F S64x256 .f32) (b g s : Vec F S1x256 .f32) :
    k4_pay2 z dw b g s
      = xr_norm (xr_lin z dw b) (xr_mean (xr_lin z dw b)) (xr_var (xr_lin z dw b) (xr_mean (xr_lin z dw b))) g s := rfl

end Stages

/-! ## The matrix product's operand entries -/

theorem xr_lhs0 (i : S10000x256.Idx) (q : dot_S10000x64_S64x256_S10000x256_1_0_0_1_n_n.contr.Idx) :
    (dot_S10000x64_S64x256_S10000x256_1_0_0_1_n_n.lhsIdx i q 0).val = (i 0).val := by
  unfold DotDims.lhsIdx
  rw [dif_neg (show ¬(0 : Fin S10000x64.rank) ∈ dot_S10000x64_S64x256_S10000x256_1_0_0_1_n_n.lhsBatch by decide),
    dif_pos (show (0 : Fin S10000x64.rank) ∈ dot_S10000x64_S64x256_S10000x256_1_0_0_1_n_n.lhsNonContracting by decide)]
  rfl
theorem xr_lhs1 (i : S10000x256.Idx) (q : dot_S10000x64_S64x256_S10000x256_1_0_0_1_n_n.contr.Idx) :
    (dot_S10000x64_S64x256_S10000x256_1_0_0_1_n_n.lhsIdx i q 1).val = (q ⟨0, by decide⟩).val :=
  dot_S10000x64_S64x256_S10000x256_1_0_0_1_n_n.lhsIdx_val_of_single rfl i q
theorem xr_rhs0 (i : S10000x256.Idx) (q : dot_S10000x64_S64x256_S10000x256_1_0_0_1_n_n.contr.Idx) :
    (dot_S10000x64_S64x256_S10000x256_1_0_0_1_n_n.rhsIdx i q 0).val = (q ⟨0, by decide⟩).val :=
  dot_S10000x64_S64x256_S10000x256_1_0_0_1_n_n.rhsIdx_val_of_single rfl i q
theorem xr_rhs1 (i : S10000x256.Idx) (q : dot_S10000x64_S64x256_S10000x256_1_0_0_1_n_n.contr.Idx) :
    (dot_S10000x64_S64x256_S10000x256_1_0_0_1_n_n.rhsIdx i q 1).val = (i 1).val := by
  unfold DotDims.rhsIdx
  rw [dif_neg (show ¬(1 : Fin S64x256.rank) ∈ dot_S10000x64_S64x256_S10000x256_1_0_0_1_n_n.rhsBatch by decide),
    dif_pos (show (1 : Fin S64x256.rank) ∈ dot_S10000x64_S64x256_S10000x256_1_0_0_1_n_n.rhsNonContracting by decide)]
  rfl

/-! ## The stages at an entry -/

/-- X[r,k] = ∑ q, Z[r,q] · W[q,k] + b[0,k]: the product into a zero accumulator is the sum over the 64 code coordinates. -/
theorem xr_lin_apply (z : Vec Ideal S10000x64 .f32) (dw : Vec Ideal S64x256 .f32) (b : Vec Ideal S1x256 .f32)
    (r : Fin 10000) (k : Fin 256) :
    xr_lin z dw b (ix2 r k) = (∑ q : Fin 64, z (ix2 r q) * dw (ix2 q k)) + b (ix2 (0 : Fin 1) k) := by
  unfold xr_lin
  rw [addf_apply, shapeCast_self, shapeCast_self, broadcastTo_1b_ab_apply]
  refine congrArg (· + b (ix2 (0 : Fin 1) k)) ?_
  refine (Ideal.matmul_constant_zero_apply (φ₁ := .f32) (φ₂ := .f32) dot_S10000x64_S64x256_S10000x256_1_0_0_1_n_n none z dw (ix2 r k)).trans ?_
  rw [← Equiv.sum_comp (contrEquiv1 dot_S10000x64_S64x256_S10000x256_1_0_0_1_n_n 64 rfl rfl).symm]
  refine Finset.sum_congr rfl fun q _ => ?_
  have hq := contrEquiv1_symm_val dot_S10000x64_S64x256_S10000x256_1_0_0_1_n_n 64 rfl rfl q
  have el : dot_S10000x64_S64x256_S10000x256_1_0_0_1_n_n.lhsIdx (ix2 r k)
      ((contrEquiv1 dot_S10000x64_S64x256_S10000x256_1_0_0_1_n_n 64 rfl rfl).symm q) = ix2 r q :=
    funext fun a => Fin.ext (by
      match a with
      | ⟨0, _⟩ => exact xr_lhs0 _ _
      | ⟨1, _⟩ => exact (xr_lhs1 _ _).trans hq)
  have er : dot_S10000x64_S64x256_S10000x256_1_0_0_1_n_n.rhsIdx (ix2 r k)
      ((contrEquiv1 dot_S10000x64_S64x256_S10000x256_1_0_0_1_n_n 64 rfl rfl).symm q) = ix2 q k :=
    funext fun a => Fin.ext (by
      match a with
      | ⟨0, _⟩ => exact (xr_rhs0 _ _).trans hq
      | ⟨1, _⟩ => exact xr_rhs1 _ _)
  rw [el, er]

/-- The row over column k of the sum along the rows is the entry (r, k). -/
theorem xr_lift (r : Fin 10000) (k : Fin 256) :
    reduces_S10000x256_S256.lift (ix1 k) r = ix2 r k :=
  funext fun a => Fin.ext (by match a with | ⟨0, _⟩ => rfl | ⟨1, _⟩ => rfl)

/-- mu[0,k] = (∑ r, X[r,k]) / 10000. -/
theorem xr_mean_apply (xd : FVec Ideal S10000x256 .f32) (u : Fin 1) (k : Fin 256) :
    xr_mean xd (ix2 u k) = Ideal.div (∑ r : Fin 10000, xd (ix2 r k)) (Ideal.ofBits .f32 0x461C4000#32) := by
  unfold xr_mean
  rw [divf_apply, shapeCast_a_1a_apply]
  refine congrArg₂ Ideal.div ?_ rfl
  refine (Ideal.multiReduction_add_single xd 0x00000000#32 reduces_S10000x256_S256 (.inl rfl) rfl (ix1 k)).trans ?_
  exact Finset.sum_congr rfl fun (r : Fin 10000) _ => congrArg xd (xr_lift r k)

/-- var[0,k] = (∑ r, (X[r,k] - mu[0,k])²) / 10000. -/
theorem xr_var_apply (xd : FVec Ideal S10000x256 .f32) (mu : FVec Ideal S1x256 .f32) (u : Fin 1) (k : Fin 256) :
    xr_var xd mu (ix2 u k)
      = Ideal.div (∑ r : Fin 10000, (xd (ix2 r k) - mu (ix2 (0 : Fin 1) k)) * (xd (ix2 r k) - mu (ix2 (0 : Fin 1) k)))
          (Ideal.ofBits .f32 0x461C4000#32) := by
  unfold xr_var
  rw [divf_apply, shapeCast_a_1a_apply]
  refine congrArg₂ Ideal.div ?_ rfl
  refine (Ideal.multiReduction_add_single _ 0x00000000#32 reduces_S10000x256_S256 (.inl rfl) rfl (ix1 k)).trans ?_
  refine Finset.sum_congr rfl fun (r : Fin 10000) _ => ?_
  rw [xr_lift r k, mulf_apply, subf_apply, broadcastTo_1b_ab_apply]

/-- Y[r,k] = max ((X[r,k] - mu[0,k]) / sqrt (var[0,k] + eps) · g[0,k] + s[0,k], 0). -/
theorem xr_norm_apply (xd : FVec Ideal S10000x256 .f32) (mu var : FVec Ideal S1x256 .f32) (g s : Vec Ideal S1x256 .f32)
    (r : Fin 10000) (k : Fin 256) :
    xr_norm xd mu var g s (ix2 r k)
      = max (Ideal.div (xd (ix2 r k) - mu (ix2 (0 : Fin 1) k))
              (Ideal.sqrt (var (ix2 (0 : Fin 1) k) + Ideal.ofBits .f32 0x3727C5AC#32)) * g (ix2 (0 : Fin 1) k)
            + s (ix2 (0 : Fin 1) k))
          (Ideal.ofBits .f32 0x00000000#32) := by
  unfold xr_norm
  rw [maximumf_apply, addf_apply, mulf_apply, divf_apply, subf_apply, shapeCast_self, shapeCast_self,
    broadcastTo_1b_ab_apply, broadcastTo_1b_ab_apply, broadcastTo_1b_ab_apply, broadcastTo_1b_ab_apply]
  rfl

end Cert.Bridge.R4

end
-- ==== Proof.R4TrunkRef.lean ====
/-
  The decoder's batch-norm trunk as the reference computes it, read one entry at a time.

  The reference forms the same four quantities as plain whole-array operations: X = Z · W + b with the bias a
  256-vector repeated in two steps (to one row, then down the rows); the column means and variances as 256-vectors
  (a sum along the rows starting from 0, divided by a constant vector of 10000s), repeated in the same two steps
  wherever a full array is needed; the result max ((X - mu) / sqrt (var + eps) · g + s, 0). Each stage below is the
  reference's own stage function read at an entry whose coordinates are written out, in terms of the stages before it.
-/
import proofs.«140504_g18717467476370_cont_8to1_202_16_alg».proof.Proof.Gen.ReferenceIdeal.Read
import Idealize.ShloMosaic.Lib.ValueIdx
import Idealize.ShloMosaic.PureOps.Ideal.Laws

noncomputable section

namespace Cert.Bridge.R4

open Idealize.ShloMosaic Idealize.ShloMosaic.ValueIdx
open Cert.ReferenceIdeal (S10000x128 S128x256 S10000x10000 S256x64 S64x256 S256 S1x256 S10000x64 S10000x256)
open Cert.ReferenceIdeal.Read

/-! ## Where each repeated or summed entry is read -/

section Indices
variable (r : Fin 10000) (k : Fin 256) (u : Fin 1) (q : Fin 64)

/-- An index of a 10000 × 256 array given by its coordinate functions is the pair of them. -/
local macro "ix_pair" : tactic =>
  `(tactic| exact funext fun a => Fin.ext (by match a with | ⟨0, _⟩ => rfl | ⟨1, _⟩ => rfl))
local macro "ix_single" : tactic =>
  `(tactic| exact funext fun a => Fin.ext (by match a with | ⟨0, _⟩ => rfl))

theorem xr_ixl6 : lidx_main_v6 (ix2 r k) q = ix2 r q := by ix_pair
theorem xr_ixr6 : ridx_main_v6 (ix2 r k) q = ix2 q k := by ix_pair
theorem xr_ix7 : idx_main_v7 (ix2 u k) = ix1 k := by ix_single
theorem xr_ix8 : idx_main_v8 (ix2 r k) = ix2 (0 : Fin 1) k := by ix_pair
theorem xr_ix10 : idx_main_v10 (ix1 k) r = ix2 r k := by ix_pair
theorem xr_ix13 : idx_main_v13 (ix2 u k) = ix1 k := by ix_single
theorem xr_ix14 : idx_main_v14 (ix2 r k) = ix2 (0 : Fin 1) k := by ix_pair
theorem xr_ix17 : idx_main_v17 (ix1 k) r = ix2 r k := by ix_pair
theorem xr_ix20 : idx_main_v20 (ix2 u k) = ix1 k := by ix_single
theorem xr_ix21 : idx_main_v21 (ix2 r k) = ix2 (0 : Fin 1) k := by ix_pair
theorem xr_ix26 : idx_main_v26 (ix2 u k) = ix1 k := by ix_single
theorem xr_ix27 : idx_main_v27 (ix2 r k) = ix2 (0 : Fin 1) k := by ix_pair
theorem xr_ix29 : idx_main_v29 (ix2 u k) = ix1 k := by ix_single
theorem xr_ix30 : idx_main_v30 (ix2 r k) = ix2 (0 : Fin 1) k := by ix_pair
theorem xr_ix32 : idx_main_v32 (ix2 u k) = ix1 k := by ix_single
theorem xr_ix33 : idx_main_v33 (ix2 r k) = ix2 (0 : Fin 1) k := by ix_pair

end Indices

/-! ## The stages at an entry -/

section Stages
variable (x0 : (⟨S10000x128, .f32⟩ : BufTy).Contents (Elt Ideal)) (x3 : (⟨S10000x10000, .f32⟩ : BufTy).Contents (Elt Ideal)) (x5 : (⟨S128x256, .f32⟩ : BufTy).Contents (Elt Ideal)) (x6 : (⟨S256x64, .f32⟩ : BufTy).Contents (Elt Ideal)) (x7 : (⟨S64x256, .f32⟩ : BufTy).Contents (Elt Ideal))
  (x8 x9 x10 : (⟨S256, .f32⟩ : BufTy).Contents (Elt Ideal))

/-- X[r,k] = ∑ q, Z[r,q] · W[q,k] + b[k], Z the reference's code matrix. -/
theorem xr_v9_apply (r : Fin 10000) (k : Fin 256) :
    val_main_v9 (F := Ideal) x0 x3 x5 x6 x7 x8 (ix2 r k)
      = (∑ q : Fin 64, val_main_v4 (F := Ideal) x0 x3 x5 x6 (ix2 r q) * x7 (ix2 q k)) + x8 (ix1 k) := by
  rw [val_main_v9_apply, val_main_v6_apply, val_main_v8_apply, val_main_v7_apply, xr_ix8, xr_ix7]
  simp only [xr_ixl6, xr_ixr6, Ideal.addf_def]

/-- mu[k] = (0 + ∑ r, X[r,k]) / 10000. -/
theorem xr_v12_apply (k : Fin 256) :
    val_main_v12 (F := Ideal) x0 x3 x5 x6 x7 x8 (ix1 k)
      = Ideal.div (∑ r : Fin 10000, val_main_v9 (F := Ideal) x0 x3 x5 x6 x7 x8 (ix2 r k)) (Ideal.ofBits .f32 0x461C4000#32) := by
  rw [val_main_v12_apply, val_main_v10_apply, val_main_v11_apply, val_main_cst_apply, val_main_cst_0_apply]
  simp only [xr_ix10, Ideal.hostDivf_def, Ideal.ofBits_def, Ideal.ofBits_zero_f32, zero_add]

/-- var[k] = (0 + ∑ r, (X[r,k] - mu[k])²) / 10000. -/
theorem xr_v19_apply (k : Fin 256) :
    val_main_v19 (F := Ideal) x0 x3 x5 x6 x7 x8 (ix1 k)
      = Ideal.div (∑ r : Fin 10000,
            (val_main_v9 (F := Ideal) x0 x3 x5 x6 x7 x8 (ix2 r k) - val_main_v12 (F := Ideal) x0 x3 x5 x6 x7 x8 (ix1 k))
              * (val_main_v9 (F := Ideal) x0 x3 x5 x6 x7 x8 (ix2 r k) - val_main_v12 (F := Ideal) x0 x3 x5 x6 x7 x8 (ix1 k)))
          (Ideal.ofBits .f32 0x461C4000#32) := by
  rw [val_main_v19_apply, val_main_v17_apply, val_main_v18_apply, val_main_cst_1_apply, val_main_cst_2_apply]
  simp only [xr_ix17, val_main_v16_apply, val_main_v15_apply, val_main_v14_apply, val_main_v13_apply, xr_ix14, xr_ix13,
    Ideal.hostDivf_def, Ideal.ofBits_def, Ideal.ofBits_zero_f32, zero_add, Ideal.mulf_def, Ideal.subf_def]

/-- Y[r,k] = max ((X[r,k] - mu[k]) / sqrt (var[k] + eps) · g[k] + s[k], 0). -/
theorem xr_v35_apply (r : Fin 10000) (k : Fin 256) :
    val_main_v35 (F := Ideal) x0 x3 x5 x6 x7 x8 x9 x10 (ix2 r k)
      = max (Ideal.div (val_main_v9 (F := Ideal) x0 x3 x5 x6 x7 x8 (ix2 r k) - val_main_v12 (F := Ideal) x0 x3 x5 x6 x7 x8 (ix1 k))
              (Ideal.sqrt (val_main_v19 (F := Ideal) x0 x3 x5 x6 x7 x8 (ix1 k) + Ideal.ofBits .f32 0x3727C5AC#32)) * x9 (ix1 k)
            + x10 (ix1 k))
          (Ideal.ofBits .f32 0x00000000#32) := by
  rw [val_main_v35_apply, val_main_v34_apply, val_main_v31_apply, val_main_v28_apply, val_main_v22_apply,
    val_main_v21_apply, xr_ix21, val_main_v20_apply, xr_ix20,
    val_main_v27_apply, xr_ix27, val_main_v26_apply, xr_ix26, val_main_v25_apply, val_main_v24_apply, val_main_v23_apply,
    val_main_cst_3_apply, val_main_v30_apply, xr_ix30, val_main_v29_apply, xr_ix29,
    val_main_v33_apply, xr_ix33, val_main_v32_apply, xr_ix32, val_main_call2_v0_apply, val_main_call2_cst_apply]
  simp only [Ideal.maximumf_def, Ideal.addf_def, Ideal.mulf_def, Ideal.hostDivf_def, Ideal.subf_def,
    Ideal.hostUnary_sqrt_def, Ideal.ofBits_def]

end Stages

end Cert.Bridge.R4

end
-- ==== Proof.R4Trunk.lean ====
/-
  The decoder's batch-norm trunk: the kernel's arithmetic over the whole 10000-row block is the reference's stage.

  Both sides compute  Y[r,k] = max ((X[r,k] - mu_k) / sqrt (var_k + eps) · g_k + s_k, 0)  with  X = Z · W + b,
  mu_k = (∑ r, X[r,k]) / 10000  and  var_k = (∑ r, (X[r,k] - mu_k)²) / 10000.  The kernel keeps b, mu, var, g, s as
  1 × 256 rows and repeats a row down the 10000 rows; the reference keeps them as 256-vectors and repeats them in two
  steps; the kernel's matrix product into a zero accumulator and its column sums are the reference's contraction and
  its sums from 0. Read at an entry (r, k) the two sides are the same expression, stage by stage: first X (so the
  sums below range over equal terms), then mu, then var, then Y. No law of arithmetic is used beyond 0 + s = s.
-/
import proofs.«140504_g18717467476370_cont_8to1_202_16_alg».proof.Proof.R4TrunkKernel
import proofs.«140504_g18717467476370_cont_8to1_202_16_alg».proof.Proof.R4TrunkRef

noncomputable section

namespace Cert.Bridge.R4

open Idealize.ShloMosaic Idealize.ShloMosaic.ValueIdx Idealize.SL.Sem
open Cert.KernelIdeal Cert.KernelIdeal.Gen

/-- The linear layer agrees: with Z the reference's code matrix and the kernel's bias row holding the reference's
    bias vector, the kernel's X is the reference's X. -/
theorem xr_lin_eq (dw : Vec Ideal S64x256 .f32) (b8 : Vec Ideal S1x256 .f32)
    (x0 : (⟨S10000x128, .f32⟩ : BufTy).Contents (Elt Ideal)) (x3 : (⟨S10000x10000, .f32⟩ : BufTy).Contents (Elt Ideal)) (x5 : (⟨S128x256, .f32⟩ : BufTy).Contents (Elt Ideal)) (x6 : (⟨S256x64, .f32⟩ : BufTy).Contents (Elt Ideal))
    (x8 : (⟨S256, .f32⟩ : BufTy).Contents (Elt Ideal))
    (h8 : ∀ j : S1x256.Idx, b8 j = x8 (ix1 (j 1))) :
    xr_lin (F := Ideal) (Cert.ReferenceIdeal.Read.val_main_v4 x0 x3 x5 x6) dw b8
      = Cert.ReferenceIdeal.Read.val_main_v9 x0 x3 x5 x6 dw x8 := by
  funext i
  obtain ⟨r, k, rfl⟩ : ∃ (r : Fin 10000) (k : Fin 256), i = ix2 r k := ⟨i 0, i 1, eq_ix2 i⟩
  rw [xr_lin_apply, xr_v9_apply, h8]

/-- The column means agree: the kernel's row of means of the reference's X holds the reference's vector of means. -/
theorem xr_mean_eq (dw : Vec Ideal S64x256 .f32)
    (x0 : (⟨S10000x128, .f32⟩ : BufTy).Contents (Elt Ideal)) (x3 : (⟨S10000x10000, .f32⟩ : BufTy).Contents (Elt Ideal)) (x5 : (⟨S128x256, .f32⟩ : BufTy).Contents (Elt Ideal)) (x6 : (⟨S256x64, .f32⟩ : BufTy).Contents (Elt Ideal))
    (x8 : (⟨S256, .f32⟩ : BufTy).Contents (Elt Ideal)) (u : Fin 1) (k : Fin 256) :
    xr_mean (F := Ideal) (Cert.ReferenceIdeal.Read.val_main_v9 x0 x3 x5 x6 dw x8) (ix2 u k)
      = Cert.ReferenceIdeal.Read.val_main_v12 x0 x3 x5 x6 dw x8 (ix1 k) := by
  rw [xr_mean_apply, xr_v12_apply]

/-- The column variances agree likewise (the deviations are taken from equal means). -/
theorem xr_var_eq (dw : Vec Ideal S64x256 .f32)
    (x0 : (⟨S10000x128, .f32⟩ : BufTy).Contents (Elt Ideal)) (x3 : (⟨S10000x10000, .f32⟩ : BufTy).Contents (Elt Ideal)) (x5 : (⟨S128x256, .f32⟩ : BufTy).Contents (Elt Ideal)) (x6 : (⟨S256x64, .f32⟩ : BufTy).Contents (Elt Ideal))
    (x8 : (⟨S256, .f32⟩ : BufTy).Contents (Elt Ideal)) (u : Fin 1) (k : Fin 256) :
    xr_var (F := Ideal) (Cert.ReferenceIdeal.Read.val_main_v9 x0 x3 x5 x6 dw x8)
        (xr_mean (F := Ideal) (Cert.ReferenceIdeal.Read.val_main_v9 x0 x3 x5 x6 dw x8)) (ix2 u k)
      = Cert.ReferenceIdeal.Read.val_main_v19 x0 x3 x5 x6 dw x8 (ix1 k) := by
  rw [xr_var_apply, xr_v19_apply, xr_mean_eq]

/-- The trunk: the kernel's normalised, scaled, shifted and clamped block is the reference's stage, entry by entry. -/
theorem xr_eq (z : Vec Ideal S10000x64 .f32) (dw : Vec Ideal S64x256 .f32) (b8 b9 b10 : Vec Ideal S1x256 .f32)
    (x0 : (⟨S10000x128, .f32⟩ : BufTy).Contents (Elt Ideal)) (x3 : (⟨S10000x10000, .f32⟩ : BufTy).Contents (Elt Ideal)) (x5 : (⟨S128x256, .f32⟩ : BufTy).Contents (Elt Ideal)) (x6 : (⟨S256x64, .f32⟩ : BufTy).Contents (Elt Ideal))
    (x8 x9 x10 : (⟨S256, .f32⟩ : BufTy).Contents (Elt Ideal))
    (hz : z = Cert.ReferenceIdeal.Read.val_main_v4 x0 x3 x5 x6)
    (h8 : ∀ j : S1x256.Idx, b8 j = x8 (ix1 (j 1))) (h9 : ∀ j : S1x256.Idx, b9 j = x9 (ix1 (j 1))) (h10 : ∀ j : S1x256.Idx, b10 j = x10 (ix1 (j 1))) :
    k4_pay2 (F := Ideal) z dw b8 b9 b10 = Cert.ReferenceIdeal.Read.val_main_v35 x0 x3 x5 x6 dw x8 x9 x10 := by
  subst hz
  rw [xr_pay, xr_lin_eq dw b8 x0 x3 x5 x6 x8 h8]
  funext i
  obtain ⟨r, k, rfl⟩ : ∃ (r : Fin 10000) (k : Fin 256), i = ix2 r k := ⟨i 0, i 1, eq_ix2 i⟩
  rw [xr_norm_apply, xr_v35_apply, xr_mean_eq, xr_var_eq, h9, h10]

end Cert.Bridge.R4

end
-- ==== Proof.R4Final.lean ====
/-
  The decoder's three result arrays are the reference's.

  After the region each result array holds its head's arithmetic of the region's input arrays (the one grid point
  writes the whole array back). The hidden array the heads share is the reference's hidden stage; each head's matrix
  product is the same sum over the 256 hidden units as the reference's contraction; the bias row is the reference's
  bias vector broadcast over the rows; and the pointwise maps agree entry by entry:  0 - y = -y,  the bit patterns of
  0 and 1 are the numbers 0 and 1,  log1p t = log (1 + t).
-/
import proofs.«140504_g18717467476370_cont_8to1_202_16_alg».proof.Proof.R4Arrays
import proofs.«140504_g18717467476370_cont_8to1_202_16_alg».proof.Proof.R4Heads
import proofs.«140504_g18717467476370_cont_8to1_202_16_alg».proof.Proof.R4HeadsRef
import proofs.«140504_g18717467476370_cont_8to1_202_16_alg».proof.Proof.R4Trunk

set_option maxRecDepth 16384

noncomputable section

namespace Cert.Bridge.R4

open Cert.KernelIdeal Cert.KernelIdeal.Gen
open Idealize.ShloMosaic Idealize.ShloMosaic.TcCoe Idealize.SL.Sem Idealize.ShloMosaic.ValueIdx

/-- The sigmoid head of the hidden array is the reference's, as whole arrays. -/
theorem pi_eq (z : Vec Ideal S10000x64 .f32) (dw : Vec Ideal S64x256 .f32) (b8 b9 b10 : Vec Ideal S1x256 .f32)
    (w : Vec Ideal S256x128 .f32) (bb : Vec Ideal S1x128 .f32)
    (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x8 x9 x10 : (⟨S256, .f32⟩ : BufTy).Contents (Elt Ideal)) (x12 : (⟨S128, .f32⟩ : BufTy).Contents (Elt Ideal))
    (hz : z = Cert.ReferenceIdeal.Read.val_main_v4 x0 x3 x5 x6)
    (h8 : ∀ j : S1x256.Idx, b8 j = x8 (ix1 (j 1))) (h9 : ∀ j : S1x256.Idx, b9 j = x9 (ix1 (j 1)))
    (h10 : ∀ j : S1x256.Idx, b10 j = x10 (ix1 (j 1))) (hb : ∀ j : S1x128.Idx, bb j = x12 (ix1 (j 1))) :
    k4_pay4 (k4_pay3 z dw b8 b9 b10 w) bb = Cert.ReferenceIdeal.Read.val_main_v45 x0 x3 x5 x6 dw x8 x9 x10 w x12 := by
  funext i
  obtain ⟨p, q, rfl⟩ : ∃ (p : Fin 10000) (q : Fin 128), i = ix2 p q := ⟨i 0, i 1, eq_ix2 i⟩
  have hbq : bb (ix2 (0 : Fin 1) q) = x12 (ix1 q) := hb (ix2 (0 : Fin 1) q)
  rw [ref_pi_apply, ← xr_eq z dw b8 b9 b10 x0 x3 x5 x6 x8 x9 x10 hz h8 h9 h10]
  refine (pi_kernel_apply (k4_pay2 z dw b8 b9 b10) w bb p q).trans ?_
  rw [hbq, Ideal.ofBits_zero_f32, zero_sub, Ideal.ofBits_one_f32]

/-- The dispersion head of the hidden array is the reference's. -/
theorem disp_eq (z : Vec Ideal S10000x64 .f32) (dw : Vec Ideal S64x256 .f32) (b8 b9 b10 : Vec Ideal S1x256 .f32)
    (w : Vec Ideal S256x128 .f32) (bb : Vec Ideal S1x128 .f32)
    (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x8 x9 x10 : (⟨S256, .f32⟩ : BufTy).Contents (Elt Ideal)) (x14 : (⟨S128, .f32⟩ : BufTy).Contents (Elt Ideal))
    (hz : z = Cert.ReferenceIdeal.Read.val_main_v4 x0 x3 x5 x6)
    (h8 : ∀ j : S1x256.Idx, b8 j = x8 (ix1 (j 1))) (h9 : ∀ j : S1x256.Idx, b9 j = x9 (ix1 (j 1)))
    (h10 : ∀ j : S1x256.Idx, b10 j = x10 (ix1 (j 1))) (hb : ∀ j : S1x128.Idx, bb j = x14 (ix1 (j 1))) :
    k4_pay5 (k4_pay2 z dw b8 b9 b10) w bb = Cert.ReferenceIdeal.Read.val_main_v51 x0 x3 x5 x6 dw x8 x9 x10 w x14 := by
  funext i
  obtain ⟨p, q, rfl⟩ : ∃ (p : Fin 10000) (q : Fin 128), i = ix2 p q := ⟨i 0, i 1, eq_ix2 i⟩
  have hbq : bb (ix2 (0 : Fin 1) q) = x14 (ix1 q) := hb (ix2 (0 : Fin 1) q)
  rw [ref_disp_apply, ← xr_eq z dw b8 b9 b10 x0 x3 x5 x6 x8 x9 x10 hz h8 h9 h10]
  refine (disp_kernel_apply (k4_pay2 z dw b8 b9 b10) w bb p q).trans ?_
  rw [hbq, Ideal.ofBits_zero_f32, zero_sub, Ideal.ofBits_one_f32]

/-- The mean head of the hidden array is the reference's. -/
theorem mean_eq (z : Vec Ideal S10000x64 .f32) (dw : Vec Ideal S64x256 .f32) (b8 b9 b10 : Vec Ideal S1x256 .f32)
    (w : Vec Ideal S256x128 .f32) (bb : Vec Ideal S1x128 .f32)
    (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x8 x9 x10 : (⟨S256, .f32⟩ : BufTy).Contents (Elt Ideal)) (x16 : (⟨S128, .f32⟩ : BufTy).Contents (Elt Ideal))
    (hz : z = Cert.ReferenceIdeal.Read.val_main_v4 x0 x3 x5 x6)
    (h8 : ∀ j : S1x256.Idx, b8 j = x8 (ix1 (j 1))) (h9 : ∀ j : S1x256.Idx, b9 j = x9 (ix1 (j 1)))
    (h10 : ∀ j : S1x256.Idx, b10 j = x10 (ix1 (j 1))) (hb : ∀ j : S1x128.Idx, bb j = x16 (ix1 (j 1))) :
    k4_pay1 (k4_pay6 (k4_pay2 z dw b8 b9 b10) w) bb = Cert.ReferenceIdeal.Read.val_main_v57 x0 x3 x5 x6 dw x8 x9 x10 w x16 := by
  funext i
  obtain ⟨p, q, rfl⟩ : ∃ (p : Fin 10000) (q : Fin 128), i = ix2 p q := ⟨i 0, i 1, eq_ix2 i⟩
  have hbq : bb (ix2 (0 : Fin 1) q) = x16 (ix1 q) := hb (ix2 (0 : Fin 1) q)
  rw [ref_mean_apply, ← xr_eq z dw b8 b9 b10 x0 x3 x5 x6 x8 x9 x10 hz h8 h9 h10]
  refine (mean_kernel_apply (k4_pay2 z dw b8 b9 b10) w bb p q).trans ?_
  rw [hbq]

theorem final_pi (V : (c : Dev nD) → (b : Ref sig .tc) → Buf (Elt Ideal) ((c : Thread nD τ).loc b)) (c : Dev nD)
    (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x8 x9 x10 : (⟨S256, .f32⟩ : BufTy).Contents (Elt Ideal)) (x12 : (⟨S128, .f32⟩ : BufTy).Contents (Elt Ideal))
    (hz : V c main_v9_0 = Cert.ReferenceIdeal.Read.val_main_v4 x0 x3 x5 x6)
    (h8 : ∀ j : S1x256.Idx, V c main_v0 j = x8 (ix1 (j 1))) (h9 : ∀ j : S1x256.Idx, V c main_v1 j = x9 (ix1 (j 1)))
    (h10 : ∀ j : S1x256.Idx, V c main_v2 j = x10 (ix1 (j 1))) (hb : ∀ j : S1x128.Idx, V c main_v3 j = x12 (ix1 (j 1))) :
    (dat4 V c).arrAt 11 cfg4.N = Cert.ReferenceIdeal.Read.val_main_v45 x0 x3 x5 x6 (V c main_arg7) x8 x9 x10 (V c main_arg11) x12 :=
  (arr_pi V c).trans (pi_eq (V c main_v9_0) (V c main_arg7) (V c main_v0) (V c main_v1) (V c main_v2) (V c main_arg11) (V c main_v3)
    x0 x3 x5 x6 x8 x9 x10 x12 hz h8 h9 h10 hb)

theorem final_disp (V : (c : Dev nD) → (b : Ref sig .tc) → Buf (Elt Ideal) ((c : Thread nD τ).loc b)) (c : Dev nD)
    (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x8 x9 x10 : (⟨S256, .f32⟩ : BufTy).Contents (Elt Ideal)) (x14 : (⟨S128, .f32⟩ : BufTy).Contents (Elt Ideal))
    (hz : V c main_v9_0 = Cert.ReferenceIdeal.Read.val_main_v4 x0 x3 x5 x6)
    (h8 : ∀ j : S1x256.Idx, V c main_v0 j = x8 (ix1 (j 1))) (h9 : ∀ j : S1x256.Idx, V c main_v1 j = x9 (ix1 (j 1)))
    (h10 : ∀ j : S1x256.Idx, V c main_v2 j = x10 (ix1 (j 1))) (hb : ∀ j : S1x128.Idx, V c main_v4 j = x14 (ix1 (j 1))) :
    (dat4 V c).arrAt 12 cfg4.N = Cert.ReferenceIdeal.Read.val_main_v51 x0 x3 x5 x6 (V c main_arg7) x8 x9 x10 (V c main_arg13) x14 :=
  (arr_disp V c).trans (disp_eq (V c main_v9_0) (V c main_arg7) (V c main_v0) (V c main_v1) (V c main_v2) (V c main_arg13) (V c main_v4)
    x0 x3 x5 x6 x8 x9 x10 x14 hz h8 h9 h10 hb)

theorem final_mean (V : (c : Dev nD) → (b : Ref sig .tc) → Buf (Elt Ideal) ((c : Thread nD τ).loc b)) (c : Dev nD)
    (x0 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal))
    (x8 x9 x10 : (⟨S256, .f32⟩ : BufTy).Contents (Elt Ideal)) (x16 : (⟨S128, .f32⟩ : BufTy).Contents (Elt Ideal))
    (hz : V c main_v9_0 = Cert.ReferenceIdeal.Read.val_main_v4 x0 x3 x5 x6)
    (h8 : ∀ j : S1x256.Idx, V c main_v0 j = x8 (ix1 (j 1))) (h9 : ∀ j : S1x256.Idx, V c main_v1 j = x9 (ix1 (j 1)))
    (h10 : ∀ j : S1x256.Idx, V c main_v2 j = x10 (ix1 (j 1))) (hb : ∀ j : S1x128.Idx, V c main_v5 j = x16 (ix1 (j 1))) :
    (dat4 V c).arrAt 13 cfg4.N = Cert.ReferenceIdeal.Read.val_main_v57 x0 x3 x5 x6 (V c main_arg7) x8 x9 x10 (V c main_arg15) x16 :=
  (arr_mean V c).trans (mean_eq (V c main_v9_0) (V c main_arg7) (V c main_v0) (V c main_v1) (V c main_v2) (V c main_arg15) (V c main_v5)
    x0 x3 x5 x6 x8 x9 x10 x16 hz h8 h9 h10 hb)

end Cert.Bridge.R4

end
-- ==== Proof.R3RetSpec.lean ====
/-
  The bilinear score of one node, as a function of the node's data: the specification both programs are read against
  for the 10000 × 2 score array of the fourth region, and the layout operations of the kernel's body read at an index.
-/
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx
open scoped BigOperators

namespace Cert.Bridge.R3

/-! ## The score of one row, as a function of the row's data

For a node (a row) with neighbourhood weights `g` (its row of the neighbourhood matrix), the whole embedding array `e`,
the row's own embedding `u`, the bilinear weights `w` and the bias `b`:
  mean k  = (∑ j, g j · e j k) / (∑ j, g j)                      (the neighbourhood mean of column k)
  gate k  = 1 / (1 + exp (−(mean k / max (√(∑ k', (mean k')²)) ε)))   (the sigmoid of the normalized mean)
  score   = (∑ k, (∑ l, u l · w l k) · gate k) + b.
The constants `1` and `ε` are kept as the f32 words both programs print. -/

/-- The neighbourhood mean of embedding column `k`. -/
def ret_mean (g : Fin 10000 → EReal) (e : (⟨2, ![10000, 64]⟩ : Shape).Idx → EReal) (k : Fin 64) : EReal :=
  Ideal.div (∑ j : Fin 10000, g j * e (ix2 j k)) (∑ j : Fin 10000, g j)

/-- The sigmoid of the mean divided by the row's norm (at least ε). -/
def ret_gate (g : Fin 10000 → EReal) (e : (⟨2, ![10000, 64]⟩ : Shape).Idx → EReal) (k : Fin 64) : EReal :=
  Ideal.div (Ideal.ofBits .f32 0x3F800000#32)
    (Ideal.ofBits .f32 0x3F800000#32 + Ideal.exp (-(Ideal.div (ret_mean g e k)
      (max (Ideal.sqrt (∑ k' : Fin 64, ret_mean g e k' * ret_mean g e k')) (Ideal.ofBits .f32 0x2B8CBCCC#32)))))

/-- The bilinear score of a row embedding `u` against the gate, plus the bias. -/
def ret_score (g : Fin 10000 → EReal) (e : (⟨2, ![10000, 64]⟩ : Shape).Idx → EReal) (u : Fin 64 → EReal)
    (w : (⟨2, ![64, 64]⟩ : Shape).Idx → EReal) (b : EReal) : EReal :=
  (∑ k : Fin 64, (∑ l : Fin 64, u l * w (ix2 l k)) * ret_gate g e k) + b

/-! ## Two layout operations read at an index given by coordinates -/

/-- A vector viewed as a column: the cast [a] → [a, 1] reads row `i` at `i`. -/
theorem ret_cast_col {a : Nat} {α : Type} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    rw [Shape.rowMajor_val_one, Shape.rowMajor_val_two]
    show i.val = i.val * 1 + u.val
    have := u.isLt; omega)

/-- A column copied along the rows' second axis: the broadcast [a, 1] → [a, b] reads `(i, k)` at `(i, 0)`. -/
theorem ret_bcast_col {a b : Nat} {α : Type} (x : (⟨2, ![a, 1]⟩ : Shape).Idx → α)
    (h : (⟨2, ![a, 1]⟩ : Shape).Broadcasts ⟨2, ![a, b]⟩) (i : Fin a) (k : Fin b) :
    broadcastTo ⟨2, ![a, b]⟩ x h (ix2 i k) = x (ix2 i (0 : Fin 1)) :=
  broadcastTo_apply x h _ _ (fun ax => by
    match ax with
    | ⟨0, _⟩ =>
      show i.val = if a = 1 then 0 else i.val
      split
      · have := i.isLt; omega
      · rfl
    | ⟨1, _⟩ => show 0 = if (1 : Nat) = 1 then 0 else k.val; rw [if_pos rfl])

/-- One entry copied down a column: the broadcast [1, 1] → [a, 1] reads every entry at `(0, 0)`. -/
theorem ret_bcast_one {a : Nat} {α : Type} (x : (⟨2, ![1, 1]⟩ : Shape).Idx → α)
    (h : (⟨2, ![1, 1]⟩ : Shape).Broadcasts ⟨2, ![a, 1]⟩) (i : Fin a) (u : Fin 1) :
    broadcastTo ⟨2, ![a, 1]⟩ x h (ix2 i u) = x (ix2 (0 : Fin 1) (0 : Fin 1)) :=
  broadcastTo_apply x h _ _ (fun ax => by
    match ax with
    | ⟨0, _⟩ => show 0 = if (1 : Nat) = 1 then 0 else i.val; rw [if_pos rfl]
    | ⟨1, _⟩ => show 0 = if (1 : Nat) = 1 then 0 else u.val; rw [if_pos rfl])

end Cert.Bridge.R3

end
-- ==== Proof.R3RetPiece.lean ====
import proofs.«140504_g18717467476370_cont_8to1_202_16_alg».proof.Proof.Gen.KernelIdeal.Frame
import Idealize.ShloMosaic.Lib.ValueIdx
import Idealize.ShloMosaic.Lib.Pipeline.Value
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem Idealize.ShloMosaic.ValueIdx
open Idealize.ShloMosaic.Pipeline (Dat)
open Cert.KernelIdeal Cert.KernelIdeal.Gen

/-! # Output window 6 of the fourth region: the stored block as one payload

The body stores one 200 × 2 block per grid point.  Its one store's payload is the concatenation of two score
columns; every operand of it is a whole staging buffer read through the zero-offset rectangle, except the 200 rows of
the first embedding taken out of the WHOLE 10000 × 64 embedding array at row offset 200 · (grid coordinate). -/

namespace Cert.Bridge.R3

variable {F : FTy → Type} [FloatOps F]

/-- The zero offsets of a rank-2 rectangle, spelt as the constant function. -/
theorem ret_hz : (![0, 0] : Fin 2 → Nat) = fun _ => 0 := funext fun a => by fin_cases a <;> rfl

/-- What the body leaves in the staging buffer of output window 6: the score block of the point's input blocks, the rows of the
    first embedding read out of the whole embedding array through the rectangle at the point's row offset. -/
theorem ret_piece (c : Dev nD) (i : grid3.Coords) (a1 : Memref sig .tc .vmem S200x10000 .f32) (h1 : a1.IsWhole) (a2 : Memref sig .tc .vmem S10000x64 .bf16) (h2 : a2.IsWhole) (a3 : Memref sig .tc .vmem S200x64 .bf16) (h3 : a3.IsWhole) (a4 : Memref sig .tc .vmem S10000x64 .bf16) (h4 : a4.IsWhole) (a5 : Memref sig .tc .vmem S64x64 .f32) (h5 : a5.IsWhole) (a6 : Memref sig .tc .vmem S1x1 .f32) (h6 : a6.IsWhole) (a7 : Memref sig .tc .vmem S200x2 .f32) (h7 : a7.IsWhole) (a8 : Memref sig .tc .vmem S200x10000 .f32) (h8 : a8.IsWhole)
    (x0 : Vec F S200x10000 .f32) (x1 : Vec F S10000x64 .bf16) (x2 : Vec F S200x64 .bf16) (x3 : Vec F S10000x64 .bf16) (x4 : Vec F S64x64 .f32) (x5 : Vec F S1x1 .f32) :
    out3_A_6 c i a1 h1 a2 h2 a3 h3 a4 h4 a5 h5 a6 h6 a7 h7 a8 h8 x0 x1 x2 x3 x4 x5
      = k3_pay1 (k3_pay3 x0 x1) (k3_pay4 x4) (k3_pay5 x2)
          (k3_pay6 x0 x1 x4 (View.ld x1 (Rect.unit (s := S10000x64) (k3_off1 i) S200x64.size (k3_off1_inb i))))
          (k3_pay7 x5) x5 := by
  unfold out3_A_6
  rw [View.read_writes_eq_canon _ _ _ (cover3_A_6 c i a1 h1 a2 h2 a3 h3 a4 h4 a5 h5 a6 h6 a7 h7 a8 h8 x0 x1 x2 x3 x4 x5)]
  unfold kernelRun3_A
  dsimp only
  sl_unfold_words
  rw [View.canon_unit_zero ret_hz]
  simp only [View.readAt_eq_ld, h1.read_unread, h2.read_unread, h3.read_unread, h5.read_unread, h6.read_unread,
    View.ld_unit_zero (S := S200x10000) ret_hz, View.ld_unit_zero (S := S10000x64) ret_hz, View.ld_unit_zero (S := S200x64) ret_hz,
    View.ld_unit_zero (S := S64x64) ret_hz, View.ld_unit_zero (S := S1x1) ret_hz]

end Cert.Bridge.R3
end
-- ==== Proof.R3RetPay.lean ====
/-
  The fourth region's score block: what the body stores, read at an index of the block, is the score of the block's row.
-/
import proofs.«140504_g18717467476370_cont_8to1_202_16_alg».proof.Proof.Gen.KernelIdeal.Skeleton
import proofs.«140504_g18717467476370_cont_8to1_202_16_alg».proof.Proof.R3RetSpec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Cert.KernelIdeal Cert.KernelIdeal.Gen
open scoped BigOperators

namespace Cert.Bridge.R3

/-! ## The block's payload read at an index

The stored 200 × 2 block is the concatenation of two score columns.  Row `r` of the block depends on row `r` of the
neighbourhood block, on the whole first embedding array, on row `r` of the block's own rows of the first (column 0) or
third (column 1) embedding, on the bilinear weights and on the bias.  The kernel's matrix products into a zero
accumulator and its lane sums are the sums of the row score; `0 - x` is `-x`. -/

/-- The product of the neighbourhood block with the embedding array: its left operand is read at the output's row. -/
theorem ret_lhs0_big (i : S200x64.Idx) (q : dot_S200x10000_S10000x64_S200x64_1_0_0_1_n_n.contr.Idx) : (dot_S200x10000_S10000x64_S200x64_1_0_0_1_n_n.lhsIdx i q 0).val = (i 0).val := by
  unfold DotDims.lhsIdx
  rw [dif_neg (show ¬(0 : Fin S200x10000.rank) ∈ dot_S200x10000_S10000x64_S200x64_1_0_0_1_n_n.lhsBatch by decide), dif_pos (show (0 : Fin S200x10000.rank) ∈ dot_S200x10000_S10000x64_S200x64_1_0_0_1_n_n.lhsNonContracting by decide)]
  rfl
theorem ret_lhs1_big (i : S200x64.Idx) (q : dot_S200x10000_S10000x64_S200x64_1_0_0_1_n_n.contr.Idx) : (dot_S200x10000_S10000x64_S200x64_1_0_0_1_n_n.lhsIdx i q 1).val = (q ⟨0, by decide⟩).val :=
  dot_S200x10000_S10000x64_S200x64_1_0_0_1_n_n.lhsIdx_val_of_single rfl i q
theorem ret_rhs0_big (i : S200x64.Idx) (q : dot_S200x10000_S10000x64_S200x64_1_0_0_1_n_n.contr.Idx) : (dot_S200x10000_S10000x64_S200x64_1_0_0_1_n_n.rhsIdx i q 0).val = (q ⟨0, by decide⟩).val :=
  dot_S200x10000_S10000x64_S200x64_1_0_0_1_n_n.rhsIdx_val_of_single rfl i q
theorem ret_rhs1_big (i : S200x64.Idx) (q : dot_S200x10000_S10000x64_S200x64_1_0_0_1_n_n.contr.Idx) : (dot_S200x10000_S10000x64_S200x64_1_0_0_1_n_n.rhsIdx i q 1).val = (i 1).val := by
  unfold DotDims.rhsIdx
  rw [dif_neg (show ¬(1 : Fin S10000x64.rank) ∈ dot_S200x10000_S10000x64_S200x64_1_0_0_1_n_n.rhsBatch by decide), dif_pos (show (1 : Fin S10000x64.rank) ∈ dot_S200x10000_S10000x64_S200x64_1_0_0_1_n_n.rhsNonContracting by decide)]
  rfl
/-- The product of the neighbourhood block with the embedding array into the zero accumulator, read at `(r, k)`: the sum over the contracted axis of the products. -/
theorem ret_mm_big {φ₁ φ₂ : FTy} (lhs : FVec Ideal S200x10000 φ₁) (rhs : FVec Ideal S10000x64 φ₂) (r : Fin 200) (k : Fin 64) :
    matmul (F := Ideal) dot_S200x10000_S10000x64_S200x64_1_0_0_1_n_n none lhs rhs (constant (F := Ideal) S200x64 .f32 0x00000000#32) (ix2 r k)
      = ∑ l : Fin 10000, lhs (ix2 r l) * rhs (ix2 l k) := by
  simp only [matmul]
  rw [Ideal.matmul_constant_zero_apply, ← Equiv.sum_comp (contrEquiv1 dot_S200x10000_S10000x64_S200x64_1_0_0_1_n_n 10000 rfl rfl).symm]
  refine Finset.sum_congr rfl fun l _ => ?_
  have hk := contrEquiv1_symm_val dot_S200x10000_S10000x64_S200x64_1_0_0_1_n_n 10000 rfl rfl l
  have el : dot_S200x10000_S10000x64_S200x64_1_0_0_1_n_n.lhsIdx (ix2 r k) ((contrEquiv1 dot_S200x10000_S10000x64_S200x64_1_0_0_1_n_n 10000 rfl rfl).symm l) = ix2 r l := funext fun a => Fin.ext (by
    match a with
    | ⟨0, _⟩ => exact ret_lhs0_big _ _
    | ⟨1, _⟩ => exact (ret_lhs1_big _ _).trans hk)
  have er : dot_S200x10000_S10000x64_S200x64_1_0_0_1_n_n.rhsIdx (ix2 r k) ((contrEquiv1 dot_S200x10000_S10000x64_S200x64_1_0_0_1_n_n 10000 rfl rfl).symm l) = ix2 l k := funext fun a => Fin.ext (by
    match a with
    | ⟨0, _⟩ => exact (ret_rhs0_big _ _).trans hk
    | ⟨1, _⟩ => exact ret_rhs1_big _ _)
  rw [el, er]

/-- The product of a block of embedding rows with the bilinear weights: its left operand is read at the output's row. -/
theorem ret_lhs0_bil (i : S200x64.Idx) (q : dot_S200x64_S64x64_S200x64_1_0_0_1_n_n.contr.Idx) : (dot_S200x64_S64x64_S200x64_1_0_0_1_n_n.lhsIdx i q 0).val = (i 0).val := by
  unfold DotDims.lhsIdx
  rw [dif_neg (show ¬(0 : Fin S200x64.rank) ∈ dot_S200x64_S64x64_S200x64_1_0_0_1_n_n.lhsBatch by decide), dif_pos (show (0 : Fin S200x64.rank) ∈ dot_S200x64_S64x64_S200x64_1_0_0_1_n_n.lhsNonContracting by decide)]
  rfl
theorem ret_lhs1_bil (i : S200x64.Idx) (q : dot_S200x64_S64x64_S200x64_1_0_0_1_n_n.contr.Idx) : (dot_S200x64_S64x64_S200x64_1_0_0_1_n_n.lhsIdx i q 1).val = (q ⟨0, by decide⟩).val :=
  dot_S200x64_S64x64_S200x64_1_0_0_1_n_n.lhsIdx_val_of_single rfl i q
theorem ret_rhs0_bil (i : S200x64.Idx) (q : dot_S200x64_S64x64_S200x64_1_0_0_1_n_n.contr.Idx) : (dot_S200x64_S64x64_S200x64_1_0_0_1_n_n.rhsIdx i q 0).val = (q ⟨0, by decide⟩).val :=
  dot_S200x64_S64x64_S200x64_1_0_0_1_n_n.rhsIdx_val_of_single rfl i q
theorem ret_rhs1_bil (i : S200x64.Idx) (q : dot_S200x64_S64x64_S200x64_1_0_0_1_n_n.contr.Idx) : (dot_S200x64_S64x64_S200x64_1_0_0_1_n_n.rhsIdx i q 1).val = (i 1).val := by
  unfold DotDims.rhsIdx
  rw [dif_neg (show ¬(1 : Fin S64x64.rank) ∈ dot_S200x64_S64x64_S200x64_1_0_0_1_n_n.rhsBatch by decide), dif_pos (show (1 : Fin S64x64.rank) ∈ dot_S200x64_S64x64_S200x64_1_0_0_1_n_n.rhsNonContracting by decide)]
  rfl
/-- The product of a block of embedding rows with the bilinear weights into the zero accumulator, read at `(r, k)`: the sum over the contracted axis of the products. -/
theorem ret_mm_bil {φ₁ φ₂ : FTy} (lhs : FVec Ideal S200x64 φ₁) (rhs : FVec Ideal S64x64 φ₂) (r : Fin 200) (k : Fin 64) :
    matmul (F := Ideal) dot_S200x64_S64x64_S200x64_1_0_0_1_n_n none lhs rhs (constant (F := Ideal) S200x64 .f32 0x00000000#32) (ix2 r k)
      = ∑ l : Fin 64, lhs (ix2 r l) * rhs (ix2 l k) := by
  simp only [matmul]
  rw [Ideal.matmul_constant_zero_apply, ← Equiv.sum_comp (contrEquiv1 dot_S200x64_S64x64_S200x64_1_0_0_1_n_n 64 rfl rfl).symm]
  refine Finset.sum_congr rfl fun l _ => ?_
  have hk := contrEquiv1_symm_val dot_S200x64_S64x64_S200x64_1_0_0_1_n_n 64 rfl rfl l
  have el : dot_S200x64_S64x64_S200x64_1_0_0_1_n_n.lhsIdx (ix2 r k) ((contrEquiv1 dot_S200x64_S64x64_S200x64_1_0_0_1_n_n 64 rfl rfl).symm l) = ix2 r l := funext fun a => Fin.ext (by
    match a with
    | ⟨0, _⟩ => exact ret_lhs0_bil _ _
    | ⟨1, _⟩ => exact (ret_lhs1_bil _ _).trans hk)
  have er : dot_S200x64_S64x64_S200x64_1_0_0_1_n_n.rhsIdx (ix2 r k) ((contrEquiv1 dot_S200x64_S64x64_S200x64_1_0_0_1_n_n 64 rfl rfl).symm l) = ix2 l k := funext fun a => Fin.ext (by
    match a with
    | ⟨0, _⟩ => exact (ret_rhs0_bil _ _).trans hk
    | ⟨1, _⟩ => exact ret_rhs1_bil _ _)
  rw [el, er]

/-- A lane sum of a 200 × 10000 block viewed as a column, at row `r`: the sum over the row. -/
theorem ret_rowsum_big (x : FVec Ideal S200x10000 .f32) (r : Fin 200) (u : Fin 1) :
    shapeCast S200x1 (multiReduction (F := Ideal) .add [1] S200 x 0x00000000#32 reduces_S200x10000_S200 (.inl rfl) rfl) shapeCasts_S200_S200x1 (ix2 r u)
      = ∑ j : Fin 10000, x (ix2 r j) := by
  refine (ret_cast_col _ _ r u).trans ?_
  refine (Ideal.multiReduction_add_single x _ reduces_S200x10000_S200 _ _ (ix1 r)).trans ?_
  exact Finset.sum_congr rfl fun j _ => congrArg x (funext fun a => Fin.ext (by match a with | ⟨0, _⟩ => rfl | ⟨1, _⟩ => rfl))

/-- A lane sum of a 200 × 64 block viewed as a column, at row `r`: the sum over the row. -/
theorem ret_rowsum_small (x : FVec Ideal S200x64 .f32) (r : Fin 200) (u : Fin 1) :
    shapeCast S200x1 (multiReduction (F := Ideal) .add [1] S200 x 0x00000000#32 reduces_S200x64_S200 (.inl rfl) rfl) shapeCasts_S200_S200x1 (ix2 r u)
      = ∑ k : Fin 64, x (ix2 r k) := by
  refine (ret_cast_col _ _ r u).trans ?_
  refine (Ideal.multiReduction_add_single x _ reduces_S200x64_S200 _ _ (ix1 r)).trans ?_
  exact Finset.sum_congr rfl fun k _ => congrArg x (funext fun a => Fin.ext (by match a with | ⟨0, _⟩ => rfl | ⟨1, _⟩ => rfl))

end Cert.Bridge.R3

namespace Cert.Bridge.R3

/-! ## The body's stages, named, and read at an index -/

/-- The neighbourhood means of the block's rows as the body computes them: the product with the embedding array divided by
    the row sums of the neighbourhood block. -/
def ret_kmean (gnb : FVec Ideal S200x10000 .f32) (e1w : FVec Ideal S10000x64 .bf16) : FVec Ideal S200x64 .f32 :=
  divf (matmul (F := Ideal) dot_S200x10000_S10000x64_S200x64_1_0_0_1_n_n none gnb (shapeCast S10000x64 e1w shapeCasts_S10000x64_S10000x64) (constant (F := Ideal) S200x64 .f32 0x00000000#32))
    (broadcastTo S200x64 (shapeCast S200x1 (multiReduction (F := Ideal) .add [1] S200 gnb 0x00000000#32 reduces_S200x10000_S200 (.inl rfl) rfl) shapeCasts_S200_S200x1) broadcasts_S200x1_S200x64)

/-- Entry `(r, k)` of them is the mean of column `k` under row `r`'s weights. -/
theorem ret_kmean_apply (gnb : FVec Ideal S200x10000 .f32) (e1w : FVec Ideal S10000x64 .bf16) (r : Fin 200) (k : Fin 64) :
    ret_kmean gnb e1w (ix2 r k) = ret_mean (fun j => gnb (ix2 r j)) e1w k := by
  unfold ret_kmean ret_mean
  rw [shapeCast_self, divf_apply, ret_mm_big, ret_bcast_col, ret_rowsum_big]

/-- The rows' norms, at least ε, as the body computes them. -/
def ret_knorm (gnb : FVec Ideal S200x10000 .f32) (e1w : FVec Ideal S10000x64 .bf16) : FVec Ideal S200x1 .f32 :=
  maximumf (sqrt (shapeCast S200x1 (multiReduction (F := Ideal) .add [1] S200 (mulf (ret_kmean gnb e1w) (ret_kmean gnb e1w)) 0x00000000#32 reduces_S200x64_S200 (.inl rfl) rfl) shapeCasts_S200_S200x1))
    (broadcast S200x1 (Scalar.ofBits (F := Ideal) .f32 0x2B8CBCCC#32))

/-- Row `r`'s norm. -/
theorem ret_knorm_apply (gnb : FVec Ideal S200x10000 .f32) (e1w : FVec Ideal S10000x64 .bf16) (r : Fin 200) (u : Fin 1) :
    ret_knorm gnb e1w (ix2 r u)
      = max (Ideal.sqrt (∑ k' : Fin 64, ret_mean (fun j => gnb (ix2 r j)) e1w k' * ret_mean (fun j => gnb (ix2 r j)) e1w k'))
          (Ideal.ofBits .f32 0x2B8CBCCC#32) := by
  unfold ret_knorm
  show max (Ideal.sqrt (shapeCast S200x1 (multiReduction (F := Ideal) .add [1] S200 (mulf (ret_kmean gnb e1w) (ret_kmean gnb e1w)) 0x00000000#32 reduces_S200x64_S200 (.inl rfl) rfl) shapeCasts_S200_S200x1 (ix2 r u)))
    (Ideal.ofBits .f32 0x2B8CBCCC#32) = _
  rw [ret_rowsum_small]
  refine congrArg (fun s => max (Ideal.sqrt s) _) (Finset.sum_congr rfl fun k' _ => ?_)
  rw [mulf_apply, ret_kmean_apply]

/-- The gate payload is the sigmoid of the means over the norms. -/
theorem ret_pay3_eq (gnb : FVec Ideal S200x10000 .f32) (e1w : FVec Ideal S10000x64 .bf16) :
    k3_pay3 (F := Ideal) gnb e1w
      = divf (broadcast S200x64 (Scalar.ofBits (F := Ideal) .f32 0x3F800000#32))
          (addf (broadcast S200x64 (Scalar.ofBits (F := Ideal) .f32 0x3F800000#32))
            (exp (subf (broadcast S200x64 (Scalar.ofBits (F := Ideal) .f32 0x00000000#32))
              (divf (ret_kmean gnb e1w) (broadcastTo S200x64 (ret_knorm gnb e1w) broadcasts_S200x1_S200x64))))) := rfl

/-- Entry `(r, k)` of the gate payload. -/
theorem ret_pay3_apply (gnb : FVec Ideal S200x10000 .f32) (e1w : FVec Ideal S10000x64 .bf16) (r : Fin 200) (k : Fin 64) :
    k3_pay3 (F := Ideal) gnb e1w (ix2 r k) = ret_gate (fun j => gnb (ix2 r j)) e1w k := by
  rw [ret_pay3_eq]
  show Ideal.div (Ideal.ofBits .f32 0x3F800000#32) (Ideal.ofBits .f32 0x3F800000#32
    + Ideal.exp (Ideal.ofBits .f32 0x00000000#32 - Ideal.div (ret_kmean gnb e1w (ix2 r k)) (broadcastTo S200x64 (ret_knorm gnb e1w) broadcasts_S200x1_S200x64 (ix2 r k)))) = _
  rw [ret_bcast_col, ret_kmean_apply, ret_knorm_apply, Ideal.ofBits_zero_f32, zero_sub]
  rfl

/-- A score column before the bias: rows `u` times the weights `w`, times the gate, summed along each row. -/
def ret_kscore (u : FVec Ideal S200x64 .bf16) (w : FVec Ideal S64x64 .bf16) (gate : FVec Ideal S200x64 .f32) : FVec Ideal S200x1 .f32 :=
  shapeCast S200x1 (multiReduction (F := Ideal) .add [1] S200 (mulf (matmul (F := Ideal) dot_S200x64_S64x64_S200x64_1_0_0_1_n_n none u w (constant (F := Ideal) S200x64 .f32 0x00000000#32)) gate) 0x00000000#32 reduces_S200x64_S200 (.inl rfl) rfl) shapeCasts_S200_S200x1

theorem ret_kscore_apply (u : FVec Ideal S200x64 .bf16) (w : FVec Ideal S64x64 .bf16) (gate : FVec Ideal S200x64 .f32) (r : Fin 200) (v : Fin 1) :
    ret_kscore u w gate (ix2 r v) = ∑ k : Fin 64, (∑ l : Fin 64, u (ix2 r l) * w (ix2 l k)) * gate (ix2 r k) := by
  unfold ret_kscore
  rw [ret_rowsum_small]
  exact Finset.sum_congr rfl fun k _ => by rw [mulf_apply, ret_mm_bil]

theorem ret_pay6_eq (gnb : FVec Ideal S200x10000 .f32) (e1w : FVec Ideal S10000x64 .bf16) (bw : FVec Ideal S64x64 .f32) (e1r : FVec Ideal S200x64 .bf16) :
    k3_pay6 (F := Ideal) gnb e1w bw e1r = ret_kscore (shapeCast S200x64 e1r shapeCasts_S200x64_S200x64) (k3_pay4 bw) (k3_pay3 gnb e1w) := rfl

theorem ret_pay1_eq (v22 : FVec Ideal S200x64 .f32) (v24 : FVec Ideal S64x64 .bf16) (v30 : FVec Ideal S200x64 .bf16) (v34 v37 : FVec Ideal S200x1 .f32) (v43 : FVec Ideal S1x1 .f32) :
    k3_pay1 (F := Ideal) v22 v24 v30 v34 v37 v43
      = concatenate S200x2 1 [⟨S200x1, addf v34 v37⟩, ⟨S200x1, addf (ret_kscore v30 v24 v22) (broadcastTo S200x1 (shapeCast S1x1 v43 shapeCasts_S1x1_S1x1) broadcasts_S1x1_S200x1)⟩] concatenates_S200x1_S200x1_S200x2_d1 := rfl

theorem ret_pay7_apply (bb : FVec Ideal S1x1 .f32) (r : Fin 200) (u : Fin 1) :
    k3_pay7 (F := Ideal) bb (ix2 r u) = bb (ix2 (0 : Fin 1) (0 : Fin 1)) := by
  unfold k3_pay7
  rw [shapeCast_self, ret_bcast_one]

/-- COLUMN 0 of the stored block at row `r`: the score of the block's own rows of the first embedding. -/
theorem ret_pay_col0 (gnb : FVec Ideal S200x10000 .f32) (e1w : FVec Ideal S10000x64 .bf16) (e3b : FVec Ideal S200x64 .bf16)
    (bw : FVec Ideal S64x64 .f32) (bb : FVec Ideal S1x1 .f32) (e1r : FVec Ideal S200x64 .bf16) (r : Fin 200) :
    k3_pay1 (F := Ideal) (k3_pay3 gnb e1w) (k3_pay4 bw) (k3_pay5 e3b) (k3_pay6 gnb e1w bw e1r) (k3_pay7 bb) bb (ix2 r (0 : Fin 2))
      = ret_score (fun j => gnb (ix2 r j)) e1w (fun l => e1r (ix2 r l)) bw (bb (ix2 (0 : Fin 1) (0 : Fin 1))) := by
  rw [ret_pay1_eq]
  refine (concatenate_pair_apply_left (t := S200x2) (s₁ := S200x1) (s₂ := S200x1) (1 : Fin 2) _ _ concatenates_S200x1_S200x1_S200x2_d1 (ix2 r (0 : Fin 2)) rfl (ix2 r (0 : Fin 1))
    (fun b => by match b with | ⟨0, _⟩ => rfl | ⟨1, _⟩ => rfl)).trans ?_
  rw [addf_apply, ret_pay7_apply, ret_pay6_eq, ret_kscore_apply, shapeCast_self]
  unfold ret_score
  refine congrArg (· + _) (Finset.sum_congr rfl fun k _ => ?_)
  rw [ret_pay3_apply]
  rfl

/-- COLUMN 1 at row `r`: the score of the block of the third embedding. -/
theorem ret_pay_col1 (gnb : FVec Ideal S200x10000 .f32) (e1w : FVec Ideal S10000x64 .bf16) (e3b : FVec Ideal S200x64 .bf16)
    (bw : FVec Ideal S64x64 .f32) (bb : FVec Ideal S1x1 .f32) (e1r : FVec Ideal S200x64 .bf16) (r : Fin 200) :
    k3_pay1 (F := Ideal) (k3_pay3 gnb e1w) (k3_pay4 bw) (k3_pay5 e3b) (k3_pay6 gnb e1w bw e1r) (k3_pay7 bb) bb (ix2 r (1 : Fin 2))
      = ret_score (fun j => gnb (ix2 r j)) e1w (fun l => e3b (ix2 r l)) bw (bb (ix2 (0 : Fin 1) (0 : Fin 1))) := by
  rw [ret_pay1_eq]
  refine (concatenate_pair_apply_right (t := S200x2) (s₁ := S200x1) (s₂ := S200x1) (1 : Fin 2) _ _ concatenates_S200x1_S200x1_S200x2_d1 (ix2 r (1 : Fin 2)) rfl rfl (ix2 r (0 : Fin 1))
    (fun b hb => by match b with | ⟨0, _⟩ => rfl | ⟨1, _⟩ => exact absurd rfl hb) rfl).trans ?_
  rw [addf_apply, ret_kscore_apply, shapeCast_self, ret_bcast_one]
  unfold ret_score k3_pay5
  rw [shapeCast_self]
  refine congrArg (· + _) (Finset.sum_congr rfl fun k _ => ?_)
  rw [ret_pay3_apply]
  rfl

end Cert.Bridge.R3

end
-- ==== Proof.R3RetRef.lean ====
/-
  The reference's 10000 × 2 score array read at an index: each column is the score of the row.
-/
import proofs.«140504_g18717467476370_cont_8to1_202_16_alg».proof.Proof.Gen.ReferenceIdeal.Read
import proofs.«140504_g18717467476370_cont_8to1_202_16_alg».proof.Proof.R3RetSpec
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.ValueIdx
open Cert.ReferenceIdeal Cert.ReferenceIdeal.Gen Cert.ReferenceIdeal.Read
open scoped BigOperators

namespace Cert.Bridge.R3

/-! ## The reference's score array read at an index

The reference computes the same row score with host operations: its `dot_general`s and row reductions (from a zero
initial value) are the sums of the row score, its `negate` the negation, its broadcasts read their operand at the row. -/

/-- The reference's neighbourhood mean at `(R, k)`. -/
theorem ret_ref_mean (x0 : (⟨S10000x128, .f32⟩ : BufTy).Contents (Elt Ideal)) (x3 x4 : (⟨S10000x10000, .f32⟩ : BufTy).Contents (Elt Ideal)) (x5 : (⟨S128x256, .f32⟩ : BufTy).Contents (Elt Ideal)) (x6 : (⟨S256x64, .f32⟩ : BufTy).Contents (Elt Ideal)) (R : Fin 10000) (k : Fin 64) :
    val_main_v89 (F := Ideal) x0 x3 x4 x5 x6 (ix2 R k)
      = ret_mean (fun j => x4 (ix2 R j)) (val_main_v5 (F := Ideal) x0 x3 x5 x6) k := by
  have el : ∀ j : Fin 10000, lidx_main_v85 (ix2 R k) j = ix2 R j := fun j => funext fun a => by match a with | ⟨0, _⟩ => rfl | ⟨1, _⟩ => rfl
  have er : ∀ j : Fin 10000, ridx_main_v85 (ix2 R k) j = ix2 j k := fun j => funext fun a => by match a with | ⟨0, _⟩ => rfl | ⟨1, _⟩ => rfl
  have es : ∀ j : Fin 10000, idx_main_v86 (idx_main_v87 (idx_main_v88 (ix2 R k))) j = ix2 R j := fun j => funext fun a => by match a with | ⟨0, _⟩ => rfl | ⟨1, _⟩ => rfl
  rw [val_main_v89_apply, val_main_v85_apply, val_main_v88_apply, val_main_v87_apply, val_main_v86_apply, val_main_cst_14_apply]
  unfold ret_mean
  show Ideal.div _ (Ideal.ofBits .f32 0x00000000#32 + _) = _
  rw [Ideal.ofBits_zero_f32, zero_add]
  refine congrArg₂ Ideal.div (Finset.sum_congr rfl fun j _ => ?_) (Finset.sum_congr rfl fun j _ => ?_)
  · rw [el, er]
  · rw [es]

/-- The reference's sum of squared means of row `R`. -/
theorem ret_ref_sq (x0 : (⟨S10000x128, .f32⟩ : BufTy).Contents (Elt Ideal)) (x3 x4 : (⟨S10000x10000, .f32⟩ : BufTy).Contents (Elt Ideal)) (x5 : (⟨S128x256, .f32⟩ : BufTy).Contents (Elt Ideal)) (x6 : (⟨S256x64, .f32⟩ : BufTy).Contents (Elt Ideal)) (R : Fin 10000) :
    val_main_v91 (F := Ideal) x0 x3 x4 x5 x6 (ix1 R)
      = ∑ k' : Fin 64, ret_mean (fun j => x4 (ix2 R j)) (val_main_v5 (F := Ideal) x0 x3 x5 x6) k'
          * ret_mean (fun j => x4 (ix2 R j)) (val_main_v5 (F := Ideal) x0 x3 x5 x6) k' := by
  have es : ∀ k' : Fin 64, idx_main_v91 (ix1 R) k' = ix2 R k' := fun k' => funext fun a => by match a with | ⟨0, _⟩ => rfl | ⟨1, _⟩ => rfl
  rw [val_main_v91_apply, val_main_cst_15_apply]
  show Ideal.ofBits .f32 0x00000000#32 + _ = _
  rw [Ideal.ofBits_zero_f32, zero_add]
  refine Finset.sum_congr rfl fun k' _ => ?_
  rw [es, val_main_v90_apply, ret_ref_mean]
  rfl

/-- The reference's gate at `(R, k)`. -/
theorem ret_ref_gate (x0 : (⟨S10000x128, .f32⟩ : BufTy).Contents (Elt Ideal)) (x3 x4 : (⟨S10000x10000, .f32⟩ : BufTy).Contents (Elt Ideal)) (x5 : (⟨S128x256, .f32⟩ : BufTy).Contents (Elt Ideal)) (x6 : (⟨S256x64, .f32⟩ : BufTy).Contents (Elt Ideal)) (R : Fin 10000) (k : Fin 64) :
    val_main_v103 (F := Ideal) x0 x3 x4 x5 x6 (ix2 R k)
      = ret_gate (fun j => x4 (ix2 R j)) (val_main_v5 (F := Ideal) x0 x3 x5 x6) k := by
  have en : idx_main_v92 (idx_main_v96 (ix2 R k)) = ix1 R := funext fun a => by match a with | ⟨0, _⟩ => rfl
  rw [val_main_v103_apply, val_main_v102_apply, val_main_cst_18_apply, val_main_v101_apply, val_main_v100_apply,
    val_main_cst_17_apply, val_main_v99_apply, val_main_v98_apply, val_main_v97_apply, ret_ref_mean, val_main_v96_apply,
    val_main_v95_apply, val_main_v94_apply, val_main_cst_16_apply, val_main_v93_apply, val_main_v92_apply, en, ret_ref_sq]
  rfl

/-- The reference's product of the first embedding with the bilinear weights at `(R, k)`. -/
theorem ret_ref_bil1 (x0 : (⟨S10000x128, .f32⟩ : BufTy).Contents (Elt Ideal)) (x3 : (⟨S10000x10000, .f32⟩ : BufTy).Contents (Elt Ideal)) (x5 : (⟨S128x256, .f32⟩ : BufTy).Contents (Elt Ideal)) (x6 : (⟨S256x64, .f32⟩ : BufTy).Contents (Elt Ideal)) (x17 : (⟨S64x64, .f32⟩ : BufTy).Contents (Elt Ideal)) (R : Fin 10000) (k : Fin 64) :
    val_main_v104 (F := Ideal) x0 x3 x5 x6 x17 (ix2 R k)
      = ∑ l : Fin 64, val_main_v5 (F := Ideal) x0 x3 x5 x6 (ix2 R l) * x17 (ix2 l k) := by
  have el : ∀ l : Fin 64, lidx_main_v104 (ix2 R k) l = ix2 R l := fun l => funext fun a => by match a with | ⟨0, _⟩ => rfl | ⟨1, _⟩ => rfl
  have er : ∀ l : Fin 64, ridx_main_v104 (ix2 R k) l = ix2 l k := fun l => funext fun a => by match a with | ⟨0, _⟩ => rfl | ⟨1, _⟩ => rfl
  rw [val_main_v104_apply]
  exact Finset.sum_congr rfl fun l _ => by rw [el, er]

/-- The same for the third embedding. -/
theorem ret_ref_bil3 (x2 : (⟨S10000x128, .f32⟩ : BufTy).Contents (Elt Ideal)) (x3 : (⟨S10000x10000, .f32⟩ : BufTy).Contents (Elt Ideal)) (x5 : (⟨S128x256, .f32⟩ : BufTy).Contents (Elt Ideal)) (x6 : (⟨S256x64, .f32⟩ : BufTy).Contents (Elt Ideal)) (x17 : (⟨S64x64, .f32⟩ : BufTy).Contents (Elt Ideal)) (R : Fin 10000) (k : Fin 64) :
    val_main_v111 (F := Ideal) x2 x3 x5 x6 x17 (ix2 R k)
      = ∑ l : Fin 64, val_main_v84 (F := Ideal) x2 x3 x5 x6 (ix2 R l) * x17 (ix2 l k) := by
  have el : ∀ l : Fin 64, lidx_main_v111 (ix2 R k) l = ix2 R l := fun l => funext fun a => by match a with | ⟨0, _⟩ => rfl | ⟨1, _⟩ => rfl
  have er : ∀ l : Fin 64, ridx_main_v111 (ix2 R k) l = ix2 l k := fun l => funext fun a => by match a with | ⟨0, _⟩ => rfl | ⟨1, _⟩ => rfl
  rw [val_main_v111_apply]
  exact Finset.sum_congr rfl fun l _ => by rw [el, er]

/-- COLUMN 0 of the reference's score array at row `R`: the score of row `R` of the first embedding. -/
theorem ret_ref_col0 (x0 x2 : (⟨S10000x128, .f32⟩ : BufTy).Contents (Elt Ideal)) (x3 x4 : (⟨S10000x10000, .f32⟩ : BufTy).Contents (Elt Ideal)) (x5 : (⟨S128x256, .f32⟩ : BufTy).Contents (Elt Ideal)) (x6 : (⟨S256x64, .f32⟩ : BufTy).Contents (Elt Ideal)) (x17 : (⟨S64x64, .f32⟩ : BufTy).Contents (Elt Ideal)) (x18 : (⟨S1, .f32⟩ : BufTy).Contents (Elt Ideal)) (R : Fin 10000) :
    val_main_v118 (F := Ideal) x0 x2 x3 x4 x5 x6 x17 x18 (ix2 R (0 : Fin 2))
      = ret_score (fun j => x4 (ix2 R j)) (val_main_v5 (F := Ideal) x0 x3 x5 x6)
          (fun l => val_main_v5 (F := Ideal) x0 x3 x5 x6 (ix2 R l)) x17 (x18 (ix1 ⟨0, by decide⟩)) := by
  have es : ∀ k : Fin 64, idx_main_v106 (idx_main_v107 (ix2 R (0 : Fin 1))) k = ix2 R k := fun k => funext fun a => by match a with | ⟨0, _⟩ => rfl | ⟨1, _⟩ => rfl
  have eb : idx_main_v108 (idx_main_v109 (ix2 R (0 : Fin 1))) = ix1 ⟨0, by decide⟩ := funext fun a => by match a with | ⟨0, _⟩ => rfl
  unfold val_main_v118
  refine (concatenate_pair_apply_left (t := S10000x2) (s₁ := S10000x1) (s₂ := S10000x1) (1 : Fin 2) _ _ concatenates_S10000x1_S10000x1_S10000x2_d1 (ix2 R (0 : Fin 2)) rfl (ix2 R (0 : Fin 1))
    (fun b => by match b with | ⟨0, _⟩ => rfl | ⟨1, _⟩ => rfl)).trans ?_
  rw [val_main_v110_apply, val_main_v107_apply, val_main_v106_apply, val_main_cst_19_apply, val_main_v109_apply, val_main_v108_apply, eb]
  unfold ret_score
  show (Ideal.ofBits .f32 0x00000000#32 + _) + _ = _
  rw [Ideal.ofBits_zero_f32, zero_add]
  refine congrArg (· + _) (Finset.sum_congr rfl fun k _ => ?_)
  rw [es, val_main_v105_apply, ret_ref_bil1, ret_ref_gate]
  rfl

/-- COLUMN 1 at row `R`: the score of row `R` of the third embedding. -/
theorem ret_ref_col1 (x0 x2 : (⟨S10000x128, .f32⟩ : BufTy).Contents (Elt Ideal)) (x3 x4 : (⟨S10000x10000, .f32⟩ : BufTy).Contents (Elt Ideal)) (x5 : (⟨S128x256, .f32⟩ : BufTy).Contents (Elt Ideal)) (x6 : (⟨S256x64, .f32⟩ : BufTy).Contents (Elt Ideal)) (x17 : (⟨S64x64, .f32⟩ : BufTy).Contents (Elt Ideal)) (x18 : (⟨S1, .f32⟩ : BufTy).Contents (Elt Ideal)) (R : Fin 10000) :
    val_main_v118 (F := Ideal) x0 x2 x3 x4 x5 x6 x17 x18 (ix2 R (1 : Fin 2))
      = ret_score (fun j => x4 (ix2 R j)) (val_main_v5 (F := Ideal) x0 x3 x5 x6)
          (fun l => val_main_v84 (F := Ideal) x2 x3 x5 x6 (ix2 R l)) x17 (x18 (ix1 ⟨0, by decide⟩)) := by
  have es : ∀ k : Fin 64, idx_main_v113 (idx_main_v114 (ix2 R (0 : Fin 1))) k = ix2 R k := fun k => funext fun a => by match a with | ⟨0, _⟩ => rfl | ⟨1, _⟩ => rfl
  have eb : idx_main_v115 (idx_main_v116 (ix2 R (0 : Fin 1))) = ix1 ⟨0, by decide⟩ := funext fun a => by match a with | ⟨0, _⟩ => rfl
  unfold val_main_v118
  refine (concatenate_pair_apply_right (t := S10000x2) (s₁ := S10000x1) (s₂ := S10000x1) (1 : Fin 2) _ _ concatenates_S10000x1_S10000x1_S10000x2_d1 (ix2 R (1 : Fin 2)) rfl rfl (ix2 R (0 : Fin 1))
    (fun b hb => by match b with | ⟨0, _⟩ => rfl | ⟨1, _⟩ => exact absurd rfl hb) rfl).trans ?_
  rw [val_main_v117_apply, val_main_v114_apply, val_main_v113_apply, val_main_cst_20_apply, val_main_v116_apply, val_main_v115_apply, eb]
  unfold ret_score
  show (Ideal.ofBits .f32 0x00000000#32 + _) + _ = _
  rw [Ideal.ofBits_zero_f32, zero_add]
  refine congrArg (· + _) (Finset.sum_congr rfl fun k _ => ?_)
  rw [es, val_main_v112_apply, ret_ref_bil3, ret_ref_gate]
  rfl

end Cert.Bridge.R3

end
-- ==== Proof.R3RetFinal.lean ====
/-
  The 10000 × 2 score array after the fourth region is the reference's score array of the region's input arrays:
  from the blocks the 50 grid points store to the whole array.
-/
import proofs.«140504_g18717467476370_cont_8to1_202_16_alg».proof.Proof.Gen.KernelIdeal.Frame
import proofs.«140504_g18717467476370_cont_8to1_202_16_alg».proof.Proof.Gen.ReferenceIdeal.Read
import proofs.«140504_g18717467476370_cont_8to1_202_16_alg».proof.Proof.R3RetSpec
import proofs.«140504_g18717467476370_cont_8to1_202_16_alg».proof.Proof.R3RetPiece
import proofs.«140504_g18717467476370_cont_8to1_202_16_alg».proof.Proof.R3RetPay
import proofs.«140504_g18717467476370_cont_8to1_202_16_alg».proof.Proof.R3RetRef
import Idealize.ShloMosaic.Lib.ValueIdx
import Idealize.ShloMosaic.Lib.Pipeline.Value
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)
open Cert.KernelIdeal Cert.KernelIdeal.Gen
open scoped BigOperators

namespace Cert.Bridge.R3

/-! ## From the blocks to the score array

The grid has 50 points; point `t` stores rows `200 t … 200 t + 199` of the 10000 × 2 score array.  Block row `r` of point `t`
is global row `200 t + r`: the neighbourhood block and the block of the third embedding are those rows of their arrays, the
rows of the first embedding are read out of the whole array at the same offset, and the other windows are whole arrays. -/

/-- The printed index maps, decided once over the grid: the row-blocked windows sit at block `t`, the whole-array windows
    at block 0, and the grid coordinate of point `t` is `t`. -/
theorem ret_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ ((grid3.coords t) 0).val = t.val :=
  (by decide +kernel : ∀ t : Fin grid3.N, _)

/-- Equal row data give equal scores. -/
theorem ret_score_congr {g g' : Fin 10000 → EReal} {e e' : (⟨2, ![10000, 64]⟩ : Shape).Idx → EReal} {u u' : Fin 64 → EReal}
    {w w' : (⟨2, ![64, 64]⟩ : Shape).Idx → EReal} {b b' : EReal} (hg : g = g') (he : e = e') (hu : u = u') (hw : w = w') (hb : b = b') :
    ret_score g e u w b = ret_score g' e' u' w' b' := by
  subst hg he hu hw hb; rfl

/-- Row `r` of the neighbourhood block at point `t` is row `200 t + r` of the neighbourhood matrix. -/
theorem ret_iblk0 (V : (c : Dev nD) → (b : Ref sig .tc) → Buf (Elt Ideal) ((c : Thread nD τ).loc b)) (c : Dev nD) (t : Fin cfg3.N) (r : Fin 200) (j : Fin 10000) (R : Fin 10000) (hR : R.val = 200 * t.val + r.val) :
    (iblk3 V c 0 t : Vec Ideal S200x10000 .f32) (ix2 r j) = (V c main_arg4 : S10000x10000.Idx → Elt Ideal .f32) (ix2 R j) := by
  obtain ⟨e0, e1, -⟩ := ret_idx_facts t
  unfold iblk3
  rw [View.read_apply]
  show V c main_arg4 _ = V c main_arg4 _
  refine congrArg (V c main_arg4) (funext fun a => Fin.ext ?_)
  match a with
  | ⟨0, _⟩ => show win3_0.index t 0 * 200 + 1 * r.val = R.val; rw [e0, hR]; omega
  | ⟨1, _⟩ => show win3_0.index t 1 * 10000 + 1 * j.val = j.val; rw [e1]; omega

/-- The first-embedding window holds the whole array at every point. -/
theorem ret_iblk1 (V : (c : Dev nD) → (b : Ref sig .tc) → Buf (Elt Ideal) ((c : Thread nD τ).loc b)) (c : Dev nD) (t : Fin cfg3.N) :
    (iblk3 V c 1 t : Vec Ideal S10000x64 .bf16) = (V c main_v9_3 : S10000x64.Idx → Elt Ideal .bf16) := by
  obtain ⟨-, -, e0, e1, -⟩ := ret_idx_facts t
  funext y
  unfold iblk3
  rw [View.read_apply]
  show V c main_v9_3 _ = V c main_v9_3 _
  refine congrArg (V c main_v9_3) (funext fun a => Fin.ext ?_)
  match a with
  | ⟨0, _⟩ => show win3_1.index t 0 * 10000 + 1 * (y 0).val = (y 0).val; rw [e0]; omega
  | ⟨1, _⟩ => show win3_1.index t 1 * 64 + 1 * (y 1).val = (y 1).val; rw [e1]; omega

/-- Row `r` of the third-embedding block at point `t` is row `200 t + r` of the array. -/
theorem ret_iblk2 (V : (c : Dev nD) → (b : Ref sig .tc) → Buf (Elt Ideal) ((c : Thread nD τ).loc b)) (c : Dev nD) (t : Fin cfg3.N) (r : Fin 200) (l : Fin 64) (R : Fin 10000) (hR : R.val = 200 * t.val + r.val) :
    (iblk3 V c 2 t : Vec Ideal S200x64 .bf16) (ix2 r l) = (V c main_v9_4 : S10000x64.Idx → Elt Ideal .bf16) (ix2 R l) := by
  obtain ⟨-, -, -, -, e0, e1, -⟩ := ret_idx_facts t
  unfold iblk3
  rw [View.read_apply]
  show V c main_v9_4 _ = V c main_v9_4 _
  refine congrArg (V c main_v9_4) (funext fun a => Fin.ext ?_)
  match a with
  | ⟨0, _⟩ => show win3_2.index t 0 * 200 + 1 * r.val = R.val; rw [e0, hR]; omega
  | ⟨1, _⟩ => show win3_2.index t 1 * 64 + 1 * l.val = l.val; rw [e1]; omega

/-- The bilinear-weights window holds the whole array at every point. -/
theorem ret_iblk4 (V : (c : Dev nD) → (b : Ref sig .tc) → Buf (Elt Ideal) ((c : Thread nD τ).loc b)) (c : Dev nD) (t : Fin cfg3.N) :
    (iblk3 V c 4 t : Vec Ideal S64x64 .f32) = (V c main_arg17 : S64x64.Idx → Elt Ideal .f32) := by
  obtain ⟨-, -, -, -, -, -, e0, e1, -⟩ := ret_idx_facts t
  funext y
  unfold iblk3
  rw [View.read_apply]
  show V c main_arg17 _ = V c main_arg17 _
  refine congrArg (V c main_arg17) (funext fun a => Fin.ext ?_)
  match a with
  | ⟨0, _⟩ => show win3_4.index t 0 * 64 + 1 * (y 0).val = (y 0).val; rw [e0]; omega
  | ⟨1, _⟩ => show win3_4.index t 1 * 64 + 1 * (y 1).val = (y 1).val; rw [e1]; omega

/-- The bias window holds the whole 1 × 1 array at every point. -/
theorem ret_iblk5 (V : (c : Dev nD) → (b : Ref sig .tc) → Buf (Elt Ideal) ((c : Thread nD τ).loc b)) (c : Dev nD) (t : Fin cfg3.N) :
    (iblk3 V c 5 t : Vec Ideal S1x1 .f32) = (V c main_v6 : S1x1.Idx → Elt Ideal .f32) := by
  obtain ⟨-, -, -, -, -, -, -, -, e0, e1, -⟩ := ret_idx_facts t
  funext y
  unfold iblk3
  rw [View.read_apply]
  show V c main_v6 _ = V c main_v6 _
  refine congrArg (V c main_v6) (funext fun a => Fin.ext ?_)
  match a with
  | ⟨0, _⟩ => show win3_5.index t 0 * 1 + 1 * (y 0).val = (y 0).val; rw [e0]; omega
  | ⟨1, _⟩ => show win3_5.index t 1 * 1 + 1 * (y 1).val = (y 1).val; rw [e1]; omega

/-- The body's own load of 200 rows of the whole first embedding, at the row offset 200 · (grid coordinate): row `r` of it
    is row `200 i + r` of the array. -/
theorem ret_ld_rows (X : Vec Ideal S10000x64 .bf16) (i : grid3.Coords) (r : Fin 200) (l : Fin 64) (R : Fin 10000)
    (hR : R.val = 200 * (i 0).val + r.val) :
    View.ld X (Rect.unit (s := S10000x64) (k3_off1 i) S200x64.size (k3_off1_inb i)) (ix2 r l) = X (ix2 R l) := by
  show X _ = X _
  refine congrArg X (funext fun a => Fin.ext ?_)
  match a with
  | ⟨0, _⟩ => show k3_off1 i 0 + 1 * r.val = R.val; rw [k3_off1_eq]; show 200 * (i 0).val + 1 * r.val = R.val; omega
  | ⟨1, _⟩ => show k3_off1 i 1 + 1 * l.val = l.val; rw [k3_off1_eq]; show 0 + 1 * l.val = l.val; omega

/-- WHAT POINT `t` LEAVES in the score window's buffer: rows `200 t … 200 t + 199` of the reference's score array. -/
theorem ret_block (V : (c : Dev nD) → (b : Ref sig .tc) → Buf (Elt Ideal) ((c : Thread nD τ).loc b)) (c : Dev nD)
    (x0 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (x18 : (⟨S1, .f32⟩ : BufTy).Contents (Elt Ideal))
    (he1 : V c main_v9_3 = Cert.ReferenceIdeal.Read.val_main_v5 x0 x3 x5 x6) (he3 : V c main_v9_4 = Cert.ReferenceIdeal.Read.val_main_v84 x2 x3 x5 x6)
    (hb : ∀ j : S1x1.Idx, V c main_v6 j = x18 (ix1 ⟨0, by decide⟩)) (t : Fin cfg3.N) (r : Fin 200) (col : Fin 2) (R : Fin 10000)
    (hR : R.val = 200 * t.val + r.val) :
    ((outsAt3 V c t).1 : Vec Ideal S200x2 .f32) (ix2 r col)
      = Cert.ReferenceIdeal.Read.val_main_v118 x0 x2 x3 (V c main_arg4) x5 x6 (V c main_arg17) x18 (ix2 R col) := by
  have hc : ((grid3.coords t) 0).val = t.val := (ret_idx_facts t).2.2.2.2.2.2.2.2.2.2.2.2
  have hg : (fun j => (iblk3 V c 0 t : Vec Ideal S200x10000 .f32) (ix2 r j)) = fun j => (V c main_arg4 : S10000x10000.Idx → Elt Ideal .f32) (ix2 R j) :=
    funext fun j => ret_iblk0 V c t r j R hR
  have he : (iblk3 V c 1 t : Vec Ideal S10000x64 .bf16) = Cert.ReferenceIdeal.Read.val_main_v5 x0 x3 x5 x6 := (ret_iblk1 V c t).trans he1
  have hw : (iblk3 V c 4 t : Vec Ideal S64x64 .f32) = (V c main_arg17 : S64x64.Idx → Elt Ideal .f32) := ret_iblk4 V c t
  have hbb : (iblk3 V c 5 t : Vec Ideal S1x1 .f32) (ix2 (0 : Fin 1) (0 : Fin 1)) = x18 (ix1 ⟨0, by decide⟩) := by
    rw [ret_iblk5 V c t]; exact hb _
  have hu1 : (fun l => View.ld (iblk3 V c 1 t : Vec Ideal S10000x64 .bf16) (Rect.unit (s := S10000x64) (k3_off1 (grid3.coords t)) S200x64.size (k3_off1_inb (grid3.coords t))) (ix2 r l))
      = fun l => Cert.ReferenceIdeal.Read.val_main_v5 x0 x3 x5 x6 (ix2 R l) :=
    funext fun l => by rw [ret_ld_rows _ (grid3.coords t) r l R (by rw [hc]; exact hR), he]
  have hu3 : (fun l => (iblk3 V c 2 t : Vec Ideal S200x64 .bf16) (ix2 r l)) = fun l => Cert.ReferenceIdeal.Read.val_main_v84 x2 x3 x5 x6 (ix2 R l) :=
    funext fun l => by rw [ret_iblk2 V c t r l R hR, he3]
  show out3_A_6 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (iblk3 V c 5 t) (ix2 r col) = _
  rw [ret_piece (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (iblk3 V c 0 t) (iblk3 V c 1 t) (iblk3 V c 2 t) (iblk3 V c 3 t) (iblk3 V c 4 t) (iblk3 V c 5 t)]
  match col with
  | ⟨0, _⟩ =>
    exact (ret_pay_col0 (iblk3 V c 0 t) (iblk3 V c 1 t) (iblk3 V c 2 t) (iblk3 V c 4 t) (iblk3 V c 5 t) _ r).trans
      ((ret_score_congr hg he hu1 hw hbb).trans (ret_ref_col0 x0 x2 x3 (V c main_arg4) x5 x6 (V c main_arg17) x18 R).symm)
  | ⟨1, _⟩ =>
    exact (ret_pay_col1 (iblk3 V c 0 t) (iblk3 V c 1 t) (iblk3 V c 2 t) (iblk3 V c 4 t) (iblk3 V c 5 t) _ r).trans
      ((ret_score_congr hg he hu3 hw hbb).trans (ret_ref_col1 x0 x2 x3 (V c main_arg4) x5 x6 (V c main_arg17) x18 R).symm)

/-- An index of the score array is in point `t`'s block iff each coordinate is in the block's range on its axis. -/
theorem ret_mem_blk (t : Fin cfg3.N) (i : S10000x2.Idx) :
    i ∈ ((cfg3.win 6).blk t).view.set ↔ ∀ a : Fin 2, win3_6.index t a * S200x2.size a ≤ (i a).val ∧ (i a).val < win3_6.index t a * S200x2.size a + S200x2.size a := by
  show i ∈ ((View.whole main_v10_0).slice (win3_6.rect t)).set ↔ _
  rw [View.set_slice_whole, Rect.mem_set_unit]
  exact Iff.rfl

/-- Every row lies in the block of point (row / 200). -/
theorem ret_cover (i : S10000x2.Idx) : ∃ t : Fin cfg3.N, (cfg3.win 6).flush t = true ∧ i ∈ ((cfg3.win 6).blk t).view.set := by
  have hi0 : (i 0).val < 10000 := (i 0).isLt
  have hi1 : (i 1).val < 2 := (i 1).isLt
  have hN : cfg3.N = 50 := N_3
  have ht : (i 0).val / 200 < cfg3.N := by rw [hN]; omega
  obtain ⟨-, -, -, -, -, -, -, -, -, -, e0, e1, -⟩ := ret_idx_facts ⟨(i 0).val / 200, ht⟩
  have e0' : win3_6.index ⟨(i 0).val / 200, ht⟩ 0 = (i 0).val / 200 := e0
  refine ⟨⟨(i 0).val / 200, ht⟩, flush3_6 _, ?_⟩
  rw [ret_mem_blk]
  intro a
  match a with
  | ⟨0, _⟩ => show win3_6.index ⟨(i 0).val / 200, ht⟩ 0 * 200 ≤ (i 0).val ∧ (i 0).val < win3_6.index ⟨(i 0).val / 200, ht⟩ 0 * 200 + 200; rw [e0']; omega
  | ⟨1, _⟩ => show win3_6.index ⟨(i 0).val / 200, ht⟩ 1 * 2 ≤ (i 1).val ∧ (i 1).val < win3_6.index ⟨(i 0).val / 200, ht⟩ 1 * 2 + 2; rw [e1]; omega

/-- WHAT POINT `t` WRITES BACK is block `t` of the reference's score array. -/
theorem ret_flushed (V : (c : Dev nD) → (b : Ref sig .tc) → Buf (Elt Ideal) ((c : Thread nD τ).loc b)) (c : Dev nD)
    (x0 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (x18 : (⟨S1, .f32⟩ : BufTy).Contents (Elt Ideal))
    (he1 : V c main_v9_3 = Cert.ReferenceIdeal.Read.val_main_v5 x0 x3 x5 x6) (he3 : V c main_v9_4 = Cert.ReferenceIdeal.Read.val_main_v84 x2 x3 x5 x6)
    (hb : ∀ j : S1x1.Idx, V c main_v6 j = x18 (ix1 ⟨0, by decide⟩)) (t : Fin cfg3.N) :
    (dat3 V c).flushed 6 t = ((cfg3.win 6).blk t).view.read (Elt Ideal)
      (Cert.ReferenceIdeal.Read.val_main_v118 x0 x2 x3 (V c main_arg4) x5 x6 (V c main_arg17) x18) := by
  obtain ⟨-, -, -, -, -, -, -, -, -, -, e0, e1, -⟩ := ret_idx_facts t
  have hN : cfg3.N = 50 := N_3
  show (cfg3.win 6).cut (grid3.coords t) ((dat3 V c).after 6 t) = _
  rw [after3_6]
  funext y
  obtain ⟨r, col, rfl⟩ : ∃ (r : Fin 200) (col : Fin 2), y = ix2 r col := ⟨y 0, y 1, eq_ix2 y⟩
  rw [View.read_apply]
  have hlt : 200 * t.val + r.val < 10000 := by have := t.isLt; have := r.isLt; omega
  refine (ret_block V c x0 x2 x3 x5 x6 x18 he1 he3 hb t r col ⟨200 * t.val + r.val, hlt⟩ rfl).trans ?_
  refine congrArg (Cert.ReferenceIdeal.Read.val_main_v118 x0 x2 x3 (V c main_arg4) x5 x6 (V c main_arg17) x18) (funext fun a => Fin.ext ?_)
  match a with
  | ⟨0, _⟩ => show 200 * t.val + r.val = win3_6.index t 0 * 200 + 1 * r.val; rw [e0]; omega
  | ⟨1, _⟩ => show col.val = win3_6.index t 1 * 2 + 1 * col.val; rw [e1]; omega

end Cert.Bridge.R3

namespace Cert.Bridge.R3
/-- THE SCORE ARRAY after the fourth region: the reference's score array of the region's input arrays. -/
theorem final_ret (V : (c : Dev nD) → (b : Ref sig .tc) → Buf (Elt Ideal) ((c : Thread nD τ).loc b)) (c : Dev nD)
    (x0 x2 : (⟨S10000x128, .f32⟩ : BufTy).Contents (Elt Ideal)) (x3 : (⟨S10000x10000, .f32⟩ : BufTy).Contents (Elt Ideal))
    (x5 : (⟨S128x256, .f32⟩ : BufTy).Contents (Elt Ideal)) (x6 : (⟨S256x64, .f32⟩ : BufTy).Contents (Elt Ideal)) (x18 : (⟨S1, .f32⟩ : BufTy).Contents (Elt Ideal))
    (he1 : V c main_v9_3 = Cert.ReferenceIdeal.Read.val_main_v5 x0 x3 x5 x6) (he3 : V c main_v9_4 = Cert.ReferenceIdeal.Read.val_main_v84 x2 x3 x5 x6)
    (hb : ∀ j : S1x1.Idx, V c main_v6 j = x18 (ix1 ⟨0, by decide⟩)) :
    (dat3 V c).arrAt 6 cfg3.N = Cert.ReferenceIdeal.Read.val_main_v118 x0 x2 x3 (V c main_arg4) x5 x6 (V c main_arg17) x18 :=
  (dat3 V c).arrAt_eq_of_cover 6 (Cert.ReferenceIdeal.Read.val_main_v118 x0 x2 x3 (V c main_arg4) x5 x6 (V c main_arg17) x18)
    (fun t _ => ret_flushed V c x0 x2 x3 x5 x6 x18 he1 he3 hb t) ret_cover
end Cert.Bridge.R3

end
-- ==== Proof.KChain.lean ====
/-
  The idealized kernel's results as functions of its arguments.

  The buffer contents at the boundaries of the five launches (the generated fold W1 … W6) are read one launch at a
  time: each launch's input arrays are either arguments (which no host reshape and no launch writes), a host
  reshape of a vector argument to one row, or an earlier launch's output array; each launch's output arrays are
  the whole-array functions its region lemma states. Composing the five region lemmas along the fold gives every
  result buffer after the run as the reference program's own stage function of the kernel's arguments.
-/
import proofs.«140504_g18717467476370_cont_8to1_202_16_alg».proof.Proof.KRun
import proofs.«140504_g18717467476370_cont_8to1_202_16_alg».proof.Proof.R0Final
import proofs.«140504_g18717467476370_cont_8to1_202_16_alg».proof.Proof.R1Final
import proofs.«140504_g18717467476370_cont_8to1_202_16_alg».proof.Proof.R2Final
import proofs.«140504_g18717467476370_cont_8to1_202_16_alg».proof.Proof.R3RecFinal
import proofs.«140504_g18717467476370_cont_8to1_202_16_alg».proof.Proof.R4Final
import proofs.«140504_g18717467476370_cont_8to1_202_16_alg».proof.Proof.R3RetFinal
import Idealize.ShloMosaic.Lib.StableHlo.Run
import Idealize.ShloMosaic.Lib.ValueLayout

set_option maxRecDepth 16384

noncomputable section

namespace Cert.Bridge.KChain

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.ReferenceIdeal.Read

variable (m : (ℓ : Loc nD τ sig) → Buf (Elt Ideal) ℓ) (ρ : Dev nD → PrngReg)

/-- Core c's launch contents of an unscoped buffer. -/
abbrev A (c : Dev nD) (b : Ref sig .tc) : Buf (Elt Ideal) ((c : Thread nD τ).loc b) := m ((c : Thread nD τ).loc b)

/-- The results, as the reference's stage functions of core c's launch arguments. -/
abbrev res_fn_z0 (c : Dev nD) := val_main_v4 (F := Ideal) (A m c main_arg0) (A m c main_arg3) (A m c main_arg5) (A m c main_arg6)
abbrev res_fn_z1 (c : Dev nD) := val_main_v78 (F := Ideal) (A m c main_arg1) (A m c main_arg3) (A m c main_arg5) (A m c main_arg6)
abbrev res_fn_z2 (c : Dev nD) := val_main_v83 (F := Ideal) (A m c main_arg2) (A m c main_arg3) (A m c main_arg5) (A m c main_arg6)
abbrev res_fn_pi (c : Dev nD) := val_main_v45 (F := Ideal) (A m c main_arg0) (A m c main_arg3) (A m c main_arg5) (A m c main_arg6) (A m c main_arg7) (A m c main_arg8) (A m c main_arg9) (A m c main_arg10) (A m c main_arg11) (A m c main_arg12)
abbrev res_fn_disp (c : Dev nD) := val_main_v51 (F := Ideal) (A m c main_arg0) (A m c main_arg3) (A m c main_arg5) (A m c main_arg6) (A m c main_arg7) (A m c main_arg8) (A m c main_arg9) (A m c main_arg10) (A m c main_arg13) (A m c main_arg14)
abbrev res_fn_mean (c : Dev nD) := val_main_v57 (F := Ideal) (A m c main_arg0) (A m c main_arg3) (A m c main_arg5) (A m c main_arg6) (A m c main_arg7) (A m c main_arg8) (A m c main_arg9) (A m c main_arg10) (A m c main_arg15) (A m c main_arg16)
abbrev res_fn_rec (c : Dev nD) := val_main_v73 (F := Ideal) (A m c main_arg0) (A m c main_arg3) (A m c main_arg5) (A m c main_arg6)
abbrev res_fn_ret (c : Dev nD) := val_main_v118 (F := Ideal) (A m c main_arg0) (A m c main_arg2) (A m c main_arg3) (A m c main_arg4) (A m c main_arg5) (A m c main_arg6) (A m c main_arg17) (A m c main_arg18)

/-! ## What the first launch finds: the arguments as launched, and each vector argument reshaped to one row -/

/-- No host reshape writes the buffer: after the reshapes it holds its launch contents. -/
local macro "w1_kept" : tactic => `(tactic|
  exact StableHlo.after_of_forall_not_mem _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))))

theorem V1_arg0 (c : Dev nD) : V1 m ρ c main_arg0 = A m c main_arg0 :=
  show StableHlo.after hostOps0 (W0 m ρ c) (Proc.devRef .tc main_arg0) = W0 m ρ c (Proc.devRef .tc main_arg0) from by w1_kept
theorem V1_arg1 (c : Dev nD) : V1 m ρ c main_arg1 = A m c main_arg1 :=
  show StableHlo.after hostOps0 (W0 m ρ c) (Proc.devRef .tc main_arg1) = W0 m ρ c (Proc.devRef .tc main_arg1) from by w1_kept
theorem V1_arg2 (c : Dev nD) : V1 m ρ c main_arg2 = A m c main_arg2 :=
  show StableHlo.after hostOps0 (W0 m ρ c) (Proc.devRef .tc main_arg2) = W0 m ρ c (Proc.devRef .tc main_arg2) from by w1_kept
theorem V1_arg3 (c : Dev nD) : V1 m ρ c main_arg3 = A m c main_arg3 :=
  show StableHlo.after hostOps0 (W0 m ρ c) (Proc.devRef .tc main_arg3) = W0 m ρ c (Proc.devRef .tc main_arg3) from by w1_kept
theorem V1_arg4 (c : Dev nD) : V1 m ρ c main_arg4 = A m c main_arg4 :=
  show StableHlo.after hostOps0 (W0 m ρ c) (Proc.devRef .tc main_arg4) = W0 m ρ c (Proc.devRef .tc main_arg4) from by w1_kept
theorem V1_arg5 (c : Dev nD) : V1 m ρ c main_arg5 = A m c main_arg5 :=
  show StableHlo.after hostOps0 (W0 m ρ c) (Proc.devRef .tc main_arg5) = W0 m ρ c (Proc.devRef .tc main_arg5) from by w1_kept
theorem V1_arg6 (c : Dev nD) : V1 m ρ c main_arg6 = A m c main_arg6 :=
  show StableHlo.after hostOps0 (W0 m ρ c) (Proc.devRef .tc main_arg6) = W0 m ρ c (Proc.devRef .tc main_arg6) from by w1_kept
theorem V1_arg7 (c : Dev nD) : V1 m ρ c main_arg7 = A m c main_arg7 :=
  show StableHlo.after hostOps0 (W0 m ρ c) (Proc.devRef .tc main_arg7) = W0 m ρ c (Proc.devRef .tc main_arg7) from by w1_kept
theorem V1_arg11 (c : Dev nD) : V1 m ρ c main_arg11 = A m c main_arg11 :=
  show StableHlo.after hostOps0 (W0 m ρ c) (Proc.devRef .tc main_arg11) = W0 m ρ c (Proc.devRef .tc main_arg11) from by w1_kept
theorem V1_arg13 (c : Dev nD) : V1 m ρ c main_arg13 = A m c main_arg13 :=
  show StableHlo.after hostOps0 (W0 m ρ c) (Proc.devRef .tc main_arg13) = W0 m ρ c (Proc.devRef .tc main_arg13) from by w1_kept
theorem V1_arg15 (c : Dev nD) : V1 m ρ c main_arg15 = A m c main_arg15 :=
  show StableHlo.after hostOps0 (W0 m ρ c) (Proc.devRef .tc main_arg15) = W0 m ρ c (Proc.devRef .tc main_arg15) from by w1_kept
theorem V1_arg17 (c : Dev nD) : V1 m ρ c main_arg17 = A m c main_arg17 :=
  show StableHlo.after hostOps0 (W0 m ρ c) (Proc.devRef .tc main_arg17) = W0 m ρ c (Proc.devRef .tc main_arg17) from by w1_kept

/-- The row the host reshapes the vector argument to: entry (0, k) is entry k of the vector. -/
theorem V1_main_v0 (c : Dev nD) (j : S1x256.Idx) : V1 m ρ c main_v0 j = A m c main_arg8 (ix1 (j 1)) := by
  have e : (V1 m ρ c main_v0 : S1x256.Idx → Elt Ideal .f32) = shapeCast S1x256 (A m c main_arg8) shapeCasts_S256_S1x256 := by
    show StableHlo.after hostOps0 (W0 m ρ c) (Proc.devRef .tc main_v0) = _
    after_results; rfl
  rw [e, eq_ix2 j]; exact shapeCast_a_1a_apply _ _ _ _
/-- The row the host reshapes the vector argument to: entry (0, k) is entry k of the vector. -/
theorem V1_main_v1 (c : Dev nD) (j : S1x256.Idx) : V1 m ρ c main_v1 j = A m c main_arg9 (ix1 (j 1)) := by
  have e : (V1 m ρ c main_v1 : S1x256.Idx → Elt Ideal .f32) = shapeCast S1x256 (A m c main_arg9) shapeCasts_S256_S1x256 := by
    show StableHlo.after hostOps0 (W0 m ρ c) (Proc.devRef .tc main_v1) = _
    after_results; rfl
  rw [e, eq_ix2 j]; exact shapeCast_a_1a_apply _ _ _ _
/-- The row the host reshapes the vector argument to: entry (0, k) is entry k of the vector. -/
theorem V1_main_v2 (c : Dev nD) (j : S1x256.Idx) : V1 m ρ c main_v2 j = A m c main_arg10 (ix1 (j 1)) := by
  have e : (V1 m ρ c main_v2 : S1x256.Idx → Elt Ideal .f32) = shapeCast S1x256 (A m c main_arg10) shapeCasts_S256_S1x256 := by
    show StableHlo.after hostOps0 (W0 m ρ c) (Proc.devRef .tc main_v2) = _
    after_results; rfl
  rw [e, eq_ix2 j]; exact shapeCast_a_1a_apply _ _ _ _
/-- The row the host reshapes the vector argument to: entry (0, k) is entry k of the vector. -/
theorem V1_main_v3 (c : Dev nD) (j : S1x128.Idx) : V1 m ρ c main_v3 j = A m c main_arg12 (ix1 (j 1)) := by
  have e : (V1 m ρ c main_v3 : S1x128.Idx → Elt Ideal .f32) = shapeCast S1x128 (A m c main_arg12) shapeCasts_S128_S1x128 := by
    show StableHlo.after hostOps0 (W0 m ρ c) (Proc.devRef .tc main_v3) = _
    after_results; rfl
  rw [e, eq_ix2 j]; exact shapeCast_a_1a_apply _ _ _ _
/-- The row the host reshapes the vector argument to: entry (0, k) is entry k of the vector. -/
theorem V1_main_v4 (c : Dev nD) (j : S1x128.Idx) : V1 m ρ c main_v4 j = A m c main_arg14 (ix1 (j 1)) := by
  have e : (V1 m ρ c main_v4 : S1x128.Idx → Elt Ideal .f32) = shapeCast S1x128 (A m c main_arg14) shapeCasts_S128_S1x128 := by
    show StableHlo.after hostOps0 (W0 m ρ c) (Proc.devRef .tc main_v4) = _
    after_results; rfl
  rw [e, eq_ix2 j]; exact shapeCast_a_1a_apply _ _ _ _
/-- The row the host reshapes the vector argument to: entry (0, k) is entry k of the vector. -/
theorem V1_main_v5 (c : Dev nD) (j : S1x128.Idx) : V1 m ρ c main_v5 j = A m c main_arg16 (ix1 (j 1)) := by
  have e : (V1 m ρ c main_v5 : S1x128.Idx → Elt Ideal .f32) = shapeCast S1x128 (A m c main_arg16) shapeCasts_S128_S1x128 := by
    show StableHlo.after hostOps0 (W0 m ρ c) (Proc.devRef .tc main_v5) = _
    after_results; rfl
  rw [e, eq_ix2 j]; exact shapeCast_a_1a_apply _ _ _ _
/-- The 1 × 1 array the host reshapes the one-element bias to. -/
theorem V1_main_v6 (c : Dev nD) (j : S1x1.Idx) : V1 m ρ c main_v6 j = A m c main_arg18 (ix1 ⟨0, by decide⟩) := by
  have e : (V1 m ρ c main_v6 : S1x1.Idx → Elt Ideal .f32) = shapeCast S1x1 (A m c main_arg18) shapeCasts_S1_S1x1 := by
    show StableHlo.after hostOps0 (W0 m ρ c) (Proc.devRef .tc main_v6) = _
    after_results; rfl
  rw [e, eq_ix2 j]
  refine (shapeCast_a_1a_apply _ _ _ _).trans (congrArg _ (congrArg ix1 (Fin.ext ?_)))
  show (j 1).val = 0
  have h : (j 1).val < 1 := idx2_lt1 j
  omega

/-! ## A buffer no launch writes keeps its contents from boundary to boundary -/

theorem keep0 (c : Dev nD) (b : Ref sig .tc) (h : ∀ w, Pipeline.arrRef spec0 w ≠ b) : V2 m ρ c b = V1 m ρ c b := W2_of_ne m ρ c b h
theorem keep1 (c : Dev nD) (b : Ref sig .tc) (h : ∀ w, Pipeline.arrRef spec1 w ≠ b) : V3 m ρ c b = V2 m ρ c b := W3_of_ne m ρ c b h
theorem keep2 (c : Dev nD) (b : Ref sig .tc) (h : ∀ w, Pipeline.arrRef spec2 w ≠ b) : V4 m ρ c b = V3 m ρ c b := W4_of_ne m ρ c b h
theorem keep3 (c : Dev nD) (b : Ref sig .tc) (h : ∀ w, Pipeline.arrRef spec3 w ≠ b) : V5 m ρ c b = V4 m ρ c b := W5_of_ne m ρ c b h
theorem keep4 (c : Dev nD) (b : Ref sig .tc) (h : ∀ w, Pipeline.arrRef spec4 w ≠ b) : V6 m ρ c b = V5 m ρ c b := W6_of_ne m ρ c b h

/-! ## Launch by launch -/

/-- After the first launch: the three first-layer products side by side. -/
theorem ag_eq (c : Dev nD) : V2 m ρ c main_v7 = Cert.Bridge.agOf (A m c main_arg0) (A m c main_arg1) (A m c main_arg2) (A m c main_arg5) :=
  (hF0 m ρ c 4).symm.trans ((Cert.Bridge.R0.final (V1 m ρ) c).trans (by rw [V1_arg0, V1_arg1, V1_arg2, V1_arg5]))

/-- The adjacency as the second launch finds it. -/
theorem V2_arg3 (c : Dev nD) : V2 m ρ c main_arg3 = A m c main_arg3 := (keep0 m ρ c main_arg3 (by decide)).trans (V1_arg3 m ρ c)
theorem V2_arg6 (c : Dev nD) : V2 m ρ c main_arg6 = A m c main_arg6 := (keep0 m ρ c main_arg6 (by decide)).trans (V1_arg6 m ρ c)

/-- After the second launch: the three second-layer operands side by side. -/
theorem bg_eq (c : Dev nD) : V3 m ρ c main_v8 = Cert.Bridge.bgOf (A m c main_arg0) (A m c main_arg1) (A m c main_arg2) (A m c main_arg3) (A m c main_arg5) (A m c main_arg6) :=
  (hF1 m ρ c 3).symm.trans ((Cert.Bridge.R1.final (V2 m ρ) c _ _ _ _ (ag_eq m ρ c)).trans (by rw [V2_arg3, V2_arg6]))

/-- The adjacency as the third launch finds it: the second launch only read it. -/
theorem V3_arg3 (c : Dev nD) : V3 m ρ c main_arg3 = A m c main_arg3 :=
  ((hF1 m ρ c 0).symm.trans (((dat1 (V2 m ρ) c).arrAt_in 0 rfl _).trans (A_eq1 (V2 m ρ) c 0))).trans (V2_arg3 m ρ c)

theorem bg_eq' (c : Dev nD) : V3 m ρ c main_v8 = Cert.Bridge.bgOf (A m c main_arg0) (A m c main_arg1) (A m c main_arg2) (V3 m ρ c main_arg3) (A m c main_arg5) (A m c main_arg6) := by
  rw [V3_arg3]; exact bg_eq m ρ c

/-- After the third launch: the three embeddings, the two rectified ones and the row-normalised one. -/
theorem z0_eq (c : Dev nD) : V4 m ρ c main_v9_0 = val_main_v4 (A m c main_arg0) (A m c main_arg3) (A m c main_arg5) (A m c main_arg6) :=
  (hF2 m ρ c 2).symm.trans ((Cert.Bridge.R2.final_z0 (V3 m ρ) c _ _ _ _ _ (bg_eq' m ρ c)).trans (by rw [V3_arg3]))
theorem z1_eq (c : Dev nD) : V4 m ρ c main_v9_1 = val_main_v78 (A m c main_arg1) (A m c main_arg3) (A m c main_arg5) (A m c main_arg6) :=
  (hF2 m ρ c 3).symm.trans ((Cert.Bridge.R2.final_z1 (V3 m ρ) c _ _ _ _ _ (bg_eq' m ρ c)).trans (by rw [V3_arg3]))
theorem z2_eq (c : Dev nD) : V4 m ρ c main_v9_2 = val_main_v83 (A m c main_arg2) (A m c main_arg3) (A m c main_arg5) (A m c main_arg6) :=
  (hF2 m ρ c 4).symm.trans ((Cert.Bridge.R2.final_z2 (V3 m ρ) c _ _ _ _ _ (bg_eq' m ρ c)).trans (by rw [V3_arg3]))
theorem e1_eq (c : Dev nD) : V4 m ρ c main_v9_3 = val_main_v5 (A m c main_arg0) (A m c main_arg3) (A m c main_arg5) (A m c main_arg6) :=
  (hF2 m ρ c 5).symm.trans ((Cert.Bridge.R2.final_e1 (V3 m ρ) c _ _ _ _ _ (bg_eq' m ρ c)).trans (by rw [V3_arg3]))
theorem e3_eq (c : Dev nD) : V4 m ρ c main_v9_4 = val_main_v84 (A m c main_arg2) (A m c main_arg3) (A m c main_arg5) (A m c main_arg6) :=
  (hF2 m ρ c 6).symm.trans ((Cert.Bridge.R2.final_e3 (V3 m ρ) c _ _ _ _ _ (bg_eq' m ρ c)).trans (by rw [V3_arg3]))
theorem zn_eq (c : Dev nD) : V4 m ρ c main_v9_5 = val_main_v65 (A m c main_arg0) (A m c main_arg3) (A m c main_arg5) (A m c main_arg6) :=
  (hF2 m ρ c 7).symm.trans ((Cert.Bridge.R2.final_zn (V3 m ρ) c _ _ _ _ _ (bg_eq' m ρ c)).trans (by rw [V3_arg3]))

/-- What the fourth launch finds of the arguments it reads. -/
theorem V4_arg4 (c : Dev nD) : V4 m ρ c main_arg4 = A m c main_arg4 :=
  (keep2 m ρ c main_arg4 (by decide)).trans ((keep1 m ρ c main_arg4 (by decide)).trans ((keep0 m ρ c main_arg4 (by decide)).trans (V1_arg4 m ρ c)))
theorem V4_arg17 (c : Dev nD) : V4 m ρ c main_arg17 = A m c main_arg17 :=
  (keep2 m ρ c main_arg17 (by decide)).trans ((keep1 m ρ c main_arg17 (by decide)).trans ((keep0 m ρ c main_arg17 (by decide)).trans (V1_arg17 m ρ c)))
theorem V4_main_v6 (c : Dev nD) (j : S1x1.Idx) : V4 m ρ c main_v6 j = A m c main_arg18 (ix1 ⟨0, by decide⟩) :=
  (congrFun ((keep2 m ρ c main_v6 (by decide)).trans ((keep1 m ρ c main_v6 (by decide)).trans (keep0 m ρ c main_v6 (by decide)))) j).trans (V1_main_v6 m ρ c j)

/-- After the fourth launch: the bilinear scores and the reconstructed adjacency. -/
theorem ret_eq (c : Dev nD) : V5 m ρ c main_v10_0 = val_main_v118 (A m c main_arg0) (A m c main_arg2) (A m c main_arg3) (A m c main_arg4) (A m c main_arg5) (A m c main_arg6) (A m c main_arg17) (A m c main_arg18) :=
  (hF3 m ρ c 6).symm.trans ((Cert.Bridge.R3.final_ret (V4 m ρ) c _ _ _ _ _ _ (e1_eq m ρ c) (e3_eq m ρ c) (V4_main_v6 m ρ c)).trans (by rw [V4_arg4, V4_arg17]))
theorem rec_eq (c : Dev nD) : V5 m ρ c main_v10_1 = val_main_v73 (A m c main_arg0) (A m c main_arg3) (A m c main_arg5) (A m c main_arg6) :=
  (hF3 m ρ c 7).symm.trans (Cert.Bridge.R3.final_rec (V4 m ρ) c _ _ _ _ (zn_eq m ρ c))

/-- What the fifth launch finds. -/
theorem V5_z0 (c : Dev nD) : V5 m ρ c main_v9_0 = val_main_v4 (A m c main_arg0) (A m c main_arg3) (A m c main_arg5) (A m c main_arg6) :=
  (keep3 m ρ c main_v9_0 (by decide)).trans (z0_eq m ρ c)
theorem V5_arg7 (c : Dev nD) : V5 m ρ c main_arg7 = A m c main_arg7 :=
  (keep3 m ρ c main_arg7 (by decide)).trans ((keep2 m ρ c main_arg7 (by decide)).trans ((keep1 m ρ c main_arg7 (by decide)).trans ((keep0 m ρ c main_arg7 (by decide)).trans (V1_arg7 m ρ c))))
theorem V5_arg11 (c : Dev nD) : V5 m ρ c main_arg11 = A m c main_arg11 :=
  (keep3 m ρ c main_arg11 (by decide)).trans ((keep2 m ρ c main_arg11 (by decide)).trans ((keep1 m ρ c main_arg11 (by decide)).trans ((keep0 m ρ c main_arg11 (by decide)).trans (V1_arg11 m ρ c))))
theorem V5_arg13 (c : Dev nD) : V5 m ρ c main_arg13 = A m c main_arg13 :=
  (keep3 m ρ c main_arg13 (by decide)).trans ((keep2 m ρ c main_arg13 (by decide)).trans ((keep1 m ρ c main_arg13 (by decide)).trans ((keep0 m ρ c main_arg13 (by decide)).trans (V1_arg13 m ρ c))))
theorem V5_arg15 (c : Dev nD) : V5 m ρ c main_arg15 = A m c main_arg15 :=
  (keep3 m ρ c main_arg15 (by decide)).trans ((keep2 m ρ c main_arg15 (by decide)).trans ((keep1 m ρ c main_arg15 (by decide)).trans ((keep0 m ρ c main_arg15 (by decide)).trans (V1_arg15 m ρ c))))
theorem V5_main_v0 (c : Dev nD) (j : S1x256.Idx) : V5 m ρ c main_v0 j = A m c main_arg8 (ix1 (j 1)) :=
  (congrFun ((keep3 m ρ c main_v0 (by decide)).trans ((keep2 m ρ c main_v0 (by decide)).trans ((keep1 m ρ c main_v0 (by decide)).trans (keep0 m ρ c main_v0 (by decide))))) j).trans (V1_main_v0 m ρ c j)
theorem V5_main_v1 (c : Dev nD) (j : S1x256.Idx) : V5 m ρ c main_v1 j = A m c main_arg9 (ix1 (j 1)) :=
  (congrFun ((keep3 m ρ c main_v1 (by decide)).trans ((keep2 m ρ c main_v1 (by decide)).trans ((keep1 m ρ c main_v1 (by decide)).trans (keep0 m ρ c main_v1 (by decide))))) j).trans (V1_main_v1 m ρ c j)
theorem V5_main_v2 (c : Dev nD) (j : S1x256.Idx) : V5 m ρ c main_v2 j = A m c main_arg10 (ix1 (j 1)) :=
  (congrFun ((keep3 m ρ c main_v2 (by decide)).trans ((keep2 m ρ c main_v2 (by decide)).trans ((keep1 m ρ c main_v2 (by decide)).trans (keep0 m ρ c main_v2 (by decide))))) j).trans (V1_main_v2 m ρ c j)
theorem V5_main_v3 (c : Dev nD) (j : S1x128.Idx) : V5 m ρ c main_v3 j = A m c main_arg12 (ix1 (j 1)) :=
  (congrFun ((keep3 m ρ c main_v3 (by decide)).trans ((keep2 m ρ c main_v3 (by decide)).trans ((keep1 m ρ c main_v3 (by decide)).trans (keep0 m ρ c main_v3 (by decide))))) j).trans (V1_main_v3 m ρ c j)
theorem V5_main_v4 (c : Dev nD) (j : S1x128.Idx) : V5 m ρ c main_v4 j = A m c main_arg14 (ix1 (j 1)) :=
  (congrFun ((keep3 m ρ c main_v4 (by decide)).trans ((keep2 m ρ c main_v4 (by decide)).trans ((keep1 m ρ c main_v4 (by decide)).trans (keep0 m ρ c main_v4 (by decide))))) j).trans (V1_main_v4 m ρ c j)
theorem V5_main_v5 (c : Dev nD) (j : S1x128.Idx) : V5 m ρ c main_v5 j = A m c main_arg16 (ix1 (j 1)) :=
  (congrFun ((keep3 m ρ c main_v5 (by decide)).trans ((keep2 m ρ c main_v5 (by decide)).trans ((keep1 m ρ c main_v5 (by decide)).trans (keep0 m ρ c main_v5 (by decide))))) j).trans (V1_main_v5 m ρ c j)

/-- After the fifth launch: the three decoder heads. -/
theorem pi_eq (c : Dev nD) : V6 m ρ c main_v11_0 = val_main_v45 (A m c main_arg0) (A m c main_arg3) (A m c main_arg5) (A m c main_arg6) (A m c main_arg7) (A m c main_arg8) (A m c main_arg9) (A m c main_arg10) (A m c main_arg11) (A m c main_arg12) :=
  (hF4 m ρ c 11).symm.trans ((Cert.Bridge.R4.final_pi (V5 m ρ) c _ _ _ _ _ _ _ _ (V5_z0 m ρ c) (V5_main_v0 m ρ c) (V5_main_v1 m ρ c) (V5_main_v2 m ρ c) (V5_main_v3 m ρ c)).trans (by rw [V5_arg7, V5_arg11]))
theorem disp_eq (c : Dev nD) : V6 m ρ c main_v11_1 = val_main_v51 (A m c main_arg0) (A m c main_arg3) (A m c main_arg5) (A m c main_arg6) (A m c main_arg7) (A m c main_arg8) (A m c main_arg9) (A m c main_arg10) (A m c main_arg13) (A m c main_arg14) :=
  (hF4 m ρ c 12).symm.trans ((Cert.Bridge.R4.final_disp (V5 m ρ) c _ _ _ _ _ _ _ _ (V5_z0 m ρ c) (V5_main_v0 m ρ c) (V5_main_v1 m ρ c) (V5_main_v2 m ρ c) (V5_main_v4 m ρ c)).trans (by rw [V5_arg7, V5_arg13]))
theorem mean_eq (c : Dev nD) : V6 m ρ c main_v11_2 = val_main_v57 (A m c main_arg0) (A m c main_arg3) (A m c main_arg5) (A m c main_arg6) (A m c main_arg7) (A m c main_arg8) (A m c main_arg9) (A m c main_arg10) (A m c main_arg15) (A m c main_arg16) :=
  (hF4 m ρ c 13).symm.trans ((Cert.Bridge.R4.final_mean (V5 m ρ) c _ _ _ _ _ _ _ _ (V5_z0 m ρ c) (V5_main_v0 m ρ c) (V5_main_v1 m ρ c) (V5_main_v2 m ρ c) (V5_main_v5 m ρ c)).trans (by rw [V5_arg7, V5_arg15]))

/-! ## The results after the run -/

/-- The first embedding is an input of the fifth launch, which only reads it. -/
theorem res_z0 (c : Dev nD) : W6 m ρ c (Proc.devRef .tc main_v9_0) = val_main_v4 (A m c main_arg0) (A m c main_arg3) (A m c main_arg5) (A m c main_arg6) :=
  ((hF4 m ρ c 0).symm.trans (((dat4 (V5 m ρ) c).arrAt_in 0 rfl _).trans (A_eq4 (V5 m ρ) c 0))).trans (V5_z0 m ρ c)
theorem res_z1 (c : Dev nD) : W6 m ρ c (Proc.devRef .tc main_v9_1) = val_main_v78 (A m c main_arg1) (A m c main_arg3) (A m c main_arg5) (A m c main_arg6) :=
  (keep4 m ρ c main_v9_1 (by decide)).trans ((keep3 m ρ c main_v9_1 (by decide)).trans (z1_eq m ρ c))
theorem res_z2 (c : Dev nD) : W6 m ρ c (Proc.devRef .tc main_v9_2) = val_main_v83 (A m c main_arg2) (A m c main_arg3) (A m c main_arg5) (A m c main_arg6) :=
  (keep4 m ρ c main_v9_2 (by decide)).trans ((keep3 m ρ c main_v9_2 (by decide)).trans (z2_eq m ρ c))
theorem res_pi (c : Dev nD) : W6 m ρ c (Proc.devRef .tc main_v11_0) = val_main_v45 (A m c main_arg0) (A m c main_arg3) (A m c main_arg5) (A m c main_arg6) (A m c main_arg7) (A m c main_arg8) (A m c main_arg9) (A m c main_arg10) (A m c main_arg11) (A m c main_arg12) := pi_eq m ρ c
theorem res_disp (c : Dev nD) : W6 m ρ c (Proc.devRef .tc main_v11_1) = val_main_v51 (A m c main_arg0) (A m c main_arg3) (A m c main_arg5) (A m c main_arg6) (A m c main_arg7) (A m c main_arg8) (A m c main_arg9) (A m c main_arg10) (A m c main_arg13) (A m c main_arg14) := disp_eq m ρ c
theorem res_mean (c : Dev nD) : W6 m ρ c (Proc.devRef .tc main_v11_2) = val_main_v57 (A m c main_arg0) (A m c main_arg3) (A m c main_arg5) (A m c main_arg6) (A m c main_arg7) (A m c main_arg8) (A m c main_arg9) (A m c main_arg10) (A m c main_arg15) (A m c main_arg16) := mean_eq m ρ c
theorem res_rec (c : Dev nD) : W6 m ρ c (Proc.devRef .tc main_v10_1) = val_main_v73 (A m c main_arg0) (A m c main_arg3) (A m c main_arg5) (A m c main_arg6) :=
  (keep4 m ρ c main_v10_1 (by decide)).trans (rec_eq m ρ c)
theorem res_ret (c : Dev nD) : W6 m ρ c (Proc.devRef .tc main_v10_0) = val_main_v118 (A m c main_arg0) (A m c main_arg2) (A m c main_arg3) (A m c main_arg4) (A m c main_arg5) (A m c main_arg6) (A m c main_arg17) (A m c main_arg18) :=
  (keep4 m ρ c main_v10_0 (by decide)).trans (ret_eq m ρ c)

end Cert.Bridge.KChain

end
-- ==== Proof.lean ====
/-
  The certificate of a dense graph-convolution pipeline against its plain reference.

  Both programs compute, from three feature matrices, a dense adjacency, a neighbourhood mask and the weights, the
  three embeddings  Z_j = A · (relu (A · (X_j · W₁)) · W₂),  a batch-normalised decoder with three heads on Z₀,
  the reconstruction  sigmoid (Ẑ₀ · Ẑ₀ᵀ)  of the row-normalised Z₀, and two bilinear scores against a sigmoid of the
  row-normalised neighbourhood average of relu Z₀. The kernel does it in five launches over row slabs, keeping the
  three products of each layer side by side in one array; the reference does it operation by operation.

  At the ideal instance (every float an extended real, every operation exact) the two are the same function of
  the arguments: each kernel launch's output array is the reference's own stage at that point (the five region
  modules), the launches compose along the run (KChain), and the reference's run ends at those stages (the
  generated run of the host program). The frames of the two kernel programs are the generated ones; the reference's
  frame is its run with the results dropped; the idealization rewrote nothing.
-/
import proofs.«140504_g18717467476370_cont_8to1_202_16_alg».proof.Defs
import proofs.«140504_g18717467476370_cont_8to1_202_16_alg».proof.Proof.Gen.Kernel
import proofs.«140504_g18717467476370_cont_8to1_202_16_alg».proof.Proof.Gen.Kernel.Frame
import proofs.«140504_g18717467476370_cont_8to1_202_16_alg».proof.Proof.Gen.KernelIdeal
import proofs.«140504_g18717467476370_cont_8to1_202_16_alg».proof.Proof.Gen.KernelIdeal.Frame
import proofs.«140504_g18717467476370_cont_8to1_202_16_alg».proof.Proof.Gen.ReferenceIdeal
import proofs.«140504_g18717467476370_cont_8to1_202_16_alg».proof.Proof.Gen.ReferenceIdeal.Run
import proofs.«140504_g18717467476370_cont_8to1_202_16_alg».proof.Proof.Gen.ReferenceIdeal.Read
import proofs.«140504_g18717467476370_cont_8to1_202_16_alg».proof.Proof.Gen.Pre_finite_inputs
import proofs.«140504_g18717467476370_cont_8to1_202_16_alg».proof.Proof.KRun
import proofs.«140504_g18717467476370_cont_8to1_202_16_alg».proof.Proof.KChain
import Idealize.ShloMosaic.Adequacy
import Idealize.ShloMosaic.Init

set_option maxRecDepth 16384

noncomputable section

namespace Cert.Proof

open Idealize.ShloMosaic Idealize.SL.Sem
open Cert.ReferenceIdeal.Read Cert.Bridge.KChain

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

/-- The reference's frame is its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2.2.2.2.2.2.2)
    (Cert.ReferenceIdeal.Value.run (F := Ideal) m ρ)

/-- Both idealized programs end with each result at the reference's stage function of the (agreeing) arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => res_fn_z0 m c, fun c => res_fn_z1 m c, fun c => res_fn_z2 m c, fun c => res_fn_pi m c, fun c => res_fn_disp m c,
    fun c => res_fn_mean m c, fun c => res_fn_rec m c, fun c => res_fn_ret m c, ?_, ?_⟩
  · refine (θ_run Cert.KernelIdeal.defs _ _).mono (fun r h c => ?_) (Cert.Bridge.KRun.run_named (F := Ideal) m ρ)
    exact ⟨(h c Cert.KernelIdeal.main_v9_0 (by decide)).trans (res_z0 m ρ c),
      (h c Cert.KernelIdeal.main_v9_1 (by decide)).trans (res_z1 m ρ c),
      (h c Cert.KernelIdeal.main_v9_2 (by decide)).trans (res_z2 m ρ c),
      (h c Cert.KernelIdeal.main_v11_0 (by decide)).trans (res_pi m ρ c),
      (h c Cert.KernelIdeal.main_v11_1 (by decide)).trans (res_disp m ρ c),
      (h c Cert.KernelIdeal.main_v11_2 (by decide)).trans (res_mean m ρ c),
      (h c Cert.KernelIdeal.main_v10_1 (by decide)).trans (res_rec m ρ c),
      (h c Cert.KernelIdeal.main_v10_0 (by decide)).trans (res_ret m ρ c),
      (h c Cert.KernelIdeal.main_arg0 (by decide)).trans (Cert.KernelIdeal.Gen.W6_main_arg0 m ρ c),
      (h c Cert.KernelIdeal.main_arg1 (by decide)).trans (Cert.KernelIdeal.Gen.W6_main_arg1 m ρ c),
      (h c Cert.KernelIdeal.main_arg2 (by decide)).trans (Cert.KernelIdeal.Gen.W6_main_arg2 m ρ c),
      (h c Cert.KernelIdeal.main_arg3 (by decide)).trans (Cert.KernelIdeal.Gen.W6_main_arg3 m ρ c),
      (h c Cert.KernelIdeal.main_arg4 (by decide)).trans (Cert.KernelIdeal.Gen.W6_main_arg4 m ρ c),
      (h c Cert.KernelIdeal.main_arg5 (by decide)).trans (Cert.KernelIdeal.Gen.W6_main_arg5 m ρ c),
      (h c Cert.KernelIdeal.main_arg6 (by decide)).trans (Cert.KernelIdeal.Gen.W6_main_arg6 m ρ c),
      (h c Cert.KernelIdeal.main_arg7 (by decide)).trans (Cert.KernelIdeal.Gen.W6_main_arg7 m ρ c),
      (h c Cert.KernelIdeal.main_arg8 (by decide)).trans (Cert.KernelIdeal.Gen.W6_main_arg8 m ρ c),
      (h c Cert.KernelIdeal.main_arg9 (by decide)).trans (Cert.KernelIdeal.Gen.W6_main_arg9 m ρ c),
      (h c Cert.KernelIdeal.main_arg10 (by decide)).trans (Cert.KernelIdeal.Gen.W6_main_arg10 m ρ c),
      (h c Cert.KernelIdeal.main_arg11 (by decide)).trans (Cert.KernelIdeal.Gen.W6_main_arg11 m ρ c),
      (h c Cert.KernelIdeal.main_arg12 (by decide)).trans (Cert.KernelIdeal.Gen.W6_main_arg12 m ρ c),
      (h c Cert.KernelIdeal.main_arg13 (by decide)).trans (Cert.KernelIdeal.Gen.W6_main_arg13 m ρ c),
      (h c Cert.KernelIdeal.main_arg14 (by decide)).trans (Cert.KernelIdeal.Gen.W6_main_arg14 m ρ c),
      (h c Cert.KernelIdeal.main_arg15 (by decide)).trans (Cert.KernelIdeal.Gen.W6_main_arg15 m ρ c),
      (h c Cert.KernelIdeal.main_arg16 (by decide)).trans (Cert.KernelIdeal.Gen.W6_main_arg16 m ρ c),
      (h c Cert.KernelIdeal.main_arg17 (by decide)).trans (Cert.KernelIdeal.Gen.W6_main_arg17 m ρ c),
      (h c Cert.KernelIdeal.main_arg18 (by decide)).trans (Cert.KernelIdeal.Gen.W6_main_arg18 m ρ c)⟩
  · refine (θ_run Cert.ReferenceIdeal.defs _ _).mono (fun r h c => ?_) (Cert.ReferenceIdeal.Value.run (F := Ideal) m' ρ')
    obtain ⟨e0, e1, e2, e3, e4, e5, e6, e7, e8, e9, e10, e11, e12, e13, e14, e15, e16, e17, e18⟩ := hagree c
    obtain ⟨r0, r1, r2, r3, r4, r5, r6, r7, hargs⟩ := h c
    refine ⟨?_, ?_, ?_, ?_, ?_, ?_, ?_, ?_, hargs⟩
    · rw [r0, val_main_v4_eq, e0, e3, e5, e6]
    · rw [r1, val_main_v78_eq, e1, e3, e5, e6]
    · rw [r2, val_main_v83_eq, e2, e3, e5, e6]
    · rw [r3, val_main_v45_eq, e0, e3, e5, e6, e7, e8, e9, e10, e11, e12]
    · rw [r4, val_main_v51_eq, e0, e3, e5, e6, e7, e8, e9, e10, e13, e14]
    · rw [r5, val_main_v57_eq, e0, e3, e5, e6, e7, e8, e9, e10, e15, e16]
    · rw [r6, val_main_v73_eq, e0, e3, e5, e6]
    · rw [r7, val_main_v118_eq, e0, e2, e3, e4, e5, e6, e17, e18]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
